-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x9 : Shape := ⟨2, ![16384, 9]⟩
abbrev S16384 : Shape := ⟨1, ![16384]⟩
abbrev S_ : Shape := ⟨0, ![]⟩

class Facts : Prop where
  bcast_S_S16384x9 : S_.BroadcastsInDim S16384x9 (![] : Fin 0 → Fin S16384x9.rank)
  reducesTo_S16384x9_S_d0_1 : S16384x9.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x9 .f32) (main_arg1 : IVec S16384 32) : IVec S_ 1 :=
  let main_v0 : FVec F S16384x9 .f32 := Host.absf main_arg0
  let main_cst : FVec F S_ .f32 := constant S_ .f32 0x7F800000#32
  let main_v1 : FVec F S16384x9 .f32 := broadcastInDim S16384x9 ![] bcast_S_S16384x9 main_cst
  let main_v2 : IVec S16384x9 1 := cmpf .olt main_v0 main_v1
  let main_c : IVec S_ 1 := constantI S_ 1 1#1
  let main_v3 : IVec S_ 1 := (fun x v => Host.reduce IntOp.andi x v reducesTo_S16384x9_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 32 := constantI S_ 32 8#32
  let main_v6 : IVec S16384 32 := broadcastInDim S16384 ![] bcast_S_S16384 main_c_1
  let main_v7 : IVec S16384 1 := cmpi .sle main_arg1 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384x9 : Shape := ⟨2, ![16384, 9]⟩
abbrev S16384 : Shape := ⟨1, ![16384]⟩
abbrev S9x16384 : Shape := ⟨2, ![9, 16384]⟩
abbrev S1x16384 : Shape := ⟨2, ![1, 16384]⟩
abbrev S256x16 : Shape := ⟨2, ![256, 16]⟩
abbrev S1024 : Shape := ⟨1, ![1024]⟩
abbrev S16x16 : Shape := ⟨2, ![16, 16]⟩
abbrev S_ : Shape := ⟨0, ![]⟩
abbrev S16 : Shape := ⟨1, ![16]⟩
abbrev S1x16 : Shape := ⟨2, ![1, 16]⟩
abbrev S16x1 : Shape := ⟨2, ![16, 1]⟩
abbrev S9x8192 : Shape := ⟨2, ![9, 8192]⟩
abbrev S1x8192 : Shape := ⟨2, ![1, 8192]⟩
abbrev S16x8192 : Shape := ⟨2, ![16, 8192]⟩
abbrev S8192 : Shape := ⟨1, ![8192]⟩
abbrev S1x1 : Shape := ⟨2, ![1, 1]⟩
abbrev S1x16x1 : Shape := ⟨3, ![1, 16, 1]⟩
abbrev S1 : Shape := ⟨1, ![1]⟩
abbrev S1x1x1 : Shape := ⟨3, ![1, 1, 1]⟩

abbrev nBuf : Table → Nat
  | .hbm => 8
  | .local .tc .vmem => 9
  | .local .scVector .vmem => 2
  | _ => 0

abbrev bufTy : (tb : Table) → Fin (nBuf tb) → BufTy
  | .hbm, ⟨0, _⟩ => ⟨S16384x9, .f32⟩
  | .hbm, ⟨1, _⟩ => ⟨S16384, .i32⟩
  | .hbm, ⟨2, _⟩ => ⟨S9x16384, .f32⟩
  | .hbm, ⟨3, _⟩ => ⟨S1x16384, .i32⟩
  | .hbm, ⟨4, _⟩ => ⟨S256x16, .f32⟩
  | .hbm, ⟨5, _⟩ => ⟨S16x1, .f32⟩
  | .hbm, ⟨6, _⟩ => ⟨S1x1, .f32⟩
  | .hbm, ⟨7, _⟩ => ⟨S_, .f32⟩
  | .local .tc .vmem, ⟨0, _⟩ => ⟨S9x8192, .f32⟩
  | .local .tc .vmem, ⟨1, _⟩ => ⟨S9x8192, .f32⟩
  | .local .tc .vmem, ⟨2, _⟩ => ⟨S1x8192, .i32⟩
  | .local .tc .vmem, ⟨3, _⟩ => ⟨S1x8192, .i32⟩
  | .local .tc .vmem, ⟨4, _⟩ => ⟨S16x1, .f32⟩
  | .local .tc .vmem, ⟨5, _⟩ => ⟨S16x8192, .f32⟩
  | .local .tc .vmem, ⟨6, _⟩ => ⟨S256x16, .f32⟩
  | .local .tc .vmem, ⟨7, _⟩ => ⟨S16x1, .f32⟩
  | .local .tc .vmem, ⟨8, _⟩ => ⟨S1x1, .f32⟩
  | .local .scVector .vmem, ⟨0, _⟩ => ⟨S1024, .i32⟩
  | .local .scVector .vmem, ⟨1, _⟩ => ⟨S16x16, .f32⟩
  | _, _ => ⟨S16384x9, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_arg1_scv : Ref sig .scVector := ⟨.hbm, 1, rfl⟩
abbrev main_v2_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_scratch0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc2_sem0_0 : DmaSem sig := 7
abbrev cc2_sem1_0 : DmaSem sig := 8
abbrev cc2_sem2_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1024_i32 : BitVec 32 := 1024#32
  let v0 : BitVec 32 := Scalar.muli arg1 c1024_i32
  ![v0.toNat]
@[reducible] def k0_t1_loop : Scf.Loop 32 :=
  let c0_i32 : BitVec 32 := 0#32
  let c64_i32 : BitVec 32 := 64#32
  let v11 : BitVec 32 := Scalar.addi c0_i32 c64_i32
  let c1_i32 : BitVec 32 := 1#32
  ⟨c0_i32, v11, c1_i32⟩
def k0_off2 (k0_t1 : Fin k0_t1_loop.trips) : Fin 1 → Nat :=
  let c0_i32 : BitVec 32 := 0#32
  let c1_i32 : BitVec 32 := 1#32
  let arg6 : BitVec 32 := Scf.iv c0_i32 c1_i32 k0_t1
  let c16_i32_28 : BitVec 32 := 16#32
  let v79 : BitVec 32 := Scalar.muli arg6 c16_i32_28
  let v80 : Index := Scalar.indexCast v79
  ![v80.toNat]
def k0_off3 (i : grid0.Coords) : Fin 2 → Nat :=
  let arg1 : BitVec 32 := BitVec.ofNat 32 (i 1).val
  let c16_i32 : BitVec 32 := 16#32
  let v78 : BitVec 32 := Scalar.muli arg1 c16_i32
  let c0_i32_28_r1 : BitVec 32 := 0#32
  ![v78.toNat, 0]
abbrev grid1 : Pipeline.Grid := ⟨1, ![2], ![false]⟩

def k1_cond2 (i : grid1.Coords) : BitVec 1 :=
  let arg0 : BitVec 32 := BitVec.ofNat 32 (i 0).val
  let c1_i32_9 : BitVec 32 := 1#32
  let v43 : BitVec 1 := Scalar.cmpi .eq arg0 c1_i32_9
  let v44 : BitVec 32 := Scalar.extui v43
  let c0_i32_10 : BitVec 32 := 0#32
  let v45 : BitVec 1 := Scalar.cmpi .ne v44 c0_i32_10
  v45

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S9x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8192 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := .none

abbrev stage2_0 : Fin 1 → Memref sig .tc .vmem S256x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x9_S9x16384_1_0 : S16384x9.Transposes [1, 0] S9x16384
  shapeCasts_S16384_S1x16384 : S16384.ShapeCasts S1x16384
  h_S16 : 0 < S16.numel
  shapeCasts_S16_S16 : S16.ShapeCasts S16
  inb_S16x16_S1x16_0_0 : ∀ a, (![0, 0] : Fin 2 → Nat) a + S1x16.size a ≤ S16x16.size a
  h_S1x16 : 0 < S1x16.numel
  shapeCasts_S1x16_S16 : S1x16.ShapeCasts S16
  shapeCasts_S16_S1x16 : S16.ShapeCasts S1x16
  inb_S16x16_S1x16_1_0 : ∀ a, (![1, 0] : Fin 2 → Nat) a + S1x16.size a ≤ S16x16.size a
  inb_S16x16_S1x16_2_0 : ∀ a, (![2, 0] : Fin 2 → Nat) a + S1x16.size a ≤ S16x16.size a
  inb_S16x16_S1x16_3_0 : ∀ a, (![3, 0] : Fin 2 → Nat) a + S1x16.size a ≤ S16x16.size a
  inb_S16x16_S1x16_4_0 : ∀ a, (![4, 0] : Fin 2 → Nat) a + S1x16.size a ≤ S16x16.size a
  inb_S16x16_S1x16_5_0 : ∀ a, (![5, 0] : Fin 2 → Nat) a + S1x16.size a ≤ S16x16.size a
  inb_S16x16_S1x16_6_0 : ∀ a, (![6, 0] : Fin 2 → Nat) a + S1x16.size a ≤ S16x16.size a
  inb_S16x16_S1x16_7_0 : ∀ a, (![7, 0] : Fin 2 → Nat) a + S1x16.size a ≤ S16x16.size a
  inb_S16x16_S1x16_8_0 : ∀ a, (![8, 0] : Fin 2 → Nat) a + S1x16.size a ≤ S16x16.size a
  inb_S16x16_S1x16_9_0 : ∀ a, (![9, 0] : Fin 2 → Nat) a + S1x16.size a ≤ S16x16.size a
  inb_S16x16_S1x16_10_0 : ∀ a, (![10, 0] : Fin 2 → Nat) a + S1x16.size a ≤ S16x16.size a
  inb_S16x16_S1x16_11_0 : ∀ a, (![11, 0] : Fin 2 → Nat) a + S1x16.size a ≤ S16x16.size a
  inb_S16x16_S1x16_12_0 : ∀ a, (![12, 0] : Fin 2 → Nat) a + S1x16.size a ≤ S16x16.size a
  inb_S16x16_S1x16_13_0 : ∀ a, (![13, 0] : Fin 2 → Nat) a + S1x16.size a ≤ S16x16.size a
  inb_S16x16_S1x16_14_0 : ∀ a, (![14, 0] : Fin 2 → Nat) a + S1x16.size a ≤ S16x16.size a
  inb_S16x16_S1x16_15_0 : ∀ a, (![15, 0] : Fin 2 → Nat) a + S1x16.size a ≤ S16x16.size a
  inb_S16x8192_S16x8192_0_0 : ∀ a, (![0, 0] : Fin 2 → Nat) a + S16x8192.size a ≤ S16x8192.size a
  h_S16x8192 : 0 < S16x8192.numel
  shapeCasts_S16x8192_S16x8192 : S16x8192.ShapeCasts S16x8192
  inb_S9x8192_S9x8192_0_0 : ∀ a, (![0, 0] : Fin 2 → Nat) a + S9x8192.size a ≤ S9x8192.size a
  h_S9x8192 : 0 < S9x8192.numel
  shapeCasts_S9x8192_S9x8192 : S9x8192.ShapeCasts S9x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  iota_S9x8192_d0_w32 : S9x8192.Iotas .tc 32 [0]
  broadcasts_S1x8192_S9x8192 : S1x8192.Broadcasts S9x8192
  natLt_1_32 : 1 < 32
  reduces_S9x8192_S8192 : S9x8192.Reduces [0] S8192
  shapeCasts_S8192_S1x8192 : S8192.ShapeCasts S1x8192
  iota_S16x8192_d0_w32 : S16x8192.Iotas .tc 32 [0]
  broadcasts_S1x8192_S16x8192 : S1x8192.Broadcasts S16x8192
  reduces_S16x8192_S16 : S16x8192.Reduces [1] S16
  shapeCasts_S16_S16x1 : S16.ShapeCasts S16x1
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S256x16_S16x16_0_0 : ∀ a, (![0, 0] : Fin 2 → Nat) a + S16x16.size a ≤ S256x16.size a
  h_S16x16 : 0 < S16x16.numel
  shapeCasts_S16x16_S16x16 : S16x16.ShapeCasts S16x16
  inb_S256x16_S16x16_16_0 : ∀ a, (![16, 0] : Fin 2 → Nat) a + S16x16.size a ≤ S256x16.size a
  inb_S256x16_S16x16_32_0 : ∀ a, (![32, 0] : Fin 2 → Nat) a + S16x16.size a ≤ S256x16.size a
  inb_S256x16_S16x16_48_0 : ∀ a, (![48, 0] : Fin 2 → Nat) a + S16x16.size a ≤ S256x16.size a
  inb_S256x16_S16x16_64_0 : ∀ a, (![64, 0] : Fin 2 → Nat) a + S16x16.size a ≤ S256x16.size a
  inb_S256x16_S16x16_80_0 : ∀ a, (![80, 0] : Fin 2 → Nat) a + S16x16.size a ≤ S256x16.size a
  inb_S256x16_S16x16_96_0 : ∀ a, (![96, 0] : Fin 2 → Nat) a + S16x16.size a ≤ S256x16.size a
  inb_S256x16_S16x16_112_0 : ∀ a, (![112, 0] : Fin 2 → Nat) a + S16x16.size a ≤ S256x16.size a
  inb_S256x16_S16x16_128_0 : ∀ a, (![128, 0] : Fin 2 → Nat) a + S16x16.size a ≤ S256x16.size a
  inb_S256x16_S16x16_144_0 : ∀ a, (![144, 0] : Fin 2 → Nat) a + S16x16.size a ≤ S256x16.size a
  inb_S256x16_S16x16_160_0 : ∀ a, (![160, 0] : Fin 2 → Nat) a + S16x16.size a ≤ S256x16.size a
  inb_S256x16_S16x16_176_0 : ∀ a, (![176, 0] : Fin 2 → Nat) a + S16x16.size a ≤ S256x16.size a
  inb_S256x16_S16x16_192_0 : ∀ a, (![192, 0] : Fin 2 → Nat) a + S16x16.size a ≤ S256x16.size a
  inb_S256x16_S16x16_208_0 : ∀ a, (![208, 0] : Fin 2 → Nat) a + S16x16.size a ≤ S256x16.size a
  inb_S256x16_S16x16_224_0 : ∀ a, (![224, 0] : Fin 2 → Nat) a + S16x16.size a ≤ S256x16.size a
  inb_S256x16_S16x16_240_0 : ∀ a, (![240, 0] : Fin 2 → Nat) a + S16x16.size a ≤ S256x16.size a
  reduces_S16x16_S16 : S16x16.Reduces [1] S16
  iota_S16x1_d0_w32 : S16x1.Iotas .tc 32 [0]
  shapeCasts_S16x1_S1x16x1 : S16x1.ShapeCasts S1x16x1
  reduces_S1x16x1_S1 : S1x16x1.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  hcc0_scoped0 : 0 + S_.numel ≤ 10
  hcc0_scoped1 : 1 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1024.size a ≤ S16384.size a
  k0_t1_ok : k0_t1_loop.OK
  k0_off2_inb : ∀ k0_t1 : Fin k0_t1_loop.trips, ∀ a, (k0_off2 k0_t1) a + S16.size a ≤ S1024.size a
  k0_off3_inb : ∀ i : grid0.Coords, ∀ a, (k0_off3 i) a + S16x16.size a ≤ S256x16.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S9x8192.size a ≤ S9x16384.size a
  hwx1_0 : ∀ i : grid1.Coords, EltTy.bits .f32 = 32 ∨ (Rect.block (s := S9x16384) S9x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x16384.size a
  hwx1_1 : ∀ i : grid1.Coords, EltTy.bits .i32 = 32 ∨ (Rect.block (s := S1x16384) S1x8192.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x1.size a ≤ S16x1.size a
  hwx1_2 : ∀ i : grid1.Coords, EltTy.bits .f32 = 32 ∨ (Rect.block (s := S16x1) S16x1.size (cc1_transform_2 i) (hinb1_2 i)).WholeWords (EltTy.packing .f32)
  hstage2_0 : ∀ j, (stage2_0 j).IsWhole
  hstage2_1 : ∀ j, (stage2_1 j).IsWhole
  hstage2_2 : ∀ j, (stage2_2 j).IsWhole

variable [Facts₀]

abbrev cc0_scoped0 : DmaSems sig S_ := SemArray.consecutive 0 S_ hcc0_scoped0
abbrev cc0_scoped1 : DmaSems sig S_ := SemArray.consecutive 1 S_ hcc0_scoped1

abbrev win1_0 : Pipeline.Window sig grid1 :=
  Pipeline.Window.ofSpec (Memref.whole main_v0) S9x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S16x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.whole (Memref.whole main_v2) false false (stage2_0 0) (sem2_0 0) (Memref.isWhole_whole _) (hstage2_0 0)

abbrev win2_1 : Pipeline.Window sig grid2 :=
  Pipeline.Window.whole (Memref.whole main_v3) false false (stage2_1 0) (sem2_1 0) (Memref.isWhole_whole _) (hstage2_1 0)

abbrev win2_2 : Pipeline.Window sig grid2 :=
  Pipeline.Window.whole (Memref.whole main_v4) true false (stage2_2 0) (sem2_2 0) (Memref.isWhole_whole _) (hstage2_2 0)

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384x9 : Shape := ⟨2, ![16384, 9]⟩
abbrev S16384 : Shape := ⟨1, ![16384]⟩
abbrev S_ : Shape := ⟨0, ![]⟩
abbrev S16384x1 : Shape := ⟨2, ![16384, 1]⟩
abbrev S16384x10 : Shape := ⟨2, ![16384, 10]⟩
abbrev S10 : Shape := ⟨1, ![10]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 95
  | .vmem => 0
  | .smem => 0
  | _ => 0

abbrev bufTy : (tb : Table) → Fin (tcTables nBuf tb) → BufTy
  | .hbm, ⟨0, _⟩ => ⟨S16384x9, .f32⟩
  | .hbm, ⟨1, _⟩ => ⟨S16384, .i32⟩
  | .hbm, ⟨2, _⟩ => ⟨S16384x9, .f32⟩
  | .hbm, ⟨3, _⟩ => ⟨S16384x9, .f32⟩
  | .hbm, ⟨4, _⟩ => ⟨S_, .f32⟩
  | .hbm, ⟨5, _⟩ => ⟨S16384x9, .f32⟩
  | .hbm, ⟨6, _⟩ => ⟨S16384x9, .f32⟩
  | .hbm, ⟨7, _⟩ => ⟨S_, .f32⟩
  | .hbm, ⟨8, _⟩ => ⟨S16384x9, .f32⟩
  | .hbm, ⟨9, _⟩ => ⟨S16384x9, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x10, .f32⟩
  | .hbm, ⟨14, _⟩ => ⟨S16384x9, .f32⟩
  | .hbm, ⟨15, _⟩ => ⟨S16384x9, .f32⟩
  | .hbm, ⟨16, _⟩ => ⟨S16384x9, .f32⟩
  | .hbm, ⟨17, _⟩ => ⟨S_, .i32⟩
  | .hbm, ⟨18, _⟩ => ⟨S10, .i32⟩
  | .hbm, ⟨19, _⟩ => ⟨S_, .i32⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S_, .i32⟩
  | .hbm, ⟨32, _⟩ => ⟨S16384, .i32⟩
  | .hbm, ⟨33, _⟩ => ⟨S10, .i32⟩
  | .hbm, ⟨34, _⟩ => ⟨S10, .f32⟩
  | .hbm, ⟨35, _⟩ => ⟨S_, .f32⟩
  | .hbm, ⟨36, _⟩ => ⟨S_, .f32⟩
  | .hbm, ⟨37, _⟩ => ⟨S10, .f32⟩
  | .hbm, ⟨38, _⟩ => ⟨S10, .f32⟩
  | .hbm, ⟨39, _⟩ => ⟨S_, .f32⟩
  | .hbm, ⟨40, _⟩ => ⟨S10, .f32⟩
  | .hbm, ⟨41, _⟩ => ⟨S10, .i1⟩
  | .hbm, ⟨42, _⟩ => ⟨S_, .f32⟩
  | .hbm, ⟨43, _⟩ => ⟨S10, .f32⟩
  | .hbm, ⟨44, _⟩ => ⟨S10, .f32⟩
  | .hbm, ⟨45, _⟩ => ⟨S_, .f32⟩
  | .hbm, ⟨46, _⟩ => ⟨S10, .f32⟩
  | .hbm, ⟨47, _⟩ => ⟨S10, .f32⟩
  | .hbm, ⟨48, _⟩ => ⟨S_, .f32⟩
  | .hbm, ⟨49, _⟩ => ⟨S_, .f32⟩
  | .hbm, ⟨50, _⟩ => ⟨S10, .f32⟩
  | .hbm, ⟨51, _⟩ => ⟨S10, .f32⟩
  | .hbm, ⟨52, _⟩ => ⟨S16384x1, .i32⟩
  | .hbm, ⟨53, _⟩ => ⟨S_, .i32⟩
  | .hbm, ⟨54, _⟩ => ⟨S16384x1, .i32⟩
  | .hbm, ⟨55, _⟩ => ⟨S16384x1, .i1⟩
  | .hbm, ⟨56, _⟩ => ⟨S_, .i32⟩
  | .hbm, ⟨57, _⟩ => ⟨S16384x1, .i32⟩
  | .hbm, ⟨58, _⟩ => ⟨S16384x1, .i32⟩
  | .hbm, ⟨59, _⟩ => ⟨S16384x1, .i32⟩
  | .hbm, ⟨60, _⟩ => ⟨S16384x1x1, .i32⟩
  | .hbm, ⟨61, _⟩ => ⟨S1, .i32⟩
  | .hbm, ⟨62, _⟩ => ⟨S_, .i32⟩
  | .hbm, ⟨63, _⟩ => ⟨S16384x1x1, .i32⟩
  | .hbm, ⟨64, _⟩ => ⟨S16384x1x1, .i1⟩
  | .hbm, ⟨65, _⟩ => ⟨S1x1x1, .i32⟩
  | .hbm, ⟨66, _⟩ => ⟨S16384x1x1, .i32⟩
  | .hbm, ⟨67, _⟩ => ⟨S16384x1x1, .i1⟩
  | .hbm, ⟨68, _⟩ => ⟨S16384x1x1, .i1⟩
  | .hbm, ⟨69, _⟩ => ⟨S_, .i1⟩
  | .hbm, ⟨70, _⟩ => ⟨S16384x1, .i1⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384, .f32⟩
  | .hbm, ⟨76, _⟩ => ⟨S_, .i32⟩
  | .hbm, ⟨77, _⟩ => ⟨S16384, .i32⟩
  | .hbm, ⟨78, _⟩ => ⟨S16384, .i1⟩
  | .hbm, ⟨79, _⟩ => ⟨S_, .i32⟩
  | .hbm, ⟨80, _⟩ => ⟨S16384, .i32⟩
  | .hbm, ⟨81, _⟩ => ⟨S16384, .i32⟩
  | .hbm, ⟨82, _⟩ => ⟨S16384, .i32⟩
  | .hbm, ⟨83, _⟩ => ⟨S16384x1, .i32⟩
  | .hbm, ⟨84, _⟩ => ⟨S16384, .f32⟩
  | .hbm, ⟨85, _⟩ => ⟨S_, .f32⟩
  | .hbm, ⟨86, _⟩ => ⟨S16384, .f32⟩
  | .hbm, ⟨87, _⟩ => ⟨S16384, .f32⟩
  | .hbm, ⟨88, _⟩ => ⟨S16384, .f32⟩
  | .hbm, ⟨89, _⟩ => ⟨S16384, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S16384x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_call1_v0 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_cst_10 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_cst : Ref sig .tc := ⟨.hbm, 72, rfl⟩
abbrev main_call2_v14 : Ref sig .tc := ⟨.hbm, 73, rfl⟩
abbrev main_v35 : Ref sig .tc := ⟨.hbm, 74, rfl⟩
abbrev main_v36 : Ref sig .tc := ⟨.hbm, 75, rfl⟩
abbrev main_c_11 : Ref sig .tc := ⟨.hbm, 76, rfl⟩
abbrev main_v37 : Ref sig .tc := ⟨.hbm, 77, rfl⟩
abbrev main_v38 : Ref sig .tc := ⟨.hbm, 78, rfl⟩
abbrev main_c_12 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_13 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_14 : Ref sig .tc := ⟨.hbm, 90, rfl⟩
abbrev main_v48 : Ref sig .tc := ⟨.hbm, 91, rfl⟩
abbrev main_cst_15 : Ref sig .tc := ⟨.hbm, 92, rfl⟩
abbrev main_v49 : Ref sig .tc := ⟨.hbm, 93, rfl⟩
abbrev main_v50 : Ref sig .tc := ⟨.hbm, 94, rfl⟩

abbrev nD : Nat := 1
abbrev τ : Topo := Topo.v7x

variable {F : FTy → Type} [FloatOps F]

class Facts₀ : Prop where
  bcast_S_S16384x9 : S_.BroadcastsInDim S16384x9 (![] : Fin 0 → Fin S16384x9.rank)
  slices_S16384x9_S16384x1_0_0 : S16384x9.Slices ![0, 0] S16384x1
  bcast_S_S16384x1 : S_.BroadcastsInDim S16384x1 (![] : Fin 0 → Fin S16384x1.rank)
  concatenates_S16384x9_S16384x1_S16384x10_d1 : Shape.Concatenates [S16384x9, S16384x1] S16384x10 1
  slices_S16384x10_S16384x9_0_0 : S16384x10.Slices ![0, 0] S16384x9
  slices_S16384x10_S16384x9_0_1 : S16384x10.Slices ![0, 1] S16384x9
  bcast_S_S10 : S_.BroadcastsInDim S10 (![] : Fin 0 → Fin S10.rank)
  bcast_S_S16384 : S_.BroadcastsInDim S16384 (![] : Fin 0 → Fin S16384.rank)
  bcast_S16384_S16384x1_0 : S16384.BroadcastsInDim S16384x1 (![0] : Fin 1 → Fin S16384x1.rank)
  reducesTo_S10_S_d0 : S10.ReducesTo [0] S_
  h_S_ : 0 < S_.numel
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  reducesTo_S16384_S_d0 : S16384.ReducesTo [0] S_
  scatter_S10_S16384x1_S16384_n_0_0_1_wf : ScatterDims.WF S10 S16384x1 S16384 [] [0] [0] 1
  gather_S16384x9_S16384x1x1_S16384x1_n_1_0_0_1_2_11_wf : GatherDims.WF S16384x9 S16384x1x1 S16384x1 [] [1] [0] [1] [0] 2 ![1, 1]
  gather_S10_S16384x1_S16384_n_0_n_n_0_1_1_wf : GatherDims.WF S10 S16384x1 S16384 [] [0] [] [0] [] 1 ![1]

variable [Facts₀]

def scatter_S10_S16384x1_S16384_n_0_0_1 : ScatterDims S10 S16384x1 S16384 where
  updateWindowDims := []
  insertedWindowDims := [0]
  scatterDimsToOperandDims := [0]
  indexVectorDim := 1
  wf := scatter_S10_S16384x1_S16384_n_0_0_1_wf
def gather_S16384x9_S16384x1x1_S16384x1_n_1_0_0_1_2_11 : GatherDims S16384x9 S16384x1x1 S16384x1 where
  offsetDims := []
  collapsedSliceDims := [1]
  operandBatchingDims := [0]
  startIndicesBatchingDims := [0]
  startIndexMap := [1]
  indexVectorDim := 2
  sliceSizes := ![1, 1]
  wf := gather_S16384x9_S16384x1x1_S16384x1_n_1_0_0_1_2_11_wf
def gather_S10_S16384x1_S16384_n_0_n_n_0_1_1 : GatherDims S10 S16384x1 S16384 where
  offsetDims := []
  collapsedSliceDims := [0]
  operandBatchingDims := []
  startIndicesBatchingDims := []
  startIndexMap := [0]
  indexVectorDim := 1
  sliceSizes := ![1]
  wf := gather_S10_S16384x1_S16384_n_0_n_n_0_1_1_wf

class Facts : Prop extends Facts₀ where

variable [Facts]
-- ==== Proof.ScAlg.lean ====
/-
  The kernel's program as the SparseCore launch theorem reads it, and the ghost-state algebra of its proof:
  three independent copies of the rounds algebra — the four launch handshakes' (rounds indexed by ℕ), the vector
  subcores' own two DMA semaphores' (one round each), and the TensorCore calls' staging semaphores' — side by side
  in one product, each reached through its own embedding.
-/
import proofs.«218680_g49873160241359_cont_8to1c4_353_26_alg».proof.Defs
import proofs.«218680_g49873160241359_cont_8to1c4_353_26_alg».proof.Proof.Gen.KernelIdeal
import proofs.«218680_g49873160241359_cont_8to1c4_353_26_alg».proof.Proof.Gen.KernelIdeal.Skeleton
import proofs.«218680_g49873160241359_cont_8to1c4_353_26_alg».proof.Proof.Gen.KernelIdeal.Launch
import Idealize.ShloMosaic.Lib.SparseCore.Launch
import Idealize.ShloMosaic.Lib.StableHlo.Run
import Idealize.ShloMosaic.Lib.Tactic

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UK : Type := URounds (GSem nD τ sig) Unit
abbrev UP : Type := URounds (GSem nD τ sig) Unit
abbrev UU : Type := UH × (UK × UP)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EK : Emb UK (MT nD τ sig (HIx 1) (Elt F) ℕ UU ℕ) :=
  ((Emb.inl : Emb UK (UK × UP)).trans (Emb.inr : Emb (UK × UP) UU)).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inr : Emb UP (UK × UP)).trans (Emb.inr : Emb (UK × UP) UU)).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EK_landsIn : (EK : Emb UK 𝕄).LandsIn (upEmb : UEmb _ 𝕄) := by unfold EK; infer_instance
instance EP_landsIn : (EP : Emb UP 𝕄).LandsIn (upEmb : UEmb _ 𝕄) := by unfold EP; infer_instance

end Cert.KernelIdeal.Sc

end
-- ==== Proof.Stages.lean ====
/-
  What each stage of the kernel's program leaves, as explicit functions of the argument arrays, for any
  float instance.

  The program is three stages and a final reshape. The vector subcores count labels: subcore `s`
  takes labels 1024·s … 1024·s+1023 in 64 groups of 16 lanes and keeps, per class c < 10 and lane l, a running
  count (one float addition of 1 or 0 per group, in group order); block s of the 256×16 counts array is
  those ten rows followed by six zero rows. The first TensorCore call accumulates, over two blocks of 8192
  columns, the 16×8192 table (class r == label j) · log(prob j + ε) and sums its lanes into a 16×1 column. The
  second adds the sixteen 16×16 count blocks, sums lanes, and turns counts and the column into the loss.
-/
import proofs.«218680_g49873160241359_cont_8to1c4_353_26_alg».proof.Proof.Gen.KernelIdeal.Skeleton
import Idealize.ShloMosaic.Lib.ValueIdx

noncomputable section

namespace Cert.KernelIdeal.Stages

open Cert.KernelIdeal Cert.KernelIdeal.Gen Idealize.ShloMosaic Idealize.ShloMosaic.ValueIdx

variable {F : FTy → Type} [FloatOps F] [Facts]
open Facts₀ Facts

/-- Lane `l` of subcore `s`'s running count of class `c` after `k` groups of sixteen labels: one float
    addition of one or zero per group, in group order, from zero. -/
def histLane (lab : IVec S16384 32) (s l : ℕ) (c : BitVec 32) : ℕ → F .f32
  | 0 => Scalar.ofBits .f32 0x00000000#32
  | k + 1 => FloatOps.addf (histLane lab s l c k)
      (Scalar.select (IntOp.cmpi .eq (lab (ix1 ⟨(1024 * s + 16 * k + l) % 16384, Nat.mod_lt _ (by decide)⟩)) c)
        (Scalar.ofBits .f32 0x3F800000#32) (Scalar.ofBits .f32 0x00000000#32))

/-- The 256×16 counts array the subcores leave: row 16·s + c, lane l, is subcore s's count of class c at lane l
    after all 64 groups when c < 10, and zero for the six padding rows. -/
def countsFn (lab : IVec S16384 32) : FVec F S256x16 .f32 := fun j =>
  if (j 0).val % 16 < 10 then histLane lab ((j 0).val / 16) (j 1).val (BitVec.ofNat 32 ((j 0).val % 16)) 64
  else Scalar.ofBits .f32 0x00000000#32

/-- Columns 8192·t … 8192·t+8191 of the transposed logits: the block grid point `t` reads. -/
def blkLogits (lt : FVec F S9x16384 .f32) (t : ℕ) : Vec F S9x8192 .f32 := fun j =>
  lt (ix2 (show Fin 9 from j 0) ⟨(8192 * t + (j 1).val) % 16384, Nat.mod_lt _ (by decide)⟩)

/-- The same columns of the labels row. -/
def blkLabels (l2 : IVec S1x16384 32) (t : ℕ) : Vec F S1x8192 .i32 := fun j =>
  l2 (ix2 (show Fin 1 from j 0) ⟨(8192 * t + (j 1).val) % 16384, Nat.mod_lt _ (by decide)⟩)

/-- The 16×1 column the first TensorCore call leaves: the lane sums of the table accumulated over block 0 then
    block 1, from zero. -/
def ssumFn (lt : FVec F S9x16384 .f32) (l2 : IVec S1x16384 32) : FVec F S16x1 .f32 :=
  k1_pay1 (k1_pay3 (blkLogits lt 1) (blkLabels (F := F) l2 1) (k1_pay3 (blkLogits lt 0) (blkLabels (F := F) l2 0) (k1_pay2 (F := F))))

/-- Rows 16·b … 16·b+15 of the counts array: subcore b's block. -/
def rowsOf (cnt : FVec F S256x16 .f32) (b : ℕ) : Vec F S16x16 .f32 := fun j =>
  cnt (ix2 ⟨(16 * b + (j 0).val) % 256, Nat.mod_lt _ (by decide)⟩ (show Fin 16 from j 1))

/-- The 1×1 result of the second TensorCore call, from the counts array and the column. -/
def combFn (cnt : FVec F S256x16 .f32) (ss : FVec F S16x1 .f32) : FVec F S1x1 .f32 :=
  k2_pay1 (k2_pay4 (k2_pay2 ss)
    (k2_pay3 (rowsOf cnt 0) (rowsOf cnt 1) (rowsOf cnt 2) (rowsOf cnt 3) (rowsOf cnt 4) (rowsOf cnt 5) (rowsOf cnt 6)
      (rowsOf cnt 7) (rowsOf cnt 8) (rowsOf cnt 9) (rowsOf cnt 10))
    (rowsOf cnt 11) (rowsOf cnt 12) (rowsOf cnt 13) (rowsOf cnt 14) (rowsOf cnt 15))

/-- The program's scalar result from its two arguments. -/
def resultFn (x : FVec F S16384x9 .f32) (lab : IVec S16384 32) : FVec F S_ .f32 :=
  shapeCast S_ (combFn (countsFn lab)
    (ssumFn (transpose S9x16384 [1, 0] x Facts₀.transposes_S16384x9_S9x16384_1_0) (shapeCast S1x16384 lab Facts₀.shapeCasts_S16384_S1x16384)))
    Facts₀.shapeCasts_S1x1_S_

end Cert.KernelIdeal.Stages

end
-- ==== Proof.ScSetup.lean ====
/-
  The vector subcores' side of the launch, set up.

  Sixteen vector subcores of SparseCore 0 each take one sixteenth of the labels — subcore i the 1024 labels
  1024·i … 1024·i+1023 — and own one sixteenth of the 256×16 counts array — rows 16·i … 16·i+15. The two
  families of slices are the sixteen parts of each array along its first axis, so they are pairwise disjoint
  and cover it. Each subcore completes its two copies (labels in, counts out) on two DMA semaphores of its
  own; each semaphore is a cell with ONE round of ONE duty, whose payload says what the landed copy hands back:
  for the copy in, the label scratch holding exactly the subcore's labels (as a pure fact, index by index) and
  the labels' slice; for the copy out, the subcore's sixteen rows of the counts array holding the counts
  function of the labels, and the counts scratch at some contents.

  What the handshakes carry: the call takes the labels whole and the counts array whole (as the launch memory
  has it), each task its two slices; a task gives back the labels' slice unchanged and its rows at the counts
  function, the call the labels whole and the counts array whole at the counts function.
-/
import proofs.«218680_g49873160241359_cont_8to1c4_353_26_alg».proof.Proof.ScAlg
import proofs.«218680_g49873160241359_cont_8to1c4_353_26_alg».proof.Proof.Stages
import Idealize.ShloMosaic.Lib.SparseCore.Launch
import Idealize.ShloMosaic.Lib.StableHlo.Run
import Idealize.ShloMosaic.Lib.Tactic

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The launch memory, the arrays and the scratches -/

variable (m : (ℓ : Loc nD τ sig) → Buf (Elt F) ℓ)

/-- The labels (an argument) and the counts array (the subcores' result), as locations of device `d`. -/
abbrev labLoc (d : Dev nD) : Loc nD τ sig := (SparseCore.T d).loc main_arg1
abbrev cntLoc (d : Dev nD) : Loc nD τ sig := (SparseCore.T d).loc main_v2

abbrev labV : Memref sig .scVector .hbm S16384 .i32 := Memref.whole main_arg1_scv
abbrev cntV : Memref sig .scVector .hbm S256x16 .f32 := Memref.whole main_v2_scv
/-- A task's scratches: its 1024 labels, its sixteen rows of counts. -/
abbrev sL : Memref sig .scVector .vmem S1024 .i32 := Memref.whole cc0_scratch0
abbrev sC : Memref sig .scVector .vmem S16x16 .f32 := Memref.whole cc0_scratch1

/-- The counts array every subcore's rows are read off: the counts function of the launch memory's labels. -/
abbrev cntFn (d : Dev nD) : Buf (Elt F) (cntLoc d) := Stages.countsFn (F := F) (m (labLoc d))

theorem hdivL : 16 ∣ S16384.size 0 := ⟨1024, rfl⟩
theorem hdivC : 16 ∣ S256x16.size 0 := ⟨16, rfl⟩
/-- Part `i` of sixteen of the labels (1024 of them) and of the counts array (sixteen rows). -/
abbrev labPart (i : Fin 16) : Rect S16384 := Rect.part (s := S16384) (a₀ := 0) hdivL i
abbrev cntPart (i : Fin 16) : Rect S256x16 := Rect.part (s := S256x16) (a₀ := 0) hdivC i
abbrev labSet (i : Fin 16) : Finset S16384.Idx := ((labV : Memref sig .scVector .hbm S16384 .i32).view.slice (labPart i)).set
abbrev cntSet (i : Fin 16) : Finset S256x16.Idx := ((cntV : Memref sig .scVector .hbm S256x16 .f32).view.slice (cntPart i)).set

/-- What task `i`'s label scratch holds after its copy in: label 1024·i + j at place j. -/
def LabHolds (d : Dev nD) (i : Fin τ.nSub) (s : Buf (Elt F) ((V d (0 : Fin τ.nSC) i).loc cc0_scratch0)) : Prop :=
  ∀ j : S1024.Idx, s j = m (labLoc d) (ix1 ⟨(1024 * i.val + (j 0).val) % 16384, Nat.mod_lt _ (by decide)⟩)

/-! ## The kernel's cells -/

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

abbrev NA : ℕ := (sL : Memref sig .scVector .vmem S1024 .i32).view.dmaCredit
abbrev NB : ℕ := sig.dmaCredit .scVector (Kind.scVector.table .hbm) (main_v2_scv : Ref sig .scVector).idx S16x16 .f32
theorem NA_pos : 0 < NA := View.dmaCredit_pos _ (by decide)
theorem NB_pos : 0 < NB := sig.dmaCredit_pos _ _ _ _ _ (by decide)

inductive CellKind | cA | cB
  deriving DecidableEq

def cellKind (g : GSem nD τ sig) : Option CellKind :=
  match g with
  | ((_, .scVector _ _), sm) =>
      if sm = .dma cc0_scoped0.sem then some .cA else if sm = .dma cc0_scoped1.sem then some .cB else none
  | _ => none

@[simp] theorem cellKind_cA (d : Dev nD) (c : Fin τ.nSC) (i : Fin τ.nSub) : cellKind (cAcell d c i) = some .cA := by simp [cellKind]
@[simp] theorem cellKind_cB (d : Dev nD) (c : Fin τ.nSC) (i : Fin τ.nSub) : cellKind (cBcell d c i) = some .cB := by
  simp [cellKind, show (cc0_scoped1.sem : DmaSem sig) ≠ cc0_scoped0.sem from by decide]

/-- What a landing hands back: the copy in's, the label scratch at the task's labels (`LabHolds`) and the labels'
    slice back; the copy out's, the task's rows of the counts array at the counts function and the counts scratch at
    some contents. -/
def kPay (g : GSem nD τ sig) : sProp 𝕄 :=
  match g with
  | ((d, .scVector c i), sm) =>
      if sm = .dma cc0_scoped0.sem then
        iprop((∃ s, ⌜LabHolds m d i s⌝ ∗ (V d c i).loc cc0_scratch0 ↦{fullShare} s) ∗ labLoc d ↦[labSet i]{fullShare} m (labLoc d))
      else iprop((cntLoc d ↦[cntSet i]{fullShare} cntFn m d) ∗ ∃ f, (V d c i).loc cc0_scratch1 ↦{fullShare} f)
  | _ => iprop(emp)

def kRd : Rounds.Schedule (GSem nD τ sig) Unit 𝕄 where
  duties g r := if (cellKind g).isSome ∧ r = 0 then {()} else ∅
  amount g _ _ := match cellKind g with | some .cA => NA | _ => NB
  payload g _ _ := kPay m g
  amount_pos g _ _ _ := by
    rcases cellKind g with _ | ⟨_ | _⟩
    · exact NB_pos
    · exact NA_pos
    · exact NB_pos

instance kRd_payload_storable (g : GSem nD τ sig) (r : ℕ) (u : Unit) : BI.Storable (upEmb : UEmb _ 𝕄) ((kRd (F := F) m).payload g r u) := by
  show BI.Storable upEmb (kPay m g)
  unfold kPay
  rcases g with ⟨⟨d, _ | c | ⟨c, i⟩⟩, sm⟩ <;> dsimp only <;> (repeat' split) <;> infer_instance

theorem kRd_duties₀ {g : GSem nD τ sig} (h : (cellKind g).isSome) : (kRd (F := F) m).duties g 0 = {()} := if_pos ⟨h, rfl⟩
theorem kRd_mem₀ {g : GSem nD τ sig} (h : (cellKind g).isSome) : () ∈ (kRd (F := F) m).duties g 0 := by
  rw [kRd_duties₀ m h]; exact Finset.mem_singleton_self _
theorem kRd_later (g : GSem nD τ sig) : ∀ r, 0 + 1 ≤ r → (kRd (F := F) m).duties g r = ∅ :=
  fun r hr => if_neg fun ⟨_, h⟩ => by omega
theorem kRd_back {g : GSem nD τ sig} (h : (cellKind g).isSome) :
    bigSep ((kRd (F := F) m).duties g 0 \ ∅) (fun u => (kRd (F := F) m).payload g 0 u) ⊢ (kRd (F := F) m).payload g 0 () := by
  rw [Finset.sdiff_empty, kRd_duties₀ m h, bigSep_singleton]
theorem kRd_expect {g : GSem nD τ sig} (h : (cellKind g).isSome) : (kRd (F := F) m).expect g 0 = (kRd (F := F) m).amount g 0 () := by
  unfold Rounds.Schedule.expect; rw [kRd_duties₀ m h]; exact Finset.sum_singleton _ _
theorem kRd_amount_cA (d : Dev nD) (c : Fin τ.nSC) (i : Fin τ.nSub) : (kRd (F := F) m).amount (cAcell d c i) 0 () = NA := by simp [kRd]
theorem kRd_amount_cB (d : Dev nD) (c : Fin τ.nSC) (i : Fin τ.nSub) : (kRd (F := F) m).amount (cBcell d c i) 0 () = NB := by simp [kRd]
theorem kRd_payload_cA (d : Dev nD) (c : Fin τ.nSC) (i : Fin τ.nSub) :
    (kRd (F := F) m).payload (cAcell d c i) 0 ()
      = iprop((∃ s, ⌜LabHolds m d i s⌝ ∗ (V d c i).loc cc0_scratch0 ↦{fullShare} s) ∗ labLoc d ↦[labSet i]{fullShare} m (labLoc d)) := by
  show kPay m (cAcell d c i) = _; unfold kPay; exact if_pos rfl
theorem kRd_payload_cB (d : Dev nD) (c : Fin τ.nSC) (i : Fin τ.nSub) :
    (kRd (F := F) m).payload (cBcell d c i) 0 ()
      = iprop((cntLoc d ↦[cntSet i]{fullShare} cntFn m d) ∗ ∃ f, (V d c i).loc cc0_scratch1 ↦{fullShare} f) := by
  show kPay m (cBcell d c i) = _; unfold kPay; exact if_neg (by decide)

/-- A cell as the launch funds it: its round state, at position zero of round zero, the round reached, its one duty's
    token. -/
def kit (g : GSem nD τ sig) : sProp 𝕄 :=
  iprop(roundState EK (kRd m) g 0 ∗ atPos EK g 0 ∅ 0 ∗ reached EK g 0 ∗ dutyTok EK g 0 ())

/-! ## What the handshakes carry -/

abbrev labPts (d : Dev nD) : sProp 𝕄 := labLoc d ↦{fullShare} m (labLoc d)
abbrev cntPts (d : Dev nD) (f : Buf (Elt F) (cntLoc d)) : sProp 𝕄 := cntLoc d ↦{fullShare} f
abbrev labPartPts (d : Dev nD) (i : Fin 16) : sProp 𝕄 := labLoc d ↦[labSet i]{fullShare} m (labLoc d)
abbrev cntPartPts (d : Dev nD) (i : Fin 16) (f : Buf (Elt F) (cntLoc d)) : sProp 𝕄 := cntLoc d ↦[cntSet i]{fullShare} f

/-- The one call takes the labels and the counts array whole, each task part `i` of both, and brings them back, the
    counts array at the counts function of the labels. -/
def P : (K (F := F)).Pay (nD := nD) (Val := Elt F) (Name := ℕ) (U := UU) where
  st := fun q d _ => match q with | 0 => iprop(labPts m d ∗ cntPts d (m (cntLoc d)))
  dn := fun q d _ => match q with | 0 => iprop(labPts m d ∗ cntPts d (cntFn m d))
  go := fun q d _ i => match q with
    | 0 => iprop(labPartPts m d (Fin.cast nSub_zero i) ∗ cntPartPts d (Fin.cast nSub_zero i) (m (cntLoc d)))
  td := fun q d _ i => match q with
    | 0 => iprop(labPartPts m d (Fin.cast nSub_zero i) ∗ cntPartPts d (Fin.cast nSub_zero i) (cntFn m d))
  x := fun q thr => match q, thr with
    | 0, (d, .scVector c i) => iprop(kit m (cAcell d c i) ∗ kit m (cBcell d c i))
    | _, _ => iprop(emp)

theorem P_st (d : Dev nD) (c : Fin ((K (F := F)).nCore 0)) : (P m).st 0 d c = iprop(labPts m d ∗ cntPts d (m (cntLoc d))) := rfl
theorem P_dn (d : Dev nD) (c : Fin ((K (F := F)).nCore 0)) : (P m).dn 0 d c = iprop(labPts m d ∗ cntPts d (cntFn m d)) := rfl
theorem P_go (d : Dev nD) (c : Fin ((K (F := F)).nCore 0)) (i : Fin ((K (F := F)).nSub 0)) :
    (P m).go 0 d c i = iprop(labPartPts m d (Fin.cast nSub_zero i) ∗ cntPartPts d (Fin.cast nSub_zero i) (m (cntLoc d))) := rfl
theorem P_td (d : Dev nD) (c : Fin ((K (F := F)).nCore 0)) (i : Fin ((K (F := F)).nSub 0)) :
    (P m).td 0 d c i = iprop(labPartPts m d (Fin.cast nSub_zero i) ∗ cntPartPts d (Fin.cast nSub_zero i) (cntFn m d)) := rfl
theorem P_x_V (d : Dev nD) (c : Fin τ.nSC) (i : Fin τ.nSub) : (P m).x 0 (V d c i) = iprop(kit m (cAcell d c i) ∗ kit m (cBcell d c i)) := rfl

instance P_storable : (P (F := F) m).IsStorable where
  st q d _ := match q with
    | 0 => (inferInstance : BI.Storable (upEmb : UEmb _ 𝕄) iprop(labPts m d ∗ cntPts d (m (cntLoc d))))
  dn q d _ := match q with
    | 0 => (inferInstance : BI.Storable (upEmb : UEmb _ 𝕄) iprop(labPts m d ∗ cntPts d (cntFn m d)))
  go q d _ i := match q with
    | 0 => (inferInstance : BI.Storable (upEmb : UEmb _ 𝕄)
        iprop(labPartPts m d (Fin.cast nSub_zero i) ∗ cntPartPts d (Fin.cast nSub_zero i) (m (cntLoc d))))
  td q d _ i := match q with
    | 0 => (inferInstance : BI.Storable (upEmb : UEmb _ 𝕄)
        iprop(labPartPts m d (Fin.cast nSub_zero i) ∗ cntPartPts d (Fin.cast nSub_zero i) (cntFn m d)))

/-! ## A task's own spelling of its slices, scratches and cells -/

section Tile

variable (d : Dev nD) (L : grid0.Coords)

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

/-- The task's labels and rows as its program slices them: at the offsets it computes from its coordinates. -/
abbrev labRectK (L : grid0.Coords) : Rect S16384 := Rect.unit (s := S16384) (k0_off1 L) S1024.size (k0_off1_inb L)
abbrev cntRectK (L : grid0.Coords) : Rect S256x16 := Rect.unit (s := S256x16) (k0_off3 L) S16x16.size (k0_off3_inb L)
abbrev labK (L : grid0.Coords) : Memref sig .scVector .hbm S1024 .i32 := (labV : Memref sig .scVector .hbm S16384 .i32).slice (labRectK L) (fun _ => rfl)
abbrev cntK (L : grid0.Coords) : Memref sig .scVector .hbm S16x16 .f32 := (cntV : Memref sig .scVector .hbm S256x16 .f32).slice (cntRectK L) (fun _ => rfl)

/-- The offsets the task computes are those of part `L 1` of sixteen. -/
theorem labRectK_eq : labRectK L = labPart (jL L) := by
  unfold labRectK labPart Rect.part Rect.block
  congr 1 <;> funext a
  · rw [k0_off1_eq]
    match a with
    | 0 => simp [Shape.partIx, Shape.partSize]; try omega
  · match a with
    | 0 => simp [Shape.partSize]
theorem cntRectK_eq : cntRectK L = cntPart (jL L) := by
  unfold cntRectK cntPart Rect.part Rect.block
  congr 1 <;> funext a
  · rw [k0_off3_eq]
    match a with
    | 0 => simp [Shape.partIx, Shape.partSize]; try omega
    | 1 => simp [Shape.partIx, Shape.partSize]
  · match a with
    | 0 => simp [Shape.partSize]
    | 1 => simp [Shape.partSize]

theorem set_labK : (labK L).view.set = labSet (jL L) := by
  show ((labV : Memref sig .scVector .hbm S16384 .i32).view.slice (labRectK L)).set
    = ((labV : Memref sig .scVector .hbm S16384 .i32).view.slice (labPart (jL L))).set
  exact labRectK_eq L ▸ rfl
theorem set_cntK : (cntK L).view.set = cntSet (jL L) := by
  show ((cntV : Memref sig .scVector .hbm S256x16 .f32).view.slice (cntRectK L)).set
    = ((cntV : Memref sig .scVector .hbm S256x16 .f32).view.slice (cntPart (jL L))).set
  exact cntRectK_eq L ▸ rfl

theorem pts_labK (f : Buf (Elt F) (labLoc d)) :
    ((labK L).view.loc (V d (cV L) (jV L)) ↦[(labK L).view.set]{fullShare} f : sProp 𝕄) = labLoc d ↦[labSet (jL L)]{fullShare} f := by
  rw [set_labK]
theorem pts_cntK (f : Buf (Elt F) (cntLoc d)) :
    ((cntK L).view.loc (V d (cV L) (jV L)) ↦[(cntK L).view.set]{fullShare} f : sProp 𝕄) = cntLoc d ↦[cntSet (jL L)]{fullShare} f := by
  rw [set_cntK]
theorem pts_sL (f : Buf (Elt F) ((V d (cV L) (jV L)).loc cc0_scratch0)) :
    ((sL : Memref sig .scVector .vmem S1024 .i32).view.loc (V d (cV L) (jV L)) ↦[(sL : Memref sig .scVector .vmem S1024 .i32).view.set]{fullShare} f : sProp 𝕄)
      = (V d (cV L) (jV L)).loc cc0_scratch0 ↦{fullShare} f := by
  simp only [Memref.view_whole, View.set_whole]
theorem pts_sL_univ (f : Buf (Elt F) ((V d (cV L) (jV L)).loc cc0_scratch0)) :
    ((sL : Memref sig .scVector .vmem S1024 .i32).view.loc (V d (cV L) (jV L)) ↦{fullShare} f : sProp 𝕄) = (V d (cV L) (jV L)).loc cc0_scratch0 ↦{fullShare} f := rfl
theorem pts_sC (f : Buf (Elt F) ((V d (cV L) (jV L)).loc cc0_scratch1)) :
    ((sC : Memref sig .scVector .vmem S16x16 .f32).view.loc (V d (cV L) (jV L)) ↦[(sC : Memref sig .scVector .vmem S16x16 .f32).view.set]{fullShare} f : sProp 𝕄)
      = (V d (cV L) (jV L)).loc cc0_scratch1 ↦{fullShare} f := by
  simp only [Memref.view_whole, View.set_whole]
theorem pts_sC_univ (f : Buf (Elt F) ((V d (cV L) (jV L)).loc cc0_scratch1)) :
    ((sC : Memref sig .scVector .vmem S16x16 .f32).view.loc (V d (cV L) (jV L)) ↦{fullShare} f : sProp 𝕄) = (V d (cV L) (jV L)).loc cc0_scratch1 ↦{fullShare} f := rfl

theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

end Cert.KernelIdeal.Sc

end
-- ==== Proof.LaunchMain.lean ====
/-
  @main on the TensorCore, inside the SparseCore program: the transposition of the logits and the reshaping of
  the labels (two host operations), the SparseCore call (the labels and the counts array handed to the
  sequencer and taken back, the counts array then holding the tiles' counts), the two TensorCore regions, and
  the final reshape of the 1×1 result to a scalar. Each array is followed by name: what it holds after every
  statement is an explicit function of the two argument arrays, so that the run ends with the scalar result at
  `Stages.resultFn` of the arguments and the arguments unchanged.
  The SparseCore call and the two regions enter as hypotheses (what a call or a region is entered with and what
  it gives back); the modules that prove them discharge these.
-/
import proofs.«218680_g49873160241359_cont_8to1c4_353_26_alg».proof.Proof.ScAlg
import proofs.«218680_g49873160241359_cont_8to1c4_353_26_alg».proof.Proof.Stages

noncomputable section

namespace Cert.KernelIdeal.Sc

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo

variable {F : FTy → Type} [FloatOps F]
variable (m : (ℓ : Loc nD τ sig) → Buf (Elt F) ℓ) (ρ : Dev nD → PrngReg)

local notation "𝕄" => MT nD τ sig (HIx 1) (Elt F) ℕ UU ℕ

/-! ## The arrays -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev opT : HloOp τ sig (Elt F) :=
  StableHlo.unary main_arg0 main_v0 ((transpose S9x16384 [1, 0] · Facts₀.transposes_S16384x9_S9x16384_1_0) : (⟨S16384x9, .f32⟩ : BufTy).Contents (Elt F) → (⟨S9x16384, .f32⟩ : BufTy).Contents (Elt F))
abbrev opR1 : HloOp τ sig (Elt F) := StableHlo.reshape main_arg1 main_v1 rfl Facts₀.shapeCasts_S16384_S1x16384
abbrev opR2 : HloOp τ sig (Elt F) := StableHlo.reshape main_v4 main_v5 rfl Facts₀.shapeCasts_S1x1_S_

/-- What each array holds, as functions of the launch memory. -/
abbrev A0 (d : Dev nD) : (⟨S16384x9, .f32⟩ : BufTy).Contents (Elt F) := m ((SparseCore.T d).loc main_arg0)
abbrev A1 (d : Dev nD) : (⟨S16384, .i32⟩ : BufTy).Contents (Elt F) := m ((SparseCore.T d).loc main_arg1)
def B0 (d : Dev nD) : (⟨S9x16384, .f32⟩ : BufTy).Contents (Elt F) := transpose S9x16384 [1, 0] (A0 m d) Facts₀.transposes_S16384x9_S9x16384_1_0
def B1 (d : Dev nD) : (⟨S1x16384, .i32⟩ : BufTy).Contents (Elt F) := shapeCast S1x16384 (A1 m d) Facts₀.shapeCasts_S16384_S1x16384
def C2 (d : Dev nD) : (⟨S256x16, .f32⟩ : BufTy).Contents (Elt F) := Stages.countsFn (A1 m d)
def S3 (d : Dev nD) : (⟨S16x1, .f32⟩ : BufTy).Contents (Elt F) := Stages.ssumFn (B0 m d) (B1 m d)
def R4 (d : Dev nD) : (⟨S1x1, .f32⟩ : BufTy).Contents (Elt F) := Stages.combFn (C2 m d) (S3 m d)
def R5 (d : Dev nD) : (⟨S_, .f32⟩ : BufTy).Contents (Elt F) := shapeCast S_ (R4 m d) Facts₀.shapeCasts_S1x1_S_

theorem R5_eq (d : Dev nD) : R5 m d = Stages.resultFn (A0 m d) (A1 m d) := rfl

abbrev pts (d : Dev nD) (b : Ref sig .tc) (f : Buf (Elt F) ((SparseCore.T d : Thread nD τ).loc b)) : sProp 𝕄 := (SparseCore.T d : Thread nD τ).loc b ↦{fullShare} f

omit [FloatOps F] in
theorem unscopedBufs_eq (d : Dev nD) (W : (b : Ref sig .tc) → Buf (Elt F) ((d.tc : Thread nD τ).loc b)) :
    (unscopedBufs d W : sProp 𝕄)
      = iprop(pts d main_arg0 (W main_arg0) ∗ pts d main_arg1 (W main_arg1) ∗ pts d main_v0 (W main_v0) ∗ pts d main_v1 (W main_v1)
          ∗ pts d main_v2 (W main_v2) ∗ pts d main_v3 (W main_v3) ∗ pts d main_v4 (W main_v4) ∗ pts d main_v5 (W main_v5)) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
/-- Two distinct buffers held whole. -/
theorem held_pair (d : Dev nD) (x y : Ref sig .tc) (h : (Proc.devRef .tc x : DevRef τ sig) ∉ ({Proc.devRef .tc y} : Finset (DevRef τ sig))) (W : Valuation τ sig (Elt F)) :
    (held (SparseCore.T d) {Proc.devRef .tc x, Proc.devRef .tc y} W : sProp 𝕄) = iprop(((d, Proc.devRef .tc x) ↦{fullShare} W (Proc.devRef .tc x)) ∗ ((d, Proc.devRef .tc y) ↦{fullShare} W (Proc.devRef .tc y))) := by
  unfold held
  rw [SparseCore.bigSep_insert' h, bigSep_singleton]

/-- The TensorCore's handshake debts between the SparseCore call and the end: it owes nothing, and the wait pairs it
    has recorded sit at or below the first call's band. -/
def owesT (d : Dev nD) : sProp 𝕄 :=
  iprop(∃ W, ⌜(K (F := F)).WBelow (SparseCore.T d) W 8⌝ ∗ owes (SparseCore.T d) (0 : CellTallies nD τ sig (HIx 1)) W)

/-- The rest of the TensorCore's handshake state after the one call. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_one (d : Dev nD) : (K (F := F)).tcSt EH d 1 = iprop(owesT (F := F) d ∗ tcRest (F := F) d) := by
  unfold SparseCore.Cfg.tcSt owesT tcRest
  rw [(K (F := F)).Otc_end d (le_refl 1)]

theorem tcSt_one' (d : Dev nD) : (K (F := F)).tcSt EH d ((0 : Fin 1).val + 1) = iprop(owesT (F := F) d ∗ tcRest (F := F) d) := tcSt_one d

/-- The launch valuation. -/
def V0 (d : Dev nD) : Valuation τ sig (Elt F) := fun b => m (d, b)

/-- What @main leaves the claim: the two arguments at their launch contents and the scalar result. -/
abbrev FIN (d : Dev nD) : sProp 𝕄 := iprop(pts d main_arg0 (A0 m d) ∗ pts d main_arg1 (A1 m d) ∗ pts d main_v5 (R5 m d))

/-- After the transposition: the logits unchanged, `main_v0` at their transpose. -/
theorem held_T (d : Dev nD) :
    (held (SparseCore.T d) {a0', v0'} ((opT (F := F)).result (V0 m d)) : sProp 𝕄) = iprop(pts d main_arg0 (A0 m d) ∗ pts d main_v0 (B0 m d)) := by
  rw [held_pair d main_arg0 main_v0 (by decide), (opT (F := F)).result_of_not_mem _ (show a0' ∉ ({v0'} : Finset (DevRef τ sig)) by decide), unary_result']
  rfl

/-- After the reshape: the labels unchanged, `main_v1` at them as a row. -/
theorem held_R1 (d : Dev nD) :
    (held (SparseCore.T d) {a1', v1'} ((opR1 (F := F)).result (V0 m d)) : sProp 𝕄) = iprop(pts d main_arg1 (A1 m d) ∗ pts d main_v1 (B1 m d)) := by
  rw [held_pair d main_arg1 main_v1 (by decide), (opR1 (F := F)).result_of_not_mem _ (show a1' ∉ ({v1'} : Finset (DevRef τ sig)) by decide), reshape_result']
  rfl

/-- The valuation the last reshape runs at: the 1×1 result in place. -/
def V4 (d : Dev nD) : Valuation τ sig (Elt F) := Function.update (V0 m d) v4' (R4 m d)

/-- After the last reshape: `main_v4` unchanged, the scalar result in `main_v5`. -/
theorem held_R2 (d : Dev nD) :
    (held (SparseCore.T d) {v4', v5'} ((opR2 (F := F)).result (V4 m d)) : sProp 𝕄) = iprop(pts d main_v4 (R4 m d) ∗ pts d main_v5 (R5 m d)) := by
  rw [held_pair d main_v4 main_v5 (by decide), (opR2 (F := F)).result_of_not_mem _ (show v4' ∉ ({v5'} : Finset (DevRef τ sig)) by decide), reshape_result']
  unfold V4 R5
  rw [Function.update_self]
  rfl

/-- A region's entry inside the SparseCore program is the region's entry of the TensorCore program, lifted. -/
theorem wp_region_lift (d : Dev nD) (p : Fin 2) (Φ : PUnit → sProp 𝕄) :
    wp frame (wpE (D (F := F)) 𝒱 (SparseCore.T d) none) Set.univ (Prog.lift (.customCall (Pipeline.entry p) ())) Φ
      ⊢ wp frame (wpE ((K (F := F)).defs (D (F := F))) 𝒱 (SparseCore.T d) none) Set.univ (Prog.lift (.customCall (SparseCore.inner (Pipeline.entry p)) ())) Φ := by
  have h := (K (F := F)).wp_liftProg (D (F := F)) 𝒱 (SparseCore.T d) Set.univ none (Prog.lift (.customCall (Pipeline.entry p) ())) Φ
  exact h

section Main

variable (P : (K (F := F)).Pay (nD := nD) (Val := Elt F) (Name := ℕ) (U := UU))
  (G1 G2 : Dev nD → sProp (MT nD τ sig (HIx 1) (Elt F) ℕ UU ℕ))

/-- @main on device `d`'s TensorCore, from the call's and the regions' accounts. -/
theorem hmain_of
    (hst : ∀ d, (bigSep Finset.univ fun c : Fin ((K (F := F)).nCore 0) => P.st 0 d c) = iprop(pts d main_arg1 (A1 m d) ∗ pts d main_v2 (m ((SparseCore.T d).loc main_v2))))
    (hdn : ∀ d, (bigSep Finset.univ fun c : Fin ((K (F := F)).nCore 0) => P.dn 0 d c) = iprop(pts d main_arg1 (A1 m d) ∗ pts d main_v2 (C2 m d)))
    (hreg1 : ∀ (d : Dev nD) (Φ : PUnit → sProp 𝕄),
      iprop((iprop(boundary (SparseCore.T d) ∗ (owesT d ∗ pts d main_v0 (B0 m d) ∗ pts d main_v1 (B1 m d) ∗ pts d main_v3 (S3 m d))) -∗ Φ ⟨⟩)
          ∗ boundary (SparseCore.T d) ∗ (owesT (F := F) d ∗ pts d main_v0 (B0 m d) ∗ pts d main_v1 (B1 m d) ∗ pts d main_v3 (m ((SparseCore.T d).loc main_v3)))
          ∗ levAts (K (F := F)).L (K (F := F)).lev ∗ G1 d)
        ⊢ wp frame (wpE (D (F := F)) 𝒱 (SparseCore.T d) none) Set.univ (Prog.lift (.customCall (Pipeline.entry (0 : Fin 2)) ())) Φ)
    (hreg2 : ∀ (d : Dev nD) (Φ : PUnit → sProp 𝕄),
      iprop((iprop(boundary (SparseCore.T d) ∗ (owesT d ∗ pts d main_v2 (C2 m d) ∗ pts d main_v3 (S3 m d) ∗ pts d main_v4 (R4 m d))) -∗ Φ ⟨⟩)
          ∗ boundary (SparseCore.T d) ∗ (owesT (F := F) d ∗ pts d main_v2 (C2 m d) ∗ pts d main_v3 (S3 m d) ∗ pts d main_v4 (m ((SparseCore.T d).loc main_v4)))
          ∗ levAts (K (F := F)).L (K (F := F)).lev ∗ G2 d)
        ⊢ wp frame (wpE (D (F := F)) 𝒱 (SparseCore.T d) none) Set.univ (Prog.lift (.customCall (Pipeline.entry (1 : Fin 2)) ())) Φ)
    (κ : GSem nD τ sig → ℕ) (d : Dev nD) :
    iprop((K (F := F)).ctx EH P κ ∗ (K (F := F)).tcSt EH d 0 ∗ (K (F := F)).tcRes m ρ d ∗ (G1 d ∗ G2 d))
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Hv0, Hv1, Hv2, Hv3, Hv4, Hv5⟩, -, -⟩, ⟨HG1, HG2⟩⟩
  -- the transposition of the logits
  iapply (wp_hlo_within 𝒱 (SparseCore.T d) none Set.univ (op := opT (F := F)) (S := {a0', v0'}) (Finset.Subset.refl _) (V := V0 m d)) $$ [Hb Ha0 Hv0]
  · isplitl [Hb]; · iexact Hb
    rw [held_pair d main_arg0 main_v0 (by decide)]
    isplitl [Ha0]; · iexact Ha0
    iexact Hv0
  iintro ⟨Hb, Hheld⟩
  ihave Hh := (Entails.of_eq (held_T (F := F) m d)) $$ Hheld
  icases Hh with ⟨Ha0, Hv0⟩
  rw [wp_ret]; imodintro
  -- the labels as a row
  iapply (wp_hlo_within 𝒱 (SparseCore.T d) none Set.univ (op := opR1 (F := F)) (S := {a1', v1'}) (Finset.Subset.refl _) (V := V0 m d)) $$ [Hb Ha1 Hv1]
  · isplitl [Hb]; · iexact Hb
    rw [held_pair d main_arg1 main_v1 (by decide)]
    isplitl [Ha1]; · iexact Ha1
    iexact Hv1
  iintro ⟨Hb, Hheld⟩
  ihave Hh := (Entails.of_eq (held_R1 (F := F) m d)) $$ Hheld
  icases Hh with ⟨Ha1, Hv1⟩
  rw [wp_ret]; imodintro
  -- the SparseCore call: the labels and the counts array to the sequencer and back
  iapply ((K (F := F)).wp_run (D (F := F)) 𝒱 (EH := EH) (P := P) κ d 0) $$ [Hst Ha1 Hv2 Hb Ha0 Hv0 Hv1 Hv3 Hv4 Hv5 HG1 HG2]
  isplitr; · iexact Hctx
  isplitl [Hst]; · iexact Hst
  isplitl [Ha1 Hv2]
  · rw [hst]
    isplitl [Ha1]; · iexact Ha1
    iexact Hv2
  iintro ⟨Hst, Hdn⟩
  ihave Hdn' := (Entails.of_eq (hdn d)) $$ Hdn
  icases Hdn' with ⟨Ha1, Hv2⟩
  -- the first TensorCore region
  ihave Hst' := (Entails.of_eq (tcSt_one' (F := F) d)) $$ Hst
  icases Hst' with ⟨HO, Hrest⟩
  ihave Hlev := ((K (F := F)).ctx_levAts (EH := EH) (P := P) κ) $$ Hctx
  iapply (wp_region_lift (F := F) d 0 _)
  iapply (hreg1 d _) $$ [Hb HO Hv0 Hv1 Hv3 HG1 Hlev Ha0 Ha1 Hv2 Hv4 Hv5 HG2 Hrest]
  isplitr [Hb HO Hv0 Hv1 Hv3 HG1 Hlev]
  swap
  · isplitl [Hb]; · iexact Hb
    isplitl [HO Hv0 Hv1 Hv3]
    · isplitl [HO]; · iexact HO
      isplitl [Hv0]; · iexact Hv0
      isplitl [Hv1]; · iexact Hv1
      iexact Hv3
    isplitl [Hlev]; · iexact Hlev
    iexact HG1
  iintro ⟨Hb, HO, Hv0, Hv1, Hv3⟩
  -- the second TensorCore region
  iapply (wp_region_lift (F := F) d 1 _)
  iapply (hreg2 d _) $$ [Hb HO Hv2 Hv3 Hv4 HG2 Hlev Ha0 Ha1 Hv0 Hv1 Hv5 Hrest]
  isplitr [Hb HO Hv2 Hv3 Hv4 HG2 Hlev]
  swap
  · isplitl [Hb]; · iexact Hb
    isplitl [HO Hv2 Hv3 Hv4]
    · isplitl [HO]; · iexact HO
      isplitl [Hv2]; · iexact Hv2
      isplitl [Hv3]; · iexact Hv3
      iexact Hv4
    isplitl [Hlev]; · iexact Hlev
    iexact HG2
  iintro ⟨Hb, HO, Hv2, Hv3, Hv4⟩
  -- the 1×1 result as a scalar
  iapply (wp_hlo_within 𝒱 (SparseCore.T d) none Set.univ (op := opR2 (F := F)) (S := {v4', v5'}) (Finset.Subset.refl _) (V := V4 m d)) $$ [Hb Hv4 Hv5]
  · isplitl [Hb]; · iexact Hb
    rw [held_pair d main_v4 main_v5 (by decide)]
    isplitl [Hv4]
    · unfold V4; rw [Function.update_self]; iexact Hv4
    · unfold V4; rw [Function.update_of_ne (show v5' ≠ v4' by decide)]; iexact Hv5
  iintro ⟨Hb, Hheld⟩
  ihave Hh := (Entails.of_eq (held_R2 (F := F) m d)) $$ Hheld
  icases Hh with ⟨Hv4, Hv5⟩
  rw [wp_ret]; imodintro; imodintro
  isplitl [HO Hrest]
  · iapply (Entails.of_eq (tcSt_one (F := F) d).symm)
    isplitl [HO]; · iexact HO
    iexact Hrest
  isplitl [Ha0]; · iexact Ha0
  isplitl [Ha1]; · iexact Ha1
  iexact Hv5

end Main

end Cert.KernelIdeal.Sc

end
-- ==== Proof.TcData.lean ====
/-
  The proof data of the two TensorCore calls, for every float instance.

  Call 1 walks two blocks of 8192 columns. Its logits and labels windows are read only: the body hands each
  staging buffer back as it found it. Its 16×8192 scratch table is carried from the first block to the second: it is
  zeroed and then accumulated at block 0, accumulated again at block 1. Its 16×1 result window is untouched at
  block 0 and receives the lane sums of the table at block 1, which is the only block written back. Call 2 has a
  single point: the counts and the column are read, the 1×1 result is stored and written back.

  The entry contents of every window's array are parameters. The core enters a region while it owes nothing, its
  recorded waits all at levels at most 8; the data keep that bound between points.
-/
import proofs.«218680_g49873160241359_cont_8to1c4_353_26_alg».proof.Proof.ScAlg
import proofs.«218680_g49873160241359_cont_8to1c4_353_26_alg».proof.Proof.Stages
import proofs.«218680_g49873160241359_cont_8to1c4_353_26_alg».proof.Proof.Gen.KernelIdeal.Points
import proofs.«218680_g49873160241359_cont_8to1c4_353_26_alg».proof.Proof.Gen.KernelIdeal.Launch
import Idealize.ShloMosaic.Lib.Pipeline.Regions
import Idealize.ShloMosaic.Lib.Tactic

noncomputable section

namespace Cert.KernelIdeal.Tc

open Cert.KernelIdeal Cert.KernelIdeal.Gen Cert.KernelIdeal.Stages

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Facts]
open Facts₀ Facts

local notation "𝕄" => MT nD τ sig (HIx 1) (Elt F) ℕ Sc.UU ℕ

/-- No call has a prefetched table: the one admissible contents. -/
abbrev adm : (p : Fin 2) → (pcfgs (F := F) p).Adm := fun p => (cfgs p).toPCfg_adm

/-- The contents type of the TensorCore's buffer `b` on device `c`. -/
abbrev Bf (c : Dev nD) (b : Ref sig .tc) : Type := Buf (Elt F) ((c.tc : Thread nD τ).loc b)

/-- The (cell, index) pairs the core's recorded waits may lie in: those at level at most 8. -/
def recB (c : Dev nD) : Set (SemLoc sig × HIx 1) := {p | (Sc.K (F := F)).lev (SparseCore.T c, p.1) p.2 ≤ 8}

/-- The core owes nothing and every pair its waits recorded is at level at most 8. -/
def owesT (c : Dev nD) : sProp 𝕄 :=
  iprop(∃ W, ⌜(Sc.K (F := F)).WBelow (SparseCore.T c) W 8⌝ ∗ owes (SparseCore.T c) (0 : CellTallies nD τ sig (HIx 1)) W)

/-- Call 1's scratch table after block 0: zeroed, then block 0 accumulated. -/
def acc0 (A0 : FVec F S9x16384 .f32) (A1 : IVec S1x16384 32) : FVec F S16x8192 .f32 :=
  k1_pay3 (blkLogits A0 0) (blkLabels (F := F) A1 0) (k1_pay2 (F := F))

/-- and after block 1. -/
def acc1 (A0 : FVec F S9x16384 .f32) (A1 : IVec S1x16384 32) : FVec F S16x8192 .f32 :=
  k1_pay3 (blkLogits A0 1) (blkLabels (F := F) A1 1) (acc0 A0 A1)

theorem ssumFn_eq (A0 : FVec F S9x16384 .f32) (A1 : IVec S1x16384 32) : ssumFn A0 A1 = k1_pay1 (acc1 A0 A1) := rfl

/-- The other call's three staging buffers, at any contents: what rides through call 1's points beside its scratch. -/
def rest1 (c : Dev nD) : sProp 𝕄 :=
  iprop((∃ f : Bf (F := F) c cc2_stg0_0, ((c.tc : Thread nD τ).loc cc2_stg0_0) ↦{fullShare} f)
    ∗ (∃ f : Bf (F := F) c cc2_stg1_0, ((c.tc : Thread nD τ).loc cc2_stg1_0) ↦{fullShare} f)
    ∗ (∃ f : Bf (F := F) c cc2_stg2_0, ((c.tc : Thread nD τ).loc cc2_stg2_0) ↦{fullShare} f))

/-- Call 1's proof data on device `c`, entered with the transposed logits `A0`, the labels row `A1` and
    anything (`S0`) in the result column. -/
def rdat1 (c : Dev nD) (A0 : Bf (F := F) c main_v0) (A1 : Bf (F := F) c main_v1) (S0 : Bf (F := F) c main_v3) :
    RDat τ (Elt F) (HIx 1) ℕ Sc.UU ℕ (Pipeline.pin (pcfgs (F := F)) adm 0) c where
  A w := match w with
    | ⟨0, _⟩ => A0
    | ⟨1, _⟩ => A1
    | ⟨2, _⟩ => S0
  after w t Y X := match w with
    | ⟨0, _⟩ => X = Y
    | ⟨1, _⟩ => X = Y
    | ⟨2, _⟩ => (t.val = 0 → X = Y) ∧ (t.val = 1 → X = ssumFn A0 A1)
  Φ t := match t with
    | ⟨0, _⟩ => Pipeline.scopedRest (Ix := HIx 1) (Name := ℕ) (U := Sc.UU) (Lvl := ℕ) (Val := Elt F) spec1 c
    | ⟨1, _⟩ => iprop((((c.tc : Thread nD τ).loc cc1_scratch0) ↦{fullShare} (acc0 A0 A1 : Bf (F := F) c cc1_scratch0)) ∗ rest1 c)
    | ⟨2, _⟩ => Pipeline.scopedRest (Ix := HIx 1) (Name := ℕ) (U := Sc.UU) (Lvl := ℕ) (Val := Elt F) spec1 c
    | ⟨_ + 3, h⟩ => absurd h (Nat.not_lt.2 (Nat.le_add_left 3 _))
  q _ := fullShare
  owed _ := 0
  recorded _ := recB (F := F) c

/-- Call 2's proof data on device `c`, entered with the counts `C`, the column `S` and anything (`R0`) in the result. -/
def rdat2 (c : Dev nD) (C : Bf (F := F) c main_v2) (S : Bf (F := F) c main_v3) (R0 : Bf (F := F) c main_v4) :
    RDat τ (Elt F) (HIx 1) ℕ Sc.UU ℕ (Pipeline.pin (pcfgs (F := F)) adm 1) c where
  A w := match w with
    | ⟨0, _⟩ => C
    | ⟨1, _⟩ => S
    | ⟨2, _⟩ => R0
  after w _ Y X := match w with
    | ⟨0, _⟩ => X = Y
    | ⟨1, _⟩ => X = Y
    | ⟨2, _⟩ => X = combFn C S
  Φ _ := Pipeline.scopedRest (Ix := HIx 1) (Name := ℕ) (U := Sc.UU) (Lvl := ℕ) (Val := Elt F) spec2 c
  q _ := fullShare
  owed _ := 0
  recorded _ := recB (F := F) c

/-- Both calls' proof data, each at its own entry contents. -/
def rdats (A0 : (c : Dev nD) → Bf (F := F) c main_v0) (A1 : (c : Dev nD) → Bf (F := F) c main_v1) (S0 : (c : Dev nD) → Bf (F := F) c main_v3)
    (C : (c : Dev nD) → Bf (F := F) c main_v2) (S : (c : Dev nD) → Bf (F := F) c main_v3) (R0 : (c : Dev nD) → Bf (F := F) c main_v4) :
    (p : Fin 2) → (c : Dev nD) → RDat τ (Elt F) (HIx 1) ℕ Sc.UU ℕ (Pipeline.pin (pcfgs (F := F)) adm p) c
  | ⟨0, _⟩ => fun c => rdat1 c (A0 c) (A1 c) (S0 c)
  | ⟨1, _⟩ => fun c => rdat2 c (C c) (S c) (R0 c)

end Cert.KernelIdeal.Tc

end
-- ==== Proof.LaunchElem.lean ====
/-
  The launch element of the proof's ghost state: the handshakes' rounds, the tiles' own DMA cells' rounds (one
  round per cell: a kit per cell, dealt to the tile that owns it) and the TensorCore calls' staging cells' ghost
  state and duty tokens (dealt to the TensorCore, which allocates the cells' invariants when it enters each region).
-/
import proofs.«218680_g49873160241359_cont_8to1c4_353_26_alg».proof.Proof.ScSetup
import proofs.«218680_g49873160241359_cont_8to1c4_353_26_alg».proof.Proof.LaunchMain
import proofs.«218680_g49873160241359_cont_8to1c4_353_26_alg».proof.Proof.TcData

noncomputable section

namespace Cert.KernelIdeal.Sc

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig (HIx 1) (Elt F) ℕ UU ℕ

/-- The two TensorCore calls as plain pipelines (they have no prefetched tables). -/
abbrev pcs : Fin 2 → Pipeline.Cfg sig Λ₀ := Pipeline.pin (pcfgs (F := F)) Tc.adm

theorem phinj : Function.Injective (Pipeline.cellOf (nD := nD) (τ := τ) (pcs (F := F))) := Gen.cellOf_inj

/-- What the TensorCore of `d` is dealt for region `p`: its staging cells' ghost state and duty tokens. -/
def Gp (p : Fin 2) (d : Dev nD) : sProp 𝕄 := iprop(Pipeline.cellsGhost (pcs (F := F)) EP p d ∗ Pipeline.toksInit (pcs (F := F)) EP p d)
def G (d : Dev nD) : sProp 𝕄 := iprop(Gp (F := F) 0 d ∗ Gp (F := F) 1 d)

def kCells : Finset (GSem nD τ sig) :=
  (Finset.univ.image fun dci : Dev nD × Fin τ.nSC × Fin τ.nSub => cAcell dci.1 dci.2.1 dci.2.2)
    ∪ (Finset.univ.image fun dci : Dev nD × Fin τ.nSC × Fin τ.nSub => cBcell dci.1 dci.2.1 dci.2.2)
def kToks : Finset (GSem nD τ sig × ℕ × Unit) := kCells.map ⟨fun g => (g, 0, ()), fun _ _ e => (Prod.mk.inj e).1⟩
def u₀ : UU :=
  (initOf (K (F := F)).hsCells (K (F := F)).hsToks, (initOf kCells kToks, initOf (Pipeline.cells (pcs (F := F)) phinj) (Pipeline.launchToks (pcs (F := F)) phinj)))

omit [FloatOps F] in
theorem ownU_split (a : UH) (b : UK) (c : UP) : (ownU (a, (b, c)) : sProp 𝕄) ⊢ iprop(BI.own (EH a) ∗ BI.own (EK b) ∗ BI.own (EP c)) := by
  refine (BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, c))))).trans (sep_mono (BI.Entails.refl _) ?_)
  exact BI.own_op_elim ((uEmb (nD := nD) (sig := sig) (Ix := HIx 1) (Val := Elt F) (Name := ℕ) (U := UU) (Lvl := ℕ)).toEmb.op_of_mem
    (Prod.mk_mem_op (URA.mem_one_op (1 : UH)) (Prod.mk_mem_op (URA.mem_op_one b) (URA.mem_one_op c))))

omit [FloatOps F] in
theorem toks_eq : (bigSep kToks fun x => (dutyTok EK x.1 x.2.1 x.2.2 : sProp 𝕄)) = bigSep kCells fun g => dutyTok EK g 0 () := by
  unfold kToks; rw [bigSep_map]; rfl

/-- The tiles' cells, funded: each one's kit. -/
theorem kits_intro : (BI.own (EK (initOf kCells kToks)) : sProp 𝕄) ⊢ iprop(|==> bigSep kCells (kit m)) := by
  iintro H
  imod (Rounds.fund EK (kRd m) kCells kToks) $$ H with ⟨Hst, Hr, Hat, Htok⟩
  ihave Htok' := (Entails.of_eq (toks_eq (F := F))) $$ Htok
  imodintro
  unfold kit
  rw [bigSep_sep', bigSep_sep', bigSep_sep']
  isplitl [Hst]; · iexact Hst
  isplitl [Hat]; · iexact Hat
  isplitl [Hr]; · iexact Hr
  iexact Htok'

omit [FloatOps F] in
theorem bigSep_emp' {I : Type} (s : Finset I) : (bigSep s fun _ => iprop(emp)) = (iprop(emp) : sProp 𝕄) := bigSep_emp_const s

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = iprop(kit m (cAcell d c i) ∗ kit m (cBcell d c i)) :=
  bigSep_univ_of_subsingleton (0 : Fin 1)

omit [FloatOps F] in
theorem inj3 (sm : SemLoc sig) :
    Set.InjOn (fun dci : Dev nD × Fin τ.nSC × Fin τ.nSub => ((V dci.1 dci.2.1 dci.2.2, sm) : GSem nD τ sig)) ((Finset.univ : Finset (Dev nD × Fin τ.nSC × Fin τ.nSub)) : Set _) := by
  intro a _ b _ e
  obtain ⟨h1, h2⟩ := Prod.mk.inj (Prod.mk.inj e).1; obtain ⟨h3, h4⟩ := Proc.scVector.inj h2
  exact Prod.ext h1 (Prod.ext h3 h4)

/-- The kits, dealt: each tile its two cells'. -/
theorem kits_deal : (bigSep kCells (kit (F := F) m) : sProp 𝕄) ⊢ bigSep Finset.univ fun thr : Thread nD τ => bigSep Finset.univ fun q : Fin 1 => (P m).x q thr := by
  rw [SparseCore.Cfg.bigSep_threads (fun thr : Thread nD τ => bigSep Finset.univ fun q : Fin 1 => (P m).x q thr)]
  simp only [Px_T, Px_S, Px_V, bigSep_emp']
  unfold kCells
  rw [SparseCore.bigSep_union' ?d1,
    SparseCore.bigSep_image_of_injOn (inj3 _) (kit m), SparseCore.bigSep_image_of_injOn (inj3 _) (kit m)]
  case d1 =>
    refine Finset.disjoint_left.mpr fun g h1 h2 => ?_
    obtain ⟨a, -, rfl⟩ := Finset.mem_image.mp h1
    obtain ⟨b, -, e⟩ := Finset.mem_image.mp h2
    exact absurd (Prod.mk.inj e).2 (by decide)
  rw [bigSep_sep' (Finset.univ : Finset (Dev nD × Fin τ.nSC × Fin τ.nSub))]
  iintro ⟨HA, HB⟩
  isplitr; · iempintro
  isplitr; · iempintro
  isplitl [HA]; · iexact HA
  iexact HB

omit [FloatOps F] in
theorem sep_swap4 {A B C D : sProp 𝕄} : iprop((A ∗ B) ∗ (C ∗ D)) ⊢ iprop((A ∗ C) ∗ (B ∗ D)) := by
  iintro ⟨⟨HA, HB⟩, ⟨HC, HD⟩⟩
  isplitl [HA HC]
  · isplitl [HA] <;> iassumption
  · isplitl [HB] <;> iassumption

omit [FloatOps F] in
/-- The staging cells' ghost state, dealt: each TensorCore its two regions'. -/
theorem ghost_deal :
    iprop((bigSep Finset.univ fun c : Dev nD => bigSep Finset.univ fun p : Fin 2 => Pipeline.cellsGhost (pcs (F := F)) EP p c)
        ∗ (bigSep Finset.univ fun c : Dev nD => bigSep Finset.univ fun p : Fin 2 => (Pipeline.toksInit (pcs (F := F)) EP p c : sProp 𝕄)))
      ⊢ bigSep Finset.univ fun d : Dev nD => G (F := F) d := by
  rw [← bigSep_sep']
  refine bigSep_mono fun d _ => ?_
  rw [bigSep_fin_two, bigSep_fin_two]
  unfold G Gp
  exact sep_swap4

/-- The launch element: the handshakes' part untouched, each TensorCore its regions' ghost state, each tile its kits. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _ _) $$ Hu
  icases H with ⟨HH, HK, HP⟩
  imod (kits_intro m) $$ HK with Hkits
  imod (Pipeline.fund_ghost (pcs (F := F)) EP phinj) $$ HP with Hg
  imodintro
  isplitl [HH]; · iexact HH
  isplitl [Hg]; · iapply ghost_deal; iexact Hg
  iapply (kits_deal m); iexact Hkits

end Cert.KernelIdeal.Sc

end
-- ==== Proof.LaunchRun.lean ====
/-
  The program's run: from a memory with every semaphore at zero, every weakly fair execution of the device's threads
  — @main on the TensorCore, the sequencers, the tiles — terminates, nothing faulting, the two argument arrays
  unchanged and the scalar result at `Stages.resultFn` of them. The launch theorem applied to the tiles' task, the
  split of the call's operands among the tiles, @main's account, the launch element and the reading of the final
  memory.
-/
import proofs.«218680_g49873160241359_cont_8to1c4_353_26_alg».proof.Proof.LaunchElem

noncomputable section

namespace Cert.KernelIdeal.Sc

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig (HIx 1) (Elt F) ℕ UU ℕ

/-- A region's record gives the region's entry rule in the form @main's account takes. -/
theorem hreg_of_seg {p : Fin 2} {rd : (p : Fin 2) → (c : Dev nD) → Pipeline.RDat τ (Elt F) (HIx 1) ℕ UU ℕ (pcs (F := F) p) c}
    (R : Pipeline.RDat.RegionSeg (pcfgs (F := F)) Tc.adm rd none defs₀ 𝒱₀ (K (F := F)).L (K (F := F)).lev p) [∀ e, Nonempty (Elt F e)]
    (d : Dev nD) (Φ : PUnit → sProp 𝕄) :
    iprop((iprop(boundary (SparseCore.T d) ∗ R.post d) -∗ Φ ⟨⟩) ∗ boundary (SparseCore.T d) ∗ R.pre d ∗ levAts (K (F := F)).L (K (F := F)).lev ∗ Gp (F := F) p d)
      ⊢ wp frame (wpE (D (F := F)) 𝒱 (SparseCore.T d) none) Set.univ (Prog.lift (.customCall (Pipeline.entry p) ())) Φ := by
  have h := Pipeline.RDat.RegionSeg.wp (pcfgs (F := F)) Tc.adm rd none phinj EP defs₀ 𝒱₀ (K (F := F)).L (K (F := F)).lev R d none (fun _ h => nomatch h) (fun x => .ret x) Φ
  unfold Gp
  iintro ⟨Hk, Hb, Hpre, Hlev, Hg, Ht⟩
  iapply h
  isplitl [Hk]
  · iintro H; rw [wp_ret]; imodintro; iapply Hk; iexact H
  isplitl [Hb]; · iexact Hb
  isplitl [Hpre]; · iexact Hpre
  isplitl [Hlev]; · iexact Hlev
  isplitl [Hg]; · iexact Hg
  iexact Ht

theorem st0_eq (d : Dev nD) : (bigSep Finset.univ fun c : Fin ((K (F := F)).nCore 0) => (P m).st 0 d c) = iprop(pts d main_arg1 (A1 m d) ∗ pts d main_v2 (m ((SparseCore.T d).loc main_v2))) :=
  bigSep_univ_of_subsingleton (0 : Fin 1)
theorem dn0_eq (d : Dev nD) : (bigSep Finset.univ fun c : Fin ((K (F := F)).nCore 0) => (P m).dn 0 d c) = iprop(pts d main_arg1 (A1 m d) ∗ pts d main_v2 (C2 m d)) :=
  bigSep_univ_of_subsingleton (0 : Fin 1)

/-- What the final memory shows: the arguments unchanged, the result. -/
def fq (d : Dev nD) (s' : Phys nD τ sig (Elt F)) : Prop :=
  s'.mem.mem ((SparseCore.T d).loc main_v5) = R5 m d ∧ s'.mem.mem ((SparseCore.T d).loc main_arg0) = A0 m d ∧ s'.mem.mem ((SparseCore.T d).loc main_arg1) = A1 m d

theorem hfin (d : Dev nD) (s' : Phys nD τ sig (Elt F)) : iprop(FIN m d ∗ SI s') ⊢ (⌜fq m d s'⌝ : sProp 𝕄) := by
  iintro ⟨⟨Ha0, Ha1, Hv5⟩, HSI⟩
  ihave H := (persistent_entails_right (SI_pointsTo_agree (st := s') (ℓ := (SparseCore.T d).loc main_arg0) (I := Finset.univ) (q := fullShare) (f := A0 m d))) $$ [HSI Ha0]
  · isplitl [HSI] <;> iassumption
  icases H with ⟨%h0, HSI, -⟩
  ihave H := (persistent_entails_right (SI_pointsTo_agree (st := s') (ℓ := (SparseCore.T d).loc main_arg1) (I := Finset.univ) (q := fullShare) (f := A1 m d))) $$ [HSI Ha1]
  · isplitl [HSI] <;> iassumption
  icases H with ⟨%h1, HSI, -⟩
  ihave H := (SI_pointsTo_agree (st := s') (ℓ := (SparseCore.T d).loc main_v5) (I := Finset.univ) (q := fullShare) (f := R5 m d)) $$ [HSI Hv5]
  · isplitl [HSI] <;> iassumption
  icases H with %h5
  ipureintro
  exact ⟨funext fun i => h5 i (Finset.mem_univ i), funext fun i => h0 i (Finset.mem_univ i), funext fun i => h1 i (Finset.mem_univ i)⟩

/-- The claim's post: the result named, the arguments unchanged. -/
def QC : PUnit × MemSt nD τ sig (Elt F) → Prop := fun r => ∀ c : Dev nD,
  r.2.mem ((c.tc : Thread nD τ).loc main_v5) = Stages.resultFn (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)

/-- The run, from the tiles' task, the operands' split and the two regions' entry rules. -/
theorem run_of [∀ e, Nonempty (Elt F e)]
    (htile : (K (F := F)).TileObl (D (F := F)) 𝒱 (P m) v₀ 0) (hvec : (K (F := F)).VecSplit' (P m) 0)
    (hreg1 : ∀ (d : Dev nD) (Φ : PUnit → sProp 𝕄),
      iprop((iprop(boundary (SparseCore.T d) ∗ (owesT d ∗ pts d main_v0 (B0 m d) ∗ pts d main_v1 (B1 m d) ∗ pts d main_v3 (S3 m d))) -∗ Φ ⟨⟩)
          ∗ boundary (SparseCore.T d) ∗ (owesT (F := F) d ∗ pts d main_v0 (B0 m d) ∗ pts d main_v1 (B1 m d) ∗ pts d main_v3 (m ((SparseCore.T d).loc main_v3)))
          ∗ levAts (K (F := F)).L (K (F := F)).lev ∗ Gp (F := F) 0 d)
        ⊢ wp frame (wpE (D (F := F)) 𝒱 (SparseCore.T d) none) Set.univ (Prog.lift (.customCall (Pipeline.entry (0 : Fin 2)) ())) Φ)
    (hreg2 : ∀ (d : Dev nD) (Φ : PUnit → sProp 𝕄),
      iprop((iprop(boundary (SparseCore.T d) ∗ (owesT d ∗ pts d main_v2 (C2 m d) ∗ pts d main_v3 (S3 m d) ∗ pts d main_v4 (R4 m d))) -∗ Φ ⟨⟩)
          ∗ boundary (SparseCore.T d) ∗ (owesT (F := F) d ∗ pts d main_v2 (C2 m d) ∗ pts d main_v3 (S3 m d) ∗ pts d main_v4 (m ((SparseCore.T d).loc main_v4)))
          ∗ levAts (K (F := F)).L (K (F := F)).lev ∗ Gp (F := F) 1 d)
        ⊢ wp frame (wpE (D (F := F)) 𝒱 (SparseCore.T d) none) Set.univ (Prog.lift (.customCall (Pipeline.entry (1 : Fin 2)) ())) Φ) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain hvec)
    m ρ main (G (F := F)) (FIN m) (u₀ (F := F)) (sep_elim_left.trans (hu₀ m))
    (fun κ d => hmain_of m ρ (P m) (Gp (F := F) 0) (Gp (F := F) 1) (st0_eq m) (dn0_eq m) hreg1 hreg2 κ d) (fq m) (hfin m) (QC m)
    (fun s' h c => ⟨(h c).1, (h c).2.1, (h c).2.2⟩)

end Cert.KernelIdeal.Sc

end
-- ==== Proof.ScBody.lean ====
/-
  One vector subcore's task, proved once at symbolic grid coordinates.

  The task on subcore s copies labels 1024·s … 1024·s+1023 into its label scratch, waits for the copy, and then
  walks them in 64 groups of sixteen lanes. It carries ten sixteen-lane accumulators, one per class c < 10:
  after k groups, lane l of accumulator c is the running count of class c among labels
  1024·s + 16·g + l, g < k — one float addition of one or zero per group, in group order, from zero. That is the
  loop's invariant; a trip reads group k's sixteen labels from the scratch (label 1024·s + 16·k + l at lane l)
  and adds, lane by lane, one where the label is the class. After the loop the task stores the ten accumulators
  as rows 0 … 9 of its 16×16 counts scratch and six zero rows below them (each store preceded by a load of the
  row whose value is not used), so the scratch, read back as ONE function of its index, is the counts function
  of the labels on rows 16·s … 16·s+15: sixteen 1×16 pieces tile the scratch, and each piece is that function's
  row. Last it copies the scratch onto those rows of the counts array and waits. The labels' slice comes back
  unchanged; the two scratches and the two semaphores come back as they were found.
-/
import proofs.«218680_g49873160241359_cont_8to1c4_353_26_alg».proof.Proof.ScSetup
import Idealize.ShloMosaic.Lib.SparseCore.Launch
import Idealize.ShloMosaic.Lib.SparseCore.Ops
import Idealize.ShloMosaic.Lib.StableHlo.Run
import Idealize.ShloMosaic.Lib.Tactic
import Idealize.ShloMosaic.Lib.Pipeline.Value
import Idealize.ShloMosaic.Lib.Ring

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)
variable (d : Dev nD) (L : grid0.Coords)

/-! ## The copy in -/

/-- The copy in overwrites the whole label scratch: what lands is what was read. -/
theorem copyIn_lands (fs : Buf (Elt F) ((V d (cV L) (jV L)).loc cc0_scratch0)) :
    (sL : Memref sig .scVector .vmem S1024 .i32).view.write (Elt F) fs ((labK L).view.read (Elt F) (m (labLoc d))) Finset.univ = (labK L).view.read (Elt F) (m (labLoc d)) :=
  View.write_whole_univ _ _ _

/-- What was read is the task's labels: place j of the slice at offset 1024·s is label 1024·s + j. -/
theorem copyIn_holds : LabHolds m d (jV L) ((labK L).view.read (Elt F) (m (labLoc d))) := by
  intro j
  refine (View.read_apply _ _).trans ((cast_eq _ _).trans ?_)
  refine congrArg (m (labLoc d)) ?_
  funext a
  match a with
  | ⟨0, _⟩ =>
    apply Fin.ext
    have hL : (L 1).val < 16 := (L 1).isLt
    have hj : (j 0).val < 1024 := (j 0).isLt
    show (k0_off1 L) 0 + 1 * (j 0).val = (1024 * (L 1).val + (j 0).val) % 16384
    rw [k0_off1_eq]
    show 1024 * (L 1).val + 1 * (j 0).val = _
    omega

/-! ## The counts as the loop carries them -/

/-- The running count of class `c` on subcore `s` after `k` groups, as a sixteen-lane vector. -/
def accLane (lab : IVec S16384 32) (s : ℕ) (c : BitVec 32) (k : ℕ) : FVec F S16 .f32 :=
  fun l => Stages.histLane (F := F) lab s (l 0).val c k

/-- The ten accumulators the loop carries. -/
abbrev Acc (F : FTy → Type) : Type :=
  FVec F S16 .f32 × FVec F S16 .f32 × FVec F S16 .f32 × FVec F S16 .f32 × FVec F S16 .f32 × FVec F S16 .f32 × FVec F S16 .f32 × FVec F S16 .f32 × FVec F S16 .f32 × FVec F S16 .f32

/-- Their values before group `k`: class c's running count in place c. -/
def accAt (lab : IVec S16384 32) (s k : ℕ) : Acc F :=
  (accLane lab s 0#32 k, accLane lab s 1#32 k, accLane lab s 2#32 k, accLane lab s 3#32 k, accLane lab s 4#32 k,
    accLane lab s 5#32 k, accLane lab s 6#32 k, accLane lab s 7#32 k, accLane lab s 8#32 k, accLane lab s 9#32 k)

theorem accAt_zero (lab : IVec S16384 32) (s : ℕ) :
    accAt (F := F) lab s 0 = (k0_pay13, k0_pay14, k0_pay15, k0_pay16, k0_pay17, k0_pay18, k0_pay19, k0_pay20, k0_pay21, k0_pay22) := rfl

theorem trips_eq : k0_t1_loop.trips = 64 := by decide +kernel

/-- One group more: the lane's count gains one where the group's label at that lane is the class. -/
theorem lane_step (lab : IVec S16384 32) (s k : ℕ) (c : BitVec 32) (a : FVec F S16 .f32) (v : IVec S16 32)
    (ha : a = accLane lab s c k)
    (hv : ∀ l : S16.Idx, v l = lab (ix1 ⟨(1024 * s + 16 * k + (l 0).val) % 16384, Nat.mod_lt _ (by decide)⟩)) :
    addf a (select (cmpi .eq v (broadcast S16 c)) (broadcast S16 (Scalar.ofBits (F := F) .f32 0x3F800000#32))
      (broadcast S16 (Scalar.ofBits (F := F) .f32 0x00000000#32))) = accLane lab s c (k + 1) := by
  subst ha
  funext l
  show FloatOps.addf (Stages.histLane (F := F) lab s (l 0).val c k)
      (Scalar.select (IntOp.cmpi .eq (v l) c) (Scalar.ofBits .f32 0x3F800000#32) (Scalar.ofBits .f32 0x00000000#32)) = _
  rw [hv l]
  rfl

theorem pay6_apply (v81 : Vec F S16 .i32) (l : S16.Idx) : k0_pay6 (F := F) v81 l = v81 l :=
  congrFun (shapeCast_self _ _) l

/-- The ten accumulators after one more group, from the group's sixteen labels. -/
theorem accAt_succ (lab : IVec S16384 32) (s k : ℕ) (v81 : Vec F S16 .i32)
    (hv : ∀ l : S16.Idx, v81 l = lab (ix1 ⟨(1024 * s + 16 * k + (l 0).val) % 16384, Nat.mod_lt _ (by decide)⟩)) :
    (k0_pay7 (accAt (F := F) lab s k).1 v81, k0_pay8 (accAt (F := F) lab s k).2.1 v81, k0_pay9 (accAt (F := F) lab s k).2.2.1 v81,
      k0_pay10 (accAt (F := F) lab s k).2.2.2.1 v81, k0_pay11 (accAt (F := F) lab s k).2.2.2.2.1 v81, k0_pay12 (accAt (F := F) lab s k).2.2.2.2.2.1 v81,
      k0_pay23 (accAt (F := F) lab s k).2.2.2.2.2.2.1 (k0_pay6 v81), k0_pay24 (accAt (F := F) lab s k).2.2.2.2.2.2.2.1 (k0_pay6 v81),
      k0_pay25 (accAt (F := F) lab s k).2.2.2.2.2.2.2.2.1 (k0_pay6 v81), k0_pay26 (accAt (F := F) lab s k).2.2.2.2.2.2.2.2.2 (k0_pay6 v81))
      = accAt lab s (k + 1) := by
  have hv' : ∀ l : S16.Idx, k0_pay6 (F := F) v81 l = lab (ix1 ⟨(1024 * s + 16 * k + (l 0).val) % 16384, Nat.mod_lt _ (by decide)⟩) :=
    fun l => (pay6_apply v81 l).trans (hv l)
  unfold accAt
  refine Prod.ext ?_ (Prod.ext ?_ (Prod.ext ?_ (Prod.ext ?_ (Prod.ext ?_ (Prod.ext ?_ (Prod.ext ?_ (Prod.ext ?_ (Prod.ext ?_ ?_))))))))
  · exact lane_step lab s k 0#32 _ (k0_pay6 v81) rfl hv'
  · exact lane_step lab s k 1#32 _ (k0_pay6 v81) rfl hv'
  · exact lane_step lab s k 2#32 _ (k0_pay6 v81) rfl hv'
  · exact lane_step lab s k 3#32 _ (k0_pay6 v81) rfl hv'
  · exact lane_step lab s k 4#32 _ (k0_pay6 v81) rfl hv'
  · exact lane_step lab s k 5#32 _ (k0_pay6 v81) rfl hv'
  · exact lane_step lab s k 6#32 _ (k0_pay6 v81) rfl hv'
  · exact lane_step lab s k 7#32 _ (k0_pay6 v81) rfl hv'
  · exact lane_step lab s k 8#32 _ (k0_pay6 v81) rfl hv'
  · exact lane_step lab s k 9#32 _ (k0_pay6 v81) rfl hv'

/-- Group `k`'s sixteen labels as the task loads them from its scratch: labels 1024·s + 16·k + l. -/
theorem load_lane (s1 : Buf (Elt F) ((V d (0 : Fin τ.nSC) (jV L)).loc cc0_scratch0)) (hs1 : LabHolds m d (jV L) s1)
    (k : Fin k0_t1_loop.trips) (l : S16.Idx) :
    (sL : Memref sig .scVector .vmem S1024 .i32).view.readAt (Elt F) (Rect.unit (s := S1024) (k0_off2 k) S16.size (k0_off2_inb k)).toLoadRect s1 l
      = m (labLoc d) (ix1 ⟨(1024 * (L 1).val + 16 * k.val + (l 0).val) % 16384, Nat.mod_lt _ (by decide)⟩) := by
  simp only [View.readAt_apply, Memref.view_whole, View.read_whole]
  rw [hs1]
  refine congrArg (m (labLoc d)) ?_
  funext a
  match a with
  | ⟨0, _⟩ =>
    apply Fin.ext
    show (1024 * (L 1).val + ((k0_off2 k) 0 + 1 * (l 0).val)) % 16384 = (1024 * (L 1).val + 16 * k.val + (l 0).val) % 16384
    rw [k0_off2_eq]
    show (1024 * (L 1).val + (16 * k.val + 1 * (l 0).val)) % 16384 = _
    omega

/-! ## The counts as the scratch and the array hold them -/

theorem countsFn_at (lab : IVec S16384 32) (j : S256x16.Idx) (s r l : ℕ) (hr : r < 16) (h0 : (j 0).val = 16 * s + r) (h1 : (j 1).val = l) :
    Stages.countsFn (F := F) lab j
      = if r < 10 then Stages.histLane lab s l (BitVec.ofNat 32 r) 64 else Scalar.ofBits .f32 0x00000000#32 := by
  have e1 : (j 0).val % 16 = r := by omega
  have e2 : (j 0).val / 16 = s := by omega
  unfold Stages.countsFn
  rw [e1, e2, h1]

/-- The counts function at row `r`, lane `x 1` of the task's sixteen rows. -/
theorem cnt_row (r : ℕ) (hr : r < 16) (inb : ∀ a, (![r, 0] : Fin 2 → ℕ) a + S1x16.size a ≤ S16x16.size a) (x : S1x16.Idx) :
    cntFn m d ((cntK L).view.emb ((Rect.unit (s := S16x16) ![r, 0] S1x16.size inb).emb x))
      = if r < 10 then Stages.histLane (F := F) (m (labLoc d)) (L 1).val (x 1).val (BitVec.ofNat 32 r) 64 else Scalar.ofBits .f32 0x00000000#32 := by
  have hx : (x 0).val < 1 := (x 0).isLt
  refine countsFn_at _ _ (L 1).val r (x 1).val hr ?_ ?_
  · show (k0_off3 L) 0 + 1 * (r + 1 * (x 0).val) = 16 * (L 1).val + r
    rw [k0_off3_eq]
    show 16 * (L 1).val + 1 * (r + 1 * (x 0).val) = _
    omega
  · show (k0_off3 L) 1 + 1 * (0 + 1 * (x 1).val) = (x 1).val
    rw [k0_off3_eq]
    show 0 + 1 * (0 + 1 * (x 1).val) = _
    omega

/-- A row of class counts, stored as a 1×16 piece, is the counts function on that row. -/
theorem piece_hist (r : ℕ) (hr : r < 10) (inb : ∀ a, (![r, 0] : Fin 2 → ℕ) a + S1x16.size a ≤ S16x16.size a) (x : S1x16.Idx) :
    shapeCast S1x16 (accLane (F := F) (m (labLoc d)) (L 1).val (BitVec.ofNat 32 r) 64) shapeCasts_S16_S1x16 x
      = cntFn m d ((cntK L).view.emb ((Rect.unit (s := S16x16) ![r, 0] S1x16.size inb).emb x)) := by
  rw [cnt_row m d L r (by omega) inb x, if_pos hr]
  exact shapeCast_addUnit_apply (n := 1) ![16] _ _ x

/-- A zero row likewise. -/
theorem piece_zero (r : ℕ) (hr : 10 ≤ r) (hr' : r < 16) (inb : ∀ a, (![r, 0] : Fin 2 → ℕ) a + S1x16.size a ≤ S16x16.size a) (x : S1x16.Idx) :
    shapeCast S1x16 (broadcast S16 (Scalar.ofBits (F := F) .f32 0x00000000#32)) shapeCasts_S16_S1x16 x
      = cntFn m d ((cntK L).view.emb ((Rect.unit (s := S16x16) ![r, 0] S1x16.size inb).emb x)) := by
  rw [cnt_row m d L r hr' inb x, if_neg (by omega)]
  exact shapeCast_addUnit_apply (n := 1) ![16] _ _ x

/-- What lands in the task's rows of the counts array: the scratch's contents, placed. -/
theorem copyOut_lands (fC : Buf (Elt F) ((V d (cV L) (jV L)).loc cc0_scratch1))
    (hfC : ∀ y : S16x16.Idx, (sC : Memref sig .scVector .vmem S16x16 .f32).view.read (Elt F) fC y = cntFn m d ((cntK L).view.emb y)) :
    ∀ i ∈ (cntK L).view.set, (cntK L).view.write (Elt F) (m (cntLoc d)) ((sC : Memref sig .scVector .vmem S16x16 .f32).view.read (Elt F) fC) Finset.univ i = cntFn m d i := by
  intro i hi
  obtain ⟨y, rfl⟩ := View.exists_emb_of_mem_set _ hi
  rw [View.write_emb_of_mem _ _ (Finset.mem_univ y)]
  exact (cast_eq _ _).trans (hfC y)

/-- Before group `k`: the label scratch at the task's labels, the accumulators the running counts after `k` groups. -/
def loopInv (s1 : Buf (Elt F) ((V d (0 : Fin τ.nSC) (jV L)).loc cc0_scratch0)) (k : Nat) (acc : Acc F) : sProp 𝕄 :=
  iprop(((sL : Memref sig .scVector .vmem S1024 .i32).view.loc (V d (cV L) (jV L)) ↦{fullShare} s1) ∗ ⌜acc = accAt (m (labLoc d)) (L 1).val k⌝)

/-- The task on vector subcore `(L 0, L 1)` of device `d`: from its two cells' kits, its part of the labels and its
    rows of the counts array (as the launch memory has them), its scratches and semaphores and what it owes, the body
    runs — the copy in and its wait, the loop at `loopInv`, sixteen loads and stores, the copy out and its wait — to
    the labels' part unchanged and its rows of the counts array at the counts function of the labels. -/
theorem tile_body (hF : (K (F := F)).Facts) (O : CellTallies nD τ sig (HIx 1)) (W : Waits sig (HIx 1)) (hO : ∀ g, O g none = 0) :
    iprop(levAts (K (F := F)).L (K (F := F)).lev ∗ (kit m (cAcell d (cV L) (jV L)) ∗ kit m (cBcell d (cV L) (jV L)))
        ∗ (labPartPts m d (jL L) ∗ cntPartPts d (jL L) (m (cntLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_hist_body L labV (Memref.isWhole_whole _) cntV (Memref.isWhole_whole _)
            sL (Memref.isWhole_whole _) sC (Memref.isWhole_whole _) cc0_scoped0 cc0_scoped1)
          fun _ => iprop((labPartPts m d (jL L) ∗ cntPartPts d (jL L) (cntFn m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_hist_body_eq_skeleton]; unfold cc0__sc_hist_body_skel
  simp only [k0_part2_eq_skeleton]; unfold k0_part2_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  unfold kit
  iintro ⟨#Hlv, ⟨⟨HstA, HatA, #HrA, HtokA⟩, ⟨HstB, HatB, #HrB, HtokB⟩⟩, ⟨Hi, Ho⟩,
    ⟨⟨%fs, Hs⟩, ⟨%fc, Hc⟩, Hbufs⟩, ⟨HsemA, HsemB, Hsems⟩, HO⟩
  imod ((Rounds.body_intro EK (kRd m) (cAcell d (cV L) (jV L))).trans inv_alloc) $$ [HsemA HstA] with ⟨%κA, #HinvA⟩
  · isplitl [HsemA] <;> iassumption
  imod ((Rounds.body_intro EK (kRd m) (cBcell d (cV L) (jV L))).trans inv_alloc) $$ [HsemB HstB] with ⟨%κB, #HinvB⟩
  · isplitl [HsemB] <;> iassumption
  -- the copy in: the task's labels read, the label scratch written
  ihave Hi' := (Entails.of_eq (pts_labK (F := F) d L _).symm) $$ Hi
  ihave Hs' := (Entails.of_eq (pts_sL (F := F) d L _).symm) $$ Hs
  iapply (Rounds.wp_copy_pointsTo 𝒱₀ EK (kRd m) (V d (cV L) (jV L)) none (q := fullShare) (fs := m (labLoc d)) (fd := fs) (κ := κA)
      (kRd_mem₀ m (by rw [cellKind_cA]; rfl)) none NA rfl (kRd_amount_cA m d _ _) ?hpayA) $$ [Hi' Hs' HtokA]
  case hpayA =>
    rw [kRd_payload_cA, pts_labK, pts_sL, copyIn_lands]
    iintro ⟨Hs, Hi⟩
    isplitl [Hs]
    · iexists _; isplitr; · ipureintro; exact copyIn_holds m d L
      iexact Hs
    · iexact Hi
  · isplitr; · iexact HinvA
    isplitl [Hi']; · iexact Hi'
    isplitl [Hs']; · iexact Hs'
    isplitl [HtokA]; · iexact HtokA
    iexact HrA
  iintro HcredA
  iapply (Rounds.wp_wait_rest_token 𝒱₀ EK (kRd m) (V d (cV L) (jV L)) none (κ := κA)
      (wpE_waitDma2_eq 𝒱₀ (V d (cV L) (jV L)) none Set.univ) (Set.mem_univ κA) none (O := O) (W := W) (R := 0) (m := 0) (T := ∅)
      (by rw [Nat.zero_add, kRd_expect m (by rw [cellKind_cA]; rfl), kRd_amount_cA])) $$ [HcredA HO HatA]
  · isplitr; · iexact HinvA
    isplitl [HcredA]; · iexact HcredA
    isplitl [HO]; · iexact HO
    isplitr; · iapply ((K (F := F)).mayWait_none (SemLoc.dma cc0_scoped0.sem) hO); iexact Hlv
    iexact HatA
  iintro ⟨HO, HatA, -, Hpay⟩
  ihave Hp := ((kRd_back m (g := cAcell d (cV L) (jV L)) (by rw [cellKind_cA]; rfl)).trans (Entails.of_eq (kRd_payload_cA m d _ _))) $$ Hpay
  icases Hp with ⟨⟨%s1, %hs1, Hs⟩, Hi⟩
  imod (Rounds.cell_close EK (kRd m) (Set.mem_univ κA) (fun h => h) (R := 0 + 1) (kRd_later m (cAcell d _ _))) $$ [HatA] with HsemA
  · isplitr; · iexact HinvA
    iexact HatA

  ihave Hs' := (Entails.of_eq (pts_sL_univ (F := F) d L _).symm) $$ Hs
  ihave Hc' := (Entails.of_eq (pts_sC_univ (F := F) d L _).symm) $$ Hc
  rw [Prog.bind_assoc]
  -- the sixty-four groups: the label scratch goes round, the accumulators are the running counts
  sl_for (loopInv m d L s1) $$ [Hs']
  case region =>
    intro k a
    unfold loopInv
    iintro ⟨Hs, %ha⟩
    subst ha
    sl_exec
    sl_step
    isplitl [Hs]; · iexact Hs
    ipureintro
    exact accAt_succ (m (labLoc d)) (L 1).val k.val _ (load_lane m d L s1 hs1 k)
  · unfold loopInv
    isplitl [Hs']; · iexact Hs'
    ipureintro; exact (accAt_zero _ _).symm
  iintro %a HI
  unfold loopInv
  icases HI with ⟨Hs, %ha⟩
  rw [show Scf.trips k0_t1_loop.lb k0_t1_loop.ub k0_t1_loop.st = 64 from trips_eq] at ha
  subst ha
  -- the sixteen rows: each loaded (the value unused) and stored
  sl_exec
  -- the copy out: the counts scratch read, the task's rows of the counts array written
  ihave Hc := (Entails.of_eq ((pts_sC_univ (F := F) d L _).trans (pts_sC (F := F) d L _).symm)) $$ Hc'
  ihave Ho' := (Entails.of_eq (pts_cntK (F := F) d L _).symm) $$ Ho
  iapply (Rounds.wp_copy_pointsTo 𝒱₀ EK (kRd m) (V d (cV L) (jV L)) none (q := fullShare) (fd := m (cntLoc d)) (κ := κB)
      (kRd_mem₀ m (by rw [cellKind_cB]; rfl)) none NB rfl (kRd_amount_cB m d _ _) ?hpayB) $$ [Hc Ho' HtokB]
  rotate_left
  · isplitr; · iexact HinvB
    isplitl [Hc]; · iexact Hc
    isplitl [Ho']; · iexact Ho'
    isplitl [HtokB]; · iexact HtokB
    iexact HrB
  case hpayB =>
    rw [kRd_payload_cB, pts_sC]
    refine (sep_mono_left (Entails.of_eq ((pointsTo_congr (copyOut_lands m d L _ ?hfC)).trans (pts_cntK (F := F) d L _)))).trans ?fin
    case hfC =>
      intro y
      refine Eq.trans (View.read_writes_apply_eq_canon _ _ y _ ?hc) ?rest
      case hc => exact View.cover_of_tiledL (s := S16x16) _ ![1, 16] (by sl_kernel_rfl) y
      case rest =>
        refine View.canon_apply_of_pieces (fun y => cntFn m d ((cntK L).view.emb y)) _ ?hp y
          (View.cover_of_tiledL (s := S16x16) _ ![1, 16] (by sl_kernel_rfl) y)
        intro p hp
        simp only [List.mem_cons, List.not_mem_nil, _root_.or_false] at hp
        rcases hp with rfl | rfl | rfl | rfl | rfl | rfl | rfl | rfl | rfl | rfl | rfl | rfl | rfl | rfl | rfl | rfl
        · exact piece_zero m d L 15 (by decide) (by decide) inb_S16x16_S1x16_15_0
        · exact piece_zero m d L 14 (by decide) (by decide) inb_S16x16_S1x16_14_0
        · exact piece_zero m d L 13 (by decide) (by decide) inb_S16x16_S1x16_13_0
        · exact piece_zero m d L 12 (by decide) (by decide) inb_S16x16_S1x16_12_0
        · exact piece_zero m d L 11 (by decide) (by decide) inb_S16x16_S1x16_11_0
        · exact piece_zero m d L 10 (by decide) (by decide) inb_S16x16_S1x16_10_0
        · exact piece_hist m d L 9 (by decide) inb_S16x16_S1x16_9_0
        · exact piece_hist m d L 8 (by decide) inb_S16x16_S1x16_8_0
        · exact piece_hist m d L 7 (by decide) inb_S16x16_S1x16_7_0
        · exact piece_hist m d L 6 (by decide) inb_S16x16_S1x16_6_0
        · exact piece_hist m d L 5 (by decide) inb_S16x16_S1x16_5_0
        · exact piece_hist m d L 4 (by decide) inb_S16x16_S1x16_4_0
        · exact piece_hist m d L 3 (by decide) inb_S16x16_S1x16_3_0
        · exact piece_hist m d L 2 (by decide) inb_S16x16_S1x16_2_0
        · exact piece_hist m d L 1 (by decide) inb_S16x16_S1x16_1_0
        · exact piece_hist m d L 0 (by decide) inb_S16x16_S1x16_0_0
    case fin =>
      iintro ⟨Ho, Hc⟩
      isplitl [Ho]; · iexact Ho
      iexists _; iexact Hc
  iintro HcredB
  iapply (Rounds.wp_wait_rest_token 𝒱₀ EK (kRd m) (V d (cV L) (jV L)) none (κ := κB)
      (wpE_waitDma2_eq 𝒱₀ (V d (cV L) (jV L)) none Set.univ) (Set.mem_univ κB) none (O := O)
      (W := insert (SemLoc.dma cc0_scoped0.sem, none) W) (R := 0) (m := 0) (T := ∅)
      (by rw [Nat.zero_add, kRd_expect m (by rw [cellKind_cB]; rfl), kRd_amount_cB]; try rfl)) $$ [HcredB HO HatB]
  · isplitr; · iexact HinvB
    isplitl [HcredB]; · iexact HcredB
    isplitl [HO]; · iexact HO
    isplitr; · iapply ((K (F := F)).mayWait_none (SemLoc.dma cc0_scoped1.sem) hO); iexact Hlv
    iexact HatB
  iintro ⟨HO, HatB, -, Hpay⟩
  ihave Hp := ((kRd_back m (g := cBcell d (cV L) (jV L)) (by rw [cellKind_cB]; rfl)).trans (Entails.of_eq (kRd_payload_cB m d _ _))) $$ Hpay
  icases Hp with ⟨Ho, ⟨%fc', Hc⟩⟩
  imod (Rounds.cell_close EK (kRd m) (Set.mem_univ κB) (fun h => h) (R := 0 + 1) (kRd_later m (cBcell d _ _))) $$ [HatB] with HsemB
  · isplitr; · iexact HinvB
    iexact HatB
  rw [wp_ret]; imodintro
  isplitl [Hi Ho]
  · isplitl [Hi]; · iexact Hi
    iexact Ho
  ihave Hs := (Entails.of_eq (pts_sL_univ (F := F) d L _)) $$ Hs
  isplitl [Hs Hc Hbufs]
  · isplitl [Hs]
    · iexists _; iexact Hs
    isplitl [Hc]
    · iexists _; iexact Hc
    · iexact Hbufs
  isplitl [HsemA HsemB Hsems]
  · isplitl [HsemA]; · iexact HsemA
    isplitl [HsemB]; · iexact HsemB
    iexact Hsems
  iexists (insert (SemLoc.dma cc0_scoped1.sem, none) (insert (SemLoc.dma cc0_scoped0.sem, none) W)); isplitr
  · ipureintro; intro p hp
    rcases Finset.mem_insert.mp hp with rfl | hp
    · exact .inr rfl
    rcases Finset.mem_insert.mp hp with rfl | hp
    · exact .inr rfl
    · exact .inl hp
  iexact HO

end Cert.KernelIdeal.Sc

end
-- ==== Proof.ScObl.lean ====
/-
  What the launch theorem asks of the vector subcores' call.

  The split: the labels whole are their sixteen parts of 1024, the counts array whole its sixteen parts of
  sixteen rows — the parts of an array along its first axis are pairwise disjoint and cover it — so the call's
  operands go out to the sixteen tasks part by part; and when every task has given its rows back holding the
  counts function of the labels, the rows together are the counts array whole at that one function, because
  every part was held at the SAME function.

  The task obligation: a task's program on vector subcore i of SparseCore c is the body at the grid coordinates
  (c, i); the body's run at symbolic coordinates, weakened to the obligation's post (a wait recorded at the
  call's own index is allowed there, none is made), is the obligation.
-/
import proofs.«218680_g49873160241359_cont_8to1c4_353_26_alg».proof.Proof.ScBody

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## A task's obligation, from the body proved at its coordinates -/

/-- The grid coordinates of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_hist_body (coordsV c s)
          labV (Memref.isWhole_whole _) cntV (Memref.isWhole_whole _)
          sL (Memref.isWhole_whole _) sC (Memref.isWhole_whole _) cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call: from its two kits, its part of the labels and its rows of the counts array, its body runs
    to the labels' part unchanged and its rows at the counts function. -/
theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-! ## How the call's operands split among the tasks -/

theorem labSet_eq (i : Fin 16) : labSet i = (labPart i).set := by
  show ((View.whole (main_arg1_scv : Ref sig .scVector)).slice (labPart i)).set = _
  rw [View.set_slice]; exact Finset.map_refl
theorem cntSet_eq (i : Fin 16) : cntSet i = (cntPart i).set := by
  show ((View.whole (main_v2_scv : Ref sig .scVector)).slice (cntPart i)).set = _
  rw [View.set_slice]; exact Finset.map_refl
theorem labs_disjoint : ∀ i ∈ (Finset.univ : Finset (Fin 16)), ∀ j ∈ (Finset.univ : Finset (Fin 16)), i ≠ j → Disjoint (labSet i) (labSet j) :=
  fun i _ j _ h => by rw [labSet_eq, labSet_eq]; exact Rect.part_disjoint hdivL h
theorem cnts_disjoint : ∀ i ∈ (Finset.univ : Finset (Fin 16)), ∀ j ∈ (Finset.univ : Finset (Fin 16)), i ≠ j → Disjoint (cntSet i) (cntSet j) :=
  fun i _ j _ h => by rw [cntSet_eq, cntSet_eq]; exact Rect.part_disjoint hdivC h
theorem labs_cover : (Finset.univ : Finset (Fin 16)).biUnion labSet = Finset.univ :=
  (Finset.biUnion_congr rfl fun i _ => labSet_eq i).trans (Rect.biUnion_part hdivL)
theorem cnts_cover : (Finset.univ : Finset (Fin 16)).biUnion cntSet = Finset.univ :=
  (Finset.biUnion_congr rfl fun i _ => cntSet_eq i).trans (Rect.biUnion_part hdivC)

/-- An array held whole is its sixteen parts held, at the same contents. -/
theorem labPts_parts (d : Dev nD) (f : Buf (Elt F) (labLoc d)) :
    (labLoc d ↦{fullShare} f : sProp 𝕄) = bigSep Finset.univ fun i : Fin 16 => labLoc d ↦[labSet i]{fullShare} f := by
  rw [← pointsTo_biUnion Finset.univ (ℓ := labLoc d) labSet labs_disjoint, labs_cover]; try rfl
theorem cntPts_parts (d : Dev nD) (f : Buf (Elt F) (cntLoc d)) :
    (cntLoc d ↦{fullShare} f : sProp 𝕄) = bigSep Finset.univ fun i : Fin 16 => cntLoc d ↦[cntSet i]{fullShare} f := by
  rw [← pointsTo_biUnion Finset.univ (ℓ := cntLoc d) cntSet cnts_disjoint, cnts_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The labels and the counts array go out as their sixteen parts; the parts come back — the counts array's at the
    counts function — and are the two arrays whole again, the counts array at the counts function. -/
theorem vecSplit : (K (F := F)).VecSplit' (P m) 0 := by
  intro d c
  show iprop(labPts m d ∗ cntPts d (m (cntLoc d))) ⊢ |={Set.univ}=> iprop(
      (bigSep Finset.univ fun i : Fin ((K (F := F)).nSub 0) =>
        iprop(labPartPts m d (Fin.cast nSub_zero i) ∗ cntPartPts d (Fin.cast nSub_zero i) (m (cntLoc d))))
      ∗ ((bigSep Finset.univ fun i : Fin ((K (F := F)).nSub 0) =>
          iprop(labPartPts m d (Fin.cast nSub_zero i) ∗ cntPartPts d (Fin.cast nSub_zero i) (cntFn m d)))
          -∗ iprop(labPts m d ∗ cntPts d (cntFn m d))))
  rw [bigSep_tasks (F := F) (fun i => iprop(labPartPts m d i ∗ cntPartPts d i (m (cntLoc d)))),
    bigSep_tasks (F := F) (fun i => iprop(labPartPts m d i ∗ cntPartPts d i (cntFn m d))), bigSep_sep', bigSep_sep']
  unfold labPts cntPts labPartPts cntPartPts
  rw [labPts_parts, cntPts_parts, cntPts_parts]
  iintro H; imodintro
  isplitl [H]; · iexact H
  iintro H; iexact H

end Cert.KernelIdeal.Sc

end
-- ==== Proof.TcBody1.lean ====
/-
  Call 1's body at its two blocks, and the obligation it owes the pipeline at every block.

  At block 0 the body zeroes its 16×8192 table, reads the block of logits and the block of labels, and stores the
  table with the block's term added: the table then holds the first accumulate over zero. At block 1 it adds the second
  block's term to what block 0 left, and stores the lane sums of the table into the 16×1 result window. A fetched
  block of a window whose blocks tile its array is the array read at "block number × block size + the
  coordinate inside": column 8192·t + j of the transposed logits and of the labels row.
-/
import proofs.«218680_g49873160241359_cont_8to1c4_353_26_alg».proof.Proof.TcData
import Idealize.ShloMosaic.Lib.Pipeline.FrameBody
import Idealize.ShloMosaic.Lib.Pipeline.Value
import Idealize.ShloMosaic.Lib.Ring

noncomputable section

namespace Cert.KernelIdeal.Tc

open Cert.KernelIdeal Cert.KernelIdeal.Gen Cert.KernelIdeal.Stages

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Facts]
open Facts₀ Facts

local notation "𝕄" => MT nD τ sig (HIx 1) (Elt F) ℕ Sc.UU ℕ

open Idealize.ShloMosaic.ValueIdx

/-- The first conditional of call 1's body: the block is the first. -/
abbrev cond1 (i : grid1.Coords) : Prop :=
  Scalar.cmpi .ne (Scalar.extui (Scalar.cmpi .eq (BitVec.ofNat 32 (i 0).val) 0#32)) 0#32 = 1#1

/-- It holds at block 0 only, -/
theorem hcond1 : ∀ t : Fin cfg1.N, cond1 (grid1.coords t) ↔ t.val = 0 :=
  (by decide +kernel : ∀ t : Fin grid1.N, cond1 (grid1.coords t) ↔ t.val = 0)
/-- and the second conditional (the block is the last) at block 1 only. -/
theorem hcond2 : ∀ t : Fin cfg1.N, k1_cond2 (grid1.coords t) = 1#1 ↔ t.val = 1 :=
  (by decide +kernel : ∀ t : Fin grid1.N, k1_cond2 (grid1.coords t) = 1#1 ↔ t.val = 1)

theorem hz2 : (![0, 0] : Fin 2 → Nat) = fun _ => 0 := funext fun a => by fin_cases a <;> rfl

/-! ## The body on any whole staging memrefs -/

set_option maxHeartbeats 1000000 in
/-- Block 0: the table is zeroed and the block's term accumulated; the three windows' buffers are left as found. -/
theorem run1A (c : Dev nD) (i : grid1.Coords) (arg1 : Memref sig .tc .vmem S9x8192 .f32) (harg1 : arg1.IsWhole)
    (arg2 : Memref sig .tc .vmem S1x8192 .i32) (harg2 : arg2.IsWhole) (arg3 : Memref sig .tc .vmem S16x1 .f32) (harg3 : arg3.IsWhole)
    (arg4 : Memref sig .tc .vmem S16x8192 .f32) (harg4 : arg4.IsWhole) (hc1 : cond1 i) (hc2 : ¬ k1_cond2 i = 1#1)
    (x0 : Vec F S9x8192 .f32) (x1 : Vec F S1x8192 .i32) (y : Vec F S16x1 .f32) (z : Vec F S16x8192 .f32) (E : Set ℕ) (K : PUnit → sProp 𝕄) :
    iprop(owns (c : Thread nD τ) arg1 fullShare x0 ∗ owns (c : Thread nD τ) arg2 fullShare x1 ∗ owns (c : Thread nD τ) arg3 fullShare y
        ∗ owns (c : Thread nD τ) arg4 fullShare z
        ∗ (iprop(owns (c : Thread nD τ) arg1 fullShare x0 ∗ owns (c : Thread nD τ) arg2 fullShare x1 ∗ owns (c : Thread nD τ) arg3 fullShare y
            ∗ owns (c : Thread nD τ) arg4 fullShare (k1_pay3 x0 x1 (k1_pay2 (F := F)))) -∗ K ⟨⟩))
      ⊢ wp frame (wpE (defs₀ (F := F)) Variants.none c none) E (cc1__tc_body i arg1 harg1 arg2 harg2 arg3 harg3 arg4 harg4) K := by
  simp only [cc1__tc_body_eq_skeleton]; unfold cc1__tc_body_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact H3
  ipureintro
  sl_unfold_run_names
  rw [View.read_writes_eq_canon _ _ _ (fun y => ⟨_, List.mem_cons_self, View.mem_set_unit_zero hz2 Gen.inb_S16x8192_S16x8192_0_0 y⟩)]
  rw [View.canon_cons_unit_zero hz2, View.readCov_unit_zero _ hz2]
  simp only [View.readAt_eq_ld, hf0, hf1, View.ld_unit_zero (S := S9x8192) hz2, View.ld_unit_zero (S := S1x8192) hz2]

set_option maxHeartbeats 1000000 in
/-- Block 1: the block's term is accumulated onto what the table held, and the table's lane sums stored into the result. -/
theorem run1B (c : Dev nD) (i : grid1.Coords) (arg1 : Memref sig .tc .vmem S9x8192 .f32) (harg1 : arg1.IsWhole)
    (arg2 : Memref sig .tc .vmem S1x8192 .i32) (harg2 : arg2.IsWhole) (arg3 : Memref sig .tc .vmem S16x1 .f32) (harg3 : arg3.IsWhole)
    (arg4 : Memref sig .tc .vmem S16x8192 .f32) (harg4 : arg4.IsWhole) (hc1 : ¬ cond1 i) (hc2 : k1_cond2 i = 1#1)
    (x0 : Vec F S9x8192 .f32) (x1 : Vec F S1x8192 .i32) (y : Vec F S16x1 .f32) (z : Vec F S16x8192 .f32) (E : Set ℕ) (K : PUnit → sProp 𝕄) :
    iprop(owns (c : Thread nD τ) arg1 fullShare x0 ∗ owns (c : Thread nD τ) arg2 fullShare x1 ∗ owns (c : Thread nD τ) arg3 fullShare y
        ∗ owns (c : Thread nD τ) arg4 fullShare z
        ∗ (iprop(owns (c : Thread nD τ) arg1 fullShare x0 ∗ owns (c : Thread nD τ) arg2 fullShare x1
            ∗ owns (c : Thread nD τ) arg3 fullShare (k1_pay1 (k1_pay3 x0 x1 z))
            ∗ owns (c : Thread nD τ) arg4 fullShare (k1_pay3 x0 x1 z)) -∗ K ⟨⟩))
      ⊢ wp frame (wpE (defs₀ (F := F)) Variants.none c none) E (cc1__tc_body i arg1 harg1 arg2 harg2 arg3 harg3 arg4 harg4) K := by
  simp only [cc1__tc_body_eq_skeleton]; unfold cc1__tc_body_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    sl_unfold_run_names
    rw [View.read_writes_eq_canon _ _ _ (fun y => ⟨_, List.mem_cons_self, View.mem_set_unit_zero hz2 Gen.inb_S16x1_S16x1_0_0 y⟩)]
    rw [View.canon_unit_zero hz2, View.readCov_unit_zero _ hz2]
    simp only [View.readAt_eq_ld, hf0, hf1, hf3, View.ld_unit_zero (S := S9x8192) hz2, View.ld_unit_zero (S := S1x8192) hz2,
      View.ld_unit_zero (S := S16x8192) hz2]
  iexists _; isplitr; swap; · iexact H3
  ipureintro
  sl_unfold_run_names
  rw [View.read_writes_eq_canon _ _ _ (fun y => ⟨_, List.mem_cons_self, View.mem_set_unit_zero hz2 Gen.inb_S16x8192_S16x8192_0_0 y⟩)]
  rw [View.canon_unit_zero hz2]
  simp only [View.readAt_eq_ld, hf0, hf1, hf3, View.ld_unit_zero (S := S9x8192) hz2, View.ld_unit_zero (S := S1x8192) hz2,
    View.ld_unit_zero (S := S16x8192) hz2]

variable (c : Dev nD) (A0 : Bf (F := F) c main_v0) (A1 : Bf (F := F) c main_v1) (S0 : Bf (F := F) c main_v3)

/-! ## The fetched blocks -/

/-- The two input windows' block numbers: row block 0, column block the point. -/
theorem idx1 : ∀ t : Fin cfg1.N, win1_0.index t (0 : Fin 2) = 0 ∧ win1_0.index t (1 : Fin 2) = t.val
    ∧ win1_1.index t (0 : Fin 2) = 0 ∧ win1_1.index t (1 : Fin 2) = t.val :=
  (by decide +kernel : ∀ t : Fin grid1.N, win1_0.index t (0 : Fin 2) = 0 ∧ win1_0.index t (1 : Fin 2) = t.val
    ∧ win1_1.index t (0 : Fin 2) = 0 ∧ win1_1.index t (1 : Fin 2) = t.val)

/-- The logits block fetched at point `t` is columns 8192·t … of the transposed logits. -/
theorem fetched1_0 (t : Fin cfg1.N) (d) : (rdat1 c A0 A1 S0).fetched 0 t d = blkLogits A0 t.val := by
  obtain ⟨e0, e1, -, -⟩ := idx1 t
  have ht : t.val < 2 := lt_of_lt_of_eq t.isLt N_1
  refine funext fun (j : S9x8192.Idx) => ?_
  show A0 (((cfg1.win 0).blk t).view.emb j) = A0 (ix2 (show Fin 9 from j 0) ⟨(8192 * t.val + (j 1).val) % 16384, Nat.mod_lt _ (by decide)⟩)
  congr 1
  funext a; apply Fin.ext
  match a with
  | ⟨0, _⟩ =>
    show win1_0.index t (0 : Fin 2) * 9 + 1 * (j 0).val = (j 0).val
    omega
  | ⟨1, _⟩ =>
    show win1_0.index t (1 : Fin 2) * 8192 + 1 * (j 1).val = (8192 * t.val + (j 1).val) % 16384
    have hj : (j 1).val < 8192 := (j 1).isLt
    omega

/-- The labels block fetched at point `t` is the same columns of the labels row. -/
theorem fetched1_1 (t : Fin cfg1.N) (d) : (rdat1 c A0 A1 S0).fetched 1 t d = blkLabels (F := F) A1 t.val := by
  obtain ⟨-, -, e0, e1⟩ := idx1 t
  have ht : t.val < 2 := lt_of_lt_of_eq t.isLt N_1
  refine funext fun (j : S1x8192.Idx) => ?_
  show A1 (((cfg1.win 1).blk t).view.emb j) = A1 (ix2 (show Fin 1 from j 0) ⟨(8192 * t.val + (j 1).val) % 16384, Nat.mod_lt _ (by decide)⟩)
  congr 1
  funext a; apply Fin.ext
  match a with
  | ⟨0, _⟩ =>
    show win1_1.index t (0 : Fin 2) * 1 + 1 * (j 0).val = (j 0).val
    omega
  | ⟨1, _⟩ =>
    show win1_1.index t (1 : Fin 2) * 8192 + 1 * (j 1).val = (8192 * t.val + (j 1).val) % 16384
    have hj : (j 1).val < 8192 := (j 1).isLt
    omega

/-! ## The obligation -/

/-- The scratch table held whole is the scratch memref owned. -/
theorem scratch_owns (f : Bf (F := F) c cc1_scratch0) :
    ((((c.tc : Thread nD τ).loc cc1_scratch0) ↦{fullShare} f : sProp 𝕄)) ⊢ owns (c : Thread nD τ) (Memref.whole cc1_scratch0) fullShare f :=
  Entails.of_eq (owns_whole (c : Thread nD τ) cc1_scratch0 fullShare f).symm
theorem owns_scratch (f : Bf (F := F) c cc1_scratch0) :
    (owns (c : Thread nD τ) (Memref.whole cc1_scratch0) fullShare f : sProp 𝕄) ⊢ (((c.tc : Thread nD τ).loc cc1_scratch0) ↦{fullShare} f) :=
  Entails.of_eq (owns_whole (c : Thread nD τ) cc1_scratch0 fullShare f)

set_option backward.isDefEq.respectTransparency.types false in
set_option maxHeartbeats 1000000 in
/-- At each block the body, handed the two fetched blocks and the result window's buffer at anything, leaves the inputs'
    buffers as found; at block 0 the table goes from anything to the first accumulate and the result's buffer is left as
    found, at block 1 the table is accumulated again and the result's buffer receives its lane sums. -/
theorem body_obligation1 : (rdat1 c A0 A1 S0).BodyObligation (defs₀ (F := F)) Sc.𝒱₀ none Set.univ := fun t Y hY => by
  rw [bigSep_W1, bigSep_W1]
  obtain ⟨d0, h0⟩ := ((rdat1 c A0 A1 S0).finds_of_fetch (fetch1_0 t) _).mp (hY 0)
  obtain ⟨d1, h1⟩ := ((rdat1 c A0 A1 S0).finds_of_fetch (fetch1_1 t) _).mp (hY 1)
  rw [fetched1_0] at h0; rw [fetched1_1] at h1
  rw [h0, h1]
  rcases fin_N1 t with rfl | rfl
  · have hc1 : cond1 (grid1.coords t1_0) := (hcond1 t1_0).mpr rfl
    have hc2 : ¬ k1_cond2 (grid1.coords t1_0) = 1#1 := fun h => absurd ((hcond2 t1_0).mp h) (show ¬ (0 : ℕ) = 1 from Nat.zero_ne_one)
    rw [show (rdat1 c A0 A1 S0).Φ t1_0.castSucc = Pipeline.scopedRest (Ix := HIx 1) (Name := ℕ) (U := Sc.UU) (Lvl := ℕ) (Val := Elt F) spec1 c from rfl,
      show (rdat1 c A0 A1 S0).Φ t1_0.succ = iprop((((c.tc : Thread nD τ).loc cc1_scratch0) ↦{fullShare} (acc0 A0 A1 : Bf (F := F) c cc1_scratch0)) ∗ rest1 c) from rfl,
      show (rdat1 c A0 A1 S0).owesAt none t1_0.succ = (rdat1 c A0 A1 S0).owesAt none t1_0.castSucc from rfl,
      scopedRest1_eq]
    iintro ⟨⟨⟨%z, Hs⟩, Hr⟩, Ho, H0, H1, H2⟩
    ihave Hs' := (scratch_owns c z) $$ Hs
    iapply (run1A c (grid1.coords t1_0) _ _ _ _ _ _ _ _ hc1 hc2 (blkLogits A0 t1_0.val) (blkLabels (F := F) A1 t1_0.val) (Y 2) z Set.univ _)
    isplitl [H0]; · iexact H0
    isplitl [H1]; · iexact H1
    isplitl [H2]; · iexact H2
    isplitl [Hs']; · iexact Hs'
    iintro ⟨H0, H1, H2, Hs⟩
    ihave Hs' := (owns_scratch c _) $$ Hs
    isplitl [Hs' Hr]
    · isplitl [Hs']; · iexact Hs'
      unfold rest1; iexact Hr
    isplitl [Ho]; · iexact Ho
    isplitl [H0]; · iexists _; isplitr; · ipureintro; rfl
                    iexact H0
    isplitl [H1]; · iexists _; isplitr; · ipureintro; rfl
                    iexact H1
    iexists _; isplitr; swap; · iexact H2
    ipureintro
    exact ⟨fun _ => rfl, fun h => absurd h Nat.zero_ne_one⟩
  · have hc1 : ¬ cond1 (grid1.coords t1_1) := fun h => absurd ((hcond1 t1_1).mp h) (show ¬ (1 : ℕ) = 0 from Nat.one_ne_zero)
    have hc2 : k1_cond2 (grid1.coords t1_1) = 1#1 := (hcond2 t1_1).mpr rfl
    rw [show (rdat1 c A0 A1 S0).Φ t1_1.succ = Pipeline.scopedRest (Ix := HIx 1) (Name := ℕ) (U := Sc.UU) (Lvl := ℕ) (Val := Elt F) spec1 c from rfl,
      show (rdat1 c A0 A1 S0).Φ t1_1.castSucc = iprop((((c.tc : Thread nD τ).loc cc1_scratch0) ↦{fullShare} (acc0 A0 A1 : Bf (F := F) c cc1_scratch0)) ∗ rest1 c) from rfl,
      show (rdat1 c A0 A1 S0).owesAt none t1_1.succ = (rdat1 c A0 A1 S0).owesAt none t1_1.castSucc from rfl,
      scopedRest1_eq]
    iintro ⟨⟨Hs, Hr⟩, Ho, H0, H1, H2⟩
    ihave Hs' := (scratch_owns c _) $$ Hs
    iapply (run1B c (grid1.coords t1_1) _ _ _ _ _ _ _ _ hc1 hc2 (blkLogits A0 t1_1.val) (blkLabels (F := F) A1 t1_1.val) (Y 2) (acc0 A0 A1) Set.univ _)
    isplitl [H0]; · iexact H0
    isplitl [H1]; · iexact H1
    isplitl [H2]; · iexact H2
    isplitl [Hs']; · iexact Hs'
    iintro ⟨H0, H1, H2, Hs⟩
    ihave Hs' := (owns_scratch c _) $$ Hs
    isplitl [Hs' Hr]
    · isplitl [Hs']; · iexists _; iexact Hs'
      unfold rest1; iexact Hr
    isplitl [Ho]; · iexact Ho
    isplitl [H0]; · iexists _; isplitr; · ipureintro; rfl
                    iexact H0
    isplitl [H1]; · iexists _; isplitr; · ipureintro; rfl
                    iexact H1
    iexists _; isplitr; swap; · iexact H2
    ipureintro
    exact ⟨fun h => absurd h Nat.one_ne_zero, fun _ => rfl⟩

end Cert.KernelIdeal.Tc

end
-- ==== Proof.TcBody2.lean ====
/-
  Call 2's body, and the obligation it owes the pipeline at its one point.

  The body reads the 16×1 column and the sixteen 16×16 row blocks of the counts, and stores the 1×1 result. A load of
  sixteen rows from row 16·b of the staged counts reads rows 16·b … 16·b+15 of the array: block b.
-/
import proofs.«218680_g49873160241359_cont_8to1c4_353_26_alg».proof.Proof.TcData
import Idealize.ShloMosaic.Lib.Pipeline.FrameBody
import Idealize.ShloMosaic.Lib.Pipeline.Value
import Idealize.ShloMosaic.Lib.Ring

noncomputable section

namespace Cert.KernelIdeal.Tc

open Cert.KernelIdeal Cert.KernelIdeal.Gen Cert.KernelIdeal.Stages

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Facts]
open Facts₀ Facts

local notation "𝕄" => MT nD τ sig (HIx 1) (Elt F) ℕ Sc.UU ℕ

open Idealize.ShloMosaic.ValueIdx

theorem hz2' : (![0, 0] : Fin 2 → Nat) = fun _ => 0 := funext fun a => by fin_cases a <;> rfl

/-- Sixteen rows loaded from row `o = 16·b` of a 256×16 array are its block `b`. -/
theorem ld_rows (X : Vec F S256x16 .f32) (o b : ℕ) (ho : o = 16 * b) (hb : b < 16)
    (inb : ∀ a, (![o, 0] : Fin 2 → ℕ) a + S16x16.size a ≤ S256x16.size a) :
    View.ld X (Rect.unit (s := S256x16) ![o, 0] S16x16.size inb) = rowsOf X b := by
  subst ho
  funext j
  show X ((Rect.unit (s := S256x16) ![16 * b, 0] S16x16.size inb).idx j) = X (ix2 ⟨(16 * b + (j 0).val) % 256, Nat.mod_lt _ (by decide)⟩ (show Fin 16 from j 1))
  congr 1
  funext a; apply Fin.ext
  match a with
  | ⟨0, _⟩ =>
    show 16 * b + 1 * (j 0).val = (16 * b + (j 0).val) % 256
    have h0 : (j 0).val < 16 := (j 0).isLt
    omega
  | ⟨1, _⟩ =>
    show 0 + 1 * (j 1).val = (j 1).val
    omega

set_option maxHeartbeats 1000000 in
/-- The body: the two inputs' buffers are left as found, the result's holds the loss of the counts and the column. -/
theorem run2 (c : Dev nD) (arg0 : Memref sig .tc .vmem S256x16 .f32) (harg0 : arg0.IsWhole)
    (arg1 : Memref sig .tc .vmem S16x1 .f32) (harg1 : arg1.IsWhole) (arg2 : Memref sig .tc .vmem S1x1 .f32) (harg2 : arg2.IsWhole)
    (x0 : Vec F S256x16 .f32) (x1 : Vec F S16x1 .f32) (y : Vec F S1x1 .f32) (E : Set ℕ) (K : PUnit → sProp 𝕄) :
    iprop(owns (c : Thread nD τ) arg0 fullShare x0 ∗ owns (c : Thread nD τ) arg1 fullShare x1 ∗ owns (c : Thread nD τ) arg2 fullShare y
        ∗ (iprop(owns (c : Thread nD τ) arg0 fullShare x0 ∗ owns (c : Thread nD τ) arg1 fullShare x1
            ∗ owns (c : Thread nD τ) arg2 fullShare (combFn x0 x1)) -∗ K ⟨⟩))
      ⊢ wp frame (wpE (defs₀ (F := F)) Variants.none c none) E (cc2__comb_body arg0 harg0 arg1 harg1 arg2 harg2) K := by
  simp only [cc2__comb_body_eq_skeleton]; unfold cc2__comb_body_skel
  unfold owns
  iintro ⟨⟨%f0, %hf0, H0⟩, ⟨%f1, %hf1, H1⟩, ⟨%f2, %hf2, H2⟩, Hk⟩
  obtain rfl := harg0.eq_unread hf0; obtain rfl := harg1.eq_unread hf1; obtain rfl := harg2.eq_unread hf2
  sl_exec
  sl_step
  iapply Hk
  isplitl [H0]
  · iexists _; isplitr; · ipureintro; exact hf0
    iexact H0
  isplitl [H1]
  · iexists _; isplitr; · ipureintro; exact hf1
    iexact H1
  iexists _; isplitr; swap; · iexact H2
  ipureintro
  sl_unfold_run_names
  rw [View.read_writes_eq_canon _ _ _ (fun y => ⟨_, List.mem_cons_self, View.mem_set_unit_zero hz2' Gen.inb_S1x1_S1x1_0_0 y⟩)]
  rw [View.canon_unit_zero hz2']
  simp only [View.readAt_eq_ld, hf0, hf1, View.ld_unit_zero (S := S16x1) hz2']
  rw [ld_rows x0 0 0 rfl (by decide),
    ld_rows x0 16 1 rfl (by decide),
    ld_rows x0 32 2 rfl (by decide),
    ld_rows x0 48 3 rfl (by decide),
    ld_rows x0 64 4 rfl (by decide),
    ld_rows x0 80 5 rfl (by decide),
    ld_rows x0 96 6 rfl (by decide),
    ld_rows x0 112 7 rfl (by decide),
    ld_rows x0 128 8 rfl (by decide),
    ld_rows x0 144 9 rfl (by decide),
    ld_rows x0 160 10 rfl (by decide),
    ld_rows x0 176 11 rfl (by decide),
    ld_rows x0 192 12 rfl (by decide),
    ld_rows x0 208 13 rfl (by decide),
    ld_rows x0 224 14 rfl (by decide),
    ld_rows x0 240 15 rfl (by decide)]
  rfl

/-! ## The obligation -/

variable (c : Dev nD) (C : Bf (F := F) c main_v2) (S : Bf (F := F) c main_v3) (R0 : Bf (F := F) c main_v4)

/-- The one block of each input window is its whole array. -/
theorem fetched2_0 (t : Fin cfg2.N) (d) : (rdat2 c C S R0).fetched 0 t d = C := by
  refine funext fun (j : S256x16.Idx) => ?_
  show C (((cfg2.win 0).blk t).view.emb j) = C j
  congr 1
  funext a; apply Fin.ext
  match a with
  | ⟨0, _⟩ =>
    show 0 * 256 + 1 * (j 0).val = (j 0).val
    omega
  | ⟨1, _⟩ =>
    show 0 * 16 + 1 * (j 1).val = (j 1).val
    omega

theorem fetched2_1 (t : Fin cfg2.N) (d) : (rdat2 c C S R0).fetched 1 t d = S := by
  refine funext fun (j : S16x1.Idx) => ?_
  show S (((cfg2.win 1).blk t).view.emb j) = S j
  congr 1
  funext a; apply Fin.ext
  match a with
  | ⟨0, _⟩ =>
    show 0 * 16 + 1 * (j 0).val = (j 0).val
    omega
  | ⟨1, _⟩ =>
    show 0 * 1 + 1 * (j 1).val = (j 1).val
    omega

set_option backward.isDefEq.respectTransparency.types false in
set_option maxHeartbeats 1000000 in
/-- At its one point the body, handed the counts and the column as fetched, leaves them and stores the result. -/
theorem body_obligation2 : (rdat2 c C S R0).BodyObligation (defs₀ (F := F)) Sc.𝒱₀ none Set.univ := fun t Y hY => by
  rw [bigSep_W2, bigSep_W2]
  obtain ⟨d0, h0⟩ := ((rdat2 c C S R0).finds_of_fetch (fetch2_0 t) _).mp (hY 0)
  obtain ⟨d1, h1⟩ := ((rdat2 c C S R0).finds_of_fetch (fetch2_1 t) _).mp (hY 1)
  rw [fetched2_0] at h0; rw [fetched2_1] at h1
  rw [h0, h1]
  obtain rfl := fin_N2 t
  rw [show (rdat2 c C S R0).Φ t2_0.succ = (rdat2 c C S R0).Φ t2_0.castSucc from rfl,
    show (rdat2 c C S R0).owesAt none t2_0.succ = (rdat2 c C S R0).owesAt none t2_0.castSucc from rfl]
  iintro ⟨HΦ, Ho, H0, H1, H2⟩
  iapply (run2 c _ _ _ _ _ _ C S (Y 2) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists _; isplitr; · ipureintro; rfl
    iexact H0
  isplitl [H1]
  · iexists _; isplitr; · ipureintro; rfl
    iexact H1
  iexists _; isplitr; swap; · iexact H2
  ipureintro
  rfl

end Cert.KernelIdeal.Tc

end
-- ==== Proof.TcRegions.lean ====
/-
  The two TensorCore calls as regions of the program, each entered from and left at plain whole-buffer facts.

  Call 1 is entered with the transposed logits, the labels row and anything in the 16×1 column, and leaves the column
  at the lane sums of the table accumulated over both blocks: only the last block writes the column back, and its
  one block is the whole column. Call 2 is entered with the counts, the column and anything in the 1×1 result, and
  leaves the result at the loss. The inputs are never written. The core enters each region owing nothing, with its
  recorded waits at levels at most 8, and leaves it so: the staging cells' own waits are recorded at level 0.
-/
import proofs.«218680_g49873160241359_cont_8to1c4_353_26_alg».proof.Proof.TcBody1
import proofs.«218680_g49873160241359_cont_8to1c4_353_26_alg».proof.Proof.TcBody2

noncomputable section

namespace Cert.KernelIdeal.Tc

open Cert.KernelIdeal Cert.KernelIdeal.Gen Cert.KernelIdeal.Stages

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Facts]
open Facts₀ Facts

local notation "𝕄" => MT nD τ sig (HIx 1) (Elt F) ℕ Sc.UU ℕ

open Idealize.ShloMosaic.ValueIdx

/-! ## What the written-back window's array ends holding -/

/-- Call 1's result window sits at block 0 on both axes at every point. -/
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

/-- After both points the column holds the lane sums: the one write-back, at the last point, overwrites all of it. -/
theorem arrAt1_2 (c : Dev nD) (a0 : Bf (F := F) c main_v0) (a1 : Bf (F := F) c main_v1) (s0 : Bf (F := F) c main_v3)
    (G : Buf (Elt F) (((Pipeline.pin (pcfgs (F := F)) adm 0).win 2).arr.view.loc (c.tc : Thread nD τ)))
    (h0 : (rdat1 c a0 a1 s0).ArrAt 2 2 G) : G = ssumFn a0 a1 := by
  have h : (rdat1 c a0 a1 s0).ArrAt 2 (t1_1.val + 1) G := h0
  have hf : ((Pipeline.pin (pcfgs (F := F)) adm 0).win 2).flush t1_1 = true := (flush1_2 t1_1).mpr rfl
  rw [RDat.ArrAt_succ, if_pos hf] at h
  obtain ⟨G₀, X, -, ⟨Y, -, hXY⟩, rfl⟩ := h
  have hX : X = ssumFn a0 a1 := hXY.2 rfl
  obtain ⟨e0, e1⟩ := idx1_2 t1_1
  refine funext fun (i : S16x1.Idx) => ?_
  have hemb : ((cfg1.win 2).blk t1_1).view.emb i = i := by
    funext a; apply Fin.ext
    match a with
    | ⟨0, _⟩ =>
      show win1_2.index t1_1 (0 : Fin 2) * 16 + 1 * (i 0).val = (i 0).val
      omega
    | ⟨1, _⟩ =>
      show win1_2.index t1_1 (1 : Fin 2) * 1 + 1 * (i 1).val = (i 1).val
      omega
  have hw := View.write_emb_of_mem (v := ((cfg1.win 2).blk t1_1).view) (Val := Elt F) G₀ ((cfg1.win 2).cut (grid1.coords t1_1) X) (Finset.mem_univ i)
  rw [hemb] at hw
  subst hX
  exact hw.trans ((cast_eq _ _).trans rfl)

/-- After its one point call 2's result holds the loss. -/
theorem arrAt2_2 (c : Dev nD) (cn : Bf (F := F) c main_v2) (ss : Bf (F := F) c main_v3) (r0 : Bf (F := F) c main_v4)
    (G : Buf (Elt F) (((Pipeline.pin (pcfgs (F := F)) adm 1).win 2).arr.view.loc (c.tc : Thread nD τ)))
    (h0 : (rdat2 c cn ss r0).ArrAt 2 1 G) : G = combFn cn ss := by
  have h : (rdat2 c cn ss r0).ArrAt 2 (t2_0.val + 1) G := h0
  have hf : ((Pipeline.pin (pcfgs (F := F)) adm 1).win 2).flush t2_0 = true := flush2_2 t2_0
  rw [RDat.ArrAt_succ, if_pos hf] at h
  obtain ⟨G₀, X, -, ⟨Y, -, hXY⟩, rfl⟩ := h
  have hX : X = combFn cn ss := hXY
  refine funext fun (i : S1x1.Idx) => ?_
  have hemb : ((cfg2.win 2).blk t2_0).view.emb i = i := by
    funext a; apply Fin.ext
    match a with
    | ⟨0, _⟩ =>
      show 0 * 1 + 1 * (i 0).val = (i 0).val
      omega
    | ⟨1, _⟩ =>
      show 0 * 1 + 1 * (i 1).val = (i 1).val
      omega
  have hw := View.write_emb_of_mem (v := ((cfg2.win 2).blk t2_0).view) (Val := Elt F) G₀ ((cfg2.win 2).cut (grid2.coords t2_0) X) (Finset.mem_univ i)
  rw [hemb] at hw
  subst hX
  exact hw.trans ((cast_eq _ _).trans rfl)

/-! ## The records -/

variable (A0 : (c : Dev nD) → Bf (F := F) c main_v0) (A1 : (c : Dev nD) → Bf (F := F) c main_v1) (S0 : (c : Dev nD) → Bf (F := F) c main_v3)
  (C : (c : Dev nD) → Bf (F := F) c main_v2) (S : (c : Dev nD) → Bf (F := F) c main_v3) (R0 : (c : Dev nD) → Bf (F := F) c main_v4)

/-- A whole buffer of the TensorCore at contents `f`. -/
abbrev pt (c : Dev nD) (b : Ref sig .tc) (f : Bf (F := F) c b) : sProp 𝕄 := ((c.tc : Thread nD τ).loc b) ↦{fullShare} f

theorem share1 (c : Dev nD) (w) : (rdats A0 A1 S0 C S R0 0 c).share w = fullShare :=
  (rdats A0 A1 S0 C S R0 0 c).share_full (fun _ => rfl) w
theorem share2 (c : Dev nD) (w) : (rdats A0 A1 S0 C S R0 1 c).share w = fullShare :=
  (rdats A0 A1 S0 C S R0 1 c).share_full (fun _ => rfl) w

/-- Call 1's arrays after the write-backs below `n`, as whole buffers held outright. -/
theorem arraysAt1_eq (c : Dev nD) (n : ℕ) :
    ((rdats A0 A1 S0 C S R0 0 c).arraysAt n : sProp 𝕄) = bigSep Finset.univ fun w =>
      iprop(∃ G, ⌜(rdats A0 A1 S0 C S R0 0 c).ArrAt w n G⌝
        ∗ (((c.tc : Thread nD τ).loc (Pipeline.arrRef (Pipeline.pin (pcfgs (F := F)) adm 0).spec w)) ↦{fullShare} G)) := by
  have harr : ∀ w, ((Pipeline.pin (pcfgs (F := F)) adm 0).win w).arr.IsWhole := launch1.arr_whole
  unfold Pipeline.RDat.arraysAt
  exact bigSep_congr fun w _ => by rw [(harr w).set_eq_univ, share1 A0 A1 S0 C S R0 c w]

/-- Call 2's likewise. -/
theorem arraysAt2_eq (c : Dev nD) (n : ℕ) :
    ((rdats A0 A1 S0 C S R0 1 c).arraysAt n : sProp 𝕄) = bigSep Finset.univ fun w =>
      iprop(∃ G, ⌜(rdats A0 A1 S0 C S R0 1 c).ArrAt w n G⌝
        ∗ (((c.tc : Thread nD τ).loc (Pipeline.arrRef (Pipeline.pin (pcfgs (F := F)) adm 1).spec w)) ↦{fullShare} G)) := by
  have harr : ∀ w, ((Pipeline.pin (pcfgs (F := F)) adm 1).win w).arr.IsWhole := launch2.arr_whole
  unfold Pipeline.RDat.arraysAt
  exact bigSep_congr fun w _ => by rw [(harr w).set_eq_univ, share2 A0 A1 S0 C S R0 c w]

/-- The staging cells' own waits are recorded at level 0. -/
theorem wbelow_of_bound (c : Dev nD) (cfg : Cfg sig Λ₀) (W : Waits sig (HIx 1))
    (hW : (↑W : Set (SemLoc sig × HIx 1)) ⊆ recB (F := F) c ∪ cfg.waitPairs none) :
    (Sc.K (F := F)).WBelow (SparseCore.T c) W 8 := fun p hp => by
  rcases hW (Finset.mem_coe.mpr hp) with h | ⟨w, s, rfl⟩
  · exact h
  · exact Nat.zero_le _

set_option backward.isDefEq.respectTransparency.types false in
/-- CALL 1 as a region: entered from the logits, the labels and anything in the column, left with the column at the
    lane sums. Nothing enters the invariant but the scoped buffers; the kernel has no semaphore of its own. -/
def seg1 : Pipeline.RDat.RegionSeg (pcfgs (F := F)) adm (rdats A0 A1 S0 C S R0) none defs₀ Sc.𝒱₀ (Sc.K (F := F)).L (Sc.K (F := F)).lev 0 where
  win := launch1.win.to₀
  block_pos := launch1.block_pos
  stage_whole := launch1.stage_whole
  K := PEmpty
  osem k := k.elim
  ho := Pipeline.OwnSemFacts.none _
  hbody c := body_obligation1 c (A0 c) (A1 c) (S0 c)
  hwaits := Pipeline.RDat.hwaits_of_owed_zero _ _ _ _ _ _ 0 fun _ _ => rfl
  pre c := iprop(owesT (F := F) c ∗ pt c main_v0 (A0 c) ∗ pt c main_v1 (A1 c) ∗ pt c main_v3 (S0 c))
  post c := iprop(owesT (F := F) c ∗ pt c main_v0 (A0 c) ∗ pt c main_v1 (A1 c) ∗ pt c main_v3 (ssumFn (A0 c) (A1 c)))
  X _ := BI.emp
  Y _ := BI.emp
  Z _ := BI.emp
  hentry c := by
    rw [Pipeline.ownSems0_none, Pipeline.RDat.arrays_eq (pcfgs (F := F)) adm (rdats A0 A1 S0 C S R0) 0 c launch1.arr_whole (share1 A0 A1 S0 C S R0 c),
      bigSep_W1]
    unfold owesT
    iintro ⟨⟨⟨%W, %hW, HO⟩, H0, H1, H2⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact fun p hp => Or.inl (hW p hp)
      iexact HO
    isplitr; · iempintro
    iempintro
  hin c := by
    rw [show (rdats A0 A1 S0 C S R0 0 c).Φ 0 = Pipeline.scopedRest (Ix := HIx 1) (Name := ℕ) (U := Sc.UU) (Lvl := ℕ) (Val := Elt F) spec1 c from rfl]
    iintro ⟨-, -, Hr⟩; iexact Hr
  hout c := by
    rw [Pipeline.ownSems0_none, show (rdats A0 A1 S0 C S R0 0 c).Φ (Fin.last _) = Pipeline.scopedRest (Ix := HIx 1) (Name := ℕ) (U := Sc.UU) (Lvl := ℕ) (Val := Elt F) spec1 c from rfl]
    iintro Hr
    isplitr; · iempintro
    isplitr; · iempintro
    iexact Hr
  hexit c := by
    rw [arraysAt1_eq A0 A1 S0 C S R0 c, bigSep_W1]
    unfold owesT
    iintro ⟨⟨⟨%G0, %hG0, H0⟩, ⟨%G1, %hG1, H1⟩, ⟨%G2, %hG2, H2⟩⟩, HO, -, -⟩
    have e0 : G0 = A0 c := by rw [(rdats A0 A1 S0 C S R0 0 c).ArrAt_in 0 rfl] at hG0; exact hG0
    have e1 : G1 = A1 c := by rw [(rdats A0 A1 S0 C S R0 0 c).ArrAt_in 1 rfl] at hG1; exact hG1
    have e2 : G2 = ssumFn (A0 c) (A1 c) := arrAt1_2 c (A0 c) (A1 c) (S0 c) G2 hG2
    subst e0 e1 e2
    imodintro
    isplitl [HO]
    · unfold Pipeline.RDat.owesAt Pipeline.owesWithin
      icases HO with ⟨%W, %hW, HO⟩
      iexists W; isplitr; · ipureintro; exact wbelow_of_bound c _ W hW
      iexact HO
    isplitl [H0]; · iexact H0
    isplitl [H1]; · iexact H1
    iexact H2

set_option backward.isDefEq.respectTransparency.types false in
/-- CALL 2 as a region: entered from the counts, the column and anything in the result, left with the result at the loss. -/
def seg2 : Pipeline.RDat.RegionSeg (pcfgs (F := F)) adm (rdats A0 A1 S0 C S R0) none defs₀ Sc.𝒱₀ (Sc.K (F := F)).L (Sc.K (F := F)).lev 1 where
  win := launch2.win.to₀
  block_pos := launch2.block_pos
  stage_whole := launch2.stage_whole
  K := PEmpty
  osem k := k.elim
  ho := Pipeline.OwnSemFacts.none _
  hbody c := body_obligation2 c (C c) (S c) (R0 c)
  hwaits := Pipeline.RDat.hwaits_of_owed_zero _ _ _ _ _ _ 1 fun _ _ => rfl
  pre c := iprop(owesT (F := F) c ∗ pt c main_v2 (C c) ∗ pt c main_v3 (S c) ∗ pt c main_v4 (R0 c))
  post c := iprop(owesT (F := F) c ∗ pt c main_v2 (C c) ∗ pt c main_v3 (S c) ∗ pt c main_v4 (combFn (C c) (S c)))
  X _ := BI.emp
  Y _ := BI.emp
  Z _ := BI.emp
  hentry c := by
    rw [Pipeline.ownSems0_none, Pipeline.RDat.arrays_eq (pcfgs (F := F)) adm (rdats A0 A1 S0 C S R0) 1 c launch2.arr_whole (share2 A0 A1 S0 C S R0 c),
      bigSep_W2]
    unfold owesT
    iintro ⟨⟨⟨%W, %hW, HO⟩, H0, H1, H2⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact fun p hp => Or.inl (hW p hp)
      iexact HO
    isplitr; · iempintro
    iempintro
  hin c := by
    rw [show (rdats A0 A1 S0 C S R0 1 c).Φ 0 = Pipeline.scopedRest (Ix := HIx 1) (Name := ℕ) (U := Sc.UU) (Lvl := ℕ) (Val := Elt F) spec2 c from rfl]
    iintro ⟨-, -, Hr⟩; iexact Hr
  hout c := by
    rw [Pipeline.ownSems0_none, show (rdats A0 A1 S0 C S R0 1 c).Φ (Fin.last _) = Pipeline.scopedRest (Ix := HIx 1) (Name := ℕ) (U := Sc.UU) (Lvl := ℕ) (Val := Elt F) spec2 c from rfl]
    iintro Hr
    isplitr; · iempintro
    isplitr; · iempintro
    iexact Hr
  hexit c := by
    rw [arraysAt2_eq A0 A1 S0 C S R0 c, bigSep_W2]
    unfold owesT
    iintro ⟨⟨⟨%G0, %hG0, H0⟩, ⟨%G1, %hG1, H1⟩, ⟨%G2, %hG2, H2⟩⟩, HO, -, -⟩
    have e0 : G0 = C c := by rw [(rdats A0 A1 S0 C S R0 1 c).ArrAt_in 0 rfl] at hG0; exact hG0
    have e1 : G1 = S c := by rw [(rdats A0 A1 S0 C S R0 1 c).ArrAt_in 1 rfl] at hG1; exact hG1
    have e2 : G2 = combFn (C c) (S c) := arrAt2_2 c (C c) (S c) (R0 c) G2 hG2
    subst e0 e1 e2
    imodintro
    isplitl [HO]
    · unfold Pipeline.RDat.owesAt Pipeline.owesWithin
      icases HO with ⟨%W, %hW, HO⟩
      iexists W; isplitr; · ipureintro; exact wbelow_of_bound c _ W hW
      iexact HO
    isplitl [H0]; · iexact H0
    isplitl [H1]; · iexact H1
    iexact H2

end Cert.KernelIdeal.Tc

end
-- ==== Proof.LaunchFinal.lean ====
/-
  The program's run with everything discharged: the tiles' task and the operands' split, and the two TensorCore
  regions' records turned into their entry rules, handed to the launch.
-/
import proofs.«218680_g49873160241359_cont_8to1c4_353_26_alg».proof.Proof.LaunchRun
import proofs.«218680_g49873160241359_cont_8to1c4_353_26_alg».proof.Proof.ScObl
import proofs.«218680_g49873160241359_cont_8to1c4_353_26_alg».proof.Proof.TcRegions

noncomputable section

namespace Cert.KernelIdeal.Sc

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-- Every weakly fair execution of the device's threads terminates, nothing faulting; the final memory holds the
    scalar result at `Stages.resultFn` of the two argument arrays, and the arguments unchanged. -/
theorem run [∀ e, Nonempty (Elt F e)] :
    θ_run (Cert.KernelIdeal.defs (F := F)) (Cert.KernelIdeal.threads (F := F)) ⟨m, fun _ => 0, ρ⟩ (QC m) :=
  run_of m ρ (tileObl m facts) (vecSplit m)
    (fun d Φ => hreg_of_seg (Tc.seg1 (fun c => B0 m c) (fun c => B1 m c) (fun c => m ((SparseCore.T c).loc main_v3)) (fun c => C2 m c) (fun c => S3 m c) (fun c => m ((SparseCore.T c).loc main_v4))) d Φ)
    (fun d Φ => hreg_of_seg (Tc.seg2 (fun c => B0 m c) (fun c => B1 m c) (fun c => m ((SparseCore.T c).loc main_v3)) (fun c => C2 m c) (fun c => S3 m c) (fun c => m ((SparseCore.T c).loc main_v4))) d Φ)

end Cert.KernelIdeal.Sc

end
-- ==== Proof.Bits.ScAlg.lean ====
/-
  The kernel's program as the SparseCore launch theorem reads it, and the ghost-state algebra of its proof:
  three independent copies of the rounds algebra — the four launch handshakes' (rounds indexed by ℕ), the vector
  subcores' own two DMA semaphores' (one round each), and the TensorCore calls' staging semaphores' — side by side
  in one product, each reached through its own embedding.
-/
import proofs.«218680_g49873160241359_cont_8to1c4_353_26_alg».proof.Defs
import proofs.«218680_g49873160241359_cont_8to1c4_353_26_alg».proof.Proof.Gen.Kernel
import proofs.«218680_g49873160241359_cont_8to1c4_353_26_alg».proof.Proof.Gen.Kernel.Skeleton
import proofs.«218680_g49873160241359_cont_8to1c4_353_26_alg».proof.Proof.Gen.Kernel.Launch
import Idealize.ShloMosaic.Lib.SparseCore.Launch
import Idealize.ShloMosaic.Lib.StableHlo.Run
import Idealize.ShloMosaic.Lib.Tactic

noncomputable section

namespace Cert.Kernel.Sc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UK : Type := URounds (GSem nD τ sig) Unit
abbrev UP : Type := URounds (GSem nD τ sig) Unit
abbrev UU : Type := UH × (UK × UP)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EK : Emb UK (MT nD τ sig (HIx 1) (Elt F) ℕ UU ℕ) :=
  ((Emb.inl : Emb UK (UK × UP)).trans (Emb.inr : Emb (UK × UP) UU)).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inr : Emb UP (UK × UP)).trans (Emb.inr : Emb (UK × UP) UU)).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EK_landsIn : (EK : Emb UK 𝕄).LandsIn (upEmb : UEmb _ 𝕄) := by unfold EK; infer_instance
instance EP_landsIn : (EP : Emb UP 𝕄).LandsIn (upEmb : UEmb _ 𝕄) := by unfold EP; infer_instance

end Cert.Kernel.Sc

end
-- ==== Proof.Bits.Stages.lean ====
/-
  What each stage of the kernel's program leaves, as explicit functions of the argument arrays, for any
  float instance.

  The program is three stages and a final reshape. The vector subcores count labels: subcore `s`
  takes labels 1024·s … 1024·s+1023 in 64 groups of 16 lanes and keeps, per class c < 10 and lane l, a running
  count (one float addition of 1 or 0 per group, in group order); block s of the 256×16 counts array is
  those ten rows followed by six zero rows. The first TensorCore call accumulates, over two blocks of 8192
  columns, the 16×8192 table (class r == label j) · log(prob j + ε) and sums its lanes into a 16×1 column. The
  second adds the sixteen 16×16 count blocks, sums lanes, and turns counts and the column into the loss.
-/
import proofs.«218680_g49873160241359_cont_8to1c4_353_26_alg».proof.Proof.Gen.Kernel.Skeleton
import Idealize.ShloMosaic.Lib.ValueIdx

noncomputable section

namespace Cert.Kernel.Stages

open Cert.Kernel Cert.Kernel.Gen Idealize.ShloMosaic Idealize.ShloMosaic.ValueIdx

variable {F : FTy → Type} [FloatOps F] [Facts]
open Facts₀ Facts

/-- Lane `l` of subcore `s`'s running count of class `c` after `k` groups of sixteen labels: one float
    addition of one or zero per group, in group order, from zero. -/
def histLane (lab : IVec S16384 32) (s l : ℕ) (c : BitVec 32) : ℕ → F .f32
  | 0 => Scalar.ofBits .f32 0x00000000#32
  | k + 1 => FloatOps.addf (histLane lab s l c k)
      (Scalar.select (IntOp.cmpi .eq (lab (ix1 ⟨(1024 * s + 16 * k + l) % 16384, Nat.mod_lt _ (by decide)⟩)) c)
        (Scalar.ofBits .f32 0x3F800000#32) (Scalar.ofBits .f32 0x00000000#32))

/-- The 256×16 counts array the subcores leave: row 16·s + c, lane l, is subcore s's count of class c at lane l
    after all 64 groups when c < 10, and zero for the six padding rows. -/
def countsFn (lab : IVec S16384 32) : FVec F S256x16 .f32 := fun j =>
  if (j 0).val % 16 < 10 then histLane lab ((j 0).val / 16) (j 1).val (BitVec.ofNat 32 ((j 0).val % 16)) 64
  else Scalar.ofBits .f32 0x00000000#32

/-- Columns 8192·t … 8192·t+8191 of the transposed logits: the block grid point `t` reads. -/
def blkLogits (lt : FVec F S9x16384 .f32) (t : ℕ) : Vec F S9x8192 .f32 := fun j =>
  lt (ix2 (show Fin 9 from j 0) ⟨(8192 * t + (j 1).val) % 16384, Nat.mod_lt _ (by decide)⟩)

/-- The same columns of the labels row. -/
def blkLabels (l2 : IVec S1x16384 32) (t : ℕ) : Vec F S1x8192 .i32 := fun j =>
  l2 (ix2 (show Fin 1 from j 0) ⟨(8192 * t + (j 1).val) % 16384, Nat.mod_lt _ (by decide)⟩)

/-- The 16×1 column the first TensorCore call leaves: the lane sums of the table accumulated over block 0 then
    block 1, from zero. -/
def ssumFn (lt : FVec F S9x16384 .f32) (l2 : IVec S1x16384 32) : FVec F S16x1 .f32 :=
  k1_pay1 (k1_pay3 (blkLogits lt 1) (blkLabels (F := F) l2 1) (k1_pay3 (blkLogits lt 0) (blkLabels (F := F) l2 0) (k1_pay2 (F := F))))

/-- Rows 16·b … 16·b+15 of the counts array: subcore b's block. -/
def rowsOf (cnt : FVec F S256x16 .f32) (b : ℕ) : Vec F S16x16 .f32 := fun j =>
  cnt (ix2 ⟨(16 * b + (j 0).val) % 256, Nat.mod_lt _ (by decide)⟩ (show Fin 16 from j 1))

/-- The 1×1 result of the second TensorCore call, from the counts array and the column. -/
def combFn (cnt : FVec F S256x16 .f32) (ss : FVec F S16x1 .f32) : FVec F S1x1 .f32 :=
  k2_pay1 (k2_pay4 (k2_pay2 ss)
    (k2_pay3 (rowsOf cnt 0) (rowsOf cnt 1) (rowsOf cnt 2) (rowsOf cnt 3) (rowsOf cnt 4) (rowsOf cnt 5) (rowsOf cnt 6)
      (rowsOf cnt 7) (rowsOf cnt 8) (rowsOf cnt 9) (rowsOf cnt 10))
    (rowsOf cnt 11) (rowsOf cnt 12) (rowsOf cnt 13) (rowsOf cnt 14) (rowsOf cnt 15))

/-- The program's scalar result from its two arguments. -/
def resultFn (x : FVec F S16384x9 .f32) (lab : IVec S16384 32) : FVec F S_ .f32 :=
  shapeCast S_ (combFn (countsFn lab)
    (ssumFn (transpose S9x16384 [1, 0] x Facts₀.transposes_S16384x9_S9x16384_1_0) (shapeCast S1x16384 lab Facts₀.shapeCasts_S16384_S1x16384)))
    Facts₀.shapeCasts_S1x1_S_

end Cert.Kernel.Stages

end
-- ==== Proof.Bits.ScSetup.lean ====
/-
  The vector subcores' side of the launch, set up.

  Sixteen vector subcores of SparseCore 0 each take one sixteenth of the labels — subcore i the 1024 labels
  1024·i … 1024·i+1023 — and own one sixteenth of the 256×16 counts array — rows 16·i … 16·i+15. The two
  families of slices are the sixteen parts of each array along its first axis, so they are pairwise disjoint
  and cover it. Each subcore completes its two copies (labels in, counts out) on two DMA semaphores of its
  own; each semaphore is a cell with ONE round of ONE duty, whose payload says what the landed copy hands back:
  for the copy in, the label scratch holding exactly the subcore's labels (as a pure fact, index by index) and
  the labels' slice; for the copy out, the subcore's sixteen rows of the counts array holding the counts
  function of the labels, and the counts scratch at some contents.

  What the handshakes carry: the call takes the labels whole and the counts array whole (as the launch memory
  has it), each task its two slices; a task gives back the labels' slice unchanged and its rows at the counts
  function, the call the labels whole and the counts array whole at the counts function.
-/
import proofs.«218680_g49873160241359_cont_8to1c4_353_26_alg».proof.Proof.Bits.ScAlg
import proofs.«218680_g49873160241359_cont_8to1c4_353_26_alg».proof.Proof.Bits.Stages
import Idealize.ShloMosaic.Lib.SparseCore.Launch
import Idealize.ShloMosaic.Lib.StableHlo.Run
import Idealize.ShloMosaic.Lib.Tactic

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The launch memory, the arrays and the scratches -/

variable (m : (ℓ : Loc nD τ sig) → Buf (Elt F) ℓ)

/-- The labels (an argument) and the counts array (the subcores' result), as locations of device `d`. -/
abbrev labLoc (d : Dev nD) : Loc nD τ sig := (SparseCore.T d).loc main_arg1
abbrev cntLoc (d : Dev nD) : Loc nD τ sig := (SparseCore.T d).loc main_v2

abbrev labV : Memref sig .scVector .hbm S16384 .i32 := Memref.whole main_arg1_scv
abbrev cntV : Memref sig .scVector .hbm S256x16 .f32 := Memref.whole main_v2_scv
/-- A task's scratches: its 1024 labels, its sixteen rows of counts. -/
abbrev sL : Memref sig .scVector .vmem S1024 .i32 := Memref.whole cc0_scratch0
abbrev sC : Memref sig .scVector .vmem S16x16 .f32 := Memref.whole cc0_scratch1

/-- The counts array every subcore's rows are read off: the counts function of the launch memory's labels. -/
abbrev cntFn (d : Dev nD) : Buf (Elt F) (cntLoc d) := Stages.countsFn (F := F) (m (labLoc d))

theorem hdivL : 16 ∣ S16384.size 0 := ⟨1024, rfl⟩
theorem hdivC : 16 ∣ S256x16.size 0 := ⟨16, rfl⟩
/-- Part `i` of sixteen of the labels (1024 of them) and of the counts array (sixteen rows). -/
abbrev labPart (i : Fin 16) : Rect S16384 := Rect.part (s := S16384) (a₀ := 0) hdivL i
abbrev cntPart (i : Fin 16) : Rect S256x16 := Rect.part (s := S256x16) (a₀ := 0) hdivC i
abbrev labSet (i : Fin 16) : Finset S16384.Idx := ((labV : Memref sig .scVector .hbm S16384 .i32).view.slice (labPart i)).set
abbrev cntSet (i : Fin 16) : Finset S256x16.Idx := ((cntV : Memref sig .scVector .hbm S256x16 .f32).view.slice (cntPart i)).set

/-- What task `i`'s label scratch holds after its copy in: label 1024·i + j at place j. -/
def LabHolds (d : Dev nD) (i : Fin τ.nSub) (s : Buf (Elt F) ((V d (0 : Fin τ.nSC) i).loc cc0_scratch0)) : Prop :=
  ∀ j : S1024.Idx, s j = m (labLoc d) (ix1 ⟨(1024 * i.val + (j 0).val) % 16384, Nat.mod_lt _ (by decide)⟩)

/-! ## The kernel's cells -/

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

abbrev NA : ℕ := (sL : Memref sig .scVector .vmem S1024 .i32).view.dmaCredit
abbrev NB : ℕ := sig.dmaCredit .scVector (Kind.scVector.table .hbm) (main_v2_scv : Ref sig .scVector).idx S16x16 .f32
theorem NA_pos : 0 < NA := View.dmaCredit_pos _ (by decide)
theorem NB_pos : 0 < NB := sig.dmaCredit_pos _ _ _ _ _ (by decide)

inductive CellKind | cA | cB
  deriving DecidableEq

def cellKind (g : GSem nD τ sig) : Option CellKind :=
  match g with
  | ((_, .scVector _ _), sm) =>
      if sm = .dma cc0_scoped0.sem then some .cA else if sm = .dma cc0_scoped1.sem then some .cB else none
  | _ => none

@[simp] theorem cellKind_cA (d : Dev nD) (c : Fin τ.nSC) (i : Fin τ.nSub) : cellKind (cAcell d c i) = some .cA := by simp [cellKind]
@[simp] theorem cellKind_cB (d : Dev nD) (c : Fin τ.nSC) (i : Fin τ.nSub) : cellKind (cBcell d c i) = some .cB := by
  simp [cellKind, show (cc0_scoped1.sem : DmaSem sig) ≠ cc0_scoped0.sem from by decide]

/-- What a landing hands back: the copy in's, the label scratch at the task's labels (`LabHolds`) and the labels'
    slice back; the copy out's, the task's rows of the counts array at the counts function and the counts scratch at
    some contents. -/
def kPay (g : GSem nD τ sig) : sProp 𝕄 :=
  match g with
  | ((d, .scVector c i), sm) =>
      if sm = .dma cc0_scoped0.sem then
        iprop((∃ s, ⌜LabHolds m d i s⌝ ∗ (V d c i).loc cc0_scratch0 ↦{fullShare} s) ∗ labLoc d ↦[labSet i]{fullShare} m (labLoc d))
      else iprop((cntLoc d ↦[cntSet i]{fullShare} cntFn m d) ∗ ∃ f, (V d c i).loc cc0_scratch1 ↦{fullShare} f)
  | _ => iprop(emp)

def kRd : Rounds.Schedule (GSem nD τ sig) Unit 𝕄 where
  duties g r := if (cellKind g).isSome ∧ r = 0 then {()} else ∅
  amount g _ _ := match cellKind g with | some .cA => NA | _ => NB
  payload g _ _ := kPay m g
  amount_pos g _ _ _ := by
    rcases cellKind g with _ | ⟨_ | _⟩
    · exact NB_pos
    · exact NA_pos
    · exact NB_pos

instance kRd_payload_storable (g : GSem nD τ sig) (r : ℕ) (u : Unit) : BI.Storable (upEmb : UEmb _ 𝕄) ((kRd (F := F) m).payload g r u) := by
  show BI.Storable upEmb (kPay m g)
  unfold kPay
  rcases g with ⟨⟨d, _ | c | ⟨c, i⟩⟩, sm⟩ <;> dsimp only <;> (repeat' split) <;> infer_instance

theorem kRd_duties₀ {g : GSem nD τ sig} (h : (cellKind g).isSome) : (kRd (F := F) m).duties g 0 = {()} := if_pos ⟨h, rfl⟩
theorem kRd_mem₀ {g : GSem nD τ sig} (h : (cellKind g).isSome) : () ∈ (kRd (F := F) m).duties g 0 := by
  rw [kRd_duties₀ m h]; exact Finset.mem_singleton_self _
theorem kRd_later (g : GSem nD τ sig) : ∀ r, 0 + 1 ≤ r → (kRd (F := F) m).duties g r = ∅ :=
  fun r hr => if_neg fun ⟨_, h⟩ => by omega
theorem kRd_back {g : GSem nD τ sig} (h : (cellKind g).isSome) :
    bigSep ((kRd (F := F) m).duties g 0 \ ∅) (fun u => (kRd (F := F) m).payload g 0 u) ⊢ (kRd (F := F) m).payload g 0 () := by
  rw [Finset.sdiff_empty, kRd_duties₀ m h, bigSep_singleton]
theorem kRd_expect {g : GSem nD τ sig} (h : (cellKind g).isSome) : (kRd (F := F) m).expect g 0 = (kRd (F := F) m).amount g 0 () := by
  unfold Rounds.Schedule.expect; rw [kRd_duties₀ m h]; exact Finset.sum_singleton _ _
theorem kRd_amount_cA (d : Dev nD) (c : Fin τ.nSC) (i : Fin τ.nSub) : (kRd (F := F) m).amount (cAcell d c i) 0 () = NA := by simp [kRd]
theorem kRd_amount_cB (d : Dev nD) (c : Fin τ.nSC) (i : Fin τ.nSub) : (kRd (F := F) m).amount (cBcell d c i) 0 () = NB := by simp [kRd]
theorem kRd_payload_cA (d : Dev nD) (c : Fin τ.nSC) (i : Fin τ.nSub) :
    (kRd (F := F) m).payload (cAcell d c i) 0 ()
      = iprop((∃ s, ⌜LabHolds m d i s⌝ ∗ (V d c i).loc cc0_scratch0 ↦{fullShare} s) ∗ labLoc d ↦[labSet i]{fullShare} m (labLoc d)) := by
  show kPay m (cAcell d c i) = _; unfold kPay; exact if_pos rfl
theorem kRd_payload_cB (d : Dev nD) (c : Fin τ.nSC) (i : Fin τ.nSub) :
    (kRd (F := F) m).payload (cBcell d c i) 0 ()
      = iprop((cntLoc d ↦[cntSet i]{fullShare} cntFn m d) ∗ ∃ f, (V d c i).loc cc0_scratch1 ↦{fullShare} f) := by
  show kPay m (cBcell d c i) = _; unfold kPay; exact if_neg (by decide)

/-- A cell as the launch funds it: its round state, at position zero of round zero, the round reached, its one duty's
    token. -/
def kit (g : GSem nD τ sig) : sProp 𝕄 :=
  iprop(roundState EK (kRd m) g 0 ∗ atPos EK g 0 ∅ 0 ∗ reached EK g 0 ∗ dutyTok EK g 0 ())

/-! ## What the handshakes carry -/

abbrev labPts (d : Dev nD) : sProp 𝕄 := labLoc d ↦{fullShare} m (labLoc d)
abbrev cntPts (d : Dev nD) (f : Buf (Elt F) (cntLoc d)) : sProp 𝕄 := cntLoc d ↦{fullShare} f
abbrev labPartPts (d : Dev nD) (i : Fin 16) : sProp 𝕄 := labLoc d ↦[labSet i]{fullShare} m (labLoc d)
abbrev cntPartPts (d : Dev nD) (i : Fin 16) (f : Buf (Elt F) (cntLoc d)) : sProp 𝕄 := cntLoc d ↦[cntSet i]{fullShare} f

/-- The one call takes the labels and the counts array whole, each task part `i` of both, and brings them back, the
    counts array at the counts function of the labels. -/
def P : (K (F := F)).Pay (nD := nD) (Val := Elt F) (Name := ℕ) (U := UU) where
  st := fun q d _ => match q with | 0 => iprop(labPts m d ∗ cntPts d (m (cntLoc d)))
  dn := fun q d _ => match q with | 0 => iprop(labPts m d ∗ cntPts d (cntFn m d))
  go := fun q d _ i => match q with
    | 0 => iprop(labPartPts m d (Fin.cast nSub_zero i) ∗ cntPartPts d (Fin.cast nSub_zero i) (m (cntLoc d)))
  td := fun q d _ i => match q with
    | 0 => iprop(labPartPts m d (Fin.cast nSub_zero i) ∗ cntPartPts d (Fin.cast nSub_zero i) (cntFn m d))
  x := fun q thr => match q, thr with
    | 0, (d, .scVector c i) => iprop(kit m (cAcell d c i) ∗ kit m (cBcell d c i))
    | _, _ => iprop(emp)

theorem P_st (d : Dev nD) (c : Fin ((K (F := F)).nCore 0)) : (P m).st 0 d c = iprop(labPts m d ∗ cntPts d (m (cntLoc d))) := rfl
theorem P_dn (d : Dev nD) (c : Fin ((K (F := F)).nCore 0)) : (P m).dn 0 d c = iprop(labPts m d ∗ cntPts d (cntFn m d)) := rfl
theorem P_go (d : Dev nD) (c : Fin ((K (F := F)).nCore 0)) (i : Fin ((K (F := F)).nSub 0)) :
    (P m).go 0 d c i = iprop(labPartPts m d (Fin.cast nSub_zero i) ∗ cntPartPts d (Fin.cast nSub_zero i) (m (cntLoc d))) := rfl
theorem P_td (d : Dev nD) (c : Fin ((K (F := F)).nCore 0)) (i : Fin ((K (F := F)).nSub 0)) :
    (P m).td 0 d c i = iprop(labPartPts m d (Fin.cast nSub_zero i) ∗ cntPartPts d (Fin.cast nSub_zero i) (cntFn m d)) := rfl
theorem P_x_V (d : Dev nD) (c : Fin τ.nSC) (i : Fin τ.nSub) : (P m).x 0 (V d c i) = iprop(kit m (cAcell d c i) ∗ kit m (cBcell d c i)) := rfl

instance P_storable : (P (F := F) m).IsStorable where
  st q d _ := match q with
    | 0 => (inferInstance : BI.Storable (upEmb : UEmb _ 𝕄) iprop(labPts m d ∗ cntPts d (m (cntLoc d))))
  dn q d _ := match q with
    | 0 => (inferInstance : BI.Storable (upEmb : UEmb _ 𝕄) iprop(labPts m d ∗ cntPts d (cntFn m d)))
  go q d _ i := match q with
    | 0 => (inferInstance : BI.Storable (upEmb : UEmb _ 𝕄)
        iprop(labPartPts m d (Fin.cast nSub_zero i) ∗ cntPartPts d (Fin.cast nSub_zero i) (m (cntLoc d))))
  td q d _ i := match q with
    | 0 => (inferInstance : BI.Storable (upEmb : UEmb _ 𝕄)
        iprop(labPartPts m d (Fin.cast nSub_zero i) ∗ cntPartPts d (Fin.cast nSub_zero i) (cntFn m d)))

/-! ## A task's own spelling of its slices, scratches and cells -/

section Tile

variable (d : Dev nD) (L : grid0.Coords)

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

/-- The task's labels and rows as its program slices them: at the offsets it computes from its coordinates. -/
abbrev labRectK (L : grid0.Coords) : Rect S16384 := Rect.unit (s := S16384) (k0_off1 L) S1024.size (k0_off1_inb L)
abbrev cntRectK (L : grid0.Coords) : Rect S256x16 := Rect.unit (s := S256x16) (k0_off3 L) S16x16.size (k0_off3_inb L)
abbrev labK (L : grid0.Coords) : Memref sig .scVector .hbm S1024 .i32 := (labV : Memref sig .scVector .hbm S16384 .i32).slice (labRectK L) (fun _ => rfl)
abbrev cntK (L : grid0.Coords) : Memref sig .scVector .hbm S16x16 .f32 := (cntV : Memref sig .scVector .hbm S256x16 .f32).slice (cntRectK L) (fun _ => rfl)

/-- The offsets the task computes are those of part `L 1` of sixteen. -/
theorem labRectK_eq : labRectK L = labPart (jL L) := by
  unfold labRectK labPart Rect.part Rect.block
  congr 1 <;> funext a
  · rw [k0_off1_eq]
    match a with
    | 0 => simp [Shape.partIx, Shape.partSize]; try omega
  · match a with
    | 0 => simp [Shape.partSize]
theorem cntRectK_eq : cntRectK L = cntPart (jL L) := by
  unfold cntRectK cntPart Rect.part Rect.block
  congr 1 <;> funext a
  · rw [k0_off3_eq]
    match a with
    | 0 => simp [Shape.partIx, Shape.partSize]; try omega
    | 1 => simp [Shape.partIx, Shape.partSize]
  · match a with
    | 0 => simp [Shape.partSize]
    | 1 => simp [Shape.partSize]

theorem set_labK : (labK L).view.set = labSet (jL L) := by
  show ((labV : Memref sig .scVector .hbm S16384 .i32).view.slice (labRectK L)).set
    = ((labV : Memref sig .scVector .hbm S16384 .i32).view.slice (labPart (jL L))).set
  exact labRectK_eq L ▸ rfl
theorem set_cntK : (cntK L).view.set = cntSet (jL L) := by
  show ((cntV : Memref sig .scVector .hbm S256x16 .f32).view.slice (cntRectK L)).set
    = ((cntV : Memref sig .scVector .hbm S256x16 .f32).view.slice (cntPart (jL L))).set
  exact cntRectK_eq L ▸ rfl

theorem pts_labK (f : Buf (Elt F) (labLoc d)) :
    ((labK L).view.loc (V d (cV L) (jV L)) ↦[(labK L).view.set]{fullShare} f : sProp 𝕄) = labLoc d ↦[labSet (jL L)]{fullShare} f := by
  rw [set_labK]
theorem pts_cntK (f : Buf (Elt F) (cntLoc d)) :
    ((cntK L).view.loc (V d (cV L) (jV L)) ↦[(cntK L).view.set]{fullShare} f : sProp 𝕄) = cntLoc d ↦[cntSet (jL L)]{fullShare} f := by
  rw [set_cntK]
theorem pts_sL (f : Buf (Elt F) ((V d (cV L) (jV L)).loc cc0_scratch0)) :
    ((sL : Memref sig .scVector .vmem S1024 .i32).view.loc (V d (cV L) (jV L)) ↦[(sL : Memref sig .scVector .vmem S1024 .i32).view.set]{fullShare} f : sProp 𝕄)
      = (V d (cV L) (jV L)).loc cc0_scratch0 ↦{fullShare} f := by
  simp only [Memref.view_whole, View.set_whole]
theorem pts_sL_univ (f : Buf (Elt F) ((V d (cV L) (jV L)).loc cc0_scratch0)) :
    ((sL : Memref sig .scVector .vmem S1024 .i32).view.loc (V d (cV L) (jV L)) ↦{fullShare} f : sProp 𝕄) = (V d (cV L) (jV L)).loc cc0_scratch0 ↦{fullShare} f := rfl
theorem pts_sC (f : Buf (Elt F) ((V d (cV L) (jV L)).loc cc0_scratch1)) :
    ((sC : Memref sig .scVector .vmem S16x16 .f32).view.loc (V d (cV L) (jV L)) ↦[(sC : Memref sig .scVector .vmem S16x16 .f32).view.set]{fullShare} f : sProp 𝕄)
      = (V d (cV L) (jV L)).loc cc0_scratch1 ↦{fullShare} f := by
  simp only [Memref.view_whole, View.set_whole]
theorem pts_sC_univ (f : Buf (Elt F) ((V d (cV L) (jV L)).loc cc0_scratch1)) :
    ((sC : Memref sig .scVector .vmem S16x16 .f32).view.loc (V d (cV L) (jV L)) ↦{fullShare} f : sProp 𝕄) = (V d (cV L) (jV L)).loc cc0_scratch1 ↦{fullShare} f := rfl

theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

end Cert.Kernel.Sc

end
-- ==== Proof.Bits.LaunchMain.lean ====
/-
  @main on the TensorCore, inside the SparseCore program: the transposition of the logits and the reshaping of
  the labels (two host operations), the SparseCore call (the labels and the counts array handed to the
  sequencer and taken back, the counts array then holding the tiles' counts), the two TensorCore regions, and
  the final reshape of the 1×1 result to a scalar. Each array is followed by name: what it holds after every
  statement is an explicit function of the two argument arrays, so that the run ends with the scalar result at
  `Stages.resultFn` of the arguments and the arguments unchanged.
  The SparseCore call and the two regions enter as hypotheses (what a call or a region is entered with and what
  it gives back); the modules that prove them discharge these.
-/
import proofs.«218680_g49873160241359_cont_8to1c4_353_26_alg».proof.Proof.Bits.ScAlg
import proofs.«218680_g49873160241359_cont_8to1c4_353_26_alg».proof.Proof.Bits.Stages

noncomputable section

namespace Cert.Kernel.Sc

open Cert.Kernel Cert.Kernel.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo

variable {F : FTy → Type} [FloatOps F]
variable (m : (ℓ : Loc nD τ sig) → Buf (Elt F) ℓ) (ρ : Dev nD → PrngReg)

local notation "𝕄" => MT nD τ sig (HIx 1) (Elt F) ℕ UU ℕ

/-! ## The arrays -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev opT : HloOp τ sig (Elt F) :=
  StableHlo.unary main_arg0 main_v0 ((transpose S9x16384 [1, 0] · Facts₀.transposes_S16384x9_S9x16384_1_0) : (⟨S16384x9, .f32⟩ : BufTy).Contents (Elt F) → (⟨S9x16384, .f32⟩ : BufTy).Contents (Elt F))
abbrev opR1 : HloOp τ sig (Elt F) := StableHlo.reshape main_arg1 main_v1 rfl Facts₀.shapeCasts_S16384_S1x16384
abbrev opR2 : HloOp τ sig (Elt F) := StableHlo.reshape main_v4 main_v5 rfl Facts₀.shapeCasts_S1x1_S_

/-- What each array holds, as functions of the launch memory. -/
abbrev A0 (d : Dev nD) : (⟨S16384x9, .f32⟩ : BufTy).Contents (Elt F) := m ((SparseCore.T d).loc main_arg0)
abbrev A1 (d : Dev nD) : (⟨S16384, .i32⟩ : BufTy).Contents (Elt F) := m ((SparseCore.T d).loc main_arg1)
def B0 (d : Dev nD) : (⟨S9x16384, .f32⟩ : BufTy).Contents (Elt F) := transpose S9x16384 [1, 0] (A0 m d) Facts₀.transposes_S16384x9_S9x16384_1_0
def B1 (d : Dev nD) : (⟨S1x16384, .i32⟩ : BufTy).Contents (Elt F) := shapeCast S1x16384 (A1 m d) Facts₀.shapeCasts_S16384_S1x16384
def C2 (d : Dev nD) : (⟨S256x16, .f32⟩ : BufTy).Contents (Elt F) := Stages.countsFn (A1 m d)
def S3 (d : Dev nD) : (⟨S16x1, .f32⟩ : BufTy).Contents (Elt F) := Stages.ssumFn (B0 m d) (B1 m d)
def R4 (d : Dev nD) : (⟨S1x1, .f32⟩ : BufTy).Contents (Elt F) := Stages.combFn (C2 m d) (S3 m d)
def R5 (d : Dev nD) : (⟨S_, .f32⟩ : BufTy).Contents (Elt F) := shapeCast S_ (R4 m d) Facts₀.shapeCasts_S1x1_S_

theorem R5_eq (d : Dev nD) : R5 m d = Stages.resultFn (A0 m d) (A1 m d) := rfl

abbrev pts (d : Dev nD) (b : Ref sig .tc) (f : Buf (Elt F) ((SparseCore.T d : Thread nD τ).loc b)) : sProp 𝕄 := (SparseCore.T d : Thread nD τ).loc b ↦{fullShare} f

omit [FloatOps F] in
theorem unscopedBufs_eq (d : Dev nD) (W : (b : Ref sig .tc) → Buf (Elt F) ((d.tc : Thread nD τ).loc b)) :
    (unscopedBufs d W : sProp 𝕄)
      = iprop(pts d main_arg0 (W main_arg0) ∗ pts d main_arg1 (W main_arg1) ∗ pts d main_v0 (W main_v0) ∗ pts d main_v1 (W main_v1)
          ∗ pts d main_v2 (W main_v2) ∗ pts d main_v3 (W main_v3) ∗ pts d main_v4 (W main_v4) ∗ pts d main_v5 (W main_v5)) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
/-- Two distinct buffers held whole. -/
theorem held_pair (d : Dev nD) (x y : Ref sig .tc) (h : (Proc.devRef .tc x : DevRef τ sig) ∉ ({Proc.devRef .tc y} : Finset (DevRef τ sig))) (W : Valuation τ sig (Elt F)) :
    (held (SparseCore.T d) {Proc.devRef .tc x, Proc.devRef .tc y} W : sProp 𝕄) = iprop(((d, Proc.devRef .tc x) ↦{fullShare} W (Proc.devRef .tc x)) ∗ ((d, Proc.devRef .tc y) ↦{fullShare} W (Proc.devRef .tc y))) := by
  unfold held
  rw [SparseCore.bigSep_insert' h, bigSep_singleton]

/-- The TensorCore's handshake debts between the SparseCore call and the end: it owes nothing, and the wait pairs it
    has recorded sit at or below the first call's band. -/
def owesT (d : Dev nD) : sProp 𝕄 :=
  iprop(∃ W, ⌜(K (F := F)).WBelow (SparseCore.T d) W 8⌝ ∗ owes (SparseCore.T d) (0 : CellTallies nD τ sig (HIx 1)) W)

/-- The rest of the TensorCore's handshake state after the one call. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_one (d : Dev nD) : (K (F := F)).tcSt EH d 1 = iprop(owesT (F := F) d ∗ tcRest (F := F) d) := by
  unfold SparseCore.Cfg.tcSt owesT tcRest
  rw [(K (F := F)).Otc_end d (le_refl 1)]

theorem tcSt_one' (d : Dev nD) : (K (F := F)).tcSt EH d ((0 : Fin 1).val + 1) = iprop(owesT (F := F) d ∗ tcRest (F := F) d) := tcSt_one d

/-- The launch valuation. -/
def V0 (d : Dev nD) : Valuation τ sig (Elt F) := fun b => m (d, b)

/-- What @main leaves the claim: the two arguments at their launch contents and the scalar result. -/
abbrev FIN (d : Dev nD) : sProp 𝕄 := iprop(pts d main_arg0 (A0 m d) ∗ pts d main_arg1 (A1 m d) ∗ pts d main_v5 (R5 m d))

/-- After the transposition: the logits unchanged, `main_v0` at their transpose. -/
theorem held_T (d : Dev nD) :
    (held (SparseCore.T d) {a0', v0'} ((opT (F := F)).result (V0 m d)) : sProp 𝕄) = iprop(pts d main_arg0 (A0 m d) ∗ pts d main_v0 (B0 m d)) := by
  rw [held_pair d main_arg0 main_v0 (by decide), (opT (F := F)).result_of_not_mem _ (show a0' ∉ ({v0'} : Finset (DevRef τ sig)) by decide), unary_result']
  rfl

/-- After the reshape: the labels unchanged, `main_v1` at them as a row. -/
theorem held_R1 (d : Dev nD) :
    (held (SparseCore.T d) {a1', v1'} ((opR1 (F := F)).result (V0 m d)) : sProp 𝕄) = iprop(pts d main_arg1 (A1 m d) ∗ pts d main_v1 (B1 m d)) := by
  rw [held_pair d main_arg1 main_v1 (by decide), (opR1 (F := F)).result_of_not_mem _ (show a1' ∉ ({v1'} : Finset (DevRef τ sig)) by decide), reshape_result']
  rfl

/-- The valuation the last reshape runs at: the 1×1 result in place. -/
def V4 (d : Dev nD) : Valuation τ sig (Elt F) := Function.update (V0 m d) v4' (R4 m d)

/-- After the last reshape: `main_v4` unchanged, the scalar result in `main_v5`. -/
theorem held_R2 (d : Dev nD) :
    (held (SparseCore.T d) {v4', v5'} ((opR2 (F := F)).result (V4 m d)) : sProp 𝕄) = iprop(pts d main_v4 (R4 m d) ∗ pts d main_v5 (R5 m d)) := by
  rw [held_pair d main_v4 main_v5 (by decide), (opR2 (F := F)).result_of_not_mem _ (show v4' ∉ ({v5'} : Finset (DevRef τ sig)) by decide), reshape_result']
  unfold V4 R5
  rw [Function.update_self]
  rfl

/-- A region's entry inside the SparseCore program is the region's entry of the TensorCore program, lifted. -/
theorem wp_region_lift (d : Dev nD) (p : Fin 2) (Φ : PUnit → sProp 𝕄) :
    wp frame (wpE (D (F := F)) 𝒱 (SparseCore.T d) none) Set.univ (Prog.lift (.customCall (Pipeline.entry p) ())) Φ
      ⊢ wp frame (wpE ((K (F := F)).defs (D (F := F))) 𝒱 (SparseCore.T d) none) Set.univ (Prog.lift (.customCall (SparseCore.inner (Pipeline.entry p)) ())) Φ := by
  have h := (K (F := F)).wp_liftProg (D (F := F)) 𝒱 (SparseCore.T d) Set.univ none (Prog.lift (.customCall (Pipeline.entry p) ())) Φ
  exact h

section Main

variable (P : (K (F := F)).Pay (nD := nD) (Val := Elt F) (Name := ℕ) (U := UU))
  (G1 G2 : Dev nD → sProp (MT nD τ sig (HIx 1) (Elt F) ℕ UU ℕ))

/-- @main on device `d`'s TensorCore, from the call's and the regions' accounts. -/
theorem hmain_of
    (hst : ∀ d, (bigSep Finset.univ fun c : Fin ((K (F := F)).nCore 0) => P.st 0 d c) = iprop(pts d main_arg1 (A1 m d) ∗ pts d main_v2 (m ((SparseCore.T d).loc main_v2))))
    (hdn : ∀ d, (bigSep Finset.univ fun c : Fin ((K (F := F)).nCore 0) => P.dn 0 d c) = iprop(pts d main_arg1 (A1 m d) ∗ pts d main_v2 (C2 m d)))
    (hreg1 : ∀ (d : Dev nD) (Φ : PUnit → sProp 𝕄),
      iprop((iprop(boundary (SparseCore.T d) ∗ (owesT d ∗ pts d main_v0 (B0 m d) ∗ pts d main_v1 (B1 m d) ∗ pts d main_v3 (S3 m d))) -∗ Φ ⟨⟩)
          ∗ boundary (SparseCore.T d) ∗ (owesT (F := F) d ∗ pts d main_v0 (B0 m d) ∗ pts d main_v1 (B1 m d) ∗ pts d main_v3 (m ((SparseCore.T d).loc main_v3)))
          ∗ levAts (K (F := F)).L (K (F := F)).lev ∗ G1 d)
        ⊢ wp frame (wpE (D (F := F)) 𝒱 (SparseCore.T d) none) Set.univ (Prog.lift (.customCall (Pipeline.entry (0 : Fin 2)) ())) Φ)
    (hreg2 : ∀ (d : Dev nD) (Φ : PUnit → sProp 𝕄),
      iprop((iprop(boundary (SparseCore.T d) ∗ (owesT d ∗ pts d main_v2 (C2 m d) ∗ pts d main_v3 (S3 m d) ∗ pts d main_v4 (R4 m d))) -∗ Φ ⟨⟩)
          ∗ boundary (SparseCore.T d) ∗ (owesT (F := F) d ∗ pts d main_v2 (C2 m d) ∗ pts d main_v3 (S3 m d) ∗ pts d main_v4 (m ((SparseCore.T d).loc main_v4)))
          ∗ levAts (K (F := F)).L (K (F := F)).lev ∗ G2 d)
        ⊢ wp frame (wpE (D (F := F)) 𝒱 (SparseCore.T d) none) Set.univ (Prog.lift (.customCall (Pipeline.entry (1 : Fin 2)) ())) Φ)
    (κ : GSem nD τ sig → ℕ) (d : Dev nD) :
    iprop((K (F := F)).ctx EH P κ ∗ (K (F := F)).tcSt EH d 0 ∗ (K (F := F)).tcRes m ρ d ∗ (G1 d ∗ G2 d))
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Hv0, Hv1, Hv2, Hv3, Hv4, Hv5⟩, -, -⟩, ⟨HG1, HG2⟩⟩
  -- the transposition of the logits
  iapply (wp_hlo_within 𝒱 (SparseCore.T d) none Set.univ (op := opT (F := F)) (S := {a0', v0'}) (Finset.Subset.refl _) (V := V0 m d)) $$ [Hb Ha0 Hv0]
  · isplitl [Hb]; · iexact Hb
    rw [held_pair d main_arg0 main_v0 (by decide)]
    isplitl [Ha0]; · iexact Ha0
    iexact Hv0
  iintro ⟨Hb, Hheld⟩
  ihave Hh := (Entails.of_eq (held_T (F := F) m d)) $$ Hheld
  icases Hh with ⟨Ha0, Hv0⟩
  rw [wp_ret]; imodintro
  -- the labels as a row
  iapply (wp_hlo_within 𝒱 (SparseCore.T d) none Set.univ (op := opR1 (F := F)) (S := {a1', v1'}) (Finset.Subset.refl _) (V := V0 m d)) $$ [Hb Ha1 Hv1]
  · isplitl [Hb]; · iexact Hb
    rw [held_pair d main_arg1 main_v1 (by decide)]
    isplitl [Ha1]; · iexact Ha1
    iexact Hv1
  iintro ⟨Hb, Hheld⟩
  ihave Hh := (Entails.of_eq (held_R1 (F := F) m d)) $$ Hheld
  icases Hh with ⟨Ha1, Hv1⟩
  rw [wp_ret]; imodintro
  -- the SparseCore call: the labels and the counts array to the sequencer and back
  iapply ((K (F := F)).wp_run (D (F := F)) 𝒱 (EH := EH) (P := P) κ d 0) $$ [Hst Ha1 Hv2 Hb Ha0 Hv0 Hv1 Hv3 Hv4 Hv5 HG1 HG2]
  isplitr; · iexact Hctx
  isplitl [Hst]; · iexact Hst
  isplitl [Ha1 Hv2]
  · rw [hst]
    isplitl [Ha1]; · iexact Ha1
    iexact Hv2
  iintro ⟨Hst, Hdn⟩
  ihave Hdn' := (Entails.of_eq (hdn d)) $$ Hdn
  icases Hdn' with ⟨Ha1, Hv2⟩
  -- the first TensorCore region
  ihave Hst' := (Entails.of_eq (tcSt_one' (F := F) d)) $$ Hst
  icases Hst' with ⟨HO, Hrest⟩
  ihave Hlev := ((K (F := F)).ctx_levAts (EH := EH) (P := P) κ) $$ Hctx
  iapply (wp_region_lift (F := F) d 0 _)
  iapply (hreg1 d _) $$ [Hb HO Hv0 Hv1 Hv3 HG1 Hlev Ha0 Ha1 Hv2 Hv4 Hv5 HG2 Hrest]
  isplitr [Hb HO Hv0 Hv1 Hv3 HG1 Hlev]
  swap
  · isplitl [Hb]; · iexact Hb
    isplitl [HO Hv0 Hv1 Hv3]
    · isplitl [HO]; · iexact HO
      isplitl [Hv0]; · iexact Hv0
      isplitl [Hv1]; · iexact Hv1
      iexact Hv3
    isplitl [Hlev]; · iexact Hlev
    iexact HG1
  iintro ⟨Hb, HO, Hv0, Hv1, Hv3⟩
  -- the second TensorCore region
  iapply (wp_region_lift (F := F) d 1 _)
  iapply (hreg2 d _) $$ [Hb HO Hv2 Hv3 Hv4 HG2 Hlev Ha0 Ha1 Hv0 Hv1 Hv5 Hrest]
  isplitr [Hb HO Hv2 Hv3 Hv4 HG2 Hlev]
  swap
  · isplitl [Hb]; · iexact Hb
    isplitl [HO Hv2 Hv3 Hv4]
    · isplitl [HO]; · iexact HO
      isplitl [Hv2]; · iexact Hv2
      isplitl [Hv3]; · iexact Hv3
      iexact Hv4
    isplitl [Hlev]; · iexact Hlev
    iexact HG2
  iintro ⟨Hb, HO, Hv2, Hv3, Hv4⟩
  -- the 1×1 result as a scalar
  iapply (wp_hlo_within 𝒱 (SparseCore.T d) none Set.univ (op := opR2 (F := F)) (S := {v4', v5'}) (Finset.Subset.refl _) (V := V4 m d)) $$ [Hb Hv4 Hv5]
  · isplitl [Hb]; · iexact Hb
    rw [held_pair d main_v4 main_v5 (by decide)]
    isplitl [Hv4]
    · unfold V4; rw [Function.update_self]; iexact Hv4
    · unfold V4; rw [Function.update_of_ne (show v5' ≠ v4' by decide)]; iexact Hv5
  iintro ⟨Hb, Hheld⟩
  ihave Hh := (Entails.of_eq (held_R2 (F := F) m d)) $$ Hheld
  icases Hh with ⟨Hv4, Hv5⟩
  rw [wp_ret]; imodintro; imodintro
  isplitl [HO Hrest]
  · iapply (Entails.of_eq (tcSt_one (F := F) d).symm)
    isplitl [HO]; · iexact HO
    iexact Hrest
  isplitl [Ha0]; · iexact Ha0
  isplitl [Ha1]; · iexact Ha1
  iexact Hv5

end Main

end Cert.Kernel.Sc

end
-- ==== Proof.Bits.TcData.lean ====
/-
  The proof data of the two TensorCore calls, for every float instance.

  Call 1 walks two blocks of 8192 columns. Its logits and labels windows are read only: the body hands each
  staging buffer back as it found it. Its 16×8192 scratch table is carried from the first block to the second: it is
  zeroed and then accumulated at block 0, accumulated again at block 1. Its 16×1 result window is untouched at
  block 0 and receives the lane sums of the table at block 1, which is the only block written back. Call 2 has a
  single point: the counts and the column are read, the 1×1 result is stored and written back.

  The entry contents of every window's array are parameters. The core enters a region while it owes nothing, its
  recorded waits all at levels at most 8; the data keep that bound between points.
-/
import proofs.«218680_g49873160241359_cont_8to1c4_353_26_alg».proof.Proof.Bits.ScAlg
import proofs.«218680_g49873160241359_cont_8to1c4_353_26_alg».proof.Proof.Bits.Stages
import proofs.«218680_g49873160241359_cont_8to1c4_353_26_alg».proof.Proof.Gen.Kernel.Points
import proofs.«218680_g49873160241359_cont_8to1c4_353_26_alg».proof.Proof.Gen.Kernel.Launch
import Idealize.ShloMosaic.Lib.Pipeline.Regions
import Idealize.ShloMosaic.Lib.Tactic

noncomputable section

namespace Cert.Kernel.Tc

open Cert.Kernel Cert.Kernel.Gen Cert.Kernel.Stages

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Facts]
open Facts₀ Facts

local notation "𝕄" => MT nD τ sig (HIx 1) (Elt F) ℕ Sc.UU ℕ

/-- No call has a prefetched table: the one admissible contents. -/
abbrev adm : (p : Fin 2) → (pcfgs (F := F) p).Adm := fun p => (cfgs p).toPCfg_adm

/-- The contents type of the TensorCore's buffer `b` on device `c`. -/
abbrev Bf (c : Dev nD) (b : Ref sig .tc) : Type := Buf (Elt F) ((c.tc : Thread nD τ).loc b)

/-- The (cell, index) pairs the core's recorded waits may lie in: those at level at most 8. -/
def recB (c : Dev nD) : Set (SemLoc sig × HIx 1) := {p | (Sc.K (F := F)).lev (SparseCore.T c, p.1) p.2 ≤ 8}

/-- The core owes nothing and every pair its waits recorded is at level at most 8. -/
def owesT (c : Dev nD) : sProp 𝕄 :=
  iprop(∃ W, ⌜(Sc.K (F := F)).WBelow (SparseCore.T c) W 8⌝ ∗ owes (SparseCore.T c) (0 : CellTallies nD τ sig (HIx 1)) W)

/-- Call 1's scratch table after block 0: zeroed, then block 0 accumulated. -/
def acc0 (A0 : FVec F S9x16384 .f32) (A1 : IVec S1x16384 32) : FVec F S16x8192 .f32 :=
  k1_pay3 (blkLogits A0 0) (blkLabels (F := F) A1 0) (k1_pay2 (F := F))

/-- and after block 1. -/
def acc1 (A0 : FVec F S9x16384 .f32) (A1 : IVec S1x16384 32) : FVec F S16x8192 .f32 :=
  k1_pay3 (blkLogits A0 1) (blkLabels (F := F) A1 1) (acc0 A0 A1)

theorem ssumFn_eq (A0 : FVec F S9x16384 .f32) (A1 : IVec S1x16384 32) : ssumFn A0 A1 = k1_pay1 (acc1 A0 A1) := rfl

/-- The other call's three staging buffers, at any contents: what rides through call 1's points beside its scratch. -/
def rest1 (c : Dev nD) : sProp 𝕄 :=
  iprop((∃ f : Bf (F := F) c cc2_stg0_0, ((c.tc : Thread nD τ).loc cc2_stg0_0) ↦{fullShare} f)
    ∗ (∃ f : Bf (F := F) c cc2_stg1_0, ((c.tc : Thread nD τ).loc cc2_stg1_0) ↦{fullShare} f)
    ∗ (∃ f : Bf (F := F) c cc2_stg2_0, ((c.tc : Thread nD τ).loc cc2_stg2_0) ↦{fullShare} f))

/-- Call 1's proof data on device `c`, entered with the transposed logits `A0`, the labels row `A1` and
    anything (`S0`) in the result column. -/
def rdat1 (c : Dev nD) (A0 : Bf (F := F) c main_v0) (A1 : Bf (F := F) c main_v1) (S0 : Bf (F := F) c main_v3) :
    RDat τ (Elt F) (HIx 1) ℕ Sc.UU ℕ (Pipeline.pin (pcfgs (F := F)) adm 0) c where
  A w := match w with
    | ⟨0, _⟩ => A0
    | ⟨1, _⟩ => A1
    | ⟨2, _⟩ => S0
  after w t Y X := match w with
    | ⟨0, _⟩ => X = Y
    | ⟨1, _⟩ => X = Y
    | ⟨2, _⟩ => (t.val = 0 → X = Y) ∧ (t.val = 1 → X = ssumFn A0 A1)
  Φ t := match t with
    | ⟨0, _⟩ => Pipeline.scopedRest (Ix := HIx 1) (Name := ℕ) (U := Sc.UU) (Lvl := ℕ) (Val := Elt F) spec1 c
    | ⟨1, _⟩ => iprop((((c.tc : Thread nD τ).loc cc1_scratch0) ↦{fullShare} (acc0 A0 A1 : Bf (F := F) c cc1_scratch0)) ∗ rest1 c)
    | ⟨2, _⟩ => Pipeline.scopedRest (Ix := HIx 1) (Name := ℕ) (U := Sc.UU) (Lvl := ℕ) (Val := Elt F) spec1 c
    | ⟨_ + 3, h⟩ => absurd h (Nat.not_lt.2 (Nat.le_add_left 3 _))
  q _ := fullShare
  owed _ := 0
  recorded _ := recB (F := F) c

/-- Call 2's proof data on device `c`, entered with the counts `C`, the column `S` and anything (`R0`) in the result. -/
def rdat2 (c : Dev nD) (C : Bf (F := F) c main_v2) (S : Bf (F := F) c main_v3) (R0 : Bf (F := F) c main_v4) :
    RDat τ (Elt F) (HIx 1) ℕ Sc.UU ℕ (Pipeline.pin (pcfgs (F := F)) adm 1) c where
  A w := match w with
    | ⟨0, _⟩ => C
    | ⟨1, _⟩ => S
    | ⟨2, _⟩ => R0
  after w _ Y X := match w with
    | ⟨0, _⟩ => X = Y
    | ⟨1, _⟩ => X = Y
    | ⟨2, _⟩ => X = combFn C S
  Φ _ := Pipeline.scopedRest (Ix := HIx 1) (Name := ℕ) (U := Sc.UU) (Lvl := ℕ) (Val := Elt F) spec2 c
  q _ := fullShare
  owed _ := 0
  recorded _ := recB (F := F) c

/-- Both calls' proof data, each at its own entry contents. -/
def rdats (A0 : (c : Dev nD) → Bf (F := F) c main_v0) (A1 : (c : Dev nD) → Bf (F := F) c main_v1) (S0 : (c : Dev nD) → Bf (F := F) c main_v3)
    (C : (c : Dev nD) → Bf (F := F) c main_v2) (S : (c : Dev nD) → Bf (F := F) c main_v3) (R0 : (c : Dev nD) → Bf (F := F) c main_v4) :
    (p : Fin 2) → (c : Dev nD) → RDat τ (Elt F) (HIx 1) ℕ Sc.UU ℕ (Pipeline.pin (pcfgs (F := F)) adm p) c
  | ⟨0, _⟩ => fun c => rdat1 c (A0 c) (A1 c) (S0 c)
  | ⟨1, _⟩ => fun c => rdat2 c (C c) (S c) (R0 c)

end Cert.Kernel.Tc

end
-- ==== Proof.Bits.LaunchElem.lean ====
/-
  The launch element of the proof's ghost state: the handshakes' rounds, the tiles' own DMA cells' rounds (one
  round per cell: a kit per cell, dealt to the tile that owns it) and the TensorCore calls' staging cells' ghost
  state and duty tokens (dealt to the TensorCore, which allocates the cells' invariants when it enters each region).
-/
import proofs.«218680_g49873160241359_cont_8to1c4_353_26_alg».proof.Proof.Bits.ScSetup
import proofs.«218680_g49873160241359_cont_8to1c4_353_26_alg».proof.Proof.Bits.LaunchMain
import proofs.«218680_g49873160241359_cont_8to1c4_353_26_alg».proof.Proof.Bits.TcData

noncomputable section

namespace Cert.Kernel.Sc

open Cert.Kernel Cert.Kernel.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig (HIx 1) (Elt F) ℕ UU ℕ

/-- The two TensorCore calls as plain pipelines (they have no prefetched tables). -/
abbrev pcs : Fin 2 → Pipeline.Cfg sig Λ₀ := Pipeline.pin (pcfgs (F := F)) Tc.adm

theorem phinj : Function.Injective (Pipeline.cellOf (nD := nD) (τ := τ) (pcs (F := F))) := Gen.cellOf_inj

/-- What the TensorCore of `d` is dealt for region `p`: its staging cells' ghost state and duty tokens. -/
def Gp (p : Fin 2) (d : Dev nD) : sProp 𝕄 := iprop(Pipeline.cellsGhost (pcs (F := F)) EP p d ∗ Pipeline.toksInit (pcs (F := F)) EP p d)
def G (d : Dev nD) : sProp 𝕄 := iprop(Gp (F := F) 0 d ∗ Gp (F := F) 1 d)

def kCells : Finset (GSem nD τ sig) :=
  (Finset.univ.image fun dci : Dev nD × Fin τ.nSC × Fin τ.nSub => cAcell dci.1 dci.2.1 dci.2.2)
    ∪ (Finset.univ.image fun dci : Dev nD × Fin τ.nSC × Fin τ.nSub => cBcell dci.1 dci.2.1 dci.2.2)
def kToks : Finset (GSem nD τ sig × ℕ × Unit) := kCells.map ⟨fun g => (g, 0, ()), fun _ _ e => (Prod.mk.inj e).1⟩
def u₀ : UU :=
  (initOf (K (F := F)).hsCells (K (F := F)).hsToks, (initOf kCells kToks, initOf (Pipeline.cells (pcs (F := F)) phinj) (Pipeline.launchToks (pcs (F := F)) phinj)))

omit [FloatOps F] in
theorem ownU_split (a : UH) (b : UK) (c : UP) : (ownU (a, (b, c)) : sProp 𝕄) ⊢ iprop(BI.own (EH a) ∗ BI.own (EK b) ∗ BI.own (EP c)) := by
  refine (BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, c))))).trans (sep_mono (BI.Entails.refl _) ?_)
  exact BI.own_op_elim ((uEmb (nD := nD) (sig := sig) (Ix := HIx 1) (Val := Elt F) (Name := ℕ) (U := UU) (Lvl := ℕ)).toEmb.op_of_mem
    (Prod.mk_mem_op (URA.mem_one_op (1 : UH)) (Prod.mk_mem_op (URA.mem_op_one b) (URA.mem_one_op c))))

omit [FloatOps F] in
theorem toks_eq : (bigSep kToks fun x => (dutyTok EK x.1 x.2.1 x.2.2 : sProp 𝕄)) = bigSep kCells fun g => dutyTok EK g 0 () := by
  unfold kToks; rw [bigSep_map]; rfl

/-- The tiles' cells, funded: each one's kit. -/
theorem kits_intro : (BI.own (EK (initOf kCells kToks)) : sProp 𝕄) ⊢ iprop(|==> bigSep kCells (kit m)) := by
  iintro H
  imod (Rounds.fund EK (kRd m) kCells kToks) $$ H with ⟨Hst, Hr, Hat, Htok⟩
  ihave Htok' := (Entails.of_eq (toks_eq (F := F))) $$ Htok
  imodintro
  unfold kit
  rw [bigSep_sep', bigSep_sep', bigSep_sep']
  isplitl [Hst]; · iexact Hst
  isplitl [Hat]; · iexact Hat
  isplitl [Hr]; · iexact Hr
  iexact Htok'

omit [FloatOps F] in
theorem bigSep_emp' {I : Type} (s : Finset I) : (bigSep s fun _ => iprop(emp)) = (iprop(emp) : sProp 𝕄) := bigSep_emp_const s

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = iprop(kit m (cAcell d c i) ∗ kit m (cBcell d c i)) :=
  bigSep_univ_of_subsingleton (0 : Fin 1)

omit [FloatOps F] in
theorem inj3 (sm : SemLoc sig) :
    Set.InjOn (fun dci : Dev nD × Fin τ.nSC × Fin τ.nSub => ((V dci.1 dci.2.1 dci.2.2, sm) : GSem nD τ sig)) ((Finset.univ : Finset (Dev nD × Fin τ.nSC × Fin τ.nSub)) : Set _) := by
  intro a _ b _ e
  obtain ⟨h1, h2⟩ := Prod.mk.inj (Prod.mk.inj e).1; obtain ⟨h3, h4⟩ := Proc.scVector.inj h2
  exact Prod.ext h1 (Prod.ext h3 h4)

/-- The kits, dealt: each tile its two cells'. -/
theorem kits_deal : (bigSep kCells (kit (F := F) m) : sProp 𝕄) ⊢ bigSep Finset.univ fun thr : Thread nD τ => bigSep Finset.univ fun q : Fin 1 => (P m).x q thr := by
  rw [SparseCore.Cfg.bigSep_threads (fun thr : Thread nD τ => bigSep Finset.univ fun q : Fin 1 => (P m).x q thr)]
  simp only [Px_T, Px_S, Px_V, bigSep_emp']
  unfold kCells
  rw [SparseCore.bigSep_union' ?d1,
    SparseCore.bigSep_image_of_injOn (inj3 _) (kit m), SparseCore.bigSep_image_of_injOn (inj3 _) (kit m)]
  case d1 =>
    refine Finset.disjoint_left.mpr fun g h1 h2 => ?_
    obtain ⟨a, -, rfl⟩ := Finset.mem_image.mp h1
    obtain ⟨b, -, e⟩ := Finset.mem_image.mp h2
    exact absurd (Prod.mk.inj e).2 (by decide)
  rw [bigSep_sep' (Finset.univ : Finset (Dev nD × Fin τ.nSC × Fin τ.nSub))]
  iintro ⟨HA, HB⟩
  isplitr; · iempintro
  isplitr; · iempintro
  isplitl [HA]; · iexact HA
  iexact HB

omit [FloatOps F] in
theorem sep_swap4 {A B C D : sProp 𝕄} : iprop((A ∗ B) ∗ (C ∗ D)) ⊢ iprop((A ∗ C) ∗ (B ∗ D)) := by
  iintro ⟨⟨HA, HB⟩, ⟨HC, HD⟩⟩
  isplitl [HA HC]
  · isplitl [HA] <;> iassumption
  · isplitl [HB] <;> iassumption

omit [FloatOps F] in
/-- The staging cells' ghost state, dealt: each TensorCore its two regions'. -/
theorem ghost_deal :
    iprop((bigSep Finset.univ fun c : Dev nD => bigSep Finset.univ fun p : Fin 2 => Pipeline.cellsGhost (pcs (F := F)) EP p c)
        ∗ (bigSep Finset.univ fun c : Dev nD => bigSep Finset.univ fun p : Fin 2 => (Pipeline.toksInit (pcs (F := F)) EP p c : sProp 𝕄)))
      ⊢ bigSep Finset.univ fun d : Dev nD => G (F := F) d := by
  rw [← bigSep_sep']
  refine bigSep_mono fun d _ => ?_
  rw [bigSep_fin_two, bigSep_fin_two]
  unfold G Gp
  exact sep_swap4

/-- The launch element: the handshakes' part untouched, each TensorCore its regions' ghost state, each tile its kits. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _ _) $$ Hu
  icases H with ⟨HH, HK, HP⟩
  imod (kits_intro m) $$ HK with Hkits
  imod (Pipeline.fund_ghost (pcs (F := F)) EP phinj) $$ HP with Hg
  imodintro
  isplitl [HH]; · iexact HH
  isplitl [Hg]; · iapply ghost_deal; iexact Hg
  iapply (kits_deal m); iexact Hkits

end Cert.Kernel.Sc

end
-- ==== Proof.Bits.LaunchRun.lean ====
/-
  The program's run: from a memory with every semaphore at zero, every weakly fair execution of the device's threads
  — @main on the TensorCore, the sequencers, the tiles — terminates, nothing faulting, the two argument arrays
  unchanged and the scalar result at `Stages.resultFn` of them. The launch theorem applied to the tiles' task, the
  split of the call's operands among the tiles, @main's account, the launch element and the reading of the final
  memory.
-/
import proofs.«218680_g49873160241359_cont_8to1c4_353_26_alg».proof.Proof.Bits.LaunchElem

noncomputable section

namespace Cert.Kernel.Sc

open Cert.Kernel Cert.Kernel.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig (HIx 1) (Elt F) ℕ UU ℕ

/-- A region's record gives the region's entry rule in the form @main's account takes. -/
theorem hreg_of_seg {p : Fin 2} {rd : (p : Fin 2) → (c : Dev nD) → Pipeline.RDat τ (Elt F) (HIx 1) ℕ UU ℕ (pcs (F := F) p) c}
    (R : Pipeline.RDat.RegionSeg (pcfgs (F := F)) Tc.adm rd none defs₀ 𝒱₀ (K (F := F)).L (K (F := F)).lev p) [∀ e, Nonempty (Elt F e)]
    (d : Dev nD) (Φ : PUnit → sProp 𝕄) :
    iprop((iprop(boundary (SparseCore.T d) ∗ R.post d) -∗ Φ ⟨⟩) ∗ boundary (SparseCore.T d) ∗ R.pre d ∗ levAts (K (F := F)).L (K (F := F)).lev ∗ Gp (F := F) p d)
      ⊢ wp frame (wpE (D (F := F)) 𝒱 (SparseCore.T d) none) Set.univ (Prog.lift (.customCall (Pipeline.entry p) ())) Φ := by
  have h := Pipeline.RDat.RegionSeg.wp (pcfgs (F := F)) Tc.adm rd none phinj EP defs₀ 𝒱₀ (K (F := F)).L (K (F := F)).lev R d none (fun _ h => nomatch h) (fun x => .ret x) Φ
  unfold Gp
  iintro ⟨Hk, Hb, Hpre, Hlev, Hg, Ht⟩
  iapply h
  isplitl [Hk]
  · iintro H; rw [wp_ret]; imodintro; iapply Hk; iexact H
  isplitl [Hb]; · iexact Hb
  isplitl [Hpre]; · iexact Hpre
  isplitl [Hlev]; · iexact Hlev
  isplitl [Hg]; · iexact Hg
  iexact Ht

theorem st0_eq (d : Dev nD) : (bigSep Finset.univ fun c : Fin ((K (F := F)).nCore 0) => (P m).st 0 d c) = iprop(pts d main_arg1 (A1 m d) ∗ pts d main_v2 (m ((SparseCore.T d).loc main_v2))) :=
  bigSep_univ_of_subsingleton (0 : Fin 1)
theorem dn0_eq (d : Dev nD) : (bigSep Finset.univ fun c : Fin ((K (F := F)).nCore 0) => (P m).dn 0 d c) = iprop(pts d main_arg1 (A1 m d) ∗ pts d main_v2 (C2 m d)) :=
  bigSep_univ_of_subsingleton (0 : Fin 1)

/-- What the final memory shows: the arguments unchanged, the result. -/
def fq (d : Dev nD) (s' : Phys nD τ sig (Elt F)) : Prop :=
  s'.mem.mem ((SparseCore.T d).loc main_v5) = R5 m d ∧ s'.mem.mem ((SparseCore.T d).loc main_arg0) = A0 m d ∧ s'.mem.mem ((SparseCore.T d).loc main_arg1) = A1 m d

theorem hfin (d : Dev nD) (s' : Phys nD τ sig (Elt F)) : iprop(FIN m d ∗ SI s') ⊢ (⌜fq m d s'⌝ : sProp 𝕄) := by
  iintro ⟨⟨Ha0, Ha1, Hv5⟩, HSI⟩
  ihave H := (persistent_entails_right (SI_pointsTo_agree (st := s') (ℓ := (SparseCore.T d).loc main_arg0) (I := Finset.univ) (q := fullShare) (f := A0 m d))) $$ [HSI Ha0]
  · isplitl [HSI] <;> iassumption
  icases H with ⟨%h0, HSI, -⟩
  ihave H := (persistent_entails_right (SI_pointsTo_agree (st := s') (ℓ := (SparseCore.T d).loc main_arg1) (I := Finset.univ) (q := fullShare) (f := A1 m d))) $$ [HSI Ha1]
  · isplitl [HSI] <;> iassumption
  icases H with ⟨%h1, HSI, -⟩
  ihave H := (SI_pointsTo_agree (st := s') (ℓ := (SparseCore.T d).loc main_v5) (I := Finset.univ) (q := fullShare) (f := R5 m d)) $$ [HSI Hv5]
  · isplitl [HSI] <;> iassumption
  icases H with %h5
  ipureintro
  exact ⟨funext fun i => h5 i (Finset.mem_univ i), funext fun i => h0 i (Finset.mem_univ i), funext fun i => h1 i (Finset.mem_univ i)⟩

/-- The claim's post: the result named, the arguments unchanged. -/
def QC : PUnit × MemSt nD τ sig (Elt F) → Prop := fun r => ∀ c : Dev nD,
  r.2.mem ((c.tc : Thread nD τ).loc main_v5) = Stages.resultFn (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)

/-- The run, from the tiles' task, the operands' split and the two regions' entry rules. -/
theorem run_of [∀ e, Nonempty (Elt F e)]
    (htile : (K (F := F)).TileObl (D (F := F)) 𝒱 (P m) v₀ 0) (hvec : (K (F := F)).VecSplit' (P m) 0)
    (hreg1 : ∀ (d : Dev nD) (Φ : PUnit → sProp 𝕄),
      iprop((iprop(boundary (SparseCore.T d) ∗ (owesT d ∗ pts d main_v0 (B0 m d) ∗ pts d main_v1 (B1 m d) ∗ pts d main_v3 (S3 m d))) -∗ Φ ⟨⟩)
          ∗ boundary (SparseCore.T d) ∗ (owesT (F := F) d ∗ pts d main_v0 (B0 m d) ∗ pts d main_v1 (B1 m d) ∗ pts d main_v3 (m ((SparseCore.T d).loc main_v3)))
          ∗ levAts (K (F := F)).L (K (F := F)).lev ∗ Gp (F := F) 0 d)
        ⊢ wp frame (wpE (D (F := F)) 𝒱 (SparseCore.T d) none) Set.univ (Prog.lift (.customCall (Pipeline.entry (0 : Fin 2)) ())) Φ)
    (hreg2 : ∀ (d : Dev nD) (Φ : PUnit → sProp 𝕄),
      iprop((iprop(boundary (SparseCore.T d) ∗ (owesT d ∗ pts d main_v2 (C2 m d) ∗ pts d main_v3 (S3 m d) ∗ pts d main_v4 (R4 m d))) -∗ Φ ⟨⟩)
          ∗ boundary (SparseCore.T d) ∗ (owesT (F := F) d ∗ pts d main_v2 (C2 m d) ∗ pts d main_v3 (S3 m d) ∗ pts d main_v4 (m ((SparseCore.T d).loc main_v4)))
          ∗ levAts (K (F := F)).L (K (F := F)).lev ∗ Gp (F := F) 1 d)
        ⊢ wp frame (wpE (D (F := F)) 𝒱 (SparseCore.T d) none) Set.univ (Prog.lift (.customCall (Pipeline.entry (1 : Fin 2)) ())) Φ) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain hvec)
    m ρ main (G (F := F)) (FIN m) (u₀ (F := F)) (sep_elim_left.trans (hu₀ m))
    (fun κ d => hmain_of m ρ (P m) (Gp (F := F) 0) (Gp (F := F) 1) (st0_eq m) (dn0_eq m) hreg1 hreg2 κ d) (fq m) (hfin m) (QC m)
    (fun s' h c => ⟨(h c).1, (h c).2.1, (h c).2.2⟩)

end Cert.Kernel.Sc

end
-- ==== Proof.Bits.ScBody.lean ====
/-
  One vector subcore's task, proved once at symbolic grid coordinates.

  The task on subcore s copies labels 1024·s … 1024·s+1023 into its label scratch, waits for the copy, and then
  walks them in 64 groups of sixteen lanes. It carries ten sixteen-lane accumulators, one per class c < 10:
  after k groups, lane l of accumulator c is the running count of class c among labels
  1024·s + 16·g + l, g < k — one float addition of one or zero per group, in group order, from zero. That is the
  loop's invariant; a trip reads group k's sixteen labels from the scratch (label 1024·s + 16·k + l at lane l)
  and adds, lane by lane, one where the label is the class. After the loop the task stores the ten accumulators
  as rows 0 … 9 of its 16×16 counts scratch and six zero rows below them (each store preceded by a load of the
  row whose value is not used), so the scratch, read back as ONE function of its index, is the counts function
  of the labels on rows 16·s … 16·s+15: sixteen 1×16 pieces tile the scratch, and each piece is that function's
  row. Last it copies the scratch onto those rows of the counts array and waits. The labels' slice comes back
  unchanged; the two scratches and the two semaphores come back as they were found.
-/
import proofs.«218680_g49873160241359_cont_8to1c4_353_26_alg».proof.Proof.Bits.ScSetup
import Idealize.ShloMosaic.Lib.SparseCore.Launch
import Idealize.ShloMosaic.Lib.SparseCore.Ops
import Idealize.ShloMosaic.Lib.StableHlo.Run
import Idealize.ShloMosaic.Lib.Tactic
import Idealize.ShloMosaic.Lib.Pipeline.Value
import Idealize.ShloMosaic.Lib.Ring

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)
variable (d : Dev nD) (L : grid0.Coords)

/-! ## The copy in -/

/-- The copy in overwrites the whole label scratch: what lands is what was read. -/
theorem copyIn_lands (fs : Buf (Elt F) ((V d (cV L) (jV L)).loc cc0_scratch0)) :
    (sL : Memref sig .scVector .vmem S1024 .i32).view.write (Elt F) fs ((labK L).view.read (Elt F) (m (labLoc d))) Finset.univ = (labK L).view.read (Elt F) (m (labLoc d)) :=
  View.write_whole_univ _ _ _

/-- What was read is the task's labels: place j of the slice at offset 1024·s is label 1024·s + j. -/
theorem copyIn_holds : LabHolds m d (jV L) ((labK L).view.read (Elt F) (m (labLoc d))) := by
  intro j
  refine (View.read_apply _ _).trans ((cast_eq _ _).trans ?_)
  refine congrArg (m (labLoc d)) ?_
  funext a
  match a with
  | ⟨0, _⟩ =>
    apply Fin.ext
    have hL : (L 1).val < 16 := (L 1).isLt
    have hj : (j 0).val < 1024 := (j 0).isLt
    show (k0_off1 L) 0 + 1 * (j 0).val = (1024 * (L 1).val + (j 0).val) % 16384
    rw [k0_off1_eq]
    show 1024 * (L 1).val + 1 * (j 0).val = _
    omega

/-! ## The counts as the loop carries them -/

/-- The running count of class `c` on subcore `s` after `k` groups, as a sixteen-lane vector. -/
def accLane (lab : IVec S16384 32) (s : ℕ) (c : BitVec 32) (k : ℕ) : FVec F S16 .f32 :=
  fun l => Stages.histLane (F := F) lab s (l 0).val c k

/-- The ten accumulators the loop carries. -/
abbrev Acc (F : FTy → Type) : Type :=
  FVec F S16 .f32 × FVec F S16 .f32 × FVec F S16 .f32 × FVec F S16 .f32 × FVec F S16 .f32 × FVec F S16 .f32 × FVec F S16 .f32 × FVec F S16 .f32 × FVec F S16 .f32 × FVec F S16 .f32

/-- Their values before group `k`: class c's running count in place c. -/
def accAt (lab : IVec S16384 32) (s k : ℕ) : Acc F :=
  (accLane lab s 0#32 k, accLane lab s 1#32 k, accLane lab s 2#32 k, accLane lab s 3#32 k, accLane lab s 4#32 k,
    accLane lab s 5#32 k, accLane lab s 6#32 k, accLane lab s 7#32 k, accLane lab s 8#32 k, accLane lab s 9#32 k)

theorem accAt_zero (lab : IVec S16384 32) (s : ℕ) :
    accAt (F := F) lab s 0 = (k0_pay13, k0_pay14, k0_pay15, k0_pay16, k0_pay17, k0_pay18, k0_pay19, k0_pay20, k0_pay21, k0_pay22) := rfl

theorem trips_eq : k0_t1_loop.trips = 64 := by decide +kernel

/-- One group more: the lane's count gains one where the group's label at that lane is the class. -/
theorem lane_step (lab : IVec S16384 32) (s k : ℕ) (c : BitVec 32) (a : FVec F S16 .f32) (v : IVec S16 32)
    (ha : a = accLane lab s c k)
    (hv : ∀ l : S16.Idx, v l = lab (ix1 ⟨(1024 * s + 16 * k + (l 0).val) % 16384, Nat.mod_lt _ (by decide)⟩)) :
    addf a (select (cmpi .eq v (broadcast S16 c)) (broadcast S16 (Scalar.ofBits (F := F) .f32 0x3F800000#32))
      (broadcast S16 (Scalar.ofBits (F := F) .f32 0x00000000#32))) = accLane lab s c (k + 1) := by
  subst ha
  funext l
  show FloatOps.addf (Stages.histLane (F := F) lab s (l 0).val c k)
      (Scalar.select (IntOp.cmpi .eq (v l) c) (Scalar.ofBits .f32 0x3F800000#32) (Scalar.ofBits .f32 0x00000000#32)) = _
  rw [hv l]
  rfl

theorem pay6_apply (v81 : Vec F S16 .i32) (l : S16.Idx) : k0_pay6 (F := F) v81 l = v81 l :=
  congrFun (shapeCast_self _ _) l

/-- The ten accumulators after one more group, from the group's sixteen labels. -/
theorem accAt_succ (lab : IVec S16384 32) (s k : ℕ) (v81 : Vec F S16 .i32)
    (hv : ∀ l : S16.Idx, v81 l = lab (ix1 ⟨(1024 * s + 16 * k + (l 0).val) % 16384, Nat.mod_lt _ (by decide)⟩)) :
    (k0_pay7 (accAt (F := F) lab s k).1 v81, k0_pay8 (accAt (F := F) lab s k).2.1 v81, k0_pay9 (accAt (F := F) lab s k).2.2.1 v81,
      k0_pay10 (accAt (F := F) lab s k).2.2.2.1 v81, k0_pay11 (accAt (F := F) lab s k).2.2.2.2.1 v81, k0_pay12 (accAt (F := F) lab s k).2.2.2.2.2.1 v81,
      k0_pay23 (accAt (F := F) lab s k).2.2.2.2.2.2.1 (k0_pay6 v81), k0_pay24 (accAt (F := F) lab s k).2.2.2.2.2.2.2.1 (k0_pay6 v81),
      k0_pay25 (accAt (F := F) lab s k).2.2.2.2.2.2.2.2.1 (k0_pay6 v81), k0_pay26 (accAt (F := F) lab s k).2.2.2.2.2.2.2.2.2 (k0_pay6 v81))
      = accAt lab s (k + 1) := by
  have hv' : ∀ l : S16.Idx, k0_pay6 (F := F) v81 l = lab (ix1 ⟨(1024 * s + 16 * k + (l 0).val) % 16384, Nat.mod_lt _ (by decide)⟩) :=
    fun l => (pay6_apply v81 l).trans (hv l)
  unfold accAt
  refine Prod.ext ?_ (Prod.ext ?_ (Prod.ext ?_ (Prod.ext ?_ (Prod.ext ?_ (Prod.ext ?_ (Prod.ext ?_ (Prod.ext ?_ (Prod.ext ?_ ?_))))))))
  · exact lane_step lab s k 0#32 _ (k0_pay6 v81) rfl hv'
  · exact lane_step lab s k 1#32 _ (k0_pay6 v81) rfl hv'
  · exact lane_step lab s k 2#32 _ (k0_pay6 v81) rfl hv'
  · exact lane_step lab s k 3#32 _ (k0_pay6 v81) rfl hv'
  · exact lane_step lab s k 4#32 _ (k0_pay6 v81) rfl hv'
  · exact lane_step lab s k 5#32 _ (k0_pay6 v81) rfl hv'
  · exact lane_step lab s k 6#32 _ (k0_pay6 v81) rfl hv'
  · exact lane_step lab s k 7#32 _ (k0_pay6 v81) rfl hv'
  · exact lane_step lab s k 8#32 _ (k0_pay6 v81) rfl hv'
  · exact lane_step lab s k 9#32 _ (k0_pay6 v81) rfl hv'

/-- Group `k`'s sixteen labels as the task loads them from its scratch: labels 1024·s + 16·k + l. -/
theorem load_lane (s1 : Buf (Elt F) ((V d (0 : Fin τ.nSC) (jV L)).loc cc0_scratch0)) (hs1 : LabHolds m d (jV L) s1)
    (k : Fin k0_t1_loop.trips) (l : S16.Idx) :
    (sL : Memref sig .scVector .vmem S1024 .i32).view.readAt (Elt F) (Rect.unit (s := S1024) (k0_off2 k) S16.size (k0_off2_inb k)).toLoadRect s1 l
      = m (labLoc d) (ix1 ⟨(1024 * (L 1).val + 16 * k.val + (l 0).val) % 16384, Nat.mod_lt _ (by decide)⟩) := by
  simp only [View.readAt_apply, Memref.view_whole, View.read_whole]
  rw [hs1]
  refine congrArg (m (labLoc d)) ?_
  funext a
  match a with
  | ⟨0, _⟩ =>
    apply Fin.ext
    show (1024 * (L 1).val + ((k0_off2 k) 0 + 1 * (l 0).val)) % 16384 = (1024 * (L 1).val + 16 * k.val + (l 0).val) % 16384
    rw [k0_off2_eq]
    show (1024 * (L 1).val + (16 * k.val + 1 * (l 0).val)) % 16384 = _
    omega

/-! ## The counts as the scratch and the array hold them -/

theorem countsFn_at (lab : IVec S16384 32) (j : S256x16.Idx) (s r l : ℕ) (hr : r < 16) (h0 : (j 0).val = 16 * s + r) (h1 : (j 1).val = l) :
    Stages.countsFn (F := F) lab j
      = if r < 10 then Stages.histLane lab s l (BitVec.ofNat 32 r) 64 else Scalar.ofBits .f32 0x00000000#32 := by
  have e1 : (j 0).val % 16 = r := by omega
  have e2 : (j 0).val / 16 = s := by omega
  unfold Stages.countsFn
  rw [e1, e2, h1]

/-- The counts function at row `r`, lane `x 1` of the task's sixteen rows. -/
theorem cnt_row (r : ℕ) (hr : r < 16) (inb : ∀ a, (![r, 0] : Fin 2 → ℕ) a + S1x16.size a ≤ S16x16.size a) (x : S1x16.Idx) :
    cntFn m d ((cntK L).view.emb ((Rect.unit (s := S16x16) ![r, 0] S1x16.size inb).emb x))
      = if r < 10 then Stages.histLane (F := F) (m (labLoc d)) (L 1).val (x 1).val (BitVec.ofNat 32 r) 64 else Scalar.ofBits .f32 0x00000000#32 := by
  have hx : (x 0).val < 1 := (x 0).isLt
  refine countsFn_at _ _ (L 1).val r (x 1).val hr ?_ ?_
  · show (k0_off3 L) 0 + 1 * (r + 1 * (x 0).val) = 16 * (L 1).val + r
    rw [k0_off3_eq]
    show 16 * (L 1).val + 1 * (r + 1 * (x 0).val) = _
    omega
  · show (k0_off3 L) 1 + 1 * (0 + 1 * (x 1).val) = (x 1).val
    rw [k0_off3_eq]
    show 0 + 1 * (0 + 1 * (x 1).val) = _
    omega

/-- A row of class counts, stored as a 1×16 piece, is the counts function on that row. -/
theorem piece_hist (r : ℕ) (hr : r < 10) (inb : ∀ a, (![r, 0] : Fin 2 → ℕ) a + S1x16.size a ≤ S16x16.size a) (x : S1x16.Idx) :
    shapeCast S1x16 (accLane (F := F) (m (labLoc d)) (L 1).val (BitVec.ofNat 32 r) 64) shapeCasts_S16_S1x16 x
      = cntFn m d ((cntK L).view.emb ((Rect.unit (s := S16x16) ![r, 0] S1x16.size inb).emb x)) := by
  rw [cnt_row m d L r (by omega) inb x, if_pos hr]
  exact shapeCast_addUnit_apply (n := 1) ![16] _ _ x

/-- A zero row likewise. -/
theorem piece_zero (r : ℕ) (hr : 10 ≤ r) (hr' : r < 16) (inb : ∀ a, (![r, 0] : Fin 2 → ℕ) a + S1x16.size a ≤ S16x16.size a) (x : S1x16.Idx) :
    shapeCast S1x16 (broadcast S16 (Scalar.ofBits (F := F) .f32 0x00000000#32)) shapeCasts_S16_S1x16 x
      = cntFn m d ((cntK L).view.emb ((Rect.unit (s := S16x16) ![r, 0] S1x16.size inb).emb x)) := by
  rw [cnt_row m d L r hr' inb x, if_neg (by omega)]
  exact shapeCast_addUnit_apply (n := 1) ![16] _ _ x

/-- What lands in the task's rows of the counts array: the scratch's contents, placed. -/
theorem copyOut_lands (fC : Buf (Elt F) ((V d (cV L) (jV L)).loc cc0_scratch1))
    (hfC : ∀ y : S16x16.Idx, (sC : Memref sig .scVector .vmem S16x16 .f32).view.read (Elt F) fC y = cntFn m d ((cntK L).view.emb y)) :
    ∀ i ∈ (cntK L).view.set, (cntK L).view.write (Elt F) (m (cntLoc d)) ((sC : Memref sig .scVector .vmem S16x16 .f32).view.read (Elt F) fC) Finset.univ i = cntFn m d i := by
  intro i hi
  obtain ⟨y, rfl⟩ := View.exists_emb_of_mem_set _ hi
  rw [View.write_emb_of_mem _ _ (Finset.mem_univ y)]
  exact (cast_eq _ _).trans (hfC y)

/-- Before group `k`: the label scratch at the task's labels, the accumulators the running counts after `k` groups. -/
def loopInv (s1 : Buf (Elt F) ((V d (0 : Fin τ.nSC) (jV L)).loc cc0_scratch0)) (k : Nat) (acc : Acc F) : sProp 𝕄 :=
  iprop(((sL : Memref sig .scVector .vmem S1024 .i32).view.loc (V d (cV L) (jV L)) ↦{fullShare} s1) ∗ ⌜acc = accAt (m (labLoc d)) (L 1).val k⌝)

/-- The task on vector subcore `(L 0, L 1)` of device `d`: from its two cells' kits, its part of the labels and its
    rows of the counts array (as the launch memory has them), its scratches and semaphores and what it owes, the body
    runs — the copy in and its wait, the loop at `loopInv`, sixteen loads and stores, the copy out and its wait — to
    the labels' part unchanged and its rows of the counts array at the counts function of the labels. -/
theorem tile_body (hF : (K (F := F)).Facts) (O : CellTallies nD τ sig (HIx 1)) (W : Waits sig (HIx 1)) (hO : ∀ g, O g none = 0) :
    iprop(levAts (K (F := F)).L (K (F := F)).lev ∗ (kit m (cAcell d (cV L) (jV L)) ∗ kit m (cBcell d (cV L) (jV L)))
        ∗ (labPartPts m d (jL L) ∗ cntPartPts d (jL L) (m (cntLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_hist_body L labV (Memref.isWhole_whole _) cntV (Memref.isWhole_whole _)
            sL (Memref.isWhole_whole _) sC (Memref.isWhole_whole _) cc0_scoped0 cc0_scoped1)
          fun _ => iprop((labPartPts m d (jL L) ∗ cntPartPts d (jL L) (cntFn m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_hist_body_eq_skeleton]; unfold cc0__sc_hist_body_skel
  simp only [k0_part2_eq_skeleton]; unfold k0_part2_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  unfold kit
  iintro ⟨#Hlv, ⟨⟨HstA, HatA, #HrA, HtokA⟩, ⟨HstB, HatB, #HrB, HtokB⟩⟩, ⟨Hi, Ho⟩,
    ⟨⟨%fs, Hs⟩, ⟨%fc, Hc⟩, Hbufs⟩, ⟨HsemA, HsemB, Hsems⟩, HO⟩
  imod ((Rounds.body_intro EK (kRd m) (cAcell d (cV L) (jV L))).trans inv_alloc) $$ [HsemA HstA] with ⟨%κA, #HinvA⟩
  · isplitl [HsemA] <;> iassumption
  imod ((Rounds.body_intro EK (kRd m) (cBcell d (cV L) (jV L))).trans inv_alloc) $$ [HsemB HstB] with ⟨%κB, #HinvB⟩
  · isplitl [HsemB] <;> iassumption
  -- the copy in: the task's labels read, the label scratch written
  ihave Hi' := (Entails.of_eq (pts_labK (F := F) d L _).symm) $$ Hi
  ihave Hs' := (Entails.of_eq (pts_sL (F := F) d L _).symm) $$ Hs
  iapply (Rounds.wp_copy_pointsTo 𝒱₀ EK (kRd m) (V d (cV L) (jV L)) none (q := fullShare) (fs := m (labLoc d)) (fd := fs) (κ := κA)
      (kRd_mem₀ m (by rw [cellKind_cA]; rfl)) none NA rfl (kRd_amount_cA m d _ _) ?hpayA) $$ [Hi' Hs' HtokA]
  case hpayA =>
    rw [kRd_payload_cA, pts_labK, pts_sL, copyIn_lands]
    iintro ⟨Hs, Hi⟩
    isplitl [Hs]
    · iexists _; isplitr; · ipureintro; exact copyIn_holds m d L
      iexact Hs
    · iexact Hi
  · isplitr; · iexact HinvA
    isplitl [Hi']; · iexact Hi'
    isplitl [Hs']; · iexact Hs'
    isplitl [HtokA]; · iexact HtokA
    iexact HrA
  iintro HcredA
  iapply (Rounds.wp_wait_rest_token 𝒱₀ EK (kRd m) (V d (cV L) (jV L)) none (κ := κA)
      (wpE_waitDma2_eq 𝒱₀ (V d (cV L) (jV L)) none Set.univ) (Set.mem_univ κA) none (O := O) (W := W) (R := 0) (m := 0) (T := ∅)
      (by rw [Nat.zero_add, kRd_expect m (by rw [cellKind_cA]; rfl), kRd_amount_cA])) $$ [HcredA HO HatA]
  · isplitr; · iexact HinvA
    isplitl [HcredA]; · iexact HcredA
    isplitl [HO]; · iexact HO
    isplitr; · iapply ((K (F := F)).mayWait_none (SemLoc.dma cc0_scoped0.sem) hO); iexact Hlv
    iexact HatA
  iintro ⟨HO, HatA, -, Hpay⟩
  ihave Hp := ((kRd_back m (g := cAcell d (cV L) (jV L)) (by rw [cellKind_cA]; rfl)).trans (Entails.of_eq (kRd_payload_cA m d _ _))) $$ Hpay
  icases Hp with ⟨⟨%s1, %hs1, Hs⟩, Hi⟩
  imod (Rounds.cell_close EK (kRd m) (Set.mem_univ κA) (fun h => h) (R := 0 + 1) (kRd_later m (cAcell d _ _))) $$ [HatA] with HsemA
  · isplitr; · iexact HinvA
    iexact HatA

  ihave Hs' := (Entails.of_eq (pts_sL_univ (F := F) d L _).symm) $$ Hs
  ihave Hc' := (Entails.of_eq (pts_sC_univ (F := F) d L _).symm) $$ Hc
  rw [Prog.bind_assoc]
  -- the sixty-four groups: the label scratch goes round, the accumulators are the running counts
  sl_for (loopInv m d L s1) $$ [Hs']
  case region =>
    intro k a
    unfold loopInv
    iintro ⟨Hs, %ha⟩
    subst ha
    sl_exec
    sl_step
    isplitl [Hs]; · iexact Hs
    ipureintro
    exact accAt_succ (m (labLoc d)) (L 1).val k.val _ (load_lane m d L s1 hs1 k)
  · unfold loopInv
    isplitl [Hs']; · iexact Hs'
    ipureintro; exact (accAt_zero _ _).symm
  iintro %a HI
  unfold loopInv
  icases HI with ⟨Hs, %ha⟩
  rw [show Scf.trips k0_t1_loop.lb k0_t1_loop.ub k0_t1_loop.st = 64 from trips_eq] at ha
  subst ha
  -- the sixteen rows: each loaded (the value unused) and stored
  sl_exec
  -- the copy out: the counts scratch read, the task's rows of the counts array written
  ihave Hc := (Entails.of_eq ((pts_sC_univ (F := F) d L _).trans (pts_sC (F := F) d L _).symm)) $$ Hc'
  ihave Ho' := (Entails.of_eq (pts_cntK (F := F) d L _).symm) $$ Ho
  iapply (Rounds.wp_copy_pointsTo 𝒱₀ EK (kRd m) (V d (cV L) (jV L)) none (q := fullShare) (fd := m (cntLoc d)) (κ := κB)
      (kRd_mem₀ m (by rw [cellKind_cB]; rfl)) none NB rfl (kRd_amount_cB m d _ _) ?hpayB) $$ [Hc Ho' HtokB]
  rotate_left
  · isplitr; · iexact HinvB
    isplitl [Hc]; · iexact Hc
    isplitl [Ho']; · iexact Ho'
    isplitl [HtokB]; · iexact HtokB
    iexact HrB
  case hpayB =>
    rw [kRd_payload_cB, pts_sC]
    refine (sep_mono_left (Entails.of_eq ((pointsTo_congr (copyOut_lands m d L _ ?hfC)).trans (pts_cntK (F := F) d L _)))).trans ?fin
    case hfC =>
      intro y
      refine Eq.trans (View.read_writes_apply_eq_canon _ _ y _ ?hc) ?rest
      case hc => exact View.cover_of_tiledL (s := S16x16) _ ![1, 16] (by sl_kernel_rfl) y
      case rest =>
        refine View.canon_apply_of_pieces (fun y => cntFn m d ((cntK L).view.emb y)) _ ?hp y
          (View.cover_of_tiledL (s := S16x16) _ ![1, 16] (by sl_kernel_rfl) y)
        intro p hp
        simp only [List.mem_cons, List.not_mem_nil, _root_.or_false] at hp
        rcases hp with rfl | rfl | rfl | rfl | rfl | rfl | rfl | rfl | rfl | rfl | rfl | rfl | rfl | rfl | rfl | rfl
        · exact piece_zero m d L 15 (by decide) (by decide) inb_S16x16_S1x16_15_0
        · exact piece_zero m d L 14 (by decide) (by decide) inb_S16x16_S1x16_14_0
        · exact piece_zero m d L 13 (by decide) (by decide) inb_S16x16_S1x16_13_0
        · exact piece_zero m d L 12 (by decide) (by decide) inb_S16x16_S1x16_12_0
        · exact piece_zero m d L 11 (by decide) (by decide) inb_S16x16_S1x16_11_0
        · exact piece_zero m d L 10 (by decide) (by decide) inb_S16x16_S1x16_10_0
        · exact piece_hist m d L 9 (by decide) inb_S16x16_S1x16_9_0
        · exact piece_hist m d L 8 (by decide) inb_S16x16_S1x16_8_0
        · exact piece_hist m d L 7 (by decide) inb_S16x16_S1x16_7_0
        · exact piece_hist m d L 6 (by decide) inb_S16x16_S1x16_6_0
        · exact piece_hist m d L 5 (by decide) inb_S16x16_S1x16_5_0
        · exact piece_hist m d L 4 (by decide) inb_S16x16_S1x16_4_0
        · exact piece_hist m d L 3 (by decide) inb_S16x16_S1x16_3_0
        · exact piece_hist m d L 2 (by decide) inb_S16x16_S1x16_2_0
        · exact piece_hist m d L 1 (by decide) inb_S16x16_S1x16_1_0
        · exact piece_hist m d L 0 (by decide) inb_S16x16_S1x16_0_0
    case fin =>
      iintro ⟨Ho, Hc⟩
      isplitl [Ho]; · iexact Ho
      iexists _; iexact Hc
  iintro HcredB
  iapply (Rounds.wp_wait_rest_token 𝒱₀ EK (kRd m) (V d (cV L) (jV L)) none (κ := κB)
      (wpE_waitDma2_eq 𝒱₀ (V d (cV L) (jV L)) none Set.univ) (Set.mem_univ κB) none (O := O)
      (W := insert (SemLoc.dma cc0_scoped0.sem, none) W) (R := 0) (m := 0) (T := ∅)
      (by rw [Nat.zero_add, kRd_expect m (by rw [cellKind_cB]; rfl), kRd_amount_cB]; try rfl)) $$ [HcredB HO HatB]
  · isplitr; · iexact HinvB
    isplitl [HcredB]; · iexact HcredB
    isplitl [HO]; · iexact HO
    isplitr; · iapply ((K (F := F)).mayWait_none (SemLoc.dma cc0_scoped1.sem) hO); iexact Hlv
    iexact HatB
  iintro ⟨HO, HatB, -, Hpay⟩
  ihave Hp := ((kRd_back m (g := cBcell d (cV L) (jV L)) (by rw [cellKind_cB]; rfl)).trans (Entails.of_eq (kRd_payload_cB m d _ _))) $$ Hpay
  icases Hp with ⟨Ho, ⟨%fc', Hc⟩⟩
  imod (Rounds.cell_close EK (kRd m) (Set.mem_univ κB) (fun h => h) (R := 0 + 1) (kRd_later m (cBcell d _ _))) $$ [HatB] with HsemB
  · isplitr; · iexact HinvB
    iexact HatB
  rw [wp_ret]; imodintro
  isplitl [Hi Ho]
  · isplitl [Hi]; · iexact Hi
    iexact Ho
  ihave Hs := (Entails.of_eq (pts_sL_univ (F := F) d L _)) $$ Hs
  isplitl [Hs Hc Hbufs]
  · isplitl [Hs]
    · iexists _; iexact Hs
    isplitl [Hc]
    · iexists _; iexact Hc
    · iexact Hbufs
  isplitl [HsemA HsemB Hsems]
  · isplitl [HsemA]; · iexact HsemA
    isplitl [HsemB]; · iexact HsemB
    iexact Hsems
  iexists (insert (SemLoc.dma cc0_scoped1.sem, none) (insert (SemLoc.dma cc0_scoped0.sem, none) W)); isplitr
  · ipureintro; intro p hp
    rcases Finset.mem_insert.mp hp with rfl | hp
    · exact .inr rfl
    rcases Finset.mem_insert.mp hp with rfl | hp
    · exact .inr rfl
    · exact .inl hp
  iexact HO

end Cert.Kernel.Sc

end
-- ==== Proof.Bits.ScObl.lean ====
/-
  What the launch theorem asks of the vector subcores' call.

  The split: the labels whole are their sixteen parts of 1024, the counts array whole its sixteen parts of
  sixteen rows — the parts of an array along its first axis are pairwise disjoint and cover it — so the call's
  operands go out to the sixteen tasks part by part; and when every task has given its rows back holding the
  counts function of the labels, the rows together are the counts array whole at that one function, because
  every part was held at the SAME function.

  The task obligation: a task's program on vector subcore i of SparseCore c is the body at the grid coordinates
  (c, i); the body's run at symbolic coordinates, weakened to the obligation's post (a wait recorded at the
  call's own index is allowed there, none is made), is the obligation.
-/
import proofs.«218680_g49873160241359_cont_8to1c4_353_26_alg».proof.Proof.Bits.ScBody

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## A task's obligation, from the body proved at its coordinates -/

/-- The grid coordinates of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_hist_body (coordsV c s)
          labV (Memref.isWhole_whole _) cntV (Memref.isWhole_whole _)
          sL (Memref.isWhole_whole _) sC (Memref.isWhole_whole _) cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call: from its two kits, its part of the labels and its rows of the counts array, its body runs
    to the labels' part unchanged and its rows at the counts function. -/
theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-! ## How the call's operands split among the tasks -/

theorem labSet_eq (i : Fin 16) : labSet i = (labPart i).set := by
  show ((View.whole (main_arg1_scv : Ref sig .scVector)).slice (labPart i)).set = _
  rw [View.set_slice]; exact Finset.map_refl
theorem cntSet_eq (i : Fin 16) : cntSet i = (cntPart i).set := by
  show ((View.whole (main_v2_scv : Ref sig .scVector)).slice (cntPart i)).set = _
  rw [View.set_slice]; exact Finset.map_refl
theorem labs_disjoint : ∀ i ∈ (Finset.univ : Finset (Fin 16)), ∀ j ∈ (Finset.univ : Finset (Fin 16)), i ≠ j → Disjoint (labSet i) (labSet j) :=
  fun i _ j _ h => by rw [labSet_eq, labSet_eq]; exact Rect.part_disjoint hdivL h
theorem cnts_disjoint : ∀ i ∈ (Finset.univ : Finset (Fin 16)), ∀ j ∈ (Finset.univ : Finset (Fin 16)), i ≠ j → Disjoint (cntSet i) (cntSet j) :=
  fun i _ j _ h => by rw [cntSet_eq, cntSet_eq]; exact Rect.part_disjoint hdivC h
theorem labs_cover : (Finset.univ : Finset (Fin 16)).biUnion labSet = Finset.univ :=
  (Finset.biUnion_congr rfl fun i _ => labSet_eq i).trans (Rect.biUnion_part hdivL)
theorem cnts_cover : (Finset.univ : Finset (Fin 16)).biUnion cntSet = Finset.univ :=
  (Finset.biUnion_congr rfl fun i _ => cntSet_eq i).trans (Rect.biUnion_part hdivC)

/-- An array held whole is its sixteen parts held, at the same contents. -/
theorem labPts_parts (d : Dev nD) (f : Buf (Elt F) (labLoc d)) :
    (labLoc d ↦{fullShare} f : sProp 𝕄) = bigSep Finset.univ fun i : Fin 16 => labLoc d ↦[labSet i]{fullShare} f := by
  rw [← pointsTo_biUnion Finset.univ (ℓ := labLoc d) labSet labs_disjoint, labs_cover]; try rfl
theorem cntPts_parts (d : Dev nD) (f : Buf (Elt F) (cntLoc d)) :
    (cntLoc d ↦{fullShare} f : sProp 𝕄) = bigSep Finset.univ fun i : Fin 16 => cntLoc d ↦[cntSet i]{fullShare} f := by
  rw [← pointsTo_biUnion Finset.univ (ℓ := cntLoc d) cntSet cnts_disjoint, cnts_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The labels and the counts array go out as their sixteen parts; the parts come back — the counts array's at the
    counts function — and are the two arrays whole again, the counts array at the counts function. -/
theorem vecSplit : (K (F := F)).VecSplit' (P m) 0 := by
  intro d c
  show iprop(labPts m d ∗ cntPts d (m (cntLoc d))) ⊢ |={Set.univ}=> iprop(
      (bigSep Finset.univ fun i : Fin ((K (F := F)).nSub 0) =>
        iprop(labPartPts m d (Fin.cast nSub_zero i) ∗ cntPartPts d (Fin.cast nSub_zero i) (m (cntLoc d))))
      ∗ ((bigSep Finset.univ fun i : Fin ((K (F := F)).nSub 0) =>
          iprop(labPartPts m d (Fin.cast nSub_zero i) ∗ cntPartPts d (Fin.cast nSub_zero i) (cntFn m d)))
          -∗ iprop(labPts m d ∗ cntPts d (cntFn m d))))
  rw [bigSep_tasks (F := F) (fun i => iprop(labPartPts m d i ∗ cntPartPts d i (m (cntLoc d)))),
    bigSep_tasks (F := F) (fun i => iprop(labPartPts m d i ∗ cntPartPts d i (cntFn m d))), bigSep_sep', bigSep_sep']
  unfold labPts cntPts labPartPts cntPartPts
  rw [labPts_parts, cntPts_parts, cntPts_parts]
  iintro H; imodintro
  isplitl [H]; · iexact H
  iintro H; iexact H

end Cert.Kernel.Sc

end
-- ==== Proof.Bits.TcBody1.lean ====
/-
  Call 1's body at its two blocks, and the obligation it owes the pipeline at every block.

  At block 0 the body zeroes its 16×8192 table, reads the block of logits and the block of labels, and stores the
  table with the block's term added: the table then holds the first accumulate over zero. At block 1 it adds the second
  block's term to what block 0 left, and stores the lane sums of the table into the 16×1 result window. A fetched
  block of a window whose blocks tile its array is the array read at "block number × block size + the
  coordinate inside": column 8192·t + j of the transposed logits and of the labels row.
-/
import proofs.«218680_g49873160241359_cont_8to1c4_353_26_alg».proof.Proof.Bits.TcData
import Idealize.ShloMosaic.Lib.Pipeline.FrameBody
import Idealize.ShloMosaic.Lib.Pipeline.Value
import Idealize.ShloMosaic.Lib.Ring

noncomputable section

namespace Cert.Kernel.Tc

open Cert.Kernel Cert.Kernel.Gen Cert.Kernel.Stages

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Facts]
open Facts₀ Facts

local notation "𝕄" => MT nD τ sig (HIx 1) (Elt F) ℕ Sc.UU ℕ

open Idealize.ShloMosaic.ValueIdx

/-- The first conditional of call 1's body: the block is the first. -/
abbrev cond1 (i : grid1.Coords) : Prop :=
  Scalar.cmpi .ne (Scalar.extui (Scalar.cmpi .eq (BitVec.ofNat 32 (i 0).val) 0#32)) 0#32 = 1#1

/-- It holds at block 0 only, -/
theorem hcond1 : ∀ t : Fin cfg1.N, cond1 (grid1.coords t) ↔ t.val = 0 :=
  (by decide +kernel : ∀ t : Fin grid1.N, cond1 (grid1.coords t) ↔ t.val = 0)
/-- and the second conditional (the block is the last) at block 1 only. -/
theorem hcond2 : ∀ t : Fin cfg1.N, k1_cond2 (grid1.coords t) = 1#1 ↔ t.val = 1 :=
  (by decide +kernel : ∀ t : Fin grid1.N, k1_cond2 (grid1.coords t) = 1#1 ↔ t.val = 1)

theorem hz2 : (![0, 0] : Fin 2 → Nat) = fun _ => 0 := funext fun a => by fin_cases a <;> rfl

/-! ## The body on any whole staging memrefs -/

set_option maxHeartbeats 1000000 in
/-- Block 0: the table is zeroed and the block's term accumulated; the three windows' buffers are left as found. -/
theorem run1A (c : Dev nD) (i : grid1.Coords) (arg1 : Memref sig .tc .vmem S9x8192 .f32) (harg1 : arg1.IsWhole)
    (arg2 : Memref sig .tc .vmem S1x8192 .i32) (harg2 : arg2.IsWhole) (arg3 : Memref sig .tc .vmem S16x1 .f32) (harg3 : arg3.IsWhole)
    (arg4 : Memref sig .tc .vmem S16x8192 .f32) (harg4 : arg4.IsWhole) (hc1 : cond1 i) (hc2 : ¬ k1_cond2 i = 1#1)
    (x0 : Vec F S9x8192 .f32) (x1 : Vec F S1x8192 .i32) (y : Vec F S16x1 .f32) (z : Vec F S16x8192 .f32) (E : Set ℕ) (K : PUnit → sProp 𝕄) :
    iprop(owns (c : Thread nD τ) arg1 fullShare x0 ∗ owns (c : Thread nD τ) arg2 fullShare x1 ∗ owns (c : Thread nD τ) arg3 fullShare y
        ∗ owns (c : Thread nD τ) arg4 fullShare z
        ∗ (iprop(owns (c : Thread nD τ) arg1 fullShare x0 ∗ owns (c : Thread nD τ) arg2 fullShare x1 ∗ owns (c : Thread nD τ) arg3 fullShare y
            ∗ owns (c : Thread nD τ) arg4 fullShare (k1_pay3 x0 x1 (k1_pay2 (F := F)))) -∗ K ⟨⟩))
      ⊢ wp frame (wpE (defs₀ (F := F)) Variants.none c none) E (cc1__tc_body i arg1 harg1 arg2 harg2 arg3 harg3 arg4 harg4) K := by
  simp only [cc1__tc_body_eq_skeleton]; unfold cc1__tc_body_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact H3
  ipureintro
  sl_unfold_run_names
  rw [View.read_writes_eq_canon _ _ _ (fun y => ⟨_, List.mem_cons_self, View.mem_set_unit_zero hz2 Gen.inb_S16x8192_S16x8192_0_0 y⟩)]
  rw [View.canon_cons_unit_zero hz2, View.readCov_unit_zero _ hz2]
  simp only [View.readAt_eq_ld, hf0, hf1, View.ld_unit_zero (S := S9x8192) hz2, View.ld_unit_zero (S := S1x8192) hz2]

set_option maxHeartbeats 1000000 in
/-- Block 1: the block's term is accumulated onto what the table held, and the table's lane sums stored into the result. -/
theorem run1B (c : Dev nD) (i : grid1.Coords) (arg1 : Memref sig .tc .vmem S9x8192 .f32) (harg1 : arg1.IsWhole)
    (arg2 : Memref sig .tc .vmem S1x8192 .i32) (harg2 : arg2.IsWhole) (arg3 : Memref sig .tc .vmem S16x1 .f32) (harg3 : arg3.IsWhole)
    (arg4 : Memref sig .tc .vmem S16x8192 .f32) (harg4 : arg4.IsWhole) (hc1 : ¬ cond1 i) (hc2 : k1_cond2 i = 1#1)
    (x0 : Vec F S9x8192 .f32) (x1 : Vec F S1x8192 .i32) (y : Vec F S16x1 .f32) (z : Vec F S16x8192 .f32) (E : Set ℕ) (K : PUnit → sProp 𝕄) :
    iprop(owns (c : Thread nD τ) arg1 fullShare x0 ∗ owns (c : Thread nD τ) arg2 fullShare x1 ∗ owns (c : Thread nD τ) arg3 fullShare y
        ∗ owns (c : Thread nD τ) arg4 fullShare z
        ∗ (iprop(owns (c : Thread nD τ) arg1 fullShare x0 ∗ owns (c : Thread nD τ) arg2 fullShare x1
            ∗ owns (c : Thread nD τ) arg3 fullShare (k1_pay1 (k1_pay3 x0 x1 z))
            ∗ owns (c : Thread nD τ) arg4 fullShare (k1_pay3 x0 x1 z)) -∗ K ⟨⟩))
      ⊢ wp frame (wpE (defs₀ (F := F)) Variants.none c none) E (cc1__tc_body i arg1 harg1 arg2 harg2 arg3 harg3 arg4 harg4) K := by
  simp only [cc1__tc_body_eq_skeleton]; unfold cc1__tc_body_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    sl_unfold_run_names
    rw [View.read_writes_eq_canon _ _ _ (fun y => ⟨_, List.mem_cons_self, View.mem_set_unit_zero hz2 Gen.inb_S16x1_S16x1_0_0 y⟩)]
    rw [View.canon_unit_zero hz2, View.readCov_unit_zero _ hz2]
    simp only [View.readAt_eq_ld, hf0, hf1, hf3, View.ld_unit_zero (S := S9x8192) hz2, View.ld_unit_zero (S := S1x8192) hz2,
      View.ld_unit_zero (S := S16x8192) hz2]
  iexists _; isplitr; swap; · iexact H3
  ipureintro
  sl_unfold_run_names
  rw [View.read_writes_eq_canon _ _ _ (fun y => ⟨_, List.mem_cons_self, View.mem_set_unit_zero hz2 Gen.inb_S16x8192_S16x8192_0_0 y⟩)]
  rw [View.canon_unit_zero hz2]
  simp only [View.readAt_eq_ld, hf0, hf1, hf3, View.ld_unit_zero (S := S9x8192) hz2, View.ld_unit_zero (S := S1x8192) hz2,
    View.ld_unit_zero (S := S16x8192) hz2]

variable (c : Dev nD) (A0 : Bf (F := F) c main_v0) (A1 : Bf (F := F) c main_v1) (S0 : Bf (F := F) c main_v3)

/-! ## The fetched blocks -/

/-- The two input windows' block numbers: row block 0, column block the point. -/
theorem idx1 : ∀ t : Fin cfg1.N, win1_0.index t (0 : Fin 2) = 0 ∧ win1_0.index t (1 : Fin 2) = t.val
    ∧ win1_1.index t (0 : Fin 2) = 0 ∧ win1_1.index t (1 : Fin 2) = t.val :=
  (by decide +kernel : ∀ t : Fin grid1.N, win1_0.index t (0 : Fin 2) = 0 ∧ win1_0.index t (1 : Fin 2) = t.val
    ∧ win1_1.index t (0 : Fin 2) = 0 ∧ win1_1.index t (1 : Fin 2) = t.val)

/-- The logits block fetched at point `t` is columns 8192·t … of the transposed logits. -/
theorem fetched1_0 (t : Fin cfg1.N) (d) : (rdat1 c A0 A1 S0).fetched 0 t d = blkLogits A0 t.val := by
  obtain ⟨e0, e1, -, -⟩ := idx1 t
  have ht : t.val < 2 := lt_of_lt_of_eq t.isLt N_1
  refine funext fun (j : S9x8192.Idx) => ?_
  show A0 (((cfg1.win 0).blk t).view.emb j) = A0 (ix2 (show Fin 9 from j 0) ⟨(8192 * t.val + (j 1).val) % 16384, Nat.mod_lt _ (by decide)⟩)
  congr 1
  funext a; apply Fin.ext
  match a with
  | ⟨0, _⟩ =>
    show win1_0.index t (0 : Fin 2) * 9 + 1 * (j 0).val = (j 0).val
    omega
  | ⟨1, _⟩ =>
    show win1_0.index t (1 : Fin 2) * 8192 + 1 * (j 1).val = (8192 * t.val + (j 1).val) % 16384
    have hj : (j 1).val < 8192 := (j 1).isLt
    omega

/-- The labels block fetched at point `t` is the same columns of the labels row. -/
theorem fetched1_1 (t : Fin cfg1.N) (d) : (rdat1 c A0 A1 S0).fetched 1 t d = blkLabels (F := F) A1 t.val := by
  obtain ⟨-, -, e0, e1⟩ := idx1 t
  have ht : t.val < 2 := lt_of_lt_of_eq t.isLt N_1
  refine funext fun (j : S1x8192.Idx) => ?_
  show A1 (((cfg1.win 1).blk t).view.emb j) = A1 (ix2 (show Fin 1 from j 0) ⟨(8192 * t.val + (j 1).val) % 16384, Nat.mod_lt _ (by decide)⟩)
  congr 1
  funext a; apply Fin.ext
  match a with
  | ⟨0, _⟩ =>
    show win1_1.index t (0 : Fin 2) * 1 + 1 * (j 0).val = (j 0).val
    omega
  | ⟨1, _⟩ =>
    show win1_1.index t (1 : Fin 2) * 8192 + 1 * (j 1).val = (8192 * t.val + (j 1).val) % 16384
    have hj : (j 1).val < 8192 := (j 1).isLt
    omega

/-! ## The obligation -/

/-- The scratch table held whole is the scratch memref owned. -/
theorem scratch_owns (f : Bf (F := F) c cc1_scratch0) :
    ((((c.tc : Thread nD τ).loc cc1_scratch0) ↦{fullShare} f : sProp 𝕄)) ⊢ owns (c : Thread nD τ) (Memref.whole cc1_scratch0) fullShare f :=
  Entails.of_eq (owns_whole (c : Thread nD τ) cc1_scratch0 fullShare f).symm
theorem owns_scratch (f : Bf (F := F) c cc1_scratch0) :
    (owns (c : Thread nD τ) (Memref.whole cc1_scratch0) fullShare f : sProp 𝕄) ⊢ (((c.tc : Thread nD τ).loc cc1_scratch0) ↦{fullShare} f) :=
  Entails.of_eq (owns_whole (c : Thread nD τ) cc1_scratch0 fullShare f)

set_option backward.isDefEq.respectTransparency.types false in
set_option maxHeartbeats 1000000 in
/-- At each block the body, handed the two fetched blocks and the result window's buffer at anything, leaves the inputs'
    buffers as found; at block 0 the table goes from anything to the first accumulate and the result's buffer is left as
    found, at block 1 the table is accumulated again and the result's buffer receives its lane sums. -/
theorem body_obligation1 : (rdat1 c A0 A1 S0).BodyObligation (defs₀ (F := F)) Sc.𝒱₀ none Set.univ := fun t Y hY => by
  rw [bigSep_W1, bigSep_W1]
  obtain ⟨d0, h0⟩ := ((rdat1 c A0 A1 S0).finds_of_fetch (fetch1_0 t) _).mp (hY 0)
  obtain ⟨d1, h1⟩ := ((rdat1 c A0 A1 S0).finds_of_fetch (fetch1_1 t) _).mp (hY 1)
  rw [fetched1_0] at h0; rw [fetched1_1] at h1
  rw [h0, h1]
  rcases fin_N1 t with rfl | rfl
  · have hc1 : cond1 (grid1.coords t1_0) := (hcond1 t1_0).mpr rfl
    have hc2 : ¬ k1_cond2 (grid1.coords t1_0) = 1#1 := fun h => absurd ((hcond2 t1_0).mp h) (show ¬ (0 : ℕ) = 1 from Nat.zero_ne_one)
    rw [show (rdat1 c A0 A1 S0).Φ t1_0.castSucc = Pipeline.scopedRest (Ix := HIx 1) (Name := ℕ) (U := Sc.UU) (Lvl := ℕ) (Val := Elt F) spec1 c from rfl,
      show (rdat1 c A0 A1 S0).Φ t1_0.succ = iprop((((c.tc : Thread nD τ).loc cc1_scratch0) ↦{fullShare} (acc0 A0 A1 : Bf (F := F) c cc1_scratch0)) ∗ rest1 c) from rfl,
      show (rdat1 c A0 A1 S0).owesAt none t1_0.succ = (rdat1 c A0 A1 S0).owesAt none t1_0.castSucc from rfl,
      scopedRest1_eq]
    iintro ⟨⟨⟨%z, Hs⟩, Hr⟩, Ho, H0, H1, H2⟩
    ihave Hs' := (scratch_owns c z) $$ Hs
    iapply (run1A c (grid1.coords t1_0) _ _ _ _ _ _ _ _ hc1 hc2 (blkLogits A0 t1_0.val) (blkLabels (F := F) A1 t1_0.val) (Y 2) z Set.univ _)
    isplitl [H0]; · iexact H0
    isplitl [H1]; · iexact H1
    isplitl [H2]; · iexact H2
    isplitl [Hs']; · iexact Hs'
    iintro ⟨H0, H1, H2, Hs⟩
    ihave Hs' := (owns_scratch c _) $$ Hs
    isplitl [Hs' Hr]
    · isplitl [Hs']; · iexact Hs'
      unfold rest1; iexact Hr
    isplitl [Ho]; · iexact Ho
    isplitl [H0]; · iexists _; isplitr; · ipureintro; rfl
                    iexact H0
    isplitl [H1]; · iexists _; isplitr; · ipureintro; rfl
                    iexact H1
    iexists _; isplitr; swap; · iexact H2
    ipureintro
    exact ⟨fun _ => rfl, fun h => absurd h Nat.zero_ne_one⟩
  · have hc1 : ¬ cond1 (grid1.coords t1_1) := fun h => absurd ((hcond1 t1_1).mp h) (show ¬ (1 : ℕ) = 0 from Nat.one_ne_zero)
    have hc2 : k1_cond2 (grid1.coords t1_1) = 1#1 := (hcond2 t1_1).mpr rfl
    rw [show (rdat1 c A0 A1 S0).Φ t1_1.succ = Pipeline.scopedRest (Ix := HIx 1) (Name := ℕ) (U := Sc.UU) (Lvl := ℕ) (Val := Elt F) spec1 c from rfl,
      show (rdat1 c A0 A1 S0).Φ t1_1.castSucc = iprop((((c.tc : Thread nD τ).loc cc1_scratch0) ↦{fullShare} (acc0 A0 A1 : Bf (F := F) c cc1_scratch0)) ∗ rest1 c) from rfl,
      show (rdat1 c A0 A1 S0).owesAt none t1_1.succ = (rdat1 c A0 A1 S0).owesAt none t1_1.castSucc from rfl,
      scopedRest1_eq]
    iintro ⟨⟨Hs, Hr⟩, Ho, H0, H1, H2⟩
    ihave Hs' := (scratch_owns c _) $$ Hs
    iapply (run1B c (grid1.coords t1_1) _ _ _ _ _ _ _ _ hc1 hc2 (blkLogits A0 t1_1.val) (blkLabels (F := F) A1 t1_1.val) (Y 2) (acc0 A0 A1) Set.univ _)
    isplitl [H0]; · iexact H0
    isplitl [H1]; · iexact H1
    isplitl [H2]; · iexact H2
    isplitl [Hs']; · iexact Hs'
    iintro ⟨H0, H1, H2, Hs⟩
    ihave Hs' := (owns_scratch c _) $$ Hs
    isplitl [Hs' Hr]
    · isplitl [Hs']; · iexists _; iexact Hs'
      unfold rest1; iexact Hr
    isplitl [Ho]; · iexact Ho
    isplitl [H0]; · iexists _; isplitr; · ipureintro; rfl
                    iexact H0
    isplitl [H1]; · iexists _; isplitr; · ipureintro; rfl
                    iexact H1
    iexists _; isplitr; swap; · iexact H2
    ipureintro
    exact ⟨fun h => absurd h Nat.one_ne_zero, fun _ => rfl⟩

end Cert.Kernel.Tc

end
-- ==== Proof.Bits.TcBody2.lean ====
/-
  Call 2's body, and the obligation it owes the pipeline at its one point.

  The body reads the 16×1 column and the sixteen 16×16 row blocks of the counts, and stores the 1×1 result. A load of
  sixteen rows from row 16·b of the staged counts reads rows 16·b … 16·b+15 of the array: block b.
-/
import proofs.«218680_g49873160241359_cont_8to1c4_353_26_alg».proof.Proof.Bits.TcData
import Idealize.ShloMosaic.Lib.Pipeline.FrameBody
import Idealize.ShloMosaic.Lib.Pipeline.Value
import Idealize.ShloMosaic.Lib.Ring

noncomputable section

namespace Cert.Kernel.Tc

open Cert.Kernel Cert.Kernel.Gen Cert.Kernel.Stages

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Facts]
open Facts₀ Facts

local notation "𝕄" => MT nD τ sig (HIx 1) (Elt F) ℕ Sc.UU ℕ

open Idealize.ShloMosaic.ValueIdx

theorem hz2' : (![0, 0] : Fin 2 → Nat) = fun _ => 0 := funext fun a => by fin_cases a <;> rfl

/-- Sixteen rows loaded from row `o = 16·b` of a 256×16 array are its block `b`. -/
theorem ld_rows (X : Vec F S256x16 .f32) (o b : ℕ) (ho : o = 16 * b) (hb : b < 16)
    (inb : ∀ a, (![o, 0] : Fin 2 → ℕ) a + S16x16.size a ≤ S256x16.size a) :
    View.ld X (Rect.unit (s := S256x16) ![o, 0] S16x16.size inb) = rowsOf X b := by
  subst ho
  funext j
  show X ((Rect.unit (s := S256x16) ![16 * b, 0] S16x16.size inb).idx j) = X (ix2 ⟨(16 * b + (j 0).val) % 256, Nat.mod_lt _ (by decide)⟩ (show Fin 16 from j 1))
  congr 1
  funext a; apply Fin.ext
  match a with
  | ⟨0, _⟩ =>
    show 16 * b + 1 * (j 0).val = (16 * b + (j 0).val) % 256
    have h0 : (j 0).val < 16 := (j 0).isLt
    omega
  | ⟨1, _⟩ =>
    show 0 + 1 * (j 1).val = (j 1).val
    omega

set_option maxHeartbeats 1000000 in
/-- The body: the two inputs' buffers are left as found, the result's holds the loss of the counts and the column. -/
theorem run2 (c : Dev nD) (arg0 : Memref sig .tc .vmem S256x16 .f32) (harg0 : arg0.IsWhole)
    (arg1 : Memref sig .tc .vmem S16x1 .f32) (harg1 : arg1.IsWhole) (arg2 : Memref sig .tc .vmem S1x1 .f32) (harg2 : arg2.IsWhole)
    (x0 : Vec F S256x16 .f32) (x1 : Vec F S16x1 .f32) (y : Vec F S1x1 .f32) (E : Set ℕ) (K : PUnit → sProp 𝕄) :
    iprop(owns (c : Thread nD τ) arg0 fullShare x0 ∗ owns (c : Thread nD τ) arg1 fullShare x1 ∗ owns (c : Thread nD τ) arg2 fullShare y
        ∗ (iprop(owns (c : Thread nD τ) arg0 fullShare x0 ∗ owns (c : Thread nD τ) arg1 fullShare x1
            ∗ owns (c : Thread nD τ) arg2 fullShare (combFn x0 x1)) -∗ K ⟨⟩))
      ⊢ wp frame (wpE (defs₀ (F := F)) Variants.none c none) E (cc2__comb_body arg0 harg0 arg1 harg1 arg2 harg2) K := by
  simp only [cc2__comb_body_eq_skeleton]; unfold cc2__comb_body_skel
  unfold owns
  iintro ⟨⟨%f0, %hf0, H0⟩, ⟨%f1, %hf1, H1⟩, ⟨%f2, %hf2, H2⟩, Hk⟩
  obtain rfl := harg0.eq_unread hf0; obtain rfl := harg1.eq_unread hf1; obtain rfl := harg2.eq_unread hf2
  sl_exec
  sl_step
  iapply Hk
  isplitl [H0]
  · iexists _; isplitr; · ipureintro; exact hf0
    iexact H0
  isplitl [H1]
  · iexists _; isplitr; · ipureintro; exact hf1
    iexact H1
  iexists _; isplitr; swap; · iexact H2
  ipureintro
  sl_unfold_run_names
  rw [View.read_writes_eq_canon _ _ _ (fun y => ⟨_, List.mem_cons_self, View.mem_set_unit_zero hz2' Gen.inb_S1x1_S1x1_0_0 y⟩)]
  rw [View.canon_unit_zero hz2']
  simp only [View.readAt_eq_ld, hf0, hf1, View.ld_unit_zero (S := S16x1) hz2']
  rw [ld_rows x0 0 0 rfl (by decide),
    ld_rows x0 16 1 rfl (by decide),
    ld_rows x0 32 2 rfl (by decide),
    ld_rows x0 48 3 rfl (by decide),
    ld_rows x0 64 4 rfl (by decide),
    ld_rows x0 80 5 rfl (by decide),
    ld_rows x0 96 6 rfl (by decide),
    ld_rows x0 112 7 rfl (by decide),
    ld_rows x0 128 8 rfl (by decide),
    ld_rows x0 144 9 rfl (by decide),
    ld_rows x0 160 10 rfl (by decide),
    ld_rows x0 176 11 rfl (by decide),
    ld_rows x0 192 12 rfl (by decide),
    ld_rows x0 208 13 rfl (by decide),
    ld_rows x0 224 14 rfl (by decide),
    ld_rows x0 240 15 rfl (by decide)]
  rfl

/-! ## The obligation -/

variable (c : Dev nD) (C : Bf (F := F) c main_v2) (S : Bf (F := F) c main_v3) (R0 : Bf (F := F) c main_v4)

/-- The one block of each input window is its whole array. -/
theorem fetched2_0 (t : Fin cfg2.N) (d) : (rdat2 c C S R0).fetched 0 t d = C := by
  refine funext fun (j : S256x16.Idx) => ?_
  show C (((cfg2.win 0).blk t).view.emb j) = C j
  congr 1
  funext a; apply Fin.ext
  match a with
  | ⟨0, _⟩ =>
    show 0 * 256 + 1 * (j 0).val = (j 0).val
    omega
  | ⟨1, _⟩ =>
    show 0 * 16 + 1 * (j 1).val = (j 1).val
    omega

theorem fetched2_1 (t : Fin cfg2.N) (d) : (rdat2 c C S R0).fetched 1 t d = S := by
  refine funext fun (j : S16x1.Idx) => ?_
  show S (((cfg2.win 1).blk t).view.emb j) = S j
  congr 1
  funext a; apply Fin.ext
  match a with
  | ⟨0, _⟩ =>
    show 0 * 16 + 1 * (j 0).val = (j 0).val
    omega
  | ⟨1, _⟩ =>
    show 0 * 1 + 1 * (j 1).val = (j 1).val
    omega

set_option backward.isDefEq.respectTransparency.types false in
set_option maxHeartbeats 1000000 in
/-- At its one point the body, handed the counts and the column as fetched, leaves them and stores the result. -/
theorem body_obligation2 : (rdat2 c C S R0).BodyObligation (defs₀ (F := F)) Sc.𝒱₀ none Set.univ := fun t Y hY => by
  rw [bigSep_W2, bigSep_W2]
  obtain ⟨d0, h0⟩ := ((rdat2 c C S R0).finds_of_fetch (fetch2_0 t) _).mp (hY 0)
  obtain ⟨d1, h1⟩ := ((rdat2 c C S R0).finds_of_fetch (fetch2_1 t) _).mp (hY 1)
  rw [fetched2_0] at h0; rw [fetched2_1] at h1
  rw [h0, h1]
  obtain rfl := fin_N2 t
  rw [show (rdat2 c C S R0).Φ t2_0.succ = (rdat2 c C S R0).Φ t2_0.castSucc from rfl,
    show (rdat2 c C S R0).owesAt none t2_0.succ = (rdat2 c C S R0).owesAt none t2_0.castSucc from rfl]
  iintro ⟨HΦ, Ho, H0, H1, H2⟩
  iapply (run2 c _ _ _ _ _ _ C S (Y 2) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists _; isplitr; · ipureintro; rfl
    iexact H0
  isplitl [H1]
  · iexists _; isplitr; · ipureintro; rfl
    iexact H1
  iexists _; isplitr; swap; · iexact H2
  ipureintro
  rfl

end Cert.Kernel.Tc

end
-- ==== Proof.Bits.TcRegions.lean ====
/-
  The two TensorCore calls as regions of the program, each entered from and left at plain whole-buffer facts.

  Call 1 is entered with the transposed logits, the labels row and anything in the 16×1 column, and leaves the column
  at the lane sums of the table accumulated over both blocks: only the last block writes the column back, and its
  one block is the whole column. Call 2 is entered with the counts, the column and anything in the 1×1 result, and
  leaves the result at the loss. The inputs are never written. The core enters each region owing nothing, with its
  recorded waits at levels at most 8, and leaves it so: the staging cells' own waits are recorded at level 0.
-/
import proofs.«218680_g49873160241359_cont_8to1c4_353_26_alg».proof.Proof.Bits.TcBody1
import proofs.«218680_g49873160241359_cont_8to1c4_353_26_alg».proof.Proof.Bits.TcBody2

noncomputable section

namespace Cert.Kernel.Tc

open Cert.Kernel Cert.Kernel.Gen Cert.Kernel.Stages

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Facts]
open Facts₀ Facts

local notation "𝕄" => MT nD τ sig (HIx 1) (Elt F) ℕ Sc.UU ℕ

open Idealize.ShloMosaic.ValueIdx

/-! ## What the written-back window's array ends holding -/

/-- Call 1's result window sits at block 0 on both axes at every point. -/
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

/-- After both points the column holds the lane sums: the one write-back, at the last point, overwrites all of it. -/
theorem arrAt1_2 (c : Dev nD) (a0 : Bf (F := F) c main_v0) (a1 : Bf (F := F) c main_v1) (s0 : Bf (F := F) c main_v3)
    (G : Buf (Elt F) (((Pipeline.pin (pcfgs (F := F)) adm 0).win 2).arr.view.loc (c.tc : Thread nD τ)))
    (h0 : (rdat1 c a0 a1 s0).ArrAt 2 2 G) : G = ssumFn a0 a1 := by
  have h : (rdat1 c a0 a1 s0).ArrAt 2 (t1_1.val + 1) G := h0
  have hf : ((Pipeline.pin (pcfgs (F := F)) adm 0).win 2).flush t1_1 = true := (flush1_2 t1_1).mpr rfl
  rw [RDat.ArrAt_succ, if_pos hf] at h
  obtain ⟨G₀, X, -, ⟨Y, -, hXY⟩, rfl⟩ := h
  have hX : X = ssumFn a0 a1 := hXY.2 rfl
  obtain ⟨e0, e1⟩ := idx1_2 t1_1
  refine funext fun (i : S16x1.Idx) => ?_
  have hemb : ((cfg1.win 2).blk t1_1).view.emb i = i := by
    funext a; apply Fin.ext
    match a with
    | ⟨0, _⟩ =>
      show win1_2.index t1_1 (0 : Fin 2) * 16 + 1 * (i 0).val = (i 0).val
      omega
    | ⟨1, _⟩ =>
      show win1_2.index t1_1 (1 : Fin 2) * 1 + 1 * (i 1).val = (i 1).val
      omega
  have hw := View.write_emb_of_mem (v := ((cfg1.win 2).blk t1_1).view) (Val := Elt F) G₀ ((cfg1.win 2).cut (grid1.coords t1_1) X) (Finset.mem_univ i)
  rw [hemb] at hw
  subst hX
  exact hw.trans ((cast_eq _ _).trans rfl)

/-- After its one point call 2's result holds the loss. -/
theorem arrAt2_2 (c : Dev nD) (cn : Bf (F := F) c main_v2) (ss : Bf (F := F) c main_v3) (r0 : Bf (F := F) c main_v4)
    (G : Buf (Elt F) (((Pipeline.pin (pcfgs (F := F)) adm 1).win 2).arr.view.loc (c.tc : Thread nD τ)))
    (h0 : (rdat2 c cn ss r0).ArrAt 2 1 G) : G = combFn cn ss := by
  have h : (rdat2 c cn ss r0).ArrAt 2 (t2_0.val + 1) G := h0
  have hf : ((Pipeline.pin (pcfgs (F := F)) adm 1).win 2).flush t2_0 = true := flush2_2 t2_0
  rw [RDat.ArrAt_succ, if_pos hf] at h
  obtain ⟨G₀, X, -, ⟨Y, -, hXY⟩, rfl⟩ := h
  have hX : X = combFn cn ss := hXY
  refine funext fun (i : S1x1.Idx) => ?_
  have hemb : ((cfg2.win 2).blk t2_0).view.emb i = i := by
    funext a; apply Fin.ext
    match a with
    | ⟨0, _⟩ =>
      show 0 * 1 + 1 * (i 0).val = (i 0).val
      omega
    | ⟨1, _⟩ =>
      show 0 * 1 + 1 * (i 1).val = (i 1).val
      omega
  have hw := View.write_emb_of_mem (v := ((cfg2.win 2).blk t2_0).view) (Val := Elt F) G₀ ((cfg2.win 2).cut (grid2.coords t2_0) X) (Finset.mem_univ i)
  rw [hemb] at hw
  subst hX
  exact hw.trans ((cast_eq _ _).trans rfl)

/-! ## The records -/

variable (A0 : (c : Dev nD) → Bf (F := F) c main_v0) (A1 : (c : Dev nD) → Bf (F := F) c main_v1) (S0 : (c : Dev nD) → Bf (F := F) c main_v3)
  (C : (c : Dev nD) → Bf (F := F) c main_v2) (S : (c : Dev nD) → Bf (F := F) c main_v3) (R0 : (c : Dev nD) → Bf (F := F) c main_v4)

/-- A whole buffer of the TensorCore at contents `f`. -/
abbrev pt (c : Dev nD) (b : Ref sig .tc) (f : Bf (F := F) c b) : sProp 𝕄 := ((c.tc : Thread nD τ).loc b) ↦{fullShare} f

theorem share1 (c : Dev nD) (w) : (rdats A0 A1 S0 C S R0 0 c).share w = fullShare :=
  (rdats A0 A1 S0 C S R0 0 c).share_full (fun _ => rfl) w
theorem share2 (c : Dev nD) (w) : (rdats A0 A1 S0 C S R0 1 c).share w = fullShare :=
  (rdats A0 A1 S0 C S R0 1 c).share_full (fun _ => rfl) w

/-- Call 1's arrays after the write-backs below `n`, as whole buffers held outright. -/
theorem arraysAt1_eq (c : Dev nD) (n : ℕ) :
    ((rdats A0 A1 S0 C S R0 0 c).arraysAt n : sProp 𝕄) = bigSep Finset.univ fun w =>
      iprop(∃ G, ⌜(rdats A0 A1 S0 C S R0 0 c).ArrAt w n G⌝
        ∗ (((c.tc : Thread nD τ).loc (Pipeline.arrRef (Pipeline.pin (pcfgs (F := F)) adm 0).spec w)) ↦{fullShare} G)) := by
  have harr : ∀ w, ((Pipeline.pin (pcfgs (F := F)) adm 0).win w).arr.IsWhole := launch1.arr_whole
  unfold Pipeline.RDat.arraysAt
  exact bigSep_congr fun w _ => by rw [(harr w).set_eq_univ, share1 A0 A1 S0 C S R0 c w]

/-- Call 2's likewise. -/
theorem arraysAt2_eq (c : Dev nD) (n : ℕ) :
    ((rdats A0 A1 S0 C S R0 1 c).arraysAt n : sProp 𝕄) = bigSep Finset.univ fun w =>
      iprop(∃ G, ⌜(rdats A0 A1 S0 C S R0 1 c).ArrAt w n G⌝
        ∗ (((c.tc : Thread nD τ).loc (Pipeline.arrRef (Pipeline.pin (pcfgs (F := F)) adm 1).spec w)) ↦{fullShare} G)) := by
  have harr : ∀ w, ((Pipeline.pin (pcfgs (F := F)) adm 1).win w).arr.IsWhole := launch2.arr_whole
  unfold Pipeline.RDat.arraysAt
  exact bigSep_congr fun w _ => by rw [(harr w).set_eq_univ, share2 A0 A1 S0 C S R0 c w]

/-- The staging cells' own waits are recorded at level 0. -/
theorem wbelow_of_bound (c : Dev nD) (cfg : Cfg sig Λ₀) (W : Waits sig (HIx 1))
    (hW : (↑W : Set (SemLoc sig × HIx 1)) ⊆ recB (F := F) c ∪ cfg.waitPairs none) :
    (Sc.K (F := F)).WBelow (SparseCore.T c) W 8 := fun p hp => by
  rcases hW (Finset.mem_coe.mpr hp) with h | ⟨w, s, rfl⟩
  · exact h
  · exact Nat.zero_le _

set_option backward.isDefEq.respectTransparency.types false in
/-- CALL 1 as a region: entered from the logits, the labels and anything in the column, left with the column at the
    lane sums. Nothing enters the invariant but the scoped buffers; the kernel has no semaphore of its own. -/
def seg1 : Pipeline.RDat.RegionSeg (pcfgs (F := F)) adm (rdats A0 A1 S0 C S R0) none defs₀ Sc.𝒱₀ (Sc.K (F := F)).L (Sc.K (F := F)).lev 0 where
  win := launch1.win.to₀
  block_pos := launch1.block_pos
  stage_whole := launch1.stage_whole
  K := PEmpty
  osem k := k.elim
  ho := Pipeline.OwnSemFacts.none _
  hbody c := body_obligation1 c (A0 c) (A1 c) (S0 c)
  hwaits := Pipeline.RDat.hwaits_of_owed_zero _ _ _ _ _ _ 0 fun _ _ => rfl
  pre c := iprop(owesT (F := F) c ∗ pt c main_v0 (A0 c) ∗ pt c main_v1 (A1 c) ∗ pt c main_v3 (S0 c))
  post c := iprop(owesT (F := F) c ∗ pt c main_v0 (A0 c) ∗ pt c main_v1 (A1 c) ∗ pt c main_v3 (ssumFn (A0 c) (A1 c)))
  X _ := BI.emp
  Y _ := BI.emp
  Z _ := BI.emp
  hentry c := by
    rw [Pipeline.ownSems0_none, Pipeline.RDat.arrays_eq (pcfgs (F := F)) adm (rdats A0 A1 S0 C S R0) 0 c launch1.arr_whole (share1 A0 A1 S0 C S R0 c),
      bigSep_W1]
    unfold owesT
    iintro ⟨⟨⟨%W, %hW, HO⟩, H0, H1, H2⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact fun p hp => Or.inl (hW p hp)
      iexact HO
    isplitr; · iempintro
    iempintro
  hin c := by
    rw [show (rdats A0 A1 S0 C S R0 0 c).Φ 0 = Pipeline.scopedRest (Ix := HIx 1) (Name := ℕ) (U := Sc.UU) (Lvl := ℕ) (Val := Elt F) spec1 c from rfl]
    iintro ⟨-, -, Hr⟩; iexact Hr
  hout c := by
    rw [Pipeline.ownSems0_none, show (rdats A0 A1 S0 C S R0 0 c).Φ (Fin.last _) = Pipeline.scopedRest (Ix := HIx 1) (Name := ℕ) (U := Sc.UU) (Lvl := ℕ) (Val := Elt F) spec1 c from rfl]
    iintro Hr
    isplitr; · iempintro
    isplitr; · iempintro
    iexact Hr
  hexit c := by
    rw [arraysAt1_eq A0 A1 S0 C S R0 c, bigSep_W1]
    unfold owesT
    iintro ⟨⟨⟨%G0, %hG0, H0⟩, ⟨%G1, %hG1, H1⟩, ⟨%G2, %hG2, H2⟩⟩, HO, -, -⟩
    have e0 : G0 = A0 c := by rw [(rdats A0 A1 S0 C S R0 0 c).ArrAt_in 0 rfl] at hG0; exact hG0
    have e1 : G1 = A1 c := by rw [(rdats A0 A1 S0 C S R0 0 c).ArrAt_in 1 rfl] at hG1; exact hG1
    have e2 : G2 = ssumFn (A0 c) (A1 c) := arrAt1_2 c (A0 c) (A1 c) (S0 c) G2 hG2
    subst e0 e1 e2
    imodintro
    isplitl [HO]
    · unfold Pipeline.RDat.owesAt Pipeline.owesWithin
      icases HO with ⟨%W, %hW, HO⟩
      iexists W; isplitr; · ipureintro; exact wbelow_of_bound c _ W hW
      iexact HO
    isplitl [H0]; · iexact H0
    isplitl [H1]; · iexact H1
    iexact H2

set_option backward.isDefEq.respectTransparency.types false in
/-- CALL 2 as a region: entered from the counts, the column and anything in the result, left with the result at the loss. -/
def seg2 : Pipeline.RDat.RegionSeg (pcfgs (F := F)) adm (rdats A0 A1 S0 C S R0) none defs₀ Sc.𝒱₀ (Sc.K (F := F)).L (Sc.K (F := F)).lev 1 where
  win := launch2.win.to₀
  block_pos := launch2.block_pos
  stage_whole := launch2.stage_whole
  K := PEmpty
  osem k := k.elim
  ho := Pipeline.OwnSemFacts.none _
  hbody c := body_obligation2 c (C c) (S c) (R0 c)
  hwaits := Pipeline.RDat.hwaits_of_owed_zero _ _ _ _ _ _ 1 fun _ _ => rfl
  pre c := iprop(owesT (F := F) c ∗ pt c main_v2 (C c) ∗ pt c main_v3 (S c) ∗ pt c main_v4 (R0 c))
  post c := iprop(owesT (F := F) c ∗ pt c main_v2 (C c) ∗ pt c main_v3 (S c) ∗ pt c main_v4 (combFn (C c) (S c)))
  X _ := BI.emp
  Y _ := BI.emp
  Z _ := BI.emp
  hentry c := by
    rw [Pipeline.ownSems0_none, Pipeline.RDat.arrays_eq (pcfgs (F := F)) adm (rdats A0 A1 S0 C S R0) 1 c launch2.arr_whole (share2 A0 A1 S0 C S R0 c),
      bigSep_W2]
    unfold owesT
    iintro ⟨⟨⟨%W, %hW, HO⟩, H0, H1, H2⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact fun p hp => Or.inl (hW p hp)
      iexact HO
    isplitr; · iempintro
    iempintro
  hin c := by
    rw [show (rdats A0 A1 S0 C S R0 1 c).Φ 0 = Pipeline.scopedRest (Ix := HIx 1) (Name := ℕ) (U := Sc.UU) (Lvl := ℕ) (Val := Elt F) spec2 c from rfl]
    iintro ⟨-, -, Hr⟩; iexact Hr
  hout c := by
    rw [Pipeline.ownSems0_none, show (rdats A0 A1 S0 C S R0 1 c).Φ (Fin.last _) = Pipeline.scopedRest (Ix := HIx 1) (Name := ℕ) (U := Sc.UU) (Lvl := ℕ) (Val := Elt F) spec2 c from rfl]
    iintro Hr
    isplitr; · iempintro
    isplitr; · iempintro
    iexact Hr
  hexit c := by
    rw [arraysAt2_eq A0 A1 S0 C S R0 c, bigSep_W2]
    unfold owesT
    iintro ⟨⟨⟨%G0, %hG0, H0⟩, ⟨%G1, %hG1, H1⟩, ⟨%G2, %hG2, H2⟩⟩, HO, -, -⟩
    have e0 : G0 = C c := by rw [(rdats A0 A1 S0 C S R0 1 c).ArrAt_in 0 rfl] at hG0; exact hG0
    have e1 : G1 = S c := by rw [(rdats A0 A1 S0 C S R0 1 c).ArrAt_in 1 rfl] at hG1; exact hG1
    have e2 : G2 = combFn (C c) (S c) := arrAt2_2 c (C c) (S c) (R0 c) G2 hG2
    subst e0 e1 e2
    imodintro
    isplitl [HO]
    · unfold Pipeline.RDat.owesAt Pipeline.owesWithin
      icases HO with ⟨%W, %hW, HO⟩
      iexists W; isplitr; · ipureintro; exact wbelow_of_bound c _ W hW
      iexact HO
    isplitl [H0]; · iexact H0
    isplitl [H1]; · iexact H1
    iexact H2

end Cert.Kernel.Tc

end
-- ==== Proof.Bits.LaunchFinal.lean ====
/-
  The program's run with everything discharged: the tiles' task and the operands' split, and the two TensorCore
  regions' records turned into their entry rules, handed to the launch.
-/
import proofs.«218680_g49873160241359_cont_8to1c4_353_26_alg».proof.Proof.Bits.LaunchRun
import proofs.«218680_g49873160241359_cont_8to1c4_353_26_alg».proof.Proof.Bits.ScObl
import proofs.«218680_g49873160241359_cont_8to1c4_353_26_alg».proof.Proof.Bits.TcRegions

noncomputable section

namespace Cert.Kernel.Sc

open Cert.Kernel Cert.Kernel.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-- Every weakly fair execution of the device's threads terminates, nothing faulting; the final memory holds the
    scalar result at `Stages.resultFn` of the two argument arrays, and the arguments unchanged. -/
theorem run [∀ e, Nonempty (Elt F e)] :
    θ_run (Cert.Kernel.defs (F := F)) (Cert.Kernel.threads (F := F)) ⟨m, fun _ => 0, ρ⟩ (QC m) :=
  run_of m ρ (tileObl m facts) (vecSplit m)
    (fun d Φ => hreg_of_seg (Tc.seg1 (fun c => B0 m c) (fun c => B1 m c) (fun c => m ((SparseCore.T c).loc main_v3)) (fun c => C2 m c) (fun c => S3 m c) (fun c => m ((SparseCore.T c).loc main_v4))) d Φ)
    (fun d Φ => hreg_of_seg (Tc.seg2 (fun c => B0 m c) (fun c => B1 m c) (fun c => m ((SparseCore.T c).loc main_v3)) (fun c => C2 m c) (fun c => S3 m c) (fun c => m ((SparseCore.T c).loc main_v4))) d Φ)

end Cert.Kernel.Sc

end
-- ==== Proof.LibERealSum.lean ====
/-
  Finite sums of extended reals.

  The extended reals are a commutative monoid under addition, so finite sums may be reordered and regrouped
  freely; multiplication, however, distributes over addition only with care, because of the infinities.  The
  lemmas here are the ones a weighted sum needs: the coercion from the reals commutes with a finite sum; a
  NON-NEGATIVE REAL factor distributes over any finite sum of extended reals, infinite or not; and, from these, a
  sum of terms weighted by the class of their index equals the sum over classes of the class weight times the
  sum of the terms of that class.  Nothing is assumed of the terms themselves: they may be infinite, of either sign.
  Last, the index type of a rank-one shape is its one coordinate, so a sum over it is a sum over `Fin n`.
-/
import Mathlib.Data.EReal.Inv
import Mathlib.Algebra.BigOperators.Group.Finset.Basic
import Idealize.ShloMosaic.Lib.ValueIdx

noncomputable section

open scoped BigOperators

namespace Cert.Lib.ERealSum

open Idealize.ShloMosaic Idealize.ShloMosaic.ValueIdx

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A non-negative real factor distributes over a finite sum of extended reals, whatever the terms. -/
theorem mul_sum_of_nonneg {ι : Type*} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- REGROUPING BY CLASS.  Each index `j` has a class `g j`, each class a non-negative real weight.  The sum over
    classes of the weight times the sum of the terms of that class is the sum of the terms, each weighted by its
    own class's weight. -/
theorem sum_group_by_class {J C : Type*} [Fintype J] [Fintype C] [DecidableEq C] (g : J → C) (w : C → ℝ)
    (hw : ∀ c, 0 ≤ w c) (a : J → EReal) :
    ∑ c, (w c : EReal) * ∑ j, (if g j = c then a j else 0) = ∑ j, (w (g j) : EReal) * a j := by
  have h1 : ∀ c, (w c : EReal) * ∑ j, (if g j = c then a j else 0) = ∑ j, (w c : EReal) * (if g j = c then a j else 0) :=
    fun c => mul_sum_of_nonneg _ (hw c) _
  rw [Finset.sum_congr rfl fun c _ => h1 c, Finset.sum_comm]
  refine Finset.sum_congr rfl fun j _ => ?_
  rw [Finset.sum_eq_single (g j)]
  · rw [if_pos rfl]
  · intro c _ hc; rw [if_neg (Ne.symm hc), mul_zero]
  · intro h; exact absurd (Finset.mem_univ _) h

/-- The index type of a rank-one shape is its coordinate. -/
def idxEquiv1 {n : Nat} : (⟨1, ![n]⟩ : Shape).Idx ≃ Fin n where
  toFun j := j 0
  invFun a := ix1 a
  left_inv j := (eq_ix1 j).symm
  right_inv _ := rfl

/-- A sum over a rank-one index set is the sum over its coordinate. -/
theorem sum_idx1 {M : Type*} [AddCommMonoid M] {n : Nat} (f : (⟨1, ![n]⟩ : Shape).Idx → M) :
    ∑ j, f j = ∑ a : Fin n, f (ix1 a) :=
  (Fintype.sum_equiv idxEquiv1.symm _ _ fun _ => rfl).symm

end Cert.Lib.ERealSum

end
-- ==== Proof.Spec.lean ====
/-
  The loss, as mathematics.

  There are 16384 examples; example j has nine logits and a label lab j, one of nine ordinal classes 0..8.  The
  logistic of the logits gives nine cumulative probabilities, a tenth column of ones is appended, and the
  probability given to the example's own class is the difference of columns lab j and lab j + 1.  The example's
  term is the logarithm of that probability plus a small constant; it may be minus infinity, or the value the
  logarithm takes at a negative number: nothing below assumes it finite.

  Classes are weighted inversely to their frequency.  Class c (of ten: the tenth never occurs) has count n c, the
  number of examples labelled c; its weight is n c divided by the total, replaced by one when it is zero; the
  inverse weights are the reciprocals, normalised to sum to one.  The loss is minus the mean over the examples of
  the example's inverse class weight times its term.

  Facts proved here: the counts add up to 16384 when every label is at most 8, and then every normalised inverse
  weight is a non-negative real number -- which is what lets the weighted sum be regrouped by class.
-/
import Idealize.ShloMosaic.PureOps.Ideal
import Idealize.ShloMosaic.Lib.ValueIdx
import proofs.«218680_g49873160241359_cont_8to1c4_353_26_alg».proof.Proof.LibERealSum

noncomputable section

open scoped BigOperators

namespace Cert.Proof.Spec

open Idealize.ShloMosaic Idealize.ShloMosaic.ValueIdx Cert.Lib.ERealSum

/-- The logits: 16384 rows of nine extended reals. -/
abbrev XArr := (⟨2, ![16384, 9]⟩ : Shape).Idx → EReal
/-- The labels: 16384 words. -/
abbrev LArr := (⟨1, ![16384]⟩ : Shape).Idx → BitVec 32

/-- Cumulative probability column `l` of example `j`: the logistic of logit `l` for `l < 9`, one beyond. -/
def cum (x : XArr) (j : Fin 16384) (l : ℕ) : EReal :=
  if h : l < 9 then Ideal.logistic (x (ix2 j ⟨l, h⟩)) else 1

/-- The probability example `j` gives its own class. -/
def gath (x : XArr) (lab : LArr) (j : Fin 16384) : EReal :=
  cum x j (lab (ix1 j)).toNat - cum x j ((lab (ix1 j)).toNat + 1)

/-- Example `j`'s term: the logarithm of that probability plus the small constant. -/
def logt (x : XArr) (lab : LArr) (j : Fin 16384) : EReal :=
  Ideal.log (gath x lab j + Ideal.ofBits .f32 0x3089705F#32)

/-- The number of examples labelled `c`. -/
def cnt (lab : LArr) (c : ℕ) : ℕ := (Finset.univ.filter fun j : Fin 16384 => (lab (ix1 j)).toNat = c).card

/-- A class's weight: its count over the total. -/
def wE (n : Fin 10 → EReal) (c : Fin 10) : EReal := Ideal.div (n c) (0 + ∑ c', n c')
/-- The reciprocal of the weight, a zero weight replaced by one. -/
def inv0E (n : Fin 10 → EReal) (c : Fin 10) : EReal := Ideal.div 1 (if wE n c = 0 then 1 else wE n c)
/-- The reciprocals normalised to sum to one. -/
def invE (n : Fin 10 → EReal) (c : Fin 10) : EReal := Ideal.div (inv0E n c) (0 + ∑ c', inv0E n c')

/-- The class counts as extended reals. -/
def cntE (lab : LArr) (c : Fin 10) : EReal := ((cnt lab c.val : ℝ) : EReal)

/-- The normalised inverse weight of class `c` (zero beyond the ten classes). -/
def inv (lab : LArr) (c : ℕ) : EReal := if h : c < 10 then invE (cntE lab) ⟨c, h⟩ else 0

/-- The weighted sum of the examples' terms. -/
def wsum (x : XArr) (lab : LArr) : EReal := ∑ j : Fin 16384, inv lab (lab (ix1 j)).toNat * logt x lab j

/-- THE LOSS: minus the mean of the weighted terms. -/
def Loss (x : XArr) (lab : LArr) : EReal :=
  -(Ideal.div (0 + wsum x lab) (Ideal.ofBits .f32 0x46800000#32))

/-! ## The counts add up -/

theorem cnt_total (lab : LArr) (hl : ∀ j, (lab j).toNat ≤ 8) : ∑ c : Fin 10, cnt lab c.val = 16384 := by
  have h := Finset.card_eq_sum_card_fiberwise (s := (Finset.univ : Finset (Fin 16384))) (t := Finset.range 10)
    (f := fun j => (lab (ix1 j)).toNat) (by
      intro j _
      have := hl (ix1 j)
      simp only [Finset.coe_range, Set.mem_Iio]
      omega)
  rw [Finset.card_univ, Fintype.card_fin] at h
  rw [← Finset.sum_range (fun c => cnt lab c)]
  exact h.symm

/-! ## The inverse weights are non-negative reals -/

/-- A quotient of reals with a nonzero denominator. -/
theorem div_coe_coe {y : ℝ} (h : y ≠ 0) (x : ℝ) : Ideal.div (x : EReal) (y : EReal) = ((x / y : ℝ) : EReal) := by
  rw [Ideal.div_coe h, ← EReal.coe_mul, mul_one_div]

/-- The weight as a real: count over 16384, one when zero. -/
def wR (lab : LArr) (c : Fin 10) : ℝ := if (cnt lab c.val : ℝ) / 16384 = 0 then 1 else (cnt lab c.val : ℝ) / 16384
/-- Its reciprocal. -/
def inv0R (lab : LArr) (c : Fin 10) : ℝ := 1 / wR lab c
/-- The normalised reciprocal. -/
def invR (lab : LArr) (c : Fin 10) : ℝ := inv0R lab c / ∑ c', inv0R lab c'

theorem wR_pos (lab : LArr) (c : Fin 10) : 0 < wR lab c := by
  unfold wR
  split
  · exact one_pos
  · next h =>
    have h0 : (0 : ℝ) ≤ (cnt lab c.val : ℝ) / 16384 := by positivity
    exact lt_of_le_of_ne h0 (Ne.symm h)

theorem inv0R_pos (lab : LArr) (c : Fin 10) : 0 < inv0R lab c := one_div_pos.2 (wR_pos lab c)

theorem sum_inv0R_pos (lab : LArr) : 0 < ∑ c', inv0R lab c' :=
  Finset.sum_pos (fun c _ => inv0R_pos lab c) ⟨0, Finset.mem_univ _⟩

theorem invR_nonneg (lab : LArr) (c : Fin 10) : 0 ≤ invR lab c :=
  div_nonneg (inv0R_pos lab c).le (sum_inv0R_pos lab).le

theorem total_eq (lab : LArr) (hl : ∀ j, (lab j).toNat ≤ 8) : (0 : EReal) + ∑ c', cntE lab c' = ((16384 : ℝ) : EReal) := by
  unfold cntE
  rw [zero_add, ← coe_finset_sum]
  congr 1
  have := cnt_total lab hl
  exact_mod_cast this

theorem wE_eq (lab : LArr) (hl : ∀ j, (lab j).toNat ≤ 8) (c : Fin 10) :
    wE (cntE lab) c = (((cnt lab c.val : ℝ) / 16384 : ℝ) : EReal) := by
  unfold wE
  rw [total_eq lab hl]
  exact div_coe_coe (by norm_num) _

theorem inv0E_eq (lab : LArr) (hl : ∀ j, (lab j).toNat ≤ 8) (c : Fin 10) :
    inv0E (cntE lab) c = (inv0R lab c : EReal) := by
  unfold inv0E inv0R wR
  rw [wE_eq lab hl]
  by_cases h : (cnt lab c.val : ℝ) / 16384 = 0
  · rw [if_pos (EReal.coe_eq_zero.2 h), if_pos h, ← EReal.coe_one]
    exact div_coe_coe one_ne_zero _
  · rw [if_neg (fun h' => h (EReal.coe_eq_zero.1 h')), if_neg h, ← EReal.coe_one]
    exact div_coe_coe h _

/-- The normalised inverse weights are the real ones. -/
theorem invE_eq (lab : LArr) (hl : ∀ j, (lab j).toNat ≤ 8) (c : Fin 10) :
    invE (cntE lab) c = (invR lab c : EReal) := by
  unfold invE invR
  rw [Finset.sum_congr rfl fun c' _ => inv0E_eq lab hl c', inv0E_eq lab hl c, zero_add, ← coe_finset_sum]
  exact div_coe_coe (sum_inv0R_pos lab).ne' _

/-- Every normalised inverse weight is a non-negative real. -/
theorem inv_real (lab : LArr) (hl : ∀ j, (lab j).toNat ≤ 8) (c : ℕ) : ∃ r : ℝ, 0 ≤ r ∧ inv lab c = (r : EReal) := by
  unfold inv
  split
  · next h => exact ⟨_, invR_nonneg lab ⟨c, h⟩, invE_eq lab hl ⟨c, h⟩⟩
  · exact ⟨0, le_refl _, EReal.coe_zero.symm⟩

end Cert.Proof.Spec

end
-- ==== Proof.LibKeepdims.lean ====
/-
  Reading the keepdims layout moves at an index, over arbitrary extents.

  A row statistic kept as a column is built from three moves: a sum along the lanes of an `[a, b]` array into a
  vector of `a` entries, that vector viewed as an `[a, 1]` column, and the column spread back over `b` lanes.  Read
  at row `p`, the first is the sum of the row's `b` entries, the second reads the vector at `p` whatever the unit
  coordinate, and the third reads the column at `(p, 0)` whatever the lane.  The fourth move is the other
  orientation: a vector of `c` entries viewed as a `[1, c]` one-row matrix reads, along its row, as the vector.
  Each is stated at coordinates built by `ix1` / `ix2`, for any element type where no arithmetic is involved.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Lib.Keepdims

open Idealize.ShloMosaic Idealize.ShloMosaic.ValueIdx

variable {α : Type}

/-- A vector of `a` entries viewed as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `b` lanes reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The sum along the lanes of an `[a, b]` tile, read at row `p`, is the sum of that row's `b` entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- A vector of `c` entries viewed as a `[1, c]` one-row matrix reads, at `(0, q)`, the vector at `q`. -/
theorem shapeCast_a_1a_apply {c : ℕ} (b : (⟨1, ![c]⟩ : Shape).Idx → α)
    (h : (⟨1, ![c]⟩ : Shape).ShapeCasts ⟨2, ![1, c]⟩) (q : Fin c) :
    shapeCast (⟨2, ![1, c]⟩ : Shape) b h (ix2 0 q) = b (ix1 q) := by
  show shapeCast (⟨1 + 1, Matrix.vecCons 1 ![c]⟩ : Shape) b h (ix2 0 q) = b (ix1 q)
  rw [shapeCast_addUnit_apply]
  exact congrArg b (funext fun a => by match a with | ⟨0, _⟩ => rfl)

end Cert.Lib.Keepdims

end
-- ==== Proof.KerLogt.lean ====
/-
  The kernel's way of picking an example's own class probability.

  Instead of gathering, the kernel multiplies the nine cumulative probabilities s_0 .. s_8 of an example by the
  mask (r = l) - (r = l + 1), where l is the example's label, adds the nine products, and subtracts one when l = 8.
  For a label l in 0..8 and real s_r this is s_l - s_(l+1) with s_9 read as one: the only surviving products are
  s_l (always) and -s_(l+1) (when l + 1 <= 8), and for l = 8 the subtracted one is the missing s_9.  The logits
  are real numbers, so their logistic values are real and the arithmetic is that of the reals.
-/
import proofs.«218680_g49873160241359_cont_8to1c4_353_26_alg».proof.Proof.Spec
import Idealize.ShloMosaic.Lib.IdealHost

noncomputable section

open scoped BigOperators

namespace Cert.Proof.KerValue

open Idealize.ShloMosaic Idealize.ShloMosaic.ValueIdx Cert.Proof.Spec Cert.Lib.ERealSum

/-- Summing against the indicator of one position picks that position, or nothing if it is out of range. -/
theorem sum_pick (σ : Fin 9 → ℝ) (n : ℕ) :
    ∑ r : Fin 9, σ r * (if r.val = n then (1 : ℝ) else 0) = if h : n < 9 then σ ⟨n, h⟩ else 0 := by
  by_cases h : n < 9
  · rw [dif_pos h, Finset.sum_eq_single (⟨n, h⟩ : Fin 9)]
    · rw [if_pos rfl, mul_one]
    · intro r _ hr; rw [if_neg (fun e => hr (Fin.ext e)), mul_zero]
    · intro hh; exact absurd (Finset.mem_univ _) hh
  · rw [dif_neg h]
    refine Finset.sum_eq_zero fun r _ => ?_
    rw [if_neg (by have := r.isLt; omega), mul_zero]

theorem ite_coe (P : Prop) [Decidable P] : (if P then (1 : EReal) else 0) = (((if P then (1 : ℝ) else 0) : ℝ) : EReal) := by
  split <;> simp

theorem ofNat_eq_iff (w : BitVec 32) (r : ℕ) (hr : r < 16) : BitVec.ofNat 32 r = w ↔ r = w.toNat := by
  constructor
  · intro h; rw [← h, BitVec.toNat_ofNat]; exact (Nat.mod_eq_of_lt (by omega)).symm
  · intro h; apply BitVec.eq_of_toNat_eq; rw [BitVec.toNat_ofNat, ← h]; exact Nat.mod_eq_of_lt (by omega)

theorem toNat_succ (w : BitVec 32) (hw : w.toNat ≤ 8) : (IntOp.addi w 1#32).toNat = w.toNat + 1 := by
  show (w + 1#32).toNat = _
  rw [BitVec.toNat_add]
  have : (1#32 : BitVec 32).toNat = 1 := by decide
  rw [this]
  exact Nat.mod_eq_of_lt (by omega)

/-- The masked sum is the difference of adjacent cumulative columns. -/
theorem gathK_eq (x : XArr) (lab : LArr) (hx : ∀ i, ∃ r : ℝ, x i = (r : EReal)) (j : Fin 16384)
    (hl : (lab (ix1 j)).toNat ≤ 8) :
    (∑ r : Fin 9, Ideal.logistic (x (ix2 j r)) *
        ((if BitVec.ofNat 32 r.val = lab (ix1 j) then (1 : EReal) else 0)
          - (if BitVec.ofNat 32 r.val = IntOp.addi (lab (ix1 j)) 1#32 then (1 : EReal) else 0)))
      - (if lab (ix1 j) = 8#32 then (1 : EReal) else 0) = gath x lab j := by
  choose t ht using hx
  let σ : Fin 9 → ℝ := fun r => (1 + Real.exp (-(t (ix2 j r))))⁻¹
  have hσ : ∀ r : Fin 9, Ideal.logistic (x (ix2 j r)) = (σ r : EReal) := fun r => by
    rw [ht, Ideal.logistic_coe]
  have iffA : ∀ r : Fin 9, BitVec.ofNat 32 r.val = lab (ix1 j) ↔ r.val = (lab (ix1 j)).toNat := fun r =>
    ofNat_eq_iff _ _ (by have := r.isLt; omega)
  have iffB : ∀ r : Fin 9, BitVec.ofNat 32 r.val = IntOp.addi (lab (ix1 j)) 1#32 ↔ r.val = (lab (ix1 j)).toNat + 1 :=
    fun r => by rw [ofNat_eq_iff _ _ (by have := r.isLt; omega), toNat_succ _ hl]
  have iffE : lab (ix1 j) = 8#32 ↔ (lab (ix1 j)).toNat = 8 := by
    constructor
    · intro h; rw [h]; decide
    · intro h; apply BitVec.eq_of_toNat_eq; rw [h]; decide
  have key : (∑ r : Fin 9, Ideal.logistic (x (ix2 j r)) *
        ((if BitVec.ofNat 32 r.val = lab (ix1 j) then (1 : EReal) else 0)
          - (if BitVec.ofNat 32 r.val = IntOp.addi (lab (ix1 j)) 1#32 then (1 : EReal) else 0)))
      - (if lab (ix1 j) = 8#32 then (1 : EReal) else 0)
      = (((∑ r : Fin 9, σ r * ((if r.val = (lab (ix1 j)).toNat then (1 : ℝ) else 0)
            - (if r.val = (lab (ix1 j)).toNat + 1 then (1 : ℝ) else 0)))
          - (if (lab (ix1 j)).toNat = 8 then (1 : ℝ) else 0) : ℝ) : EReal) := by
    rw [EReal.coe_sub, coe_finset_sum]
    refine congrArg₂ (· - ·) (Finset.sum_congr rfl fun r _ => ?_) ?_
    · rw [hσ, EReal.coe_mul, EReal.coe_sub, ← ite_coe, ← ite_coe, if_congr (iffA r) rfl rfl, if_congr (iffB r) rfl rfl]
    · rw [← ite_coe, if_congr iffE rfl rfl]
  rw [key]
  have hsum : ∑ r : Fin 9, σ r * ((if r.val = (lab (ix1 j)).toNat then (1 : ℝ) else 0)
        - (if r.val = (lab (ix1 j)).toNat + 1 then (1 : ℝ) else 0))
      = (if h : (lab (ix1 j)).toNat < 9 then σ ⟨_, h⟩ else 0) - (if h : (lab (ix1 j)).toNat + 1 < 9 then σ ⟨_, h⟩ else 0) := by
    rw [← sum_pick, ← sum_pick, ← Finset.sum_sub_distrib]
    exact Finset.sum_congr rfl fun r _ => mul_sub _ _ _
  have h9 : (lab (ix1 j)).toNat < 9 := by omega
  rw [hsum, dif_pos h9]
  unfold gath cum
  rw [dif_pos h9, hσ]
  by_cases h8 : (lab (ix1 j)).toNat + 1 < 9
  · have hne : ¬ (lab (ix1 j)).toNat = 8 := by omega
    rw [dif_pos h8, dif_pos h8, if_neg hne, sub_zero, hσ, ← EReal.coe_sub]
  · have he : (lab (ix1 j)).toNat = 8 := by omega
    rw [dif_neg h8, dif_neg h8, if_pos he, sub_zero, ← EReal.coe_one, ← EReal.coe_sub]

end Cert.Proof.KerValue

end
-- ==== Proof.KerSsum.lean ====
/-
  The first TensorCore call: a 16 x 1 column of per-class sums of the examples' terms.

  The call visits the 16384 examples in two blocks of 8192 lanes, carrying a 16 x 8192 table that starts at zero.
  At block t, row p, lane q it adds (p is the label of example 8192 t + q) times the logarithm of that example's
  own-class probability plus the small constant; the probability is formed by masking the nine logistic values of
  the example's logits, which for a label in 0..8 and real logits is the difference of adjacent cumulative columns.
  After the last block the lanes of each row are added.  Row p of the result is therefore the sum, over all
  examples labelled p, of their terms: the two blocks' lanes together are exactly the 16384 examples.
  Read at an index: a one-row matrix spread over rows, a sum down the rows of a tile, the 0/1 float of a one-bit
  word, the row count `iota`, the transposed logits' and the labels row's blocks.
-/
import proofs.«218680_g49873160241359_cont_8to1c4_353_26_alg».proof.Proof.Stages
import proofs.«218680_g49873160241359_cont_8to1c4_353_26_alg».proof.Proof.Spec
import proofs.«218680_g49873160241359_cont_8to1c4_353_26_alg».proof.Proof.LibKeepdims
import proofs.«218680_g49873160241359_cont_8to1c4_353_26_alg».proof.Proof.KerLogt
import Idealize.ShloMosaic.Lib.IdealHost
import Idealize.ShloMosaic.Lib.Affine
import Idealize.ShloMosaic.Lib.Pipeline.Value

noncomputable section

open scoped BigOperators

namespace Cert.Proof.KerValue

open Cert.KernelIdeal Cert.KernelIdeal.Gen Cert.KernelIdeal.Stages Idealize.ShloMosaic Idealize.ShloMosaic.ValueIdx
open Cert.Proof.Spec Cert.Lib.ERealSum Cert.Lib.Keepdims

/-- A one-row matrix spread over `a` rows reads, at `(p, q)`, the row at `(0, q)`. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

/-- The sum down the rows of an `[a, b]` tile, read at lane `q`, is the sum of that column's `a` entries. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction (F := Ideal) .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- The float of a widened one-bit word is one or zero. -/
theorem ind_eq (c : BitVec 1) :
    FloatOps.sitofp (F := Ideal) .f32 (c.setWidth 32) = if c = 1#1 then (1 : EReal) else 0 := by
  rcases BitVec.eq_zero_or_eq_one c with rfl | rfl
  · have e : (BitVec.setWidth 32 (0#1)).toInt = 0 := by decide
    show (((BitVec.setWidth 32 (0#1)).toInt : ℝ) : EReal) = _
    rw [e, if_neg (by decide)]; simp
  · have e : (BitVec.setWidth 32 (1#1)).toInt = 1 := by decide
    show (((BitVec.setWidth 32 (1#1)).toInt : ℝ) : EReal) = _
    rw [e, if_pos rfl]; simp

theorem cmpi_apply {s : Shape} {w : ℕ} (pr : CmpIPredicate) (a b : IVec s w) (i : s.Idx) :
    cmpi pr a b i = IntOp.cmpi pr (a i) (b i) := rfl
theorem addi_apply {s : Shape} {w : ℕ} (a b : IVec s w) (i : s.Idx) : addi a b i = IntOp.addi (a i) (b i) := rfl
theorem logV_apply {s : Shape} (a : FVec Ideal s .f32) (i : s.Idx) : log a i = Ideal.log (a i) := rfl
theorem logisticV_apply {s : Shape} (a : FVec Ideal s .f32) (i : s.Idx) : logistic a i = Ideal.logistic (a i) := rfl

/-- A row count at `(p, q)` is the word `p`. -/
theorem iota16_apply (p : Fin 16) (q : Fin 8192) :
    iota .tc S16x8192 32 [0] iota_S16x8192_d0_w32 (ix2 p q) = BitVec.ofNat 32 p.val := by
  show BitVec.ofNat 32 (0 * 16 + p.val) = _
  rw [Nat.zero_mul, Nat.zero_add]
theorem iota9_apply (r : Fin 9) (q : Fin 8192) :
    iota .tc S9x8192 32 [0] iota_S9x8192_d0_w32 (ix2 r q) = BitVec.ofNat 32 r.val := by
  show BitVec.ofNat 32 (0 * 9 + r.val) = _
  rw [Nat.zero_mul, Nat.zero_add]

set_option backward.isDefEq.respectTransparency.types false in
/-- ONE STEP OF THE FIRST TensorCore CALL at row `p`, lane `q`: the carried table plus (row p is the lane's label)
    times the logarithm of the lane's own-class probability, in its masked form, plus the small constant. -/
theorem k1_pay3_apply (v3 : Vec Ideal S9x8192 .f32) (v6 : Vec Ideal S1x8192 .i32) (v32 : Vec Ideal S16x8192 .f32)
    (p : Fin 16) (q : Fin 8192) :
    k1_pay3 (F := Ideal) v3 v6 v32 (ix2 p q) = v32 (ix2 p q)
      + (if BitVec.ofNat 32 p.val = v6 (ix2 (0 : Fin 1) q) then (1 : EReal) else 0)
        * Ideal.log ((∑ k : Fin 9, Ideal.logistic (v3 (ix2 k q))
              * ((if BitVec.ofNat 32 k.val = v6 (ix2 (0 : Fin 1) q) then (1 : EReal) else 0)
                - (if BitVec.ofNat 32 k.val = IntOp.addi (v6 (ix2 (0 : Fin 1) q)) 1#32 then (1 : EReal) else 0)))
            - (if v6 (ix2 (0 : Fin 1) q) = 8#32 then (1 : EReal) else 0) + Ideal.ofBits .f32 0x3089705F#32) := by
  unfold k1_pay3
  simp only [shapeCast_self, addf_apply, mulf_apply, subf_apply, sitofp_apply, extui_apply, broadcast_apply,
    broadcastTo_1b_ab_apply, Cert.Lib.Keepdims.shapeCast_a_1a_apply, ind_eq, cmpi_apply, addi_apply, logV_apply,
    logisticV_apply, IntOp.cmpi_eq, Ideal.ofBits_def]
  rw [iota16_apply p q, colSum_apply]
  have hk : ∀ k : Fin 9, (mulf (logistic v3)
      (subf
        (sitofp FTy.f32 (extui 32 (cmpi CmpIPredicate.eq (iota Kind.tc S9x8192 32 [0] iota_S9x8192_d0_w32)
          (broadcastTo S9x8192 v6 broadcasts_S1x8192_S9x8192)) natLt_1_32))
        (sitofp FTy.f32 (extui 32 (cmpi CmpIPredicate.eq (iota Kind.tc S9x8192 32 [0] iota_S9x8192_d0_w32)
          (broadcastTo S9x8192 (addi v6 (broadcast S1x8192 1#32)) broadcasts_S1x8192_S9x8192)) natLt_1_32))) : FVec Ideal S9x8192 .f32) (ix2 k q)
      = Ideal.logistic (v3 (ix2 k q))
        * ((if BitVec.ofNat 32 k.val = v6 (ix2 (0 : Fin 1) q) then (1 : EReal) else 0)
          - (if BitVec.ofNat 32 k.val = IntOp.addi (v6 (ix2 (0 : Fin 1) q)) 1#32 then (1 : EReal) else 0)) := fun k => by
    simp only [mulf_apply, subf_apply, sitofp_apply, extui_apply, broadcast_apply, broadcastTo_1b_ab_apply, ind_eq,
      cmpi_apply, addi_apply, logisticV_apply, IntOp.cmpi_eq]
    rw [iota9_apply k q]
  rw [Finset.sum_congr rfl fun k _ => hk k]

/-- The table starts at zero. -/
theorem k1_pay2_apply (p : Fin 16) (q : Fin 8192) : k1_pay2 (F := Ideal) (ix2 p q) = 0 := by
  unfold k1_pay2
  simp only [shapeCast_self, broadcast_apply]
  exact Ideal.ofBits_zero_f32

/-- Example number `8192 t + q`: lane `q` of block `t`. -/
def exIdx (t : ℕ) (ht : t < 2) (q : Fin 8192) : Fin 16384 := ⟨8192 * t + q.val, by have := q.isLt; omega⟩

section Blocks

variable (x : FVec Ideal S16384x9 .f32) (lab : IVec S16384 32)

/-- Block `t` of the transposed logits at `(k, q)` is logit `k` of example `8192 t + q`. -/
theorem blkLogits_apply (t : ℕ) (ht : t < 2) (k : Fin 9) (q : Fin 8192) :
    blkLogits (F := Ideal) (transpose S9x16384 [1, 0] x Facts₀.transposes_S16384x9_S9x16384_1_0) t (ix2 k q)
      = x (ix2 (exIdx t ht q) k) := by
  have hm : (8192 * t + q.val) % 16384 = 8192 * t + q.val := Nat.mod_eq_of_lt (by have := q.isLt; omega)
  show transpose S9x16384 [1, 0] x Facts₀.transposes_S16384x9_S9x16384_1_0
      (ix2 k (⟨(8192 * t + q.val) % 16384, Nat.mod_lt _ (by decide)⟩ : Fin 16384)) = _
  rw [transpose_apply [1, 0] x _ _ (ix2 (⟨(8192 * t + q.val) % 16384, Nat.mod_lt _ (by decide)⟩ : Fin 16384) k) (fun b => by
    match b with
    | ⟨0, _⟩ => rfl
    | ⟨1, _⟩ => rfl)]
  exact congrArg (fun j => x (ix2 j k)) (Fin.ext hm)

/-- Block `t` of the labels row at `(0, q)` is the label of example `8192 t + q`. -/
theorem blkLabels_apply (t : ℕ) (ht : t < 2) (q : Fin 8192) :
    blkLabels (F := Ideal) (shapeCast S1x16384 lab Facts₀.shapeCasts_S16384_S1x16384) t (ix2 (0 : Fin 1) q)
      = lab (ix1 (exIdx t ht q)) := by
  have hm : (8192 * t + q.val) % 16384 = 8192 * t + q.val := Nat.mod_eq_of_lt (by have := q.isLt; omega)
  show shapeCast S1x16384 lab Facts₀.shapeCasts_S16384_S1x16384
      (ix2 (0 : Fin 1) (⟨(8192 * t + q.val) % 16384, Nat.mod_lt _ (by decide)⟩ : Fin 16384)) = _
  rw [Cert.Lib.Keepdims.shapeCast_a_1a_apply]
  exact congrArg (fun j => lab (ix1 j)) (Fin.ext hm)

variable (hx : ∀ i, ∃ r : ℝ, x i = (r : EReal)) (hl : ∀ j, (lab j).toNat ≤ 8)
include hx hl

/-- One step of the call on block `t` adds, at row `p` and lane `q`, the term of example `8192 t + q` when
    that example's label is `p`, and nothing otherwise. -/
theorem step_apply (t : ℕ) (ht : t < 2) (v32 : Vec Ideal S16x8192 .f32) (p : Fin 16) (q : Fin 8192) :
    k1_pay3 (F := Ideal) (blkLogits (F := Ideal) (transpose S9x16384 [1, 0] x Facts₀.transposes_S16384x9_S9x16384_1_0) t)
        (blkLabels (F := Ideal) (shapeCast S1x16384 lab Facts₀.shapeCasts_S16384_S1x16384) t) v32 (ix2 p q)
      = v32 (ix2 p q) + (if (lab (ix1 (exIdx t ht q))).toNat = p.val then logt x lab (exIdx t ht q) else 0) := by
  rw [k1_pay3_apply, blkLabels_apply lab t ht q]
  have hk : ∀ k : Fin 9, blkLogits (F := Ideal) (transpose S9x16384 [1, 0] x Facts₀.transposes_S16384x9_S9x16384_1_0) t (ix2 k q) = x (ix2 (exIdx t ht q) k) := fun k => blkLogits_apply x t ht k q
  simp only [hk]
  rw [gathK_eq x lab hx (exIdx t ht q) (hl _)]
  show _ + _ * logt x lab (exIdx t ht q) = _
  by_cases h : (lab (ix1 (exIdx t ht q))).toNat = p.val
  · rw [if_pos h, if_pos ((ofNat_eq_iff _ _ (by have := p.isLt; omega)).2 h.symm), one_mul]
  · rw [if_neg h, if_neg (fun e => h ((ofNat_eq_iff _ _ (by have := p.isLt; omega)).1 e).symm), zero_mul]

/-- THE COLUMN THE FIRST TensorCore CALL LEAVES: entry `p` is the sum of the terms of the examples labelled `p`. -/
theorem ssum_apply (p : Fin 16) (u : Fin 1) :
    ssumFn (F := Ideal) (transpose S9x16384 [1, 0] x Facts₀.transposes_S16384x9_S9x16384_1_0)
        (shapeCast S1x16384 lab Facts₀.shapeCasts_S16384_S1x16384) (ix2 p u)
      = ∑ j : Fin 16384, (if (lab (ix1 j)).toNat = p.val then logt x lab j else 0) := by
  unfold ssumFn k1_pay1
  rw [Cert.Lib.Keepdims.shapeCast_a_a1_apply, rowSum_apply]
  have hq : ∀ q : Fin 8192,
      k1_pay3 (F := Ideal) (blkLogits (F := Ideal) (transpose S9x16384 [1, 0] x Facts₀.transposes_S16384x9_S9x16384_1_0) 1) (blkLabels (F := Ideal) (shapeCast S1x16384 lab Facts₀.shapeCasts_S16384_S1x16384) 1)
        (k1_pay3 (F := Ideal) (blkLogits (F := Ideal) (transpose S9x16384 [1, 0] x Facts₀.transposes_S16384x9_S9x16384_1_0) 0) (blkLabels (F := Ideal) (shapeCast S1x16384 lab Facts₀.shapeCasts_S16384_S1x16384) 0) (k1_pay2 (F := Ideal))) (ix2 p q)
      = (0 + (if (lab (ix1 (exIdx 0 (by decide) q))).toNat = p.val then logt x lab (exIdx 0 (by decide) q) else 0))
        + (if (lab (ix1 (exIdx 1 (by decide) q))).toNat = p.val then logt x lab (exIdx 1 (by decide) q) else 0) := fun q => by
    rw [step_apply x lab hx hl 1 (by decide), step_apply x lab hx hl 0 (by decide), k1_pay2_apply]
  rw [Finset.sum_congr rfl fun q _ => hq q, Finset.sum_add_distrib]
  have hsplit := Fin.sum_univ_add (a := 8192) (b := 8192)
    (fun j : Fin (8192 + 8192) => if (lab (ix1 (show Fin 16384 from j))).toNat = p.val then logt x lab (show Fin 16384 from j) else 0)
  refine Eq.trans ?_ hsplit.symm
  refine congrArg₂ (· + ·) (Finset.sum_congr rfl fun q _ => ?_) (Finset.sum_congr rfl fun q _ => ?_)
  · rw [zero_add]
    have e : exIdx 0 (by decide) q = (show Fin 16384 from Fin.castAdd 8192 q) := Fin.ext (by show 8192 * 0 + q.val = q.val; omega)
    rw [e]
  · have e : exIdx 1 (by decide) q = (show Fin 16384 from Fin.natAdd 8192 q) := Fin.ext (by show 8192 * 1 + q.val = 8192 + q.val; omega)
    rw [e]

end Blocks

end Cert.Proof.KerValue

end
-- ==== Proof.KerJoin.lean ====
/-
  From the sum grouped by class to the loss.

  The kernel forms, for each of sixteen rows p, the sum S_p of the terms of the examples labelled p, weights row p
  by the normalised inverse weight of class p (zero beyond the ten classes), adds the sixteen products, negates by
  subtracting from zero, and divides by 16384.  The specification weights each example's term by the inverse weight
  of its own class, adds, divides by 16384 and negates.  The inverse weights are non-negative REALS, so each
  distributes over its row's sum whatever the terms are (they may be infinite), and regrouping the double sum by
  examples leaves, for each example, only the row of its own label.  Negation commutes with the division because
  the divisor, 16384, is a nonzero real.
-/
import proofs.«218680_g49873160241359_cont_8to1c4_353_26_alg».proof.Proof.Spec
import Idealize.ShloMosaic.Lib.IdealHost

noncomputable section

open scoped BigOperators

namespace Cert.Proof.KerValue

open Idealize.ShloMosaic Idealize.ShloMosaic.ValueIdx Cert.Proof.Spec Cert.Lib.ERealSum

/-- The f32 pattern `0x46800000` is the real 16384. -/
theorem ofBits_16384 : Ideal.ofBits .f32 0x46800000#32 = ((16384 : ℝ) : EReal) := by
  simp [Ideal.ofBits, Ideal.ieee, -EReal.coe_mul]; norm_num

/-- Negating before or after a division by a nonzero real. -/
theorem div_zero_sub (W : EReal) {y : ℝ} (hy : y ≠ 0) :
    Ideal.div (0 - W) (y : EReal) = -(Ideal.div (0 + W) (y : EReal)) := by
  rw [Ideal.div_coe hy, Ideal.div_coe hy, zero_add, sub_eq_add_neg, zero_add, EReal.neg_mul]

/-- THE JOIN: the class-grouped weighted sum, negated and averaged the kernel's way, is the loss. -/
theorem join (x : XArr) (lab : LArr) (hl : ∀ j, (lab j).toNat ≤ 8) :
    Ideal.div (0 - ∑ p : Fin 16, Spec.inv lab p.val
        * ∑ j : Fin 16384, (if (lab (ix1 j)).toNat = p.val then logt x lab j else 0))
      (Ideal.ofBits .f32 0x46800000#32) = Loss x lab := by
  choose w hw0 hw using fun c => inv_real lab hl c
  have hgrp : ∑ p : Fin 16, Spec.inv lab p.val
        * ∑ j : Fin 16384, (if (lab (ix1 j)).toNat = p.val then logt x lab j else 0) = wsum x lab := by
    have h1 : ∀ p : Fin 16, Spec.inv lab p.val
          * ∑ j : Fin 16384, (if (lab (ix1 j)).toNat = p.val then logt x lab j else 0)
        = ((w p.val : ℝ) : EReal) * ∑ j : Fin 16384,
            (if (⟨(lab (ix1 j)).toNat, by have := hl (ix1 j); omega⟩ : Fin 16) = p then logt x lab j else 0) := fun p => by
      rw [hw]
      refine congrArg _ (Finset.sum_congr rfl fun j _ => if_congr ?_ rfl rfl)
      exact ⟨fun h => Fin.ext h, fun h => congrArg Fin.val h⟩
    rw [Finset.sum_congr rfl fun p _ => h1 p,
      sum_group_by_class (fun j : Fin 16384 => (⟨(lab (ix1 j)).toNat, by have := hl (ix1 j); omega⟩ : Fin 16))
        (fun p : Fin 16 => w p.val) (fun p => hw0 p.val) (fun j => logt x lab j)]
    unfold wsum
    exact Finset.sum_congr rfl fun j _ => by rw [hw]
  rw [hgrp, ofBits_16384]
  unfold Loss
  rw [ofBits_16384]
  exact div_zero_sub _ (by norm_num)

end Cert.Proof.KerValue

end
-- ==== Proof.LibScatterCount.lean ====
/-
  A scatter that ADDS, read at an element.

  The host's scatter is a left fold over the update elements in row-major order: each update that lands inside
  the operand replaces the element it lands on by the body applied to that element and the update; one that lands
  outside is dropped.  When the body is the addition of a commutative monoid the order of the fold does not matter
  and each element of the result is the operand's element plus the sum of all the updates that land on it.  With
  every update equal to one, that sum is the NUMBER of updates that land there: a histogram.
-/
import Idealize.ShloMosaic.PureOps.ShapeOps
import Mathlib.Algebra.BigOperators.Fin
import Mathlib.Algebra.BigOperators.Group.Finset.Basic

noncomputable section

open scoped BigOperators

namespace Cert.Lib.ScatterCount

open Idealize.ShloMosaic

/-- A left fold whose step adds, at the one position `p n` names (if any), the value `v n`: at position `i` it
    ends at the start value plus the sum of the `v n` with `p n = some i`. -/
theorem foldl_step_add {α ι I : Type} [AddCommMonoid α] [DecidableEq I] (p : ι → Option I) (v : ι → α)
    (step : (I → α) → ι → (I → α))
    (hstep : ∀ r n i, step r n i = r i + (if p n = some i then v n else 0)) :
    ∀ (l : List ι) (x : I → α) (i : I),
      (l.foldl step x) i = x i + (l.map fun n => if p n = some i then v n else 0).sum
  | [], x, i => by simp
  | a :: l, x, i => by
    rw [List.foldl_cons, foldl_step_add p v step hstep l (step x a) i, hstep, List.map_cons, List.sum_cons, add_assoc]

/-- THE ADDING SCATTER AT AN ELEMENT: the operand's element plus the sum of the updates that land on it. -/
theorem scatter_add_apply {s si u : Shape} {w : Nat} {α : Type} [AddCommMonoid α] (d : ScatterDims s si u)
    (f : α → α → α) (hf : ∀ a b, f a b = a + b) (x : s.Idx → α) (idx : IVec si w) (upd : u.Idx → α) (i : s.Idx) :
    Host.scatter d f x idx upd i = x i + ∑ j : u.Idx, (if d.resultIdx? j idx = some i then upd j else 0) := by
  classical
  unfold Host.scatter
  refine (foldl_step_add (fun n => d.resultIdx? (u.rowMajor.symm n) idx) (fun n => upd (u.rowMajor.symm n)) _ ?_
    (List.finRange u.numel) x i).trans ?_
  · intro r n i'
    beta_reduce
    cases h : d.resultIdx? (u.rowMajor.symm n) idx with
    | none => simp
    | some k =>
      dsimp only
      by_cases hik : i' = k
      · subst hik; rw [if_pos rfl, if_pos rfl, hf]
      · rw [if_neg hik, if_neg (fun h' => hik (Option.some.inj h').symm), add_zero]
  · congr 1
    rw [← Fin.sum_univ_def]
    exact Fintype.sum_equiv u.rowMajor.symm _ _ fun _ => rfl

end Cert.Lib.ScatterCount

end
-- ==== Proof.RefIndex.lean ====
/-
  Where the reference's three data-dependent operations read and write.

  The histogram is a scatter of ones at the labels, viewed as a column: update j lands on class lab j when that is
  one of the ten classes.  The per-class inverse weight of an example is a gather from the ten weights at the
  example's label.  The probability of an example's own class is a gather from the 16384 x 9 table of differences,
  batched over the rows: row j, column lab j.  Each is read here at an index, for start indices that are in range
  (so that neither the scatter's bounds test nor the gathers' clamping changes anything); and a reduction by
  `and` whose every element is one is one.
-/
import proofs.«218680_g49873160241359_cont_8to1c4_353_26_alg».proof.Proof.RefReadP
import proofs.«218680_g49873160241359_cont_8to1c4_353_26_alg».proof.Proof.LibScatterCount
import Idealize.ShloMosaic.Lib.ValueIdx
import Idealize.ShloMosaic.Lib.ReduceAll

noncomputable section

open scoped BigOperators

namespace Cert.Proof.RefValue

open Cert.ReferenceIdeal Cert.ReferenceIdeal.Gen Idealize.ShloMosaic Idealize.ShloMosaic.ValueIdx

/-- Example `j` as the column index `(j, 0)`. -/
abbrev colIdx (j : S16384.Idx) : S16384x1.Idx := fun a => match a with
  | ⟨0, _⟩ => ⟨(j 0).val, (j 0).isLt⟩
  | ⟨1, _⟩ => ⟨0, Nat.one_pos⟩

/-- The column index `(j, u)` as the index `(j, u, 0)` of the start indices. -/
abbrev cubeIdx (y : S16384x1.Idx) : S16384x1x1.Idx := fun a => match a with
  | ⟨0, _⟩ => ⟨(y 0).val, (y 0).isLt⟩
  | ⟨1, _⟩ => ⟨(y 1).val, (y 1).isLt⟩
  | ⟨2, _⟩ => ⟨0, Nat.one_pos⟩

/-- Row `(y 0)`, column `n` of the table. -/
abbrev cellIdx (y : S16384x1.Idx) (n : ℕ) (hn : n < 9) : S16384x9.Idx := fun a => match a with
  | ⟨0, _⟩ => ⟨(y 0).val, (y 0).isLt⟩
  | ⟨1, _⟩ => ⟨n, hn⟩

/-- The scatter's update `j` lands on class `n` when the start index it reads is `n < 10`. -/
theorem scatter_resultIdx {w : ℕ} (idx : IVec S16384x1 w) (j : S16384.Idx) (n : ℕ) (hn : n < 10)
    (hv : (idx (colIdx j)).toInt = n) :
    scatter_S10_S16384x1_S16384_n_0_0_1.resultIdx? j idx = some (ix1 ⟨n, hn⟩) := by
  have hsi : scatter_S10_S16384x1_S16384_n_0_0_1.siIdx j ⟨List.idxOf (0 : Fin 1) scatter_S10_S16384x1_S16384_n_0_0_1.scatterDimsToOperandDims,
      List.idxOf_lt_length_iff.2 (List.mem_singleton.mpr rfl)⟩ = colIdx j := by
    funext b; refine Fin.ext ?_
    match b with
    | ⟨0, _⟩ => rfl
    | ⟨1, _⟩ => rfl
  have hsw : ∀ a, scatter_S10_S16384x1_S16384_n_0_0_1.start j idx a + scatter_S10_S16384x1_S16384_n_0_0_1.window j a = (n : ℤ) := by
    intro a
    obtain rfl : a = 0 := Subsingleton.elim _ _
    unfold ScatterDims.start ScatterDims.window
    rw [dif_pos (show (0 : Fin 1) ∈ scatter_S10_S16384x1_S16384_n_0_0_1.scatterDimsToOperandDims from List.mem_singleton.mpr rfl),
      dif_neg (show ¬ (0 : Fin 1) ∈ scatter_S10_S16384x1_S16384_n_0_0_1.sKept by decide), hsi, hv]
    simp
  unfold ScatterDims.resultIdx?
  rw [dif_pos (fun a => by rw [hsw a]; obtain rfl : a = 0 := Subsingleton.elim _ _; exact ⟨by omega, by show (n : ℤ) < 10; omega⟩)]
  congr 1
  funext a
  obtain rfl : a = 0 := Subsingleton.elim _ _
  refine Fin.ext ?_
  show (scatter_S10_S16384x1_S16384_n_0_0_1.start j idx 0 + scatter_S10_S16384x1_S16384_n_0_0_1.window j 0).toNat = n
  rw [hsw]; simp

/-- The gather from the ten weights reads weight `n` when the start index it reads is `n < 10`. -/
theorem gather10_apply {α : Type} {w : ℕ} (x : S10.Idx → α) (idx : IVec S16384x1 w) (j : S16384.Idx) (n : ℕ) (hn : n < 10)
    (hv : (idx (colIdx j)).toInt = n) :
    Host.gather gather_S10_S16384x1_S16384_n_0_n_n_0_1_1 x idx j = x (ix1 ⟨n, hn⟩) := by
  unfold Host.gather
  congr 1
  funext a
  obtain rfl : a = 0 := Subsingleton.elim _ _
  refine Fin.ext ?_
  show gather_S10_S16384x1_S16384_n_0_n_n_0_1_1.start j idx 0 + gather_S10_S16384x1_S16384_n_0_n_n_0_1_1.batchCoord j 0
    + gather_S10_S16384x1_S16384_n_0_n_n_0_1_1.offCoord j 0 = n
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S10_S16384x1_S16384_n_0_n_n_0_1_1.startIndexMap from List.mem_singleton.mpr rfl)]
  have hsi : gather_S10_S16384x1_S16384_n_0_n_n_0_1_1.siIdx j ⟨List.idxOf (0 : Fin 1) gather_S10_S16384x1_S16384_n_0_n_n_0_1_1.startIndexMap,
      List.idxOf_lt_length_iff.2 (List.mem_singleton.mpr rfl)⟩ = colIdx j := by
    funext b; refine Fin.ext ?_
    match b with
    | ⟨0, _⟩ => rfl
    | ⟨1, _⟩ => rfl
  rw [hsi, hv]
  show min ((n : ℤ).toNat) (10 - 1) = n
  simp; omega

/-- The batched gather from the table reads row `y 0`, column `n`, when the start index it reads is `n < 9`. -/
theorem gather9_apply {α : Type} {w : ℕ} (x : S16384x9.Idx → α) (idx : IVec S16384x1x1 w) (y : S16384x1.Idx) (n : ℕ) (hn : n < 9)
    (hv : (idx (cubeIdx y)).toInt = n) :
    Host.gather gather_S16384x9_S16384x1x1_S16384x1_n_1_0_0_1_2_11 x idx y = x (cellIdx y n hn) := by
  unfold Host.gather
  congr 1
  funext a
  refine Fin.ext ?_
  match a with
  | ⟨0, _⟩ =>
    show gather_S16384x9_S16384x1x1_S16384x1_n_1_0_0_1_2_11.start y idx 0 + gather_S16384x9_S16384x1x1_S16384x1_n_1_0_0_1_2_11.batchCoord y 0
      + gather_S16384x9_S16384x1x1_S16384x1_n_1_0_0_1_2_11.offCoord y 0 = (y 0).val
    rw [GatherDims.start_batching _ _ _ _ (show (0 : Fin 2) ∈ gather_S16384x9_S16384x1x1_S16384x1_n_1_0_0_1_2_11.operandBatchingDims from List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 2) ∈ gather_S16384x9_S16384x1x1_S16384x1_n_1_0_0_1_2_11.operandBatchingDims from List.mem_singleton.mpr rfl)]
    rfl
  | ⟨1, _⟩ =>
    show gather_S16384x9_S16384x1x1_S16384x1_n_1_0_0_1_2_11.start y idx 1 + gather_S16384x9_S16384x1x1_S16384x1_n_1_0_0_1_2_11.batchCoord y 1
      + gather_S16384x9_S16384x1x1_S16384x1_n_1_0_0_1_2_11.offCoord y 1 = n
    rw [GatherDims.batchCoord_eq_zero _ _ _ (show ¬ (1 : Fin 2) ∈ gather_S16384x9_S16384x1x1_S16384x1_n_1_0_0_1_2_11.operandBatchingDims by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16384x9_S16384x1x1_S16384x1_n_1_0_0_1_2_11.startIndexMap from List.mem_singleton.mpr rfl)]
    have hsi : gather_S16384x9_S16384x1x1_S16384x1_n_1_0_0_1_2_11.siIdx y ⟨List.idxOf (1 : Fin 2) gather_S16384x9_S16384x1x1_S16384x1_n_1_0_0_1_2_11.startIndexMap,
        List.idxOf_lt_length_iff.2 (List.mem_singleton.mpr rfl)⟩ = cubeIdx y := by
      funext b; refine Fin.ext ?_
      match b with
      | ⟨0, _⟩ => rfl
      | ⟨1, _⟩ => rfl
      | ⟨2, _⟩ => rfl
    rw [hsi, hv]
    show min ((n : ℤ).toNat) (9 - 1) = n
    simp; omega

/-- A left fold by `and` from one over words that are all one is one. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    refine foldl_andi_of_all f l _ ?_ (fun n hn => hl n (List.mem_cons_of_mem _ hn))
    rw [h, hl a (List.mem_cons_self ..)]; decide

/-- A reduction by `and`, from one, of an array of ones is one everywhere. -/
theorem reduce_andi_of_all {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl]
  exact foldl_andi_of_all x _ _ hi (fun n _ => hx n)

end Cert.Proof.RefValue

end
-- ==== Proof.RefValue.lean ====
/-
  The reference computes the loss of the specification.

  Its program is read one operation at a time.  The sigmoid is spelt as 1 / (1 + exp (-x)), which is the logistic
  function.  The table of class probabilities is the difference of two nine-column windows of the ten-column
  table "sigmoid, then a column of ones".  The class counts are a scatter of ones at the labels, so entry c is the
  number of examples labelled c; as a 32-bit word that number is itself, being at most 16384.  The weights and
  their normalised reciprocals are then the specification's own operations on those counts.  With every label
  in 0..8 the index wrapping "negative means from the end" never fires, no gather clamps, and the bounds mask of
  the row gather is one everywhere.  What remains is a sum over the examples, a division and a negation.
-/
import proofs.«218680_g49873160241359_cont_8to1c4_353_26_alg».proof.Proof.RefIndex
import proofs.«218680_g49873160241359_cont_8to1c4_353_26_alg».proof.Proof.Spec
import Idealize.ShloMosaic.Lib.IdealHost
import Mathlib.Data.BitVec

noncomputable section

open scoped BigOperators

namespace Cert.Proof.RefValue

open Cert.ReferenceIdeal Cert.ReferenceIdeal.Gen Cert.ReferenceIdeal.ReadP Idealize.ShloMosaic Idealize.ShloMosaic.ValueIdx
open Cert.Proof.Spec Cert.Lib.ERealSum Cert.Lib.ScatterCount

/-! ## Words -/

theorem toInt_eq_toNat (b : BitVec 32) (h0 : 0 ≤ b.toInt) : b.toInt = (b.toNat : ℤ) := by
  have hlt := b.isLt
  rw [BitVec.toInt_eq_toNat_cond] at h0 ⊢
  by_cases hc : 2 * b.toNat < 2 ^ 32
  · rw [if_pos hc]
  · rw [if_neg hc] at h0; omega

theorem select_decide {α : Type} (p : Prop) [Decidable p] (a b : α) :
    Scalar.select (BitVec.ofBool (decide p)) a b = if p then a else b := by
  unfold Scalar.select
  by_cases h : p
  · rw [if_pos h, decide_eq_true h]; rfl
  · rw [if_neg h, decide_eq_false h]; rfl

theorem ofNat_toInt (n : ℕ) (hn : n ≤ 16384) : (BitVec.ofNat 32 n).toInt = (n : ℤ) := by
  rw [BitVec.toInt_eq_toNat_cond, BitVec.toNat_ofNat]
  have e : n % 2 ^ 32 = n := Nat.mod_eq_of_lt (by omega)
  rw [e, if_pos (by omega)]

theorem z0 : (0#32 : BitVec 32).toInt = 0 := by decide
theorem z8 : (8#32 : BitVec 32).toInt = 8 := by decide

section Labels

variable (lab : (⟨S16384, .i32⟩ : BufTy).Contents (Elt Ideal))
variable (hl : ∀ i, 0 ≤ (lab i).toInt ∧ (lab i).toInt ≤ 8)
include hl

theorem lab_toNat (i : S16384.Idx) : (lab i).toInt = ((lab i).toNat : ℤ) ∧ (lab i).toNat ≤ 8 := by
  have h := toInt_eq_toNat (lab i) (hl i).1
  exact ⟨h, by have := (hl i).2; omega⟩

theorem not_slt_zero (i : S16384.Idx) : IntOp.cmpi .slt (lab i) 0#32 = 0#1 :=
  eq_zero_of_ne_one fun h => by have := IntOp.cmpi_slt.1 h; rw [z0] at this; have := (hl i).1; omega

/-! ## The histogram's indices are the labels -/

theorem v13_eq (i : S16384.Idx) : val_main_v13 (F := Ideal) lab i = lab i := by
  rw [val_main_v13_apply, val_main_call0_v1_apply, val_main_call0_v0_apply, val_main_c_2_apply]
  unfold IntOp.maxsi
  rw [if_neg]
  intro h
  have := BitVec.slt_iff_toInt_lt.1 h
  rw [z0] at this
  have := (hl i).1
  omega

theorem v18_eq (i : S16384.Idx) : val_main_v18 (F := Ideal) lab i = lab i := by
  rw [val_main_v18_apply, val_main_v15_apply, v13_eq lab hl, val_main_v14_apply, val_main_c_3_apply,
    not_slt_zero lab hl, select_zero]

theorem v19_col (j : S16384.Idx) : val_main_v19 (F := Ideal) lab (colIdx j) = lab j := by
  rw [val_main_v19_apply, v18_eq lab hl]
  exact congrArg lab (funext fun a => by match a with | ⟨0, _⟩ => rfl)

/-- The scatter of ones at the labels counts them. -/
theorem v21_eq (c : S10.Idx) : val_main_v21 (F := Ideal) lab c = BitVec.ofNat 32 (cnt lab (c 0).val) := by
  unfold val_main_v21
  rw [scatter_add_apply (α := BitVec 32) scatter_S10_S16384x1_S16384_n_0_0_1 IntOp.addi (fun _ _ => rfl),
    val_main_v12_apply, val_main_c_apply]
  have key : ∀ j : S16384.Idx,
      (if scatter_S10_S16384x1_S16384_n_0_0_1.resultIdx? j (val_main_v19 (F := Ideal) lab) = some c
        then val_main_v20 (F := Ideal) j else 0) = if (lab j).toNat = (c 0).val then (1 : BitVec 32) else 0 := by
    intro j
    obtain ⟨h1, h2⟩ := lab_toNat lab hl j
    rw [scatter_resultIdx (val_main_v19 (F := Ideal) lab) j (lab j).toNat (by omega) (by rw [v19_col lab hl]; exact h1),
      val_main_v20_apply, val_main_c_5_apply]
    by_cases h : (lab j).toNat = (c 0).val
    · rw [if_pos h, if_pos]
      · rfl
      · congr 1; rw [eq_ix1 c]; exact congrArg ix1 (Fin.ext h)
    · rw [if_neg h, if_neg]
      intro h'
      exact h (congrArg Fin.val (congrFun (Option.some.inj h') 0))
  rw [Finset.sum_congr rfl fun j _ => key j, BitVec.zero_add, sum_idx1, Finset.sum_boole]
  exact BitVec.natCast_eq_ofNat _ _

omit hl in
theorem cnt_le' (c : ℕ) : cnt lab c ≤ 16384 := by
  unfold cnt
  refine (Finset.card_filter_le _ _).trans ?_
  rw [Finset.card_univ, Fintype.card_fin]

theorem v22_eq (c : S10.Idx) : val_main_v22 (F := Ideal) lab c = cntE lab (show Fin 10 from c 0) := by
  rw [val_main_v22_apply, v21_eq lab hl]
  show (((BitVec.ofNat 32 (cnt lab (c 0).val)).toInt : ℝ) : EReal) = _
  rw [ofNat_toInt _ (cnt_le' lab _)]
  unfold cntE
  norm_cast

/-! ## The weights -/

theorem v23_eq (i : S_.Idx) : val_main_v23 (F := Ideal) lab i = 0 + ∑ c' : Fin 10, cntE lab c' := by
  rw [val_main_v23_apply, val_main_cst_6_apply, sum_idx1, Finset.sum_congr rfl fun a _ => v22_eq lab hl (ix1 a)]
  show Ideal.ofBits .f32 0x00000000#32 + _ = _
  rw [Ideal.ofBits_zero_f32]

theorem v25_eq (c : S10.Idx) : val_main_v25 (F := Ideal) lab c = wE (cntE lab) (show Fin 10 from c 0) := by
  rw [val_main_v25_apply, val_main_v24_apply, v23_eq lab hl, v22_eq lab hl]
  rfl

theorem v28_eq (c : S10.Idx) : val_main_v28 (F := Ideal) lab c
    = if wE (cntE lab) (show Fin 10 from c 0) = 0 then 1 else wE (cntE lab) (show Fin 10 from c 0) := by
  rw [val_main_v28_apply, val_main_v27_apply, v25_eq lab hl, val_main_v26_apply, val_main_cst_7_apply,
    val_main_call1_v0_apply, val_main_cst_8_apply]
  show Scalar.select (Ideal.cmp .oeq _ (Ideal.ofBits .f32 0x00000000#32)) (Ideal.ofBits .f32 0x3F800000#32) _ = _
  rw [Ideal.ofBits_zero_f32, Ideal.ofBits_one_f32]
  exact select_decide _ _ _

theorem v30_eq (c : S10.Idx) : val_main_v30 (F := Ideal) lab c = inv0E (cntE lab) (show Fin 10 from c 0) := by
  rw [val_main_v30_apply, v28_eq lab hl, val_main_v29_apply, val_main_cst_9_apply]
  show Ideal.div (Ideal.ofBits .f32 0x3F800000#32) _ = _
  rw [Ideal.ofBits_one_f32]
  rfl

theorem v31_eq (i : S_.Idx) : val_main_v31 (F := Ideal) lab i = 0 + ∑ c' : Fin 10, inv0E (cntE lab) c' := by
  rw [val_main_v31_apply, val_main_cst_10_apply, sum_idx1, Finset.sum_congr rfl fun a _ => v30_eq lab hl (ix1 a)]
  show Ideal.ofBits .f32 0x00000000#32 + _ = _
  rw [Ideal.ofBits_zero_f32]

theorem v33_eq (c : S10.Idx) : val_main_v33 (F := Ideal) lab c = invE (cntE lab) (show Fin 10 from c 0) := by
  rw [val_main_v33_apply, val_main_v32_apply, v31_eq lab hl, v30_eq lab hl]
  rfl

theorem v42_col (j : S16384.Idx) : val_main_v42 (F := Ideal) lab (colIdx j) = lab j := by
  rw [val_main_v42_apply, val_main_v41_apply, val_main_v38_apply, val_main_v37_apply, val_main_c_11_apply]
  have e : idx_main_v42 (colIdx j) = j := funext fun a => by match a with | ⟨0, _⟩ => rfl
  rw [e, not_slt_zero lab hl, select_zero]

/-- The gathered inverse weight of example `j` is that of its class. -/
theorem v43_eq (j : S16384.Idx) : val_main_v43 (F := Ideal) lab j = Spec.inv lab (lab j).toNat := by
  obtain ⟨h1, h2⟩ := lab_toNat lab hl j
  unfold val_main_v43
  rw [gather10_apply _ _ j (lab j).toNat (by omega) (by rw [v42_col lab hl]; exact h1), v33_eq lab hl]
  unfold Spec.inv
  rw [dif_pos (by omega)]

/-! ## The bounds mask of the row gather is one -/

theorem call2_v4_eq (i : S16384x1.Idx) : val_main_call2_v4 (F := Ideal) lab i = lab (idx_main_v34 i) := by
  rw [val_main_call2_v4_apply, val_main_call2_v1_apply, val_main_v34_apply, val_main_call2_v0_apply, val_main_call2_c_apply,
    not_slt_zero lab hl, select_zero]

theorem call2_v5_eq (i : S16384x1x1.Idx) :
    val_main_call2_v5 (F := Ideal) lab i = lab (idx_main_v34 (idx_main_call2_v5 i)) := by
  rw [val_main_call2_v5_apply, call2_v4_eq lab hl]

theorem call2_v12_eq (y : S16384x1.Idx) : val_main_call2_v12 (F := Ideal) lab y = 1#1 := by
  unfold val_main_call2_v12
  refine reduce_andi_of_all _ _ _ _ _ rfl fun i => ?_
  rw [val_main_call2_v11_apply, val_main_call2_v7_apply, val_main_call2_v10_apply, call2_v5_eq lab hl,
    val_main_call2_v6_apply, val_main_call2_c_2_apply, val_main_call2_v9_apply, val_main_call2_v8_apply,
    val_main_call2_c_1_apply]
  have h := hl (idx_main_v34 (idx_main_call2_v5 i))
  rw [IntOp.andi_eq_one]
  exact ⟨IntOp.cmpi_sge.2 (by rw [z0]; exact h.1), IntOp.cmpi_sle.2 (by rw [z8]; exact h.2)⟩

end Labels

/-! ## The probabilities -/

section Probabilities

variable (x : (⟨S16384x9, .f32⟩ : BufTy).Contents (Elt Ideal))

/-- The sigmoid, as the program spells it, is the logistic function. -/
theorem v5_eq (i : S16384x9.Idx) : val_main_v5 (F := Ideal) x i = Ideal.logistic (x i) := by
  rw [val_main_v5_apply, val_main_v4_apply, val_main_cst_0_apply, val_main_v3_apply, val_main_v2_apply, val_main_cst_apply,
    val_main_v1_apply, val_main_v0_apply]
  show Ideal.div (Ideal.ofBits .f32 0x3F800000#32) (Ideal.ofBits .f32 0x3F800000#32 + Ideal.exp (-(x i))) = _
  rw [Ideal.ofBits_one_f32]
  rfl

/-- The ten-column table at row `y 0`, column `n < 9`: the logistic of the logit. -/
theorem v8_left (y : S16384x1.Idx) (n : ℕ) (hn : n < 9) (k : S16384x10.Idx) (h0 : (k 0).val = (y 0).val) (h1 : (k 1).val = n) :
    val_main_v8 (F := Ideal) x k = Ideal.logistic (x (cellIdx y n hn)) := by
  unfold val_main_v8
  rw [concatenate_pair_apply_left (t := S16384x10) (s₁ := S16384x9) (s₂ := S16384x1) (1 : Fin 2) _ _ _ k rfl (cellIdx y n hn) (fun b => by
    match b with
    | ⟨0, _⟩ => exact h0.symm
    | ⟨1, _⟩ => exact h1.symm)]
  exact v5_eq x _

/-- The ten-column table at column 9: one. -/
theorem v8_right (k : S16384x10.Idx) (h1 : (k 1).val = 9) : val_main_v8 (F := Ideal) x k = 1 := by
  unfold val_main_v8
  rw [concatenate_pair_apply_right (t := S16384x10) (s₁ := S16384x9) (s₂ := S16384x1) (1 : Fin 2) _ _ _ k rfl rfl
    (show S16384x1.Idx from fun a => match a with | ⟨0, _⟩ => ⟨(k 0).val, (k 0).isLt⟩ | ⟨1, _⟩ => ⟨0, Nat.one_pos⟩) (fun b hb => by
      match b with
      | ⟨0, _⟩ => rfl
      | ⟨1, _⟩ => exact absurd rfl hb) (by show 0 + 9 = (k 1).val; omega)]
  rw [val_main_v7_apply, val_main_cst_1_apply]
  exact Ideal.ofBits_one_f32

theorem cellIdx_eq (y : S16384x1.Idx) (n : ℕ) (hn : n < 9) :
    cellIdx y n hn = ix2 (⟨(y 0).val, (y 0).isLt⟩ : Fin 16384) (⟨n, hn⟩ : Fin 9) :=
  funext fun a => by match a with | ⟨0, _⟩ => rfl | ⟨1, _⟩ => rfl

/-- The table of differences at row `y 0`, column `n`. -/
theorem v11_cell (y : S16384x1.Idx) (n : ℕ) (hn : n < 9) :
    val_main_v11 (F := Ideal) x (cellIdx y n hn)
      = cum x ⟨(y 0).val, (y 0).isLt⟩ n - cum x ⟨(y 0).val, (y 0).isLt⟩ (n + 1) := by
  rw [val_main_v11_apply, val_main_v9_apply, val_main_v10_apply,
    v8_left x y n hn (idx_main_v9 (cellIdx y n hn)) rfl rfl]
  show _ - _ = _
  unfold cum
  rw [dif_pos hn]
  by_cases h9 : n + 1 < 9
  · rw [dif_pos h9, v8_left x y (n + 1) h9 (idx_main_v10 (cellIdx y n hn)) rfl (by show 1 + n = n + 1; omega),
      cellIdx_eq, cellIdx_eq]
  · rw [dif_neg h9, v8_right x (idx_main_v10 (cellIdx y n hn)) (by show 1 + n = 9; omega), cellIdx_eq]

end Probabilities

/-! ## The loss -/

section Loss

variable (x : (⟨S16384x9, .f32⟩ : BufTy).Contents (Elt Ideal)) (lab : (⟨S16384, .i32⟩ : BufTy).Contents (Elt Ideal))
variable (hl : ∀ i, 0 ≤ (lab i).toInt ∧ (lab i).toInt ≤ 8)
include hl

/-- The probability gathered for example `j` is that of its own class. -/
theorem v36_eq (j : S16384.Idx) : val_main_v36 (F := Ideal) x lab j = gath x lab (show Fin 16384 from j 0) := by
  obtain ⟨h1, h2⟩ := lab_toNat lab hl j
  have hk : idx_main_v34 (idx_main_call2_v5 (cubeIdx (idx_main_v36 j))) = j := funext fun a => by
    match a with
    | ⟨0, _⟩ => exact Fin.ext (by show ((((j 0).val / 1) * 1 + 0) * 1 + 0) / 1 = (j 0).val; omega)
  rw [val_main_v36_apply, val_main_v35_apply, call2_v12_eq lab hl, select_one]
  unfold val_main_call2_v13
  rw [gather9_apply _ _ (idx_main_v36 j) (lab j).toNat (by omega) (by rw [call2_v5_eq lab hl, hk]; exact h1), v11_cell]
  unfold gath
  have e0 : (⟨((idx_main_v36 j) 0).val, ((idx_main_v36 j) 0).isLt⟩ : Fin 16384) = (show Fin 16384 from j 0) :=
    Fin.ext (by show (j 0).val / 1 = (j 0).val; omega)
  have e1 : lab (ix1 (show Fin 16384 from j 0)) = lab j := congrArg lab (eq_ix1 j).symm
  rw [e0, e1]

/-- THE REFERENCE IS THE LOSS. -/
theorem ref_eq (i : S_.Idx) : val_main_v50 (F := Ideal) x lab i = Loss x lab := by
  rw [val_main_v50_apply, val_main_v49_apply, val_main_v48_apply, val_main_cst_14_apply, val_main_cst_15_apply, sum_idx1]
  have term : ∀ a : Fin 16384, val_main_v47 (F := Ideal) x lab (ix1 a) = Spec.inv lab (lab (ix1 a)).toNat * logt x lab a := by
    intro a
    rw [val_main_v47_apply, v43_eq lab hl, val_main_v46_apply, val_main_v45_apply, v36_eq x lab hl, val_main_v44_apply,
      val_main_cst_13_apply]
    rfl
  rw [Finset.sum_congr rfl fun a _ => term a]
  show -(Ideal.div (Ideal.ofBits .f32 0x00000000#32 + _) _) = _
  rw [Ideal.ofBits_zero_f32]
  rfl

end Loss

end Cert.Proof.RefValue

end
-- ==== Proof.ValueBridgeCore.lean ====
/-
  The kernel's scalar result is the reference's, given the second TensorCore call's reading.

  The program's result is the 1 x 1 output of the second TensorCore call viewed as a scalar.  Suppose that call, fed
  the subcores' counts and ANY 16 x 1 column ss, returns (0 - sum over rows p of inv(p) * ss(p)) / 16384, with inv the
  normalised inverse class weights.  The column it is fed is the first call's: row p is the sum of the terms of the
  examples labelled p.  The joining law turns the class-grouped sum into the specification's loss, and the reference
  computes that same loss.
-/
import proofs.«218680_g49873160241359_cont_8to1c4_353_26_alg».proof.Proof.KerSsum
import proofs.«218680_g49873160241359_cont_8to1c4_353_26_alg».proof.Proof.KerJoin
import proofs.«218680_g49873160241359_cont_8to1c4_353_26_alg».proof.Proof.RefValue

noncomputable section

open scoped BigOperators

namespace Cert.Proof.Value

open Idealize.ShloMosaic Idealize.ShloMosaic.ValueIdx Cert.Proof.Spec

/-- The kernel's result equals the reference's, from the reading of the second TensorCore call. -/
theorem result_eq_of_comb (x : FVec Ideal Cert.KernelIdeal.S16384x9 .f32) (lab : IVec Cert.KernelIdeal.S16384 32)
    (hx : ∀ i, ∃ r : ℝ, x i = (r : EReal)) (hl : ∀ i, 0 ≤ (lab i).toInt ∧ (lab i).toInt ≤ 8)
    (hcomb : ∀ ss : FVec Ideal Cert.KernelIdeal.S16x1 .f32,
      Cert.KernelIdeal.Stages.combFn (F := Ideal) (Cert.KernelIdeal.Stages.countsFn (F := Ideal) lab) ss
          (ix2 (0 : Fin 1) (0 : Fin 1))
        = Ideal.div (0 - ∑ p : Fin 16, Spec.inv lab p.val * ss (ix2 p (0 : Fin 1))) (Ideal.ofBits .f32 0x46800000#32)) :
    Cert.KernelIdeal.Stages.resultFn (F := Ideal) x lab = Cert.ReferenceIdeal.ReadP.val_main_v50 (F := Ideal) x lab := by
  have hl' : ∀ j, (lab j).toNat ≤ 8 := fun j => (Cert.Proof.RefValue.lab_toNat lab hl j).2
  funext i
  rw [Cert.Proof.RefValue.ref_eq x lab hl i]
  unfold Cert.KernelIdeal.Stages.resultFn
  rw [shapeCast_apply _ _ i (ix2 (0 : Fin 1) (0 : Fin 1)) (by
    have h2 : (Cert.KernelIdeal.S_.rowMajor i).val < Cert.KernelIdeal.S_.numel := (Cert.KernelIdeal.S_.rowMajor i).isLt
    have h1 : Cert.KernelIdeal.S_.numel = 1 := Shape.numel_eq_one (fun a => a.elim0)
    rw [Shape.rowMajor_val_two]
    show 0 * 1 + 0 = _
    omega), hcomb]
  have hs : ∀ p : Fin 16,
      Cert.KernelIdeal.Stages.ssumFn (F := Ideal)
          (transpose Cert.KernelIdeal.S9x16384 [1, 0] x Cert.KernelIdeal.Facts₀.transposes_S16384x9_S9x16384_1_0)
          (shapeCast Cert.KernelIdeal.S1x16384 lab Cert.KernelIdeal.Facts₀.shapeCasts_S16384_S1x16384) (ix2 p (0 : Fin 1))
        = ∑ j : Fin 16384, (if (lab (ix1 j)).toNat = p.val then logt x lab j else 0) := fun p =>
    Cert.Proof.KerValue.ssum_apply x lab hx hl' p 0
  simp only [hs]
  exact Cert.Proof.KerValue.join x lab hl'

end Cert.Proof.Value

end
-- ==== Proof.KerCounts.lean ====
/-
  The vector subcores count the labels.

  Subcore s reads labels 1024 s .. 1024 s + 1023 as 64 groups of 16 lanes; lane l of its count of class c after k
  groups is a sum of k ones and zeros, hence (at the exact values) the NUMBER of groups k' < k whose lane-l label,
  label number 1024 s + 16 k' + l, is c.  Every label number below 16384 is 1024 s + 16 k + l for exactly one
  subcore s < 16, group k < 64 and lane l < 16, so adding the counts over subcores and lanes gives the number of
  all examples labelled c.
-/
import proofs.«218680_g49873160241359_cont_8to1c4_353_26_alg».proof.Proof.Stages
import proofs.«218680_g49873160241359_cont_8to1c4_353_26_alg».proof.Proof.Spec
import Idealize.ShloMosaic.Lib.IdealHost
import Idealize.ShloMosaic.Lib.Affine
import Mathlib.Logic.Equiv.Fin.Basic

noncomputable section

open scoped BigOperators

namespace Cert.Proof.KerValue

open Cert.KernelIdeal Cert.KernelIdeal.Gen Cert.KernelIdeal.Stages Idealize.ShloMosaic Idealize.ShloMosaic.ValueIdx
open Cert.Proof.Spec Cert.Lib.ERealSum

/-- One when label number `n` is the word `c`, else zero. -/
def hit (lab : IVec S16384 32) (c : BitVec 32) (n : ℕ) : ℕ :=
  if lab (ix1 ⟨n % 16384, Nat.mod_lt _ (by decide)⟩) = c then 1 else 0

/-- A lane's running count is the number of matching labels met so far. -/
theorem histLane_eq (lab : IVec S16384 32) (s l : ℕ) (c : BitVec 32) (k : ℕ) :
    histLane (F := Ideal) lab s l c k
      = (((∑ k' ∈ Finset.range k, hit lab c (1024 * s + 16 * k' + l) : ℕ) : ℝ) : EReal) := by
  induction k with
  | zero =>
    show Ideal.ofBits .f32 0x00000000#32 = _
    rw [Ideal.ofBits_zero_f32]; simp
  | succ k ih =>
    show histLane (F := Ideal) lab s l c k
      + Scalar.select (IntOp.cmpi .eq (lab (ix1 ⟨(1024 * s + 16 * k + l) % 16384, Nat.mod_lt _ (by decide)⟩)) c)
          (Ideal.ofBits .f32 0x3F800000#32) (Ideal.ofBits .f32 0x00000000#32) = _
    rw [ih, Finset.sum_range_succ, Ideal.ofBits_one_f32, Ideal.ofBits_zero_f32]
    unfold hit
    by_cases h : lab (ix1 ⟨(1024 * s + 16 * k + l) % 16384, Nat.mod_lt _ (by decide)⟩) = c
    · rw [IntOp.cmpi_eq.2 h, select_one, if_pos h, Nat.cast_add, Nat.cast_one, EReal.coe_add, EReal.coe_one]
    · rw [eq_zero_of_ne_one (fun h' => h (IntOp.cmpi_eq.1 h')), select_zero, if_neg h, Nat.add_zero, add_zero]

/-- A sum over the first `a * b` naturals, as `a` runs of `b`. -/
theorem sum_range_mul' (f : ℕ → ℕ) (a b : ℕ) :
    ∑ n ∈ Finset.range (a * b), f n = ∑ i ∈ Finset.range a, ∑ j ∈ Finset.range b, f (b * i + j) := by
  induction a with
  | zero => simp
  | succ a ih => rw [Nat.succ_mul, Finset.sum_range_add, ih, Finset.sum_range_succ, Nat.mul_comm a b]

/-- Adding the lanes' final counts over subcores and lanes meets every label number once. -/
theorem lanes_total (lab : IVec S16384 32) (c : BitVec 32) :
    ∑ q : Fin 16, ∑ b : Fin 16, ∑ k' ∈ Finset.range 64, hit lab c (1024 * b.val + 16 * k' + q.val)
      = ∑ n ∈ Finset.range 16384, hit lab c n := by
  rw [← Finset.sum_range (fun q => ∑ b : Fin 16, ∑ k' ∈ Finset.range 64, hit lab c (1024 * b.val + 16 * k' + q))]
  have h1 : ∀ q, ∑ b : Fin 16, ∑ k' ∈ Finset.range 64, hit lab c (1024 * b.val + 16 * k' + q)
      = ∑ b ∈ Finset.range 16, ∑ k' ∈ Finset.range 64, hit lab c (1024 * b + 16 * k' + q) := fun q =>
    (Finset.sum_range (fun b => ∑ k' ∈ Finset.range 64, hit lab c (1024 * b + 16 * k' + q))).symm
  rw [Finset.sum_congr rfl fun q _ => h1 q, Finset.sum_comm]
  have h2 : ∀ b, ∑ q ∈ Finset.range 16, ∑ k' ∈ Finset.range 64, hit lab c (1024 * b + 16 * k' + q)
      = ∑ r ∈ Finset.range 1024, hit lab c (1024 * b + r) := fun b => by
    rw [Finset.sum_comm]
    have e := sum_range_mul' (fun r => hit lab c (1024 * b + r)) 64 16
    refine Eq.trans ?_ e.symm
    exact Finset.sum_congr rfl fun k _ => Finset.sum_congr rfl fun q _ => by rw [Nat.add_assoc]
  rw [Finset.sum_congr rfl fun b _ => h2 b]
  exact (sum_range_mul' (hit lab c) 16 1024).symm

/-- The label numbers below 16384 that match, counted. -/
theorem hits_eq_card (lab : IVec S16384 32) (c : BitVec 32) :
    ∑ n ∈ Finset.range 16384, hit lab c n = (Finset.univ.filter fun j : Fin 16384 => lab (ix1 j) = c).card := by
  rw [Finset.sum_range]
  have h : ∀ j : Fin 16384, hit lab c j.val = if lab (ix1 j) = c then 1 else 0 := fun j => by
    unfold hit
    have e : (⟨j.val % 16384, Nat.mod_lt _ (by decide)⟩ : Fin 16384) = j := Fin.ext (Nat.mod_eq_of_lt j.isLt)
    rw [e]
  rw [Finset.sum_congr rfl fun j _ => h j, Finset.sum_boole, Nat.cast_id]

/-- For a class `p < 16`: a label is the word `p` exactly when it is the number `p`. -/
theorem eq_ofNat_iff (w : BitVec 32) (p : ℕ) (hp : p < 16) : w = BitVec.ofNat 32 p ↔ w.toNat = p := by
  constructor
  · intro h; rw [h, BitVec.toNat_ofNat]; exact Nat.mod_eq_of_lt (by omega)
  · intro h; apply BitVec.eq_of_toNat_eq; rw [h, BitVec.toNat_ofNat]; exact (Nat.mod_eq_of_lt (by omega)).symm

/-- THE COUNT OF CLASS `p`: the lanes' final counts of the word `p`, added over subcores and lanes, are the number
    of examples labelled `p`. -/
theorem colCount (lab : IVec S16384 32) (p : ℕ) (hp : p < 16) :
    ∑ q : Fin 16, ∑ b : Fin 16, histLane (F := Ideal) lab b.val q.val (BitVec.ofNat 32 p) 64 = ((cnt lab p : ℝ) : EReal) := by
  have h : ∀ (q b : Fin 16), histLane (F := Ideal) lab b.val q.val (BitVec.ofNat 32 p) 64
      = (((∑ k' ∈ Finset.range 64, hit lab (BitVec.ofNat 32 p) (1024 * b.val + 16 * k' + q.val) : ℕ) : ℝ) : EReal) :=
    fun q b => histLane_eq lab b.val q.val _ 64
  rw [Finset.sum_congr rfl fun q _ => Finset.sum_congr rfl fun b _ => h q b]
  rw [Finset.sum_congr rfl fun q _ => (coe_finset_sum _ _).symm, ← coe_finset_sum]
  refine congrArg (fun r : ℝ => (r : EReal)) ?_
  rw [Finset.sum_congr rfl fun q _ => (Nat.cast_sum _ _).symm, ← Nat.cast_sum]
  refine congrArg (fun n : ℕ => (n : ℝ)) ?_
  rw [lanes_total, hits_eq_card]
  unfold cnt
  refine congrArg Finset.card ?_
  exact Finset.filter_congr fun j _ => eq_ofNat_iff _ p hp

end Cert.Proof.KerValue

end
-- ==== Proof.KerComb.lean ====
/-
  The second TensorCore call at the exact values.

  The call adds the sixteen 16×16 count blocks the vector subcores left, sums each row of the total along its
  sixteen lanes — row p < 10 then holds the number of examples labelled p, because lane q of block b holds subcore
  b's lane-q count and every label number is met by exactly one (subcore, group, lane); rows ten to fifteen hold
  zero — and from that column computes, row by row: the total of the first ten rows; each row over the total (a
  class's weight); one where that is zero; the reciprocal; zero from row ten on; the reciprocals over their sum
  (the normalised inverse class weight, zero from row ten on — zero over the sum is zero because the sum is a
  positive real). It multiplies by the given column, adds up the sixteen products, negates and divides by 16384.

  Three readings of layout moves carry the computation to an index: the lane sums of a 16×16 tile kept as a
  column read, at row p, the sum of that row; a 16×1 column viewed as 1×16×1, summed over its two last axes and
  read at its one element is the sum of the sixteen entries; the row number compared with ten is the bit "p < 10".
  What remains is the arithmetic above, on extended reals, against the specification's definitions.
-/
import proofs.«218680_g49873160241359_cont_8to1c4_353_26_alg».proof.Proof.Stages
import proofs.«218680_g49873160241359_cont_8to1c4_353_26_alg».proof.Proof.Spec
import proofs.«218680_g49873160241359_cont_8to1c4_353_26_alg».proof.Proof.LibKeepdims
import proofs.«218680_g49873160241359_cont_8to1c4_353_26_alg».proof.Proof.KerCounts
import Idealize.ShloMosaic.Lib.IdealHost
import Idealize.ShloMosaic.Lib.Affine
import Idealize.ShloMosaic.Lib.Pipeline.Value

noncomputable section

open scoped BigOperators

namespace Cert.Proof.KerValue

open Cert.KernelIdeal Cert.KernelIdeal.Gen Cert.KernelIdeal.Stages Idealize.ShloMosaic Idealize.ShloMosaic.ValueIdx
open Cert.Proof.Spec Cert.Lib.ERealSum Cert.Lib.Keepdims

namespace Comb

/-- The index set of a `[1, n, 1]` array is its middle coordinate. -/
def idxEquiv1n1 {n : ℕ} : (⟨3, ![1, n, 1]⟩ : Shape).Idx ≃ Fin n where
  toFun i := i 1
  invFun p := ix3 (0 : Fin 1) p (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

theorem sum_idx1n1 {M : Type*} [AddCommMonoid M] {n : ℕ} (f : (⟨3, ![1, n, 1]⟩ : Shape).Idx → M) :
    ∑ i, f i = ∑ p : Fin n, f (ix3 (0 : Fin 1) p (0 : Fin 1)) :=
  (Fintype.sum_equiv idxEquiv1n1.symm _ _ fun _ => rfl).symm

/-- THE TOTAL OF A COLUMN: a `[16, 1]` column viewed as `[1, 16, 1]`, summed over its two last axes, viewed as
    `[1, 1, 1]` and read at its one element, is the sum of the column's sixteen entries. -/
theorem total16 (v : FVec Ideal S16x1 .f32) (h1 : S16x1.ShapeCasts S1x16x1) (h2 : S1x16x1.Reduces [1, 2] S1)
    (hφ : FKind.Formats .f32) (hacc : (0x00000000#32 : BitVec 32) = FKind.add.neutral .f32 hφ) (h3 : S1.ShapeCasts S1x1x1)
    (h4 : ∀ a, (![0, 0, 0] : Fin 3 → ℕ) a < S1x1x1.size a) :
    extractAt ![0, 0, 0]
        (shapeCast S1x1x1 (multiReduction (F := Ideal) .add [1, 2] S1 (shapeCast S1x16x1 v h1) 0x00000000#32 h2 hφ hacc) h3) h4
      = ∑ p : Fin 16, v (ix2 p (0 : Fin 1)) := by
  unfold extractAt
  rw [shapeCast_apply _ h3 _ (ix1 (0 : Fin 1)) (by
    rw [Shape.rowMajor_val_one, Shape.rowMajor_val_three]; rfl),
    Ideal.multiReduction_add_total _ _ h2 (fun b => by obtain rfl : b = 0 := Subsingleton.elim _ _; rfl) hφ hacc,
    sum_idx1n1]
  refine Finset.sum_congr rfl fun p _ => shapeCast_apply v h1 _ (ix2 p (0 : Fin 1)) (by
    rw [Shape.rowMajor_val_two, Shape.rowMajor_val_three]
    show p.val * 1 + 0 = (0 * 16 + p.val) * 1 + 0
    omega)

theorem cmpi_apply {s : Shape} {w : ℕ} (pr : CmpIPredicate) (a b : IVec s w) (i : s.Idx) :
    cmpi pr a b i = IntOp.cmpi pr (a i) (b i) := rfl

/-- A row count at `(p, u)` is the word `p`. -/
theorem iota16x1_apply (p : Fin 16) (u : Fin 1) :
    iota .tc S16x1 32 [0] iota_S16x1_d0_w32 (ix2 p u) = BitVec.ofNat 32 p.val := by
  show BitVec.ofNat 32 (0 * 16 + p.val) = _
  rw [Nat.zero_mul, Nat.zero_add]

/-- The sum along the lanes of a `[16, 16]` tile, kept as a column, read at `(p, u)`. -/
theorem rowSum16 (src : FVec Ideal S16x16 .f32) (h : S16x16.Reduces [1] S16) (hφ : FKind.Formats .f32)
    (hacc : (0x00000000#32 : BitVec 32) = FKind.add.neutral .f32 hφ) (p : Fin 16) :
    multiReduction (F := Ideal) .add [1] S16 src 0x00000000#32 h hφ hacc (ix1 p) = ∑ k : Fin 16, src (ix2 p k) :=
  rowSum_apply src h hφ hacc p

theorem k2_pay3_apply (a0 a1 a2 a3 a4 a5 a6 a7 a8 a9 a10 : Vec Ideal S16x16 .f32) (p q : Fin 16) :
    k2_pay3 (F := Ideal) a0 a1 a2 a3 a4 a5 a6 a7 a8 a9 a10 (ix2 p q)
      = a0 (ix2 p q) + a1 (ix2 p q) + a2 (ix2 p q) + a3 (ix2 p q) + a4 (ix2 p q) + a5 (ix2 p q) + a6 (ix2 p q)
        + a7 (ix2 p q) + a8 (ix2 p q) + a9 (ix2 p q) + a10 (ix2 p q) := by
  unfold k2_pay3
  simp only [shapeCast_self, addf_apply]

/-- Block `b` of the subcores' counts array at row `p`, lane `q`. -/
theorem rowsOf_counts (lab : IVec S16384 32) (b : ℕ) (hb : b < 16) (p q : Fin 16) :
    rowsOf (F := Ideal) (countsFn (F := Ideal) lab) b (ix2 p q)
      = if p.val < 10 then histLane (F := Ideal) lab b q.val (BitVec.ofNat 32 p.val) 64 else 0 := by
  have hp := p.isLt
  have e1 : ((16 * b + p.val) % 256) % 16 = p.val := by omega
  have e2 : ((16 * b + p.val) % 256) / 16 = b := by omega
  unfold rowsOf countsFn
  show (if ((16 * b + p.val) % 256) % 16 < 10 then histLane (F := Ideal) lab (((16 * b + p.val) % 256) / 16) q.val (BitVec.ofNat 32 (((16 * b + p.val) % 256) % 16)) 64 else Ideal.ofBits .f32 0x00000000#32) = _
  rw [e1, e2, Ideal.ofBits_zero_f32]

theorem select_ofBool {α : Type} (P : Prop) [Decidable P] (a b : α) :
    Scalar.select (BitVec.ofBool (decide P)) a b = if P then a else b := by
  by_cases h : P <;> simp [Scalar.select, h]

theorem valid_word : ∀ p : Fin 16, IntOp.cmpi .slt (BitVec.ofNat 32 p.val) 10#32 = BitVec.ofBool (decide (p.val < 10)) := by decide

theorem cmpf_oeq (x y : Ideal .f32) : FloatOps.cmpf (F := Ideal) .oeq x y = BitVec.ofBool (decide (x = y)) := rfl

/-- The lane sums of a 16×16 tile kept as a column, as a function of the index. -/
theorem col_eq (T : FVec Ideal S16x16 .f32) (h : S16x16.Reduces [1] S16) (hφ : FKind.Formats .f32)
    (hacc : (0x00000000#32 : BitVec 32) = FKind.add.neutral .f32 hφ) (h' : S16.ShapeCasts S16x1) :
    shapeCast S16x1 (multiReduction (F := Ideal) .add [1] S16 T 0x00000000#32 h hφ hacc) h'
      = fun j => ∑ k : Fin 16, T (ix2 (show Fin 16 from j 0) k) := by
  funext j
  obtain ⟨p, u, rfl⟩ : ∃ (p : Fin 16) (u : Fin 1), j = ix2 p u := ⟨j 0, j 1, eq_ix2 j⟩
  rw [shapeCast_a_a1_apply, rowSum16]

/-- The rows below ten, as a function of the index. -/
theorem valid_eq : cmpi .slt (iota .tc S16x1 32 [0] iota_S16x1_d0_w32) (broadcast S16x1 10#32)
    = fun j => BitVec.ofBool (decide ((show Fin 16 from j 0).val < 10)) := by
  funext j
  obtain ⟨p, u, rfl⟩ : ∃ (p : Fin 16) (u : Fin 1), j = ix2 p u := ⟨j 0, j 1, eq_ix2 j⟩
  rw [cmpi_apply, iota16x1_apply, broadcast_apply]
  exact valid_word p

set_option backward.isDefEq.respectTransparency.types false in
theorem k2_pay1_apply (v76 : FVec Ideal S16x1 .f32) :
    k2_pay1 (F := Ideal) v76 (ix2 (0 : Fin 1) (0 : Fin 1))
      = Ideal.div (0 - ∑ p : Fin 16, v76 (ix2 p (0 : Fin 1))) (Ideal.ofBits .f32 0x46800000#32) := by
  unfold k2_pay1
  simp only [broadcast_apply]
  rw [total16]
  show Ideal.div (Ideal.ofBits .f32 0x00000000#32 - ∑ p : Fin 16, v76 (ix2 p (0 : Fin 1))) (Ideal.ofBits .f32 0x46800000#32) = _
  rw [Ideal.ofBits_zero_f32]

/-- The second call's column computation, index by index: from the summed counts tile `t` and the column `v1`. -/
def comb4 (v1 : FVec Ideal S16x1 .f32) (t : FVec Ideal S16x16 .f32) (p : Fin 16) : EReal :=
  let col : Fin 16 → EReal := fun p' => ∑ k : Fin 16, t (ix2 p' k)
  let tot : EReal := ∑ p' : Fin 16, if p'.val < 10 then col p' else 0
  let w : Fin 16 → EReal := fun p' => Ideal.div (col p') tot
  let r : Fin 16 → EReal := fun p' => Ideal.div 1 (if w p' = 0 then 1 else w p')
  let rv : Fin 16 → EReal := fun p' => if p'.val < 10 then r p' else 0
  Ideal.div (rv p) (∑ p' : Fin 16, rv p') * v1 (ix2 p (0 : Fin 1))

set_option backward.isDefEq.respectTransparency.types false in
theorem k2_pay4_apply (v1 : FVec Ideal S16x1 .f32) (v33 : FVec Ideal S16x16 .f32) (a11 a12 a13 a14 a15 : Vec Ideal S16x16 .f32) (p : Fin 16) :
    k2_pay4 (F := Ideal) v1 v33 a11 a12 a13 a14 a15 (ix2 p (0 : Fin 1))
      = comb4 v1 (fun j => v33 j + a11 j + a12 j + a13 j + a14 j + a15 j) p := by
  unfold k2_pay4
  dsimp only
  rw [col_eq, valid_eq]
  simp only [shapeCast_self, mulf_apply, divf_apply, select_apply, broadcast_apply, cmpf_apply]
  repeat rw [total16]
  simp only [select_apply, divf_apply, broadcast_apply, cmpf_apply, addf_apply, select_ofBool, cmpf_oeq, Ideal.ofBits_def, Ideal.ofBits_zero_f32, Ideal.ofBits_one_f32]
  rfl

/-- A sum over sixteen rows of a family that vanishes from row ten on is the sum over the first ten. -/
theorem sum16_dlt10 (f : Fin 10 → EReal) :
    ∑ p : Fin 16, (if h : p.val < 10 then f ⟨p.val, h⟩ else 0) = ∑ c : Fin 10, f c := by
  let g : ℕ → EReal := fun n => if h : n < 10 then f ⟨n, h⟩ else 0
  have h1 : ∑ p : Fin 16, (if h : p.val < 10 then f ⟨p.val, h⟩ else 0) = ∑ n ∈ Finset.range 16, g n :=
    (Finset.sum_range g).symm
  have h2 : ∑ c : Fin 10, f c = ∑ n ∈ Finset.range 10, g n := by
    rw [Finset.sum_range g]
    refine Finset.sum_congr rfl fun c _ => ?_
    show f c = (if h : c.val < 10 then f ⟨c.val, h⟩ else 0)
    rw [dif_pos c.isLt]
  rw [h1, h2, show (16 : ℕ) = 10 + 6 from rfl, Finset.sum_range_add]
  rw [Finset.sum_eq_zero (s := Finset.range 6) (fun x _ => dif_neg (by omega)), add_zero]

/-- The sum of the normalising reciprocals is a positive real, so not zero. -/
theorem sum_inv0E_ne_zero (lab : IVec S16384 32) (hl : ∀ j, (lab j).toNat ≤ 8) : ∑ c : Fin 10, inv0E (cntE lab) c ≠ 0 := by
  rw [Finset.sum_congr rfl fun c _ => inv0E_eq lab hl c, ← coe_finset_sum]
  exact EReal.coe_ne_zero.mpr (sum_inv0R_pos lab).ne'

/-- THE COLUMN COMPUTATION ON THE COUNTS: when row `p'` of the summed tile adds up to class `p'`'s count (zero from
    row ten on), the column is the normalised inverse class weight times the given column. -/
theorem comb4_eq (lab : IVec S16384 32) (hl : ∀ j, (lab j).toNat ≤ 8) (v1 : FVec Ideal S16x1 .f32) (t : FVec Ideal S16x16 .f32)
    (ht : ∀ p' : Fin 16, ∑ k : Fin 16, t (ix2 p' k) = if p'.val < 10 then ((cnt lab p'.val : ℝ) : EReal) else 0) (p : Fin 16) :
    comb4 v1 t p = Spec.inv lab p.val * v1 (ix2 p (0 : Fin 1)) := by
  have htot : (∑ p' : Fin 16, if p'.val < 10 then (if p'.val < 10 then ((cnt lab p'.val : ℝ) : EReal) else 0) else 0)
      = 0 + ∑ c' : Fin 10, cntE lab c' := by
    rw [zero_add, ← sum16_dlt10 (cntE lab)]
    refine Finset.sum_congr rfl fun p' _ => ?_
    by_cases h : p'.val < 10
    · rw [if_pos h, if_pos h, dif_pos h]; rfl
    · rw [if_neg h, dif_neg h]
  have hrv : ∀ p' : Fin 16,
      (if p'.val < 10 then Ideal.div 1
          (if Ideal.div (if p'.val < 10 then ((cnt lab p'.val : ℝ) : EReal) else 0) (0 + ∑ c' : Fin 10, cntE lab c') = 0 then 1
            else Ideal.div (if p'.val < 10 then ((cnt lab p'.val : ℝ) : EReal) else 0) (0 + ∑ c' : Fin 10, cntE lab c'))
        else 0)
        = (if h : p'.val < 10 then inv0E (cntE lab) ⟨p'.val, h⟩ else 0) := by
    intro p'
    by_cases h : p'.val < 10
    · rw [if_pos h, dif_pos h]; simp only [if_pos h]; rfl
    · rw [if_neg h, dif_neg h]
  unfold comb4
  simp only [ht, htot, hrv]
  rw [sum16_dlt10 (inv0E (cntE lab))]
  congr 1
  unfold Spec.inv
  by_cases h : p.val < 10
  · rw [dif_pos h, dif_pos h]; unfold invE; rw [zero_add]
  · rw [dif_neg h, dif_neg h]; exact Ideal.zero_div (sum_inv0E_ne_zero lab hl)

/-- Row `p'` of the sixteen count blocks added together sums, along its lanes, to class `p'`'s count. -/
theorem blocks_col (lab : IVec S16384 32) (p' : Fin 16) :
    ∑ k : Fin 16, (k2_pay3 (F := Ideal) (rowsOf (countsFn (F := Ideal) lab) 0) (rowsOf (countsFn (F := Ideal) lab) 1) (rowsOf (countsFn (F := Ideal) lab) 2)
        (rowsOf (countsFn (F := Ideal) lab) 3) (rowsOf (countsFn (F := Ideal) lab) 4) (rowsOf (countsFn (F := Ideal) lab) 5) (rowsOf (countsFn (F := Ideal) lab) 6)
        (rowsOf (countsFn (F := Ideal) lab) 7) (rowsOf (countsFn (F := Ideal) lab) 8) (rowsOf (countsFn (F := Ideal) lab) 9) (rowsOf (countsFn (F := Ideal) lab) 10) (ix2 p' k)
        + rowsOf (countsFn (F := Ideal) lab) 11 (ix2 p' k) + rowsOf (countsFn (F := Ideal) lab) 12 (ix2 p' k) + rowsOf (countsFn (F := Ideal) lab) 13 (ix2 p' k)
        + rowsOf (countsFn (F := Ideal) lab) 14 (ix2 p' k) + rowsOf (countsFn (F := Ideal) lab) 15 (ix2 p' k))
      = if p'.val < 10 then ((cnt lab p'.val : ℝ) : EReal) else 0 := by
  have hT : ∀ k : Fin 16, (k2_pay3 (F := Ideal) (rowsOf (countsFn (F := Ideal) lab) 0) (rowsOf (countsFn (F := Ideal) lab) 1) (rowsOf (countsFn (F := Ideal) lab) 2)
        (rowsOf (countsFn (F := Ideal) lab) 3) (rowsOf (countsFn (F := Ideal) lab) 4) (rowsOf (countsFn (F := Ideal) lab) 5) (rowsOf (countsFn (F := Ideal) lab) 6)
        (rowsOf (countsFn (F := Ideal) lab) 7) (rowsOf (countsFn (F := Ideal) lab) 8) (rowsOf (countsFn (F := Ideal) lab) 9) (rowsOf (countsFn (F := Ideal) lab) 10) (ix2 p' k)
        + rowsOf (countsFn (F := Ideal) lab) 11 (ix2 p' k) + rowsOf (countsFn (F := Ideal) lab) 12 (ix2 p' k) + rowsOf (countsFn (F := Ideal) lab) 13 (ix2 p' k)
        + rowsOf (countsFn (F := Ideal) lab) 14 (ix2 p' k) + rowsOf (countsFn (F := Ideal) lab) 15 (ix2 p' k))
      = ∑ b ∈ Finset.range 16, (if p'.val < 10 then histLane (F := Ideal) lab b k.val (BitVec.ofNat 32 p'.val) 64 else 0) := by
    intro k
    rw [k2_pay3_apply]
    rw [← Finset.sum_congr rfl fun b hb => rowsOf_counts lab b (Finset.mem_range.mp hb) p' k]
    simp only [Finset.sum_range_succ, Finset.sum_range_zero, zero_add]
  rw [Finset.sum_congr rfl fun k _ => hT k]
  by_cases h : p'.val < 10
  · simp only [if_pos h]
    rw [← colCount lab p'.val (by omega)]
    exact Finset.sum_congr rfl fun q _ => Finset.sum_range (fun b => histLane (F := Ideal) lab b q.val (BitVec.ofNat 32 p'.val) 64)
  · simp only [if_neg h, Finset.sum_const_zero]

end Comb

open Comb in
/-- The second TensorCore call at the exact values: from the subcores' counts array and any 16×1 column `ss`, the
    result is (0 − the sum over the sixteen rows p of inv(p) · ss(p)) / 16384, where inv is the normalised inverse
    class weight (zero from row ten on). -/
theorem comb_apply (lab : IVec S16384 32) (hl : ∀ j, (lab j).toNat ≤ 8) (ss : FVec Ideal S16x1 .f32) :
    combFn (F := Ideal) (countsFn (F := Ideal) lab) ss (ix2 (0 : Fin 1) (0 : Fin 1))
      = Ideal.div (0 - ∑ p : Fin 16, Spec.inv lab p.val * ss (ix2 p (0 : Fin 1))) (Ideal.ofBits .f32 0x46800000#32) := by
  unfold combFn
  rw [k2_pay1_apply]
  refine congrArg (fun s : EReal => Ideal.div (0 - s) (Ideal.ofBits .f32 0x46800000#32)) ?_
  refine Finset.sum_congr rfl fun p _ => ?_
  rw [k2_pay4_apply, comb4_eq lab hl _ _ (blocks_col lab) p]
  refine congrArg (fun s : EReal => Spec.inv lab p.val * s) ?_
  exact congrFun (shapeCast_self _ _) _

end Cert.Proof.KerValue

end
-- ==== Proof.ValueBridge.lean ====
/-
  The kernel's result and the reference's are the same extended real.

  The second TensorCore call, fed the subcores' counts and any column, returns zero minus the column weighted by the
  normalised inverse class weights, over 16384; the column it is fed holds, per class, the sum of the terms of that
  class's examples; regrouping by examples gives the specification's loss, which is also what the reference computes.
  Needed of the inputs: the logits are real numbers (so the logistic values are real and the masked sum is the
  difference of cumulative columns), and the labels lie in 0..8 (so the counts add up to 16384, the inverse weights
  are non-negative reals, and no index is wrapped, clamped or dropped).
-/
import proofs.«218680_g49873160241359_cont_8to1c4_353_26_alg».proof.Proof.ValueBridgeCore
import proofs.«218680_g49873160241359_cont_8to1c4_353_26_alg».proof.Proof.KerComb

noncomputable section

namespace Cert.Proof.Value

open Idealize.ShloMosaic

/-- THE VALUE: under the precondition's two facts the kernel's scalar result equals the reference's. -/
theorem result_eq (x : FVec Ideal Cert.KernelIdeal.S16384x9 .f32) (lab : IVec Cert.KernelIdeal.S16384 32)
    (hx : ∀ i, ∃ r : ℝ, x i = (r : EReal)) (hl : ∀ i, 0 ≤ (lab i).toInt ∧ (lab i).toInt ≤ 8) :
    Cert.KernelIdeal.Stages.resultFn (F := Ideal) x lab = Cert.ReferenceIdeal.ReadP.val_main_v50 (F := Ideal) x lab :=
  result_eq_of_comb x lab hx hl fun ss =>
    Cert.Proof.KerValue.comb_apply lab (fun j => (Cert.Proof.RefValue.lab_toNat lab hl j).2) ss

end Cert.Proof.Value

end
-- ==== Proof.PreDecode.lean ====
/-
  What the precondition says of the two arguments.

  The precondition is a printed predicate: "every |logit| is below +infinity, and every label is at least 0 and at
  most 8", each "for all" a reduction by `and` from the constant one, and the claim supposes its value is one.
  Read back: a conjunction that is one has both conjuncts one; a reduction by `and` into a single result that is
  one met a one at every element; an extended real whose absolute value max(x, -x) lies strictly below the top
  element is neither infinity, hence a real number; and a signed comparison that is one is the order of the
  integers the words denote.
-/
import proofs.«218680_g49873160241359_cont_8to1c4_353_26_alg».proof.Defs
import Idealize.ShloMosaic.Lib.ReduceAll
import Idealize.ShloMosaic.Lib.ValueIdx
import Idealize.ShloMosaic.Lib.Pipeline.Value

noncomputable section

namespace Cert.Proof.Value

open Idealize.ShloMosaic Idealize.ShloMosaic.ValueIdx Idealize.SL.Sem

instance subsingleton_scalarIdx : Subsingleton Cert.Pre_input_domain.S_.Idx := ⟨fun _ _ => funext fun d => d.elim0⟩

/-- The printed predicate, when it is one: every logit is a real number and every label lies in 0..8. -/
theorem fn_decode [Cert.Pre_input_domain.Facts] (x : FVec Ideal Cert.Pre_input_domain.S16384x9 .f32)
    (lab : IVec Cert.Pre_input_domain.S16384 32)
    (h : Cert.Pre_input_domain.fn (F := Ideal) x lab = fun _ => 1#1) :
    (∀ i, ∃ r : ℝ, x i = (r : EReal)) ∧ (∀ i, 0 ≤ (lab i).toInt ∧ (lab i).toInt ≤ 8) := by
  have h0 := congrFun h ix0
  dsimp only [Cert.Pre_input_domain.fn] at h0
  obtain ⟨h1, h2⟩ := IntOp.andi_eq_one.1 h0
  constructor
  · intro i
    have e := Host.reduce_andi_all _ _ _ _ _ h1 i
    have hb : (broadcastInDim Cert.Pre_input_domain.S16384x9 ![] Cert.Pre_input_domain.Facts.bcast_S_S16384x9
        (constant (F := Ideal) Cert.Pre_input_domain.S_ .f32 0x7F800000#32)) i = (⊤ : EReal) := by
      rw [broadcastInDim_apply _ _ _ i (fun a => a.elim0) (fun a => a.elim0)]
      show Ideal.ofBits .f32 0x7F800000#32 = ⊤
      simp [Ideal.ofBits, Ideal.ieee]
    have e' : Ideal.cmp .olt (max (x i) (-(x i))) (⊤ : EReal) = 1#1 := by rw [← hb]; exact e
    have hlt : max (x i) (-(x i)) < (⊤ : EReal) := by
      have e2 : BitVec.ofBool (decide (max (x i) (-(x i)) < (⊤ : EReal))) = 1#1 := e'
      by_contra hn
      rw [decide_eq_false hn] at e2
      exact absurd e2 (by decide)
    obtain ⟨y, hy⟩ : ∃ y, x i = y := ⟨_, rfl⟩
    rw [hy] at hlt ⊢
    induction y using EReal.rec with
    | bot => simp at hlt
    | top => simp at hlt
    | coe r => exact ⟨r, rfl⟩
  · intro i
    have e := Host.reduce_andi_all _ _ _ _ _ h2 i
    have hb0 : (broadcastInDim Cert.Pre_input_domain.S16384 ![] Cert.Pre_input_domain.Facts.bcast_S_S16384
        (constantI Cert.Pre_input_domain.S_ 32 0#32)) i = 0#32 := by
      rw [broadcastInDim_apply _ _ _ i (fun a => a.elim0) (fun a => a.elim0)]; rfl
    have hb8 : (broadcastInDim Cert.Pre_input_domain.S16384 ![] Cert.Pre_input_domain.Facts.bcast_S_S16384
        (constantI Cert.Pre_input_domain.S_ 32 8#32)) i = 8#32 := by
      rw [broadcastInDim_apply _ _ _ i (fun a => a.elim0) (fun a => a.elim0)]; rfl
    have e' : IntOp.andi (IntOp.cmpi .sge (lab i) 0#32) (IntOp.cmpi .sle (lab i) 8#32) = 1#1 := by
      rw [← hb0, ← hb8]; exact e
    obtain ⟨e1, e2⟩ := IntOp.andi_eq_one.1 e'
    have g1 := IntOp.cmpi_sge.1 e1
    have g2 := IntOp.cmpi_sle.1 e2
    have z0 : (0#32 : BitVec 32).toInt = 0 := by decide
    have z8 : (8#32 : BitVec 32).toInt = 8 := by decide
    rw [z0] at g1; rw [z8] at g2
    exact ⟨g1, g2⟩

/-- Under the idealized kernel's precondition, on every device, argument 0 holds real numbers and argument 1 labels
    in 0..8. -/
theorem pre_decode [Cert.Pre_input_domain.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, (m ((c.tc : Thread Cert.KernelIdeal.nD Cert.KernelIdeal.τ).loc Cert.KernelIdeal.main_arg0)
        : FVec Ideal Cert.Pre_input_domain.S16384x9 .f32) i = (r : EReal))
    ∧ (∀ i, 0 ≤ ((m ((c.tc : Thread Cert.KernelIdeal.nD Cert.KernelIdeal.τ).loc Cert.KernelIdeal.main_arg1)
        : IVec Cert.Pre_input_domain.S16384 32) i).toInt
      ∧ ((m ((c.tc : Thread Cert.KernelIdeal.nD Cert.KernelIdeal.τ).loc Cert.KernelIdeal.main_arg1)
        : IVec Cert.Pre_input_domain.S16384 32) i).toInt ≤ 8) :=
  fn_decode _ _ (hpre c)

end Cert.Proof.Value

end
-- ==== Proof.lean ====
/-
  The certificate's five claims.

  The kernel's program is three stages: sixteen vector subcores count the labels (per class and lane, in group order),
  a TensorCore call accumulates over two column blocks the table (class = label) · log(probability of the label + ε)
  and sums its lanes, and a second TensorCore call turns the counts into the classes' inverse weights and the weighted
  sums into the loss. Its run (the SparseCore launch theorem over the tiles' task, the operands' split, @main's account
  with the two TensorCore regions entered inside it, and the launch element) ends with the scalar result at an explicit
  function of the two argument arrays and the arguments unchanged — for any float instance, so for the word-level
  program and for the idealized one alike; each frame is that run with the value dropped.
  The reference's run ends at its operations' composed term. At the ideal instance the two are equal under the
  precondition (finite logits, labels in 0…8): both are −(1/16384)·Σ_j w(label j)·log(p_j + ε) over the extended reals,
  the kernel grouping the sum by class — multiplication by a non-negative real distributes over every extended-real
  sum — with the classes' counts summing to 16384.
-/
import proofs.«218680_g49873160241359_cont_8to1c4_353_26_alg».proof.Defs
import proofs.«218680_g49873160241359_cont_8to1c4_353_26_alg».proof.Proof.Gen.Kernel
import proofs.«218680_g49873160241359_cont_8to1c4_353_26_alg».proof.Proof.Gen.KernelIdeal
import proofs.«218680_g49873160241359_cont_8to1c4_353_26_alg».proof.Proof.Gen.ReferenceIdeal
import proofs.«218680_g49873160241359_cont_8to1c4_353_26_alg».proof.Proof.Gen.Pre_input_domain
import proofs.«218680_g49873160241359_cont_8to1c4_353_26_alg».proof.Proof.LaunchFinal
import proofs.«218680_g49873160241359_cont_8to1c4_353_26_alg».proof.Proof.Bits.LaunchFinal
import proofs.«218680_g49873160241359_cont_8to1c4_353_26_alg».proof.Proof.ValueBridge
import proofs.«218680_g49873160241359_cont_8to1c4_353_26_alg».proof.Proof.PreDecode
import proofs.«218680_g49873160241359_cont_8to1c4_353_26_alg».proof.Proof.RefReadP
import Idealize.ShloMosaic.Adequacy
import Idealize.ShloMosaic.Init

noncomputable section

namespace Cert.Proof

open Idealize.ShloMosaic Idealize.SL.Sem

/-- The word-level kernel runs, its arguments unchanged: its run with the value dropped. -/
theorem frame_k : Cert.frame_Kernel := fun m ρ _ =>
  (θ_run (Cert.Kernel.defs (F := Bits)) _ _).mono (fun _ h c => ⟨(h c).2.1, (h c).2.2⟩) (Cert.Kernel.Sc.run (F := Bits) m ρ)

/-- The idealized kernel runs, its arguments unchanged: its run with the value dropped. -/
theorem frame_ki : Cert.frame_KernelIdeal := fun m ρ _ =>
  (θ_run (Cert.KernelIdeal.defs (F := Ideal)) _ _).mono (fun _ h c => ⟨(h c).2.1, (h c).2.2⟩) (Cert.KernelIdeal.Sc.run (F := Ideal) m ρ)

/-- The reference runs, its arguments unchanged: its run with the value dropped. -/
theorem frame_ri : Cert.frame_ReferenceIdeal := fun m ρ _ =>
  (θ_run Cert.ReferenceIdeal.defs _ _).mono (fun _ h c => (h c).2) (Cert.ReferenceIdeal.ValueP.run (F := Ideal) m ρ)

/-- At the ideal instance both programs end at one scalar: the kernel's run names its result as the stages' function
    of the arguments, the reference's as its operations' term, and the two are equal where the logits are finite and
    the labels lie in 0…8. -/
theorem algebraic : Cert.algebraic_KernelIdeal_ReferenceIdeal := by
  intro m ρ m' ρ' hpre hagree
  refine ⟨fun c => Cert.KernelIdeal.Stages.resultFn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Sc.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v50_eq, (hagree c).1, (hagree c).2]
  obtain ⟨hx, hl⟩ := Cert.Proof.Value.pre_decode m hpre c
  exact (Cert.Proof.Value.result_eq _ _ hx hl).symm

/-- The five claims, under the programs' and the precondition's stated facts (each proved in its generated module);
    the idealization rewrote nothing, so what it preserves is trivially so. -/
theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
